-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v229)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v229) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x32 : Shape := ⟨2, ![500000, 32]⟩
abbrev S200000x16 : Shape := ⟨2, ![200000, 16]⟩
abbrev S500000 : Shape := ⟨1, ![500000]⟩
abbrev S2000000 : Shape := ⟨1, ![2000000]⟩
abbrev S32x64 : Shape := ⟨2, ![32, 64]⟩
abbrev S64 : Shape := ⟨1, ![64]⟩
abbrev S16x64 : Shape := ⟨2, ![16, 64]⟩
abbrev S3x3x64x64 : Shape := ⟨4, ![3, 3, 64, 64]⟩
abbrev S3x3x64 : Shape := ⟨3, ![3, 3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S200000x16 : S_.BroadcastsInDim S200000x16 (![] : Fin 0 → Fin S200000x16.rank)
  reducesTo_S200000x16_S_d0_1 : S200000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S3x3x64 : S_.BroadcastsInDim S3x3x64 (![] : Fin 0 → Fin S3x3x64.rank)
  reducesTo_S3x3x64_S_d0_1_2 : S3x3x64.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg17 : FVec F S32x1 .f32) (main_arg18 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg17
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg18
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg13 : FVec F S3x3x64 .f32) (main_arg14 : FVec F S3x3x64x64 .f32) (main_arg15 : FVec F S64x32 .f32) (main_arg16 : FVec F S32 .f32) (main_arg17 : FVec F S32x1 .f32) (main_arg18 : FVec F S1 .f32) (main_v33 : IVec S_ 1) : IVec S_ 1 :=
  let main_v34 : FVec F S3x3x64 .f32 := Host.absf main_arg13
  let main_cst_12 : FVec F S_ .f32 := constant S_ .f32 0x7F800000#32
  let main_v35 : FVec F S3x3x64 .f32 := broadcastInDim S3x3x64 ![] bcast_S_S3x3x64 main_cst_12
  let main_v36 : IVec S3x3x64 1 := cmpf .olt main_v34 main_v35
  let main_c_13 : IVec S_ 1 := constantI S_ 1 1#1
  let main_v37 : IVec S_ 1 := (fun x v => Host.reduce IntOp.andi x v reducesTo_S3x3x64_S_d0_1_2 h_S_) main_v36 main_c_13
  let main_v38 : IVec S_ 1 := andi main_v33 main_v37
  let main_v39 : FVec F S3x3x64x64 .f32 := Host.absf main_arg14
  let main_cst_14 : FVec F S_ .f32 := constant S_ .f32 0x7F800000#32
  let main_v40 : FVec F S3x3x64x64 .f32 := broadcastInDim S3x3x64x64 ![] bcast_S_S3x3x64x64 main_cst_14
  let main_v41 : IVec S3x3x64x64 1 := cmpf .olt main_v39 main_v40
  let main_c_15 : IVec S_ 1 := constantI S_ 1 1#1
  let main_v42 : IVec S_ 1 := (fun x v => Host.reduce IntOp.andi x v reducesTo_S3x3x64x64_S_d0_1_2_3 h_S_) main_v41 main_c_15
  let main_v43 : IVec S_ 1 := andi main_v38 main_v42
  let main_v44 : FVec F S64x32 .f32 := Host.absf main_arg15
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg16
  let main_cst_18 : FVec F S_ .f32 := constant S_ .f32 0x7F800000#32
  let main_v50 : FVec F S32 .f32 := broadcastInDim S32 ![] bcast_S_S32 main_cst_18
  fn_part3 (F := F) main_arg17 main_arg18 main_v48 main_v49 main_v50

def fn_part1 {F : FTy → Type} [FloatOps F] (main_arg10 : FVec F S16x64 .f32) (main_arg11 : FVec F S64 .f32) (main_arg12 : FVec F S3x3x64x64 .f32) (main_arg13 : FVec F S3x3x64 .f32) (main_arg14 : FVec F S3x3x64x64 .f32) (main_arg15 : FVec F S64x32 .f32) (main_arg16 : FVec F S32 .f32) (main_arg17 : FVec F S32x1 .f32) (main_arg18 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg10
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x3x64x64 .f32 := Host.absf main_arg12
  let main_cst_10 : FVec F S_ .f32 := constant S_ .f32 0x7F800000#32
  let main_v30 : FVec F S3x3x64x64 .f32 := broadcastInDim S3x3x64x64 ![] bcast_S_S3x3x64x64 main_cst_10
  let main_v31 : IVec S3x3x64x64 1 := cmpf .olt main_v29 main_v30
  let main_c_11 : IVec S_ 1 := constantI S_ 1 1#1
  let main_v32 : IVec S_ 1 := (fun x v => Host.reduce IntOp.andi x v reducesTo_S3x3x64x64_S_d0_1_2_3 h_S_) main_v31 main_c_11
  let main_v33 : IVec S_ 1 := andi main_v28 main_v32
  fn_part2 (F := F) main_arg13 main_arg14 main_arg15 main_arg16 main_arg17 main_arg18 main_v33

def fn {F : FTy → Type} [FloatOps F] (main_arg0 : FVec F S500000x32 .f32) (main_arg1 : FVec F S200000x16 .f32) (main_arg2 : IVec S500000 32) (main_arg3 : IVec S500000 32) (main_arg4 : IVec S500000 32) (main_arg5 : IVec S500000 32) (main_arg6 : IVec S2000000 32) (main_arg7 : IVec S2000000 32) (main_arg8 : FVec F S32x64 .f32) (main_arg9 : FVec F S64 .f32) (main_arg10 : FVec F S16x64 .f32) (main_arg11 : FVec F S64 .f32) (main_arg12 : FVec F S3x3x64x64 .f32) (main_arg13 : FVec F S3x3x64 .f32) (main_arg14 : FVec F S3x3x64x64 .f32) (main_arg15 : FVec F S64x32 .f32) (main_arg16 : FVec F S32 .f32) (main_arg17 : FVec F S32x1 .f32) (main_arg18 : FVec F S1 .f32) : IVec S_ 1 :=
  let main_v0 : FVec F S500000x32 .f32 := Host.absf main_arg0
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S200000x16 .f32 := Host.absf main_arg1
  let main_cst_0 : FVec F S_ .f32 := constant S_ .f32 0x7F800000#32
  let main_v5 : FVec F S200000x16 .f32 := broadcastInDim S200000x16 ![] bcast_S_S200000x16 main_cst_0
  let main_v6 : IVec S200000x16 1 := cmpf .olt main_v4 main_v5
  let main_c_1 : IVec S_ 1 := constantI S_ 1 1#1
  let main_v7 : IVec S_ 1 := (fun x v => Host.reduce IntOp.andi x v reducesTo_S200000x16_S_d0_1 h_S_) main_v6 main_c_1
  let main_v8 : IVec S_ 1 := andi main_v3 main_v7
  let main_v9 : FVec F S32x64 .f32 := Host.absf main_arg8
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg9
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg10 main_arg11 main_arg12 main_arg13 main_arg14 main_arg15 main_arg16 main_arg17 main_arg18 main_v13 main_v16
-- ==== Kernel.lean ====
abbrev S500000x32 : Shape := ⟨2, ![500000, 32]⟩
abbrev S200000x16 : Shape := ⟨2, ![200000, 16]⟩
abbrev S500000 : Shape := ⟨1, ![500000]⟩
abbrev S2000000 : Shape := ⟨1, ![2000000]⟩
abbrev S32x64 : Shape := ⟨2, ![32, 64]⟩
abbrev S64 : Shape := ⟨1, ![64]⟩
abbrev S16x64 : Shape := ⟨2, ![16, 64]⟩
abbrev S3x3x64x64 : Shape := ⟨4, ![3, 3, 64, 64]⟩
abbrev S3x3x64 : Shape := ⟨3, ![3, 3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S500000x64 : Shape := ⟨2, ![500000, 64]⟩
abbrev S10000x32 : Shape := ⟨2, ![10000, 32]⟩
abbrev S10000x64 : Shape := ⟨2, ![10000, 64]⟩
abbrev S200000x64 : Shape := ⟨2, ![200000, 64]⟩
abbrev S10000x16 : Shape := ⟨2, ![10000, 16]⟩
abbrev S_ : Shape := ⟨0, ![]⟩
abbrev S200000 : Shape := ⟨1, ![200000]⟩
abbrev S500000x1 : Shape := ⟨2, ![500000, 1]⟩
abbrev S200000x1 : Shape := ⟨2, ![200000, 1]⟩
abbrev S2000000x1 : Shape := ⟨2, ![2000000, 1]⟩
abbrev S1x1x64x64 : Shape := ⟨4, ![1, 1, 64, 64]⟩
abbrev S64x64 : Shape := ⟨2, ![64, 64]⟩
abbrev S1x1x64 : Shape := ⟨3, ![1, 1, 64]⟩
abbrev S5000x64 : Shape := ⟨2, ![5000, 64]⟩
abbrev S5000x1 : Shape := ⟨2, ![5000, 1]⟩
abbrev S2000000x64 : Shape := ⟨2, ![2000000, 64]⟩
abbrev S1x32 : Shape := ⟨2, ![1, 32]⟩
abbrev S1x1 : Shape := ⟨2, ![1, 1]⟩
abbrev S10000x1 : Shape := ⟨2, ![10000, 1]⟩

abbrev nBuf : Space → Nat
  | .hbm => 300
  | .vmem => 101
  | .smem => 0
  | _ => 0

abbrev hbmTy0_0 (i : Nat) : BufTy := match i % 128 with
  | 0 => ⟨S500000x32, .f32⟩
  | 1 => ⟨S200000x16, .f32⟩
  | 2 => ⟨S500000, .i32⟩
  | 3 => ⟨S500000, .i32⟩
  | 4 => ⟨S500000, .i32⟩
  | 5 => ⟨S500000, .i32⟩
  | 6 => ⟨S2000000, .i32⟩
  | 7 => ⟨S2000000, .i32⟩
  | 8 => ⟨S32x64, .f32⟩
  | 9 => ⟨S64, .f32⟩
  | 10 => ⟨S16x64, .f32⟩
  | 11 => ⟨S64, .f32⟩
  | 12 => ⟨S3x3x64x64, .f32⟩
  | 13 => ⟨S3x3x64, .f32⟩
  | 14 => ⟨S3x3x64x64, .f32⟩
  | 15 => ⟨S64x32, .f32⟩
  | 16 => ⟨S32, .f32⟩
  | 17 => ⟨S32x1, .f32⟩
  | 18 => ⟨S1, .f32⟩
  | 19 => ⟨S1x64, .f32⟩
  | 20 => ⟨S500000x64, .bf16⟩
  | 21 => ⟨S1x64, .f32⟩
  | 22 => ⟨S200000x64, .bf16⟩
  | 23 => ⟨S_, .f32⟩
  | 24 => ⟨S500000, .f32⟩
  | 25 => ⟨S_, .f32⟩
  | 26 => ⟨S200000, .f32⟩
  | 27 => ⟨S500000x1, .i32⟩
  | 28 => ⟨S200000, .f32⟩
  | 29 => ⟨S_, .f32⟩
  | 30 => ⟨S200000, .f32⟩
  | 31 => ⟨S200000, .f32⟩
  | 32 => ⟨S_, .f32⟩
  | 33 => ⟨S200000, .f32⟩
  | 34 => ⟨S200000, .f32⟩
  | 35 => ⟨S200000x1, .f32⟩
  | 36 => ⟨S_, .f32⟩
  | 37 => ⟨S500000, .f32⟩
  | 38 => ⟨S_, .f32⟩
  | 39 => ⟨S500000, .f32⟩
  | 40 => ⟨S500000x1, .i32⟩
  | 41 => ⟨S500000, .f32⟩
  | 42 => ⟨S_, .f32⟩
  | 43 => ⟨S500000, .f32⟩
  | 44 => ⟨S500000, .f32⟩
  | 45 => ⟨S_, .f32⟩
  | 46 => ⟨S500000, .f32⟩
  | 47 => ⟨S500000, .f32⟩
  | 48 => ⟨S500000x1, .f32⟩
  | 49 => ⟨S_, .f32⟩
  | 50 => ⟨S2000000, .f32⟩
  | 51 => ⟨S_, .f32⟩
  | 52 => ⟨S500000, .f32⟩
  | 53 => ⟨S2000000x1, .i32⟩
  | 54 => ⟨S500000, .f32⟩
  | 55 => ⟨S_, .f32⟩
  | 56 => ⟨S500000, .f32⟩
  | 57 => ⟨S500000, .f32⟩
  | 58 => ⟨S_, .f32⟩
  | 59 => ⟨S500000, .f32⟩
  | 60 => ⟨S500000, .f32⟩
  | 61 => ⟨S500000x1, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x64, .bf16⟩
  | 71 => ⟨S500000x64, .f32⟩
  | 72 => ⟨S_, .f32⟩
  | 73 => ⟨S200000x64, .f32⟩
  | 74 => ⟨S500000x1, .i32⟩
  | 75 => ⟨S200000x64, .f32⟩
  | 76 => ⟨S1x1x64x64, .f32⟩
  | 77 => ⟨S64x64, .f32⟩
  | 78 => ⟨S1x1x64, .f32⟩
  | 79 => ⟨S64, .f32⟩
  | 80 => ⟨S1x1x64x64, .f32⟩
  | 81 => ⟨S64x64, .f32⟩
  | 82 => ⟨S1x64, .f32⟩
  | 83 => ⟨S200000x64, .bf16⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x64, .bf16⟩
  | 93 => ⟨S500000x64, .f32⟩
  | 94 => ⟨S_, .f32⟩
  | 95 => ⟨S500000x64, .f32⟩
  | 96 => ⟨S500000x1, .i32⟩
  | 97 => ⟨S500000x64, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x64, .bf16⟩
  | 107 => ⟨S2000000x64, .f32⟩
  | 108 => ⟨S_, .f32⟩
  | 109 => ⟨S500000x64, .f32⟩
  | 110 => ⟨S2000000x1, .i32⟩
  | 111 => ⟨S500000x64, .f32⟩
  | 112 => ⟨S1x1x64x64, .f32⟩
  | 113 => ⟨S64x64, .f32⟩
  | 114 => ⟨S_, .f32⟩
  | 115 => ⟨S64x64, .f32⟩
  | 116 => ⟨S64x64, .f32⟩
  | 117 => ⟨S1x1x64x64, .f32⟩
  | 118 => ⟨S64x64, .f32⟩
  | 119 => ⟨S_, .f32⟩
  | 120 => ⟨S64x64, .f32⟩
  | 121 => ⟨S64x64, .f32⟩
  | 122 => ⟨S1x1x64, .f32⟩
  | 123 => ⟨S64, .f32⟩
  | 124 => ⟨S1x1x64, .f32⟩
  | 125 => ⟨S64, .f32⟩
  | 126 => ⟨S64, .f32⟩
  | 127 => ⟨S_, .f32⟩
  | _ => ⟨S500000x32, .f32⟩

abbrev hbmTy0_1 (i : Nat) : BufTy := match i % 128 with
  | 0 => ⟨S64, .f32⟩
  | 1 => ⟨S64, .f32⟩
  | 2 => ⟨S1x1x64x64, .f32⟩
  | 3 => ⟨S64x64, .f32⟩
  | 4 => ⟨S1x1x64x64, .f32⟩
  | 5 => ⟨S64x64, .f32⟩
  | 6 => ⟨S64x64, .f32⟩
  | 7 => ⟨S_, .f32⟩
  | 8 => ⟨S64x64, .f32⟩
  | 9 => ⟨S64x64, .f32⟩
  | 10 => ⟨S1x64, .f32⟩
  | 11 => ⟨S500000x64, .bf16⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x64, .bf16⟩
  | 21 => ⟨S500000x64, .f32⟩
  | 22 => ⟨S_, .f32⟩
  | 23 => ⟨S200000x64, .f32⟩
  | 24 => ⟨S500000x1, .i32⟩
  | 25 => ⟨S200000x64, .f32⟩
  | 26 => ⟨S1x1x64x64, .f32⟩
  | 27 => ⟨S64x64, .f32⟩
  | 28 => ⟨S1x1x64, .f32⟩
  | 29 => ⟨S64, .f32⟩
  | 30 => ⟨S1x1x64x64, .f32⟩
  | 31 => ⟨S64x64, .f32⟩
  | 32 => ⟨S1x64, .f32⟩
  | 33 => ⟨S200000x64, .bf16⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x64, .bf16⟩
  | 43 => ⟨S500000x64, .f32⟩
  | 44 => ⟨S_, .f32⟩
  | 45 => ⟨S500000x64, .f32⟩
  | 46 => ⟨S500000x1, .i32⟩
  | 47 => ⟨S500000x64, .f32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S2000000x1, .i32⟩
  | 56 => ⟨S2000000x64, .bf16⟩
  | 57 => ⟨S2000000x64, .f32⟩
  | 58 => ⟨S_, .f32⟩
  | 59 => ⟨S500000x64, .f32⟩
  | 60 => ⟨S2000000x1, .i32⟩
  | 61 => ⟨S500000x64, .f32⟩
  | 62 => ⟨S1x1x64x64, .f32⟩
  | 63 => ⟨S64x64, .f32⟩
  | 64 => ⟨S_, .f32⟩
  | 65 => ⟨S64x64, .f32⟩
  | 66 => ⟨S64x64, .f32⟩
  | 67 => ⟨S1x1x64x64, .f32⟩
  | 68 => ⟨S64x64, .f32⟩
  | 69 => ⟨S_, .f32⟩
  | 70 => ⟨S64x64, .f32⟩
  | 71 => ⟨S64x64, .f32⟩
  | 72 => ⟨S1x1x64, .f32⟩
  | 73 => ⟨S64, .f32⟩
  | 74 => ⟨S1x1x64, .f32⟩
  | 75 => ⟨S64, .f32⟩
  | 76 => ⟨S64, .f32⟩
  | 77 => ⟨S_, .f32⟩
  | 78 => ⟨S64, .f32⟩
  | 79 => ⟨S64, .f32⟩
  | 80 => ⟨S1x1x64x64, .f32⟩
  | 81 => ⟨S64x64, .f32⟩
  | 82 => ⟨S1x1x64x64, .f32⟩
  | 83 => ⟨S64x64, .f32⟩
  | 84 => ⟨S64x64, .f32⟩
  | 85 => ⟨S_, .f32⟩
  | 86 => ⟨S64x64, .f32⟩
  | 87 => ⟨S64x64, .f32⟩
  | 88 => ⟨S1x64, .f32⟩
  | 89 => ⟨S500000x64, .bf16⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x64, .bf16⟩
  | 99 => ⟨S500000x64, .f32⟩
  | 100 => ⟨S_, .f32⟩
  | 101 => ⟨S200000x64, .f32⟩
  | 102 => ⟨S500000x1, .i32⟩
  | 103 => ⟨S200000x64, .f32⟩
  | 104 => ⟨S1x1x64x64, .f32⟩
  | 105 => ⟨S64x64, .f32⟩
  | 106 => ⟨S1x1x64, .f32⟩
  | 107 => ⟨S64, .f32⟩
  | 108 => ⟨S1x1x64x64, .f32⟩
  | 109 => ⟨S64x64, .f32⟩
  | 110 => ⟨S1x64, .f32⟩
  | 111 => ⟨S200000x64, .bf16⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000x64, .bf16⟩
  | 121 => ⟨S500000x64, .f32⟩
  | 122 => ⟨S_, .f32⟩
  | 123 => ⟨S500000x64, .f32⟩
  | 124 => ⟨S500000x1, .i32⟩
  | 125 => ⟨S500000x64, .f32⟩
  | 126 => ⟨S_, .i32⟩
  | 127 => ⟨S2000000, .i32⟩
  | _ => ⟨S500000x32, .f32⟩

abbrev hbmTy0_2 (i : Nat) : BufTy := match i % 128 with
  | 0 => ⟨S2000000, .i1⟩
  | 1 => ⟨S_, .i32⟩
  | 2 => ⟨S2000000, .i32⟩
  | 3 => ⟨S2000000, .i32⟩
  | 4 => ⟨S2000000, .i32⟩
  | 5 => ⟨S2000000x1, .i32⟩
  | 6 => ⟨S2000000x64, .bf16⟩
  | 7 => ⟨S2000000x64, .f32⟩
  | 8 => ⟨S_, .f32⟩
  | 9 => ⟨S500000x64, .f32⟩
  | 10 => ⟨S2000000x1, .i32⟩
  | 11 => ⟨S500000x64, .f32⟩
  | 12 => ⟨S1x1x64x64, .f32⟩
  | 13 => ⟨S64x64, .f32⟩
  | 14 => ⟨S_, .f32⟩
  | 15 => ⟨S64x64, .f32⟩
  | 16 => ⟨S64x64, .f32⟩
  | 17 => ⟨S1x1x64x64, .f32⟩
  | 18 => ⟨S64x64, .f32⟩
  | 19 => ⟨S_, .f32⟩
  | 20 => ⟨S64x64, .f32⟩
  | 21 => ⟨S64x64, .f32⟩
  | 22 => ⟨S1x1x64, .f32⟩
  | 23 => ⟨S64, .f32⟩
  | 24 => ⟨S1x1x64, .f32⟩
  | 25 => ⟨S64, .f32⟩
  | 26 => ⟨S64, .f32⟩
  | 27 => ⟨S_, .f32⟩
  | 28 => ⟨S64, .f32⟩
  | 29 => ⟨S64, .f32⟩
  | 30 => ⟨S1x1x64x64, .f32⟩
  | 31 => ⟨S64x64, .f32⟩
  | 32 => ⟨S1x1x64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S1x64, .f32⟩
  | 39 => ⟨S500000x64, .bf16⟩
  | 40 => ⟨S1x32, .f32⟩
  | 41 => ⟨S1x1, .f32⟩
  | 42 => ⟨S500000x1, .f32⟩
  | 43 => ⟨S500000, .f32⟩
  | _ => ⟨S500000x32, .f32⟩

abbrev hbmTy (i : Nat) : BufTy := match i / 128 with
  | 0 => hbmTy0_0 i
  | 1 => hbmTy0_1 i
  | 2 => hbmTy0_2 i
  | _ => ⟨S500000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .bf16⟩
  | .local _ .vmem, ⟨5, _⟩ => ⟨S10000x64, .bf16⟩
  | .local _ .vmem, ⟨6, _⟩ => ⟨S10000x16, .f32⟩
  | .local _ .vmem, ⟨7, _⟩ => ⟨S10000x16, .f32⟩
  | .local _ .vmem, ⟨8, _⟩ => ⟨S16x64, .f32⟩
  | .local _ .vmem, ⟨9, _⟩ => ⟨S1x64, .f32⟩
  | .local _ .vmem, ⟨10, _⟩ => ⟨S10000x64, .bf16⟩
  | .local _ .vmem, ⟨11, _⟩ => ⟨S10000x64, .bf16⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S5000x64, .bf16⟩
  | .local _ .vmem, ⟨17, _⟩ => ⟨S5000x64, .bf16⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S5000x64, .bf16⟩
  | .local _ .vmem, ⟨32, _⟩ => ⟨S5000x64, .bf16⟩
  | .local _ .vmem, ⟨33, _⟩ => ⟨S64x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S5000x64, .bf16⟩
  | .local _ .vmem, ⟨38, _⟩ => ⟨S5000x64, .bf16⟩
  | .local _ .vmem, ⟨39, _⟩ => ⟨S5000x64, .f32⟩
  | .local _ .vmem, ⟨40, _⟩ => ⟨S5000x64, .f32⟩
  | .local _ .vmem, ⟨41, _⟩ => ⟨S5000x1, .f32⟩
  | .local _ .vmem, ⟨42, _⟩ => ⟨S5000x1, .f32⟩
  | .local _ .vmem, ⟨43, _⟩ => ⟨S5000x64, .bf16⟩
  | .local _ .vmem, ⟨44, _⟩ => ⟨S5000x64, .bf16⟩
  | .local _ .vmem, ⟨45, _⟩ => ⟨S64x64, .f32⟩
  | .local _ .vmem, ⟨46, _⟩ => ⟨S1x64, .f32⟩
  | .local _ .vmem, ⟨47, _⟩ => ⟨S64x64, .f32⟩
  | .local _ .vmem, ⟨48, _⟩ => ⟨S5000x64, .bf16⟩
  | .local _ .vmem, ⟨49, _⟩ => ⟨S5000x64, .bf16⟩
  | .local _ .vmem, ⟨50, _⟩ => ⟨S5000x64, .f32⟩
  | .local _ .vmem, ⟨51, _⟩ => ⟨S5000x64, .f32⟩
  | .local _ .vmem, ⟨52, _⟩ => ⟨S5000x1, .f32⟩
  | .local _ .vmem, ⟨53, _⟩ => ⟨S5000x1, .f32⟩
  | .local _ .vmem, ⟨54, _⟩ => ⟨S5000x64, .f32⟩
  | .local _ .vmem, ⟨55, _⟩ => ⟨S5000x64, .f32⟩
  | .local _ .vmem, ⟨56, _⟩ => ⟨S5000x1, .f32⟩
  | .local _ .vmem, ⟨57, _⟩ => ⟨S5000x1, .f32⟩
  | .local _ .vmem, ⟨58, _⟩ => ⟨S5000x64, .bf16⟩
  | .local _ .vmem, ⟨59, _⟩ => ⟨S5000x64, .bf16⟩
  | .local _ .vmem, ⟨60, _⟩ => ⟨S64x64, .f32⟩
  | .local _ .vmem, ⟨61, _⟩ => ⟨S64x64, .f32⟩
  | .local _ .vmem, ⟨62, _⟩ => ⟨S1x64, .f32⟩
  | .local _ .vmem, ⟨63, _⟩ => ⟨S64x64, .f32⟩
  | .local _ .vmem, ⟨64, _⟩ => ⟨S5000x64, .bf16⟩
  | .local _ .vmem, ⟨65, _⟩ => ⟨S5000x64, .bf16⟩
  | .local _ .vmem, ⟨66, _⟩ => ⟨S5000x64, .f32⟩
  | .local _ .vmem, ⟨67, _⟩ => ⟨S5000x64, .f32⟩
  | .local _ .vmem, ⟨68, _⟩ => ⟨S5000x1, .f32⟩
  | .local _ .vmem, ⟨69, _⟩ => ⟨S5000x1, .f32⟩
  | .local _ .vmem, ⟨70, _⟩ => ⟨S5000x64, .bf16⟩
  | .local _ .vmem, ⟨71, _⟩ => ⟨S5000x64, .bf16⟩
  | .local _ .vmem, ⟨72, _⟩ => ⟨S64x64, .f32⟩
  | .local _ .vmem, ⟨73, _⟩ => ⟨S1x64, .f32⟩
  | .local _ .vmem, ⟨74, _⟩ => ⟨S64x64, .f32⟩
  | .local _ .vmem, ⟨75, _⟩ => ⟨S5000x64, .bf16⟩
  | .local _ .vmem, ⟨76, _⟩ => ⟨S5000x64, .bf16⟩
  | .local _ .vmem, ⟨77, _⟩ => ⟨S5000x64, .f32⟩
  | .local _ .vmem, ⟨78, _⟩ => ⟨S5000x64, .f32⟩
  | .local _ .vmem, ⟨79, _⟩ => ⟨S5000x1, .f32⟩
  | .local _ .vmem, ⟨80, _⟩ => ⟨S5000x1, .f32⟩
  | .local _ .vmem, ⟨81, _⟩ => ⟨S5000x64, .f32⟩
  | .local _ .vmem, ⟨82, _⟩ => ⟨S5000x64, .f32⟩
  | .local _ .vmem, ⟨83, _⟩ => ⟨S5000x1, .f32⟩
  | .local _ .vmem, ⟨84, _⟩ => ⟨S5000x1, .f32⟩
  | .local _ .vmem, ⟨85, _⟩ => ⟨S5000x64, .bf16⟩
  | .local _ .vmem, ⟨86, _⟩ => ⟨S5000x64, .bf16⟩
  | .local _ .vmem, ⟨87, _⟩ => ⟨S64x64, .f32⟩
  | .local _ .vmem, ⟨88, _⟩ => ⟨S64x64, .f32⟩
  | .local _ .vmem, ⟨89, _⟩ => ⟨S1x64, .f32⟩
  | .local _ .vmem, ⟨90, _⟩ => ⟨S64x64, .f32⟩
  | .local _ .vmem, ⟨91, _⟩ => ⟨S5000x64, .bf16⟩
  | .local _ .vmem, ⟨92, _⟩ => ⟨S5000x64, .bf16⟩
  | .local _ .vmem, ⟨93, _⟩ => ⟨S10000x64, .bf16⟩
  | .local _ .vmem, ⟨94, _⟩ => ⟨S10000x64, .bf16⟩
  | .local _ .vmem, ⟨95, _⟩ => ⟨S64x32, .f32⟩
  | .local _ .vmem, ⟨96, _⟩ => ⟨S1x32, .f32⟩
  | .local _ .vmem, ⟨97, _⟩ => ⟨S32x1, .f32⟩
  | .local _ .vmem, ⟨98, _⟩ => ⟨S1x1, .f32⟩
  | .local _ .vmem, ⟨99, _⟩ => ⟨S10000x1, .f32⟩
  | .local _ .vmem, ⟨100, _⟩ => ⟨S10000x1, .f32⟩
  | _, _ => ⟨S500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_cst_4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_5 : Ref sig .tc := ⟨.hbm, 42, rfl⟩
abbrev main_v17 : Ref sig .tc := ⟨.hbm, 43, rfl⟩
abbrev main_v18 : Ref sig .tc := ⟨.hbm, 44, rfl⟩
abbrev main_cst_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_7 : Ref sig .tc := ⟨.hbm, 49, rfl⟩
abbrev main_v22 : Ref sig .tc := ⟨.hbm, 50, rfl⟩
abbrev main_cst_8 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_9 : Ref sig .tc := ⟨.hbm, 55, rfl⟩
abbrev main_v26 : Ref sig .tc := ⟨.hbm, 56, rfl⟩
abbrev main_v27 : Ref sig .tc := ⟨.hbm, 57, rfl⟩
abbrev main_cst_10 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c : Ref sig .tc := ⟨.hbm, 62, rfl⟩
abbrev main_v31 : Ref sig .tc := ⟨.hbm, 63, rfl⟩
abbrev main_v32 : Ref sig .tc := ⟨.hbm, 64, rfl⟩
abbrev main_c_11 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_12 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_13 : Ref sig .tc := ⟨.hbm, 84, rfl⟩
abbrev main_v50 : Ref sig .tc := ⟨.hbm, 85, rfl⟩
abbrev main_v51 : Ref sig .tc := ⟨.hbm, 86, rfl⟩
abbrev main_c_14 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_15 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_16 : Ref sig .tc := ⟨.hbm, 98, rfl⟩
abbrev main_v61 : Ref sig .tc := ⟨.hbm, 99, rfl⟩
abbrev main_v62 : Ref sig .tc := ⟨.hbm, 100, rfl⟩
abbrev main_c_17 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_18 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_20 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_21 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_22 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_23 : Ref sig .tc := ⟨.hbm, 140, rfl⟩
abbrev main_v96 : Ref sig .tc := ⟨.hbm, 141, rfl⟩
abbrev main_v97 : Ref sig .tc := ⟨.hbm, 142, rfl⟩
abbrev main_c_24 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_25 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_26 : Ref sig .tc := ⟨.hbm, 162, rfl⟩
abbrev main_v115 : Ref sig .tc := ⟨.hbm, 163, rfl⟩
abbrev main_v116 : Ref sig .tc := ⟨.hbm, 164, rfl⟩
abbrev main_c_27 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_28 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_29 : Ref sig .tc := ⟨.hbm, 176, rfl⟩
abbrev main_v126 : Ref sig .tc := ⟨.hbm, 177, rfl⟩
abbrev main_v127 : Ref sig .tc := ⟨.hbm, 178, rfl⟩
abbrev main_c_30 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_31 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_32 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_33 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_34 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_35 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_c_36 : Ref sig .tc := ⟨.hbm, 218, rfl⟩
abbrev main_v161 : Ref sig .tc := ⟨.hbm, 219, rfl⟩
abbrev main_v162 : Ref sig .tc := ⟨.hbm, 220, rfl⟩
abbrev main_c_37 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_38 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_c_39 : Ref sig .tc := ⟨.hbm, 240, rfl⟩
abbrev main_v180 : Ref sig .tc := ⟨.hbm, 241, rfl⟩
abbrev main_v181 : Ref sig .tc := ⟨.hbm, 242, rfl⟩
abbrev main_c_40 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_cst_41 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_c_42 : Ref sig .tc := ⟨.hbm, 254, rfl⟩
abbrev main_v191 : Ref sig .tc := ⟨.hbm, 255, rfl⟩
abbrev main_v192 : Ref sig .tc := ⟨.hbm, 256, rfl⟩
abbrev main_c_43 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_44 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_45 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_cst_46 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_cst_47 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_cst_48 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg9_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg8_0 : Ref sig .tc := ⟨.vmem, 63, rfl⟩
abbrev cc5_stg9_0 : Ref sig .tc := ⟨.vmem, 64, rfl⟩
abbrev cc5_stg9_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg6_0 : Ref sig .tc := ⟨.vmem, 75, rfl⟩
abbrev cc6_stg6_1 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg3_1 : Ref sig .tc := ⟨.vmem, 84, rfl⟩
abbrev cc7_stg4_0 : Ref sig .tc := ⟨.vmem, 85, rfl⟩
abbrev cc7_stg4_1 : Ref sig .tc := ⟨.vmem, 86, rfl⟩
abbrev cc7_stg5_0 : Ref sig .tc := ⟨.vmem, 87, rfl⟩
abbrev cc7_stg6_0 : Ref sig .tc := ⟨.vmem, 88, rfl⟩
abbrev cc7_stg7_0 : Ref sig .tc := ⟨.vmem, 89, rfl⟩
abbrev cc7_stg8_0 : Ref sig .tc := ⟨.vmem, 90, rfl⟩
abbrev cc7_stg9_0 : Ref sig .tc := ⟨.vmem, 91, rfl⟩
abbrev cc7_stg9_1 : Ref sig .tc := ⟨.vmem, 92, rfl⟩
abbrev cc8_stg0_0 : Ref sig .tc := ⟨.vmem, 93, rfl⟩
abbrev cc8_stg0_1 : Ref sig .tc := ⟨.vmem, 94, rfl⟩
abbrev cc8_stg1_0 : Ref sig .tc := ⟨.vmem, 95, rfl⟩
abbrev cc8_stg2_0 : Ref sig .tc := ⟨.vmem, 96, rfl⟩
abbrev cc8_stg3_0 : Ref sig .tc := ⟨.vmem, 97, rfl⟩
abbrev cc8_stg4_0 : Ref sig .tc := ⟨.vmem, 98, rfl⟩
abbrev cc8_stg5_0 : Ref sig .tc := ⟨.vmem, 99, rfl⟩
abbrev cc8_stg5_1 : Ref sig .tc := ⟨.vmem, 100, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem9_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc5_sem5_0 : DmaSem sig := 60
abbrev cc5_sem6_0 : DmaSem sig := 61
abbrev cc5_sem7_0 : DmaSem sig := 62
abbrev cc5_sem8_0 : DmaSem sig := 63
abbrev cc5_sem9_0 : DmaSem sig := 64
abbrev cc5_sem9_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem2_1 : DmaSem sig := 71
abbrev cc6_sem3_0 : DmaSem sig := 72
abbrev cc6_sem4_0 : DmaSem sig := 73
abbrev cc6_sem5_0 : DmaSem sig := 74
abbrev cc6_sem6_0 : DmaSem sig := 75
abbrev cc6_sem6_1 : DmaSem sig := 76
abbrev cc7_sem0_0 : DmaSem sig := 77
abbrev cc7_sem0_1 : DmaSem sig := 78
abbrev cc7_sem1_0 : DmaSem sig := 79
abbrev cc7_sem1_1 : DmaSem sig := 80
abbrev cc7_sem2_0 : DmaSem sig := 81
abbrev cc7_sem2_1 : DmaSem sig := 82
abbrev cc7_sem3_0 : DmaSem sig := 83
abbrev cc7_sem3_1 : DmaSem sig := 84
abbrev cc7_sem4_0 : DmaSem sig := 85
abbrev cc7_sem4_1 : DmaSem sig := 86
abbrev cc7_sem5_0 : DmaSem sig := 87
abbrev cc7_sem6_0 : DmaSem sig := 88
abbrev cc7_sem7_0 : DmaSem sig := 89
abbrev cc7_sem8_0 : DmaSem sig := 90
abbrev cc7_sem9_0 : DmaSem sig := 91
abbrev cc7_sem9_1 : DmaSem sig := 92
abbrev cc8_sem0_0 : DmaSem sig := 93
abbrev cc8_sem0_1 : DmaSem sig := 94
abbrev cc8_sem1_0 : DmaSem sig := 95
abbrev cc8_sem2_0 : DmaSem sig := 96
abbrev cc8_sem3_0 : DmaSem sig := 97
abbrev cc8_sem4_0 : DmaSem sig := 98
abbrev cc8_sem5_0 : DmaSem sig := 99
abbrev cc8_sem5_1 : DmaSem sig := 100

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x64 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x64 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S5000x64 .bf16 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  bcast_S_S500000 : S_.BroadcastsInDim S500000 (![] : Fin 0 → Fin S500000.rank)
  bcast_S_S200000 : S_.BroadcastsInDim S200000 (![] : Fin 0 → Fin S200000.rank)
  bcast_S500000_S500000x1_0 : S500000.BroadcastsInDim S500000x1 (![0] : Fin 1 → Fin S500000x1.rank)
  shapeCasts_S200000_S200000x1 : S200000.ShapeCasts S200000x1
  shapeCasts_S500000_S500000x1 : S500000.ShapeCasts S500000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x64 : S_.BroadcastsInDim S200000x64 (![] : Fin 0 → Fin S200000x64.rank)
  slices_S3x3x64x64_S1x1x64x64_0_0_0_0 : S3x3x64x64.Slices ![0, 0, 0, 0] S1x1x64x64
  shapeCasts_S1x1x64x64_S64x64 : S1x1x64x64.ShapeCasts S64x64
  slices_S3x3x64_S1x1x64_0_0_0 : S3x3x64.Slices ![0, 0, 0] S1x1x64
  shapeCasts_S1x1x64_S64 : S1x1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  bcast_S_S500000x64 : S_.BroadcastsInDim S500000x64 (![] : Fin 0 → Fin S500000x64.rank)
  slices_S3x3x64x64_S1x1x64x64_0_1_0_0 : S3x3x64x64.Slices ![0, 1, 0, 0] S1x1x64x64
  bcast_S_S64x64 : S_.BroadcastsInDim S64x64 (![] : Fin 0 → Fin S64x64.rank)
  slices_S3x3x64x64_S1x1x64x64_0_2_0_0 : S3x3x64x64.Slices ![0, 2, 0, 0] S1x1x64x64
  slices_S3x3x64_S1x1x64_0_1_0 : S3x3x64.Slices ![0, 1, 0] S1x1x64
  slices_S3x3x64_S1x1x64_0_2_0 : S3x3x64.Slices ![0, 2, 0] S1x1x64
  bcast_S_S64 : S_.BroadcastsInDim S64 (![] : Fin 0 → Fin S64.rank)
  slices_S3x3x64x64_S1x1x64x64_1_0_0_0 : S3x3x64x64.Slices ![1, 0, 0, 0] S1x1x64x64
  slices_S3x3x64_S1x1x64_1_0_0 : S3x3x64.Slices ![1, 0, 0] S1x1x64
  slices_S3x3x64x64_S1x1x64x64_1_1_0_0 : S3x3x64x64.Slices ![1, 1, 0, 0] S1x1x64x64
  slices_S3x3x64x64_S1x1x64x64_1_2_0_0 : S3x3x64x64.Slices ![1, 2, 0, 0] S1x1x64x64
  slices_S3x3x64_S1x1x64_1_1_0 : S3x3x64.Slices ![1, 1, 0] S1x1x64
  slices_S3x3x64_S1x1x64_1_2_0 : S3x3x64.Slices ![1, 2, 0] S1x1x64
  slices_S3x3x64x64_S1x1x64x64_2_0_0_0 : S3x3x64x64.Slices ![2, 0, 0, 0] S1x1x64x64
  slices_S3x3x64_S1x1x64_2_0_0 : S3x3x64.Slices ![2, 0, 0] S1x1x64
  slices_S3x3x64x64_S1x1x64x64_2_1_0_0 : S3x3x64x64.Slices ![2, 1, 0, 0] S1x1x64x64
  slices_S3x3x64x64_S1x1x64x64_2_2_0_0 : S3x3x64x64.Slices ![2, 2, 0, 0] S1x1x64x64
  slices_S3x3x64_S1x1x64_2_1_0 : S3x3x64.Slices ![2, 1, 0] S1x1x64
  slices_S3x3x64_S1x1x64_2_2_0 : S3x3x64.Slices ![2, 2, 0] S1x1x64
  shapeCasts_S32_S1x32 : S32.ShapeCasts S1x32
  shapeCasts_S1_S1x1 : S1.ShapeCasts S1x1
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  dot_S10000x32_S32x64_S10000x64_1_0_0_1_n_n_wf : DotDims.WF S10000x32 S32x64 S10000x64 [1] [0] [0] [1] [] []
  dot_S10000x16_S16x64_S10000x64_1_0_0_1_n_n_wf : DotDims.WF S10000x16 S16x64 S10000x64 [1] [0] [0] [1] [] []
  scatter_S200000_S500000x1_S500000_n_0_0_1_wf : ScatterDims.WF S200000 S500000x1 S500000 [] [0] [0] 1
  scatter_S500000_S500000x1_S500000_n_0_0_1_wf : ScatterDims.WF S500000 S500000x1 S500000 [] [0] [0] 1
  scatter_S500000_S2000000x1_S2000000_n_0_0_1_wf : ScatterDims.WF S500000 S2000000x1 S2000000 [] [0] [0] 1
  gather_S500000x64_S500000x1_S500000x64_1_0_n_n_0_1_164_wf : GatherDims.WF S500000x64 S500000x1 S500000x64 [1] [0] [] [0] [] 1 ![1, 64]
  scatter_S200000x64_S500000x1_S500000x64_1_0_0_1_wf : ScatterDims.WF S200000x64 S500000x1 S500000x64 [1] [0] [0] 1
  dot_S5000x64_S64x64_S5000x64_1_0_0_1_n_n_wf : DotDims.WF S5000x64 S64x64 S5000x64 [1] [0] [0] [1] [] []
  gather_S200000x64_S500000x1_S500000x64_1_0_n_n_0_1_164_wf : GatherDims.WF S200000x64 S500000x1 S500000x64 [1] [0] [] [0] [] 1 ![1, 64]
  scatter_S500000x64_S500000x1_S500000x64_1_0_0_1_wf : ScatterDims.WF S500000x64 S500000x1 S500000x64 [1] [0] [0] 1
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S500000x32.size a
  hwx0_0 : ∀ i : grid0.Coords, EltTy.bits .f32 = 32 ∨ (Rect.block (s := S500000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S500000x64.size a
  hwx0_3 : ∀ i : grid0.Coords, EltTy.bits .bf16 = 32 ∨ (Rect.block (s := S500000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S200000x64.size a
  hwx1_3 : ∀ i : grid1.Coords, EltTy.bits .bf16 = 32 ∨ (Rect.block (s := S200000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S200000x1.size a
  hwx2_1 : ∀ i : grid2.Coords, EltTy.bits .f32 = 32 ∨ (Rect.block (s := S200000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S200000x64.size a
  hwx2_2 : ∀ i : grid2.Coords, EltTy.bits .bf16 = 32 ∨ (Rect.block (s := S200000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S200000x64.size a
  hwx2_6 : ∀ i : grid2.Coords, EltTy.bits .bf16 = 32 ∨ (Rect.block (s := S200000x64) S5000x64.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S500000x64.size a
  hwx3_0 : ∀ i : grid3.Coords, EltTy.bits .f32 = 32 ∨ (Rect.block (s := S500000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S500000x1.size a
  hwx3_1 : ∀ i : grid3.Coords, EltTy.bits .f32 = 32 ∨ (Rect.block (s := S500000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S500000x64.size a
  hwx3_2 : ∀ i : grid3.Coords, EltTy.bits .f32 = 32 ∨ (Rect.block (s := S500000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S500000x1.size a
  hwx3_3 : ∀ i : grid3.Coords, EltTy.bits .f32 = 32 ∨ (Rect.block (s := S500000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S500000x64.size a
  hwx3_4 : ∀ i : grid3.Coords, EltTy.bits .bf16 = 32 ∨ (Rect.block (s := S500000x64) S5000x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S500000x64.size a
  hwx3_9 : ∀ i : grid3.Coords, EltTy.bits .bf16 = 32 ∨ (Rect.block (s := S500000x64) S5000x64.size (cc3_transform_9 i) (hinb3_9 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S200000x64.size a
  hwx4_0 : ∀ i : grid4.Coords, EltTy.bits .f32 = 32 ∨ (Rect.block (s := S200000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S200000x1.size a
  hwx4_1 : ∀ i : grid4.Coords, EltTy.bits .f32 = 32 ∨ (Rect.block (s := S200000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S200000x64.size a
  hwx4_2 : ∀ i : grid4.Coords, EltTy.bits .bf16 = 32 ∨ (Rect.block (s := S200000x64) S5000x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S200000x64.size a
  hwx4_6 : ∀ i : grid4.Coords, EltTy.bits .bf16 = 32 ∨ (Rect.block (s := S200000x64) S5000x64.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S500000x64.size a
  hwx5_0 : ∀ i : grid5.Coords, EltTy.bits .f32 = 32 ∨ (Rect.block (s := S500000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S500000x1.size a
  hwx5_1 : ∀ i : grid5.Coords, EltTy.bits .f32 = 32 ∨ (Rect.block (s := S500000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S500000x64.size a
  hwx5_2 : ∀ i : grid5.Coords, EltTy.bits .f32 = 32 ∨ (Rect.block (s := S500000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S500000x1.size a
  hwx5_3 : ∀ i : grid5.Coords, EltTy.bits .f32 = 32 ∨ (Rect.block (s := S500000x1) S5000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S500000x64.size a
  hwx5_4 : ∀ i : grid5.Coords, EltTy.bits .bf16 = 32 ∨ (Rect.block (s := S500000x64) S5000x64.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x64.size a ≤ S64x64.size a
  hwx5_6 : ∀ i : grid5.Coords, EltTy.bits .f32 = 32 ∨ (Rect.block (s := S64x64) S64x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x64.size a ≤ S64x64.size a
  hwx5_8 : ∀ i : grid5.Coords, EltTy.bits .f32 = 32 ∨ (Rect.block (s := S64x64) S64x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x64.size a ≤ S500000x64.size a
  hwx5_9 : ∀ i : grid5.Coords, EltTy.bits .bf16 = 32 ∨ (Rect.block (s := S500000x64) S5000x64.size (cc5_transform_9 i) (hinb5_9 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S200000x64.size a
  hwx6_0 : ∀ i : grid6.Coords, EltTy.bits .f32 = 32 ∨ (Rect.block (s := S200000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S200000x1.size a
  hwx6_1 : ∀ i : grid6.Coords, EltTy.bits .f32 = 32 ∨ (Rect.block (s := S200000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S200000x64.size a
  hwx6_2 : ∀ i : grid6.Coords, EltTy.bits .bf16 = 32 ∨ (Rect.block (s := S200000x64) S5000x64.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S200000x64.size a
  hwx6_6 : ∀ i : grid6.Coords, EltTy.bits .bf16 = 32 ∨ (Rect.block (s := S200000x64) S5000x64.size (cc6_transform_6 i) (hinb6_6 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S500000x64.size a
  hwx7_0 : ∀ i : grid7.Coords, EltTy.bits .f32 = 32 ∨ (Rect.block (s := S500000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S500000x1.size a
  hwx7_1 : ∀ i : grid7.Coords, EltTy.bits .f32 = 32 ∨ (Rect.block (s := S500000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S500000x64.size a
  hwx7_2 : ∀ i : grid7.Coords, EltTy.bits .f32 = 32 ∨ (Rect.block (s := S500000x64) S5000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S500000x1.size a
  hwx7_3 : ∀ i : grid7.Coords, EltTy.bits .f32 = 32 ∨ (Rect.block (s := S500000x1) S5000x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S500000x64.size a
  hwx7_4 : ∀ i : grid7.Coords, EltTy.bits .bf16 = 32 ∨ (Rect.block (s := S500000x64) S5000x64.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64x64.size a ≤ S64x64.size a
  hwx7_6 : ∀ i : grid7.Coords, EltTy.bits .f32 = 32 ∨ (Rect.block (s := S64x64) S64x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64x64.size a ≤ S64x64.size a
  hwx7_8 : ∀ i : grid7.Coords, EltTy.bits .f32 = 32 ∨ (Rect.block (s := S64x64) S64x64.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S5000x64.size a ≤ S500000x64.size a
  hwx7_9 : ∀ i : grid7.Coords, EltTy.bits .bf16 = 32 ∨ (Rect.block (s := S500000x64) S5000x64.size (cc7_transform_9 i) (hinb7_9 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S500000x64.size a
  hwx8_0 : ∀ i : grid8.Coords, EltTy.bits .bf16 = 32 ∨ (Rect.block (s := S500000x64) S10000x64.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x1.size a ≤ S32x1.size a
  hwx8_3 : ∀ i : grid8.Coords, EltTy.bits .f32 = 32 ∨ (Rect.block (s := S32x1) S32x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x1.size a ≤ S500000x1.size a
  hwx8_5 : ∀ i : grid8.Coords, EltTy.bits .f32 = 32 ∨ (Rect.block (s := S500000x1) S10000x1.size (cc8_transform_5 i) (hinb8_5 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000x64_S500000x1_S500000x64_1_0_n_n_0_1_164 : GatherDims S500000x64 S500000x1 S500000x64 where
  offsetDims := [1]
  collapsedSliceDims := [0]
  operandBatchingDims := []
  startIndicesBatchingDims := []
  startIndexMap := [0]
  indexVectorDim := 1
  sliceSizes := ![1, 64]
  wf := gather_S500000x64_S500000x1_S500000x64_1_0_n_n_0_1_164_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def scatter_S500000x64_S500000x1_S500000x64_1_0_0_1 : ScatterDims S500000x64 S500000x1 S500000x64 where
  updateWindowDims := [1]
  insertedWindowDims := [0]
  scatterDimsToOperandDims := [0]
  indexVectorDim := 1
  wf := scatter_S500000x64_S500000x1_S500000x64_1_0_0_1_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v1) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v75) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v94) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v93) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v95) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v106) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v108) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v113) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v112) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v114) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v125) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v136) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v30) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v95) S5000x64.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v140) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v144) S64x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v159) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v158) S64x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v160) S5000x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v171) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v114) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v173) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v178) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v177) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v179) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v190) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v21) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v201) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v30) S5000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v160) S5000x64.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v205) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v209) S64x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v224) S1x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v223) S64x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v225) S5000x64.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v225) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg15) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v226) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg17) S32x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v227) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v228) S10000x1.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S500000x32 : Shape := ⟨2, ![500000, 32]⟩
abbrev S200000x16 : Shape := ⟨2, ![200000, 16]⟩
abbrev S500000 : Shape := ⟨1, ![500000]⟩
abbrev S2000000 : Shape := ⟨1, ![2000000]⟩
abbrev S32x64 : Shape := ⟨2, ![32, 64]⟩
abbrev S64 : Shape := ⟨1, ![64]⟩
abbrev S16x64 : Shape := ⟨2, ![16, 64]⟩
abbrev S3x3x64x64 : Shape := ⟨4, ![3, 3, 64, 64]⟩
abbrev S3x3x64 : Shape := ⟨3, ![3, 3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S500000x64 : Shape := ⟨2, ![500000, 64]⟩
abbrev S1x64 : Shape := ⟨2, ![1, 64]⟩
abbrev S_ : Shape := ⟨0, ![]⟩
abbrev S200000x64 : Shape := ⟨2, ![200000, 64]⟩
abbrev S1x1x64x64 : Shape := ⟨4, ![1, 1, 64, 64]⟩
abbrev S64x64 : Shape := ⟨2, ![64, 64]⟩
abbrev S1x1x64 : Shape := ⟨3, ![1, 1, 64]⟩
abbrev S500000x1 : Shape := ⟨2, ![500000, 1]⟩
abbrev S200000 : Shape := ⟨1, ![200000]⟩
abbrev S200000x1 : Shape := ⟨2, ![200000, 1]⟩
abbrev S2000000x1 : Shape := ⟨2, ![2000000, 1]⟩
abbrev S2000000x64 : Shape := ⟨2, ![2000000, 64]⟩
abbrev S1x32 : Shape := ⟨2, ![1, 32]⟩
abbrev S1x1 : Shape := ⟨2, ![1, 1]⟩

abbrev nBuf : Space → Nat
  | .hbm => 408
  | .vmem => 0
  | .smem => 0
  | _ => 0

abbrev hbmTy0_0 (i : Nat) : BufTy := match i % 128 with
  | 0 => ⟨S500000x32, .f32⟩
  | 1 => ⟨S200000x16, .f32⟩
  | 2 => ⟨S500000, .i32⟩
  | 3 => ⟨S500000, .i32⟩
  | 4 => ⟨S500000, .i32⟩
  | 5 => ⟨S500000, .i32⟩
  | 6 => ⟨S2000000, .i32⟩
  | 7 => ⟨S2000000, .i32⟩
  | 8 => ⟨S32x64, .f32⟩
  | 9 => ⟨S64, .f32⟩
  | 10 => ⟨S16x64, .f32⟩
  | 11 => ⟨S64, .f32⟩
  | 12 => ⟨S3x3x64x64, .f32⟩
  | 13 => ⟨S3x3x64, .f32⟩
  | 14 => ⟨S3x3x64x64, .f32⟩
  | 15 => ⟨S64x32, .f32⟩
  | 16 => ⟨S32, .f32⟩
  | 17 => ⟨S32x1, .f32⟩
  | 18 => ⟨S1, .f32⟩
  | 19 => ⟨S500000x64, .f32⟩
  | 20 => ⟨S1x64, .f32⟩
  | 21 => ⟨S500000x64, .f32⟩
  | 22 => ⟨S500000x64, .f32⟩
  | 23 => ⟨S_, .f32⟩
  | 24 => ⟨S500000x64, .f32⟩
  | 25 => ⟨S500000x64, .f32⟩
  | 26 => ⟨S200000x64, .f32⟩
  | 27 => ⟨S1x64, .f32⟩
  | 28 => ⟨S200000x64, .f32⟩
  | 29 => ⟨S200000x64, .f32⟩
  | 30 => ⟨S_, .f32⟩
  | 31 => ⟨S200000x64, .f32⟩
  | 32 => ⟨S200000x64, .f32⟩
  | 33 => ⟨S1x1x64x64, .f32⟩
  | 34 => ⟨S64x64, .f32⟩
  | 35 => ⟨S1x1x64, .f32⟩
  | 36 => ⟨S64, .f32⟩
  | 37 => ⟨S1x1x64x64, .f32⟩
  | 38 => ⟨S64x64, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x64, .f32⟩
  | 48 => ⟨S_, .f32⟩
  | 49 => ⟨S200000x64, .f32⟩
  | 50 => ⟨S500000x1, .i32⟩
  | 51 => ⟨S200000x64, .f32⟩
  | 52 => ⟨S_, .f32⟩
  | 53 => ⟨S500000, .f32⟩
  | 54 => ⟨S_, .f32⟩
  | 55 => ⟨S200000, .f32⟩
  | 56 => ⟨S500000x1, .i32⟩
  | 57 => ⟨S200000, .f32⟩
  | 58 => ⟨S_, .f32⟩
  | 59 => ⟨S200000, .f32⟩
  | 60 => ⟨S200000, .f32⟩
  | 61 => ⟨S200000x1, .f32⟩
  | 62 => ⟨S200000x64, .f32⟩
  | 63 => ⟨S200000x64, .f32⟩
  | 64 => ⟨S200000x64, .f32⟩
  | 65 => ⟨S1x64, .f32⟩
  | 66 => ⟨S200000x64, .f32⟩
  | 67 => ⟨S200000x64, .f32⟩
  | 68 => ⟨S200000x64, .f32⟩
  | 69 => ⟨S200000x64, .f32⟩
  | 70 => ⟨S1x1x64x64, .f32⟩
  | 71 => ⟨S64x64, .f32⟩
  | 72 => ⟨S1x1x64, .f32⟩
  | 73 => ⟨S64, .f32⟩
  | 74 => ⟨S1x1x64x64, .f32⟩
  | 75 => ⟨S64x64, .f32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x64, .f32⟩
  | 85 => ⟨S_, .f32⟩
  | 86 => ⟨S500000x64, .f32⟩
  | 87 => ⟨S500000x1, .i32⟩
  | 88 => ⟨S500000x64, .f32⟩
  | 89 => ⟨S_, .f32⟩
  | 90 => ⟨S500000, .f32⟩
  | 91 => ⟨S_, .f32⟩
  | 92 => ⟨S500000, .f32⟩
  | 93 => ⟨S500000x1, .i32⟩
  | 94 => ⟨S500000, .f32⟩
  | 95 => ⟨S_, .f32⟩
  | 96 => ⟨S500000, .f32⟩
  | 97 => ⟨S500000, .f32⟩
  | 98 => ⟨S500000x1, .f32⟩
  | 99 => ⟨S500000x64, .f32⟩
  | 100 => ⟨S500000x64, .f32⟩
  | 101 => ⟨S500000x64, .f32⟩
  | 102 => ⟨S1x64, .f32⟩
  | 103 => ⟨S500000x64, .f32⟩
  | 104 => ⟨S500000x64, .f32⟩
  | 105 => ⟨S500000x64, .f32⟩
  | 106 => ⟨S500000x64, .f32⟩
  | 107 => ⟨S1x1x64x64, .f32⟩
  | 108 => ⟨S64x64, .f32⟩
  | 109 => ⟨S1x1x64, .f32⟩
  | 110 => ⟨S64, .f32⟩
  | 111 => ⟨S1x1x64x64, .f32⟩
  | 112 => ⟨S64x64, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x64, .f32⟩
  | 122 => ⟨S_, .f32⟩
  | 123 => ⟨S500000x64, .f32⟩
  | 124 => ⟨S2000000x1, .i32⟩
  | 125 => ⟨S500000x64, .f32⟩
  | 126 => ⟨S_, .f32⟩
  | 127 => ⟨S2000000, .f32⟩
  | _ => ⟨S500000x32, .f32⟩

abbrev hbmTy0_1 (i : Nat) : BufTy := match i % 128 with
  | 0 => ⟨S_, .f32⟩
  | 1 => ⟨S500000, .f32⟩
  | 2 => ⟨S2000000x1, .i32⟩
  | 3 => ⟨S500000, .f32⟩
  | 4 => ⟨S_, .f32⟩
  | 5 => ⟨S500000, .f32⟩
  | 6 => ⟨S500000, .f32⟩
  | 7 => ⟨S500000x1, .f32⟩
  | 8 => ⟨S500000x64, .f32⟩
  | 9 => ⟨S500000x64, .f32⟩
  | 10 => ⟨S500000x64, .f32⟩
  | 11 => ⟨S1x64, .f32⟩
  | 12 => ⟨S500000x64, .f32⟩
  | 13 => ⟨S500000x64, .f32⟩
  | 14 => ⟨S500000x64, .f32⟩
  | 15 => ⟨S500000x64, .f32⟩
  | 16 => ⟨S500000x64, .f32⟩
  | 17 => ⟨S_, .f32⟩
  | 18 => ⟨S500000x64, .f32⟩
  | 19 => ⟨S500000x64, .f32⟩
  | 20 => ⟨S_, .f32⟩
  | 21 => ⟨S500000x64, .f32⟩
  | 22 => ⟨S500000x64, .f32⟩
  | 23 => ⟨S_, .f32⟩
  | 24 => ⟨S200000x64, .f32⟩
  | 25 => ⟨S200000x64, .f32⟩
  | 26 => ⟨S1x1x64x64, .f32⟩
  | 27 => ⟨S64x64, .f32⟩
  | 28 => ⟨S1x1x64, .f32⟩
  | 29 => ⟨S64, .f32⟩
  | 30 => ⟨S1x1x64x64, .f32⟩
  | 31 => ⟨S64x64, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x64, .f32⟩
  | 41 => ⟨S_, .f32⟩
  | 42 => ⟨S200000x64, .f32⟩
  | 43 => ⟨S500000x1, .i32⟩
  | 44 => ⟨S200000x64, .f32⟩
  | 45 => ⟨S_, .f32⟩
  | 46 => ⟨S500000, .f32⟩
  | 47 => ⟨S_, .f32⟩
  | 48 => ⟨S200000, .f32⟩
  | 49 => ⟨S500000x1, .i32⟩
  | 50 => ⟨S200000, .f32⟩
  | 51 => ⟨S_, .f32⟩
  | 52 => ⟨S200000, .f32⟩
  | 53 => ⟨S200000, .f32⟩
  | 54 => ⟨S200000x1, .f32⟩
  | 55 => ⟨S200000x64, .f32⟩
  | 56 => ⟨S200000x64, .f32⟩
  | 57 => ⟨S200000x64, .f32⟩
  | 58 => ⟨S1x64, .f32⟩
  | 59 => ⟨S200000x64, .f32⟩
  | 60 => ⟨S200000x64, .f32⟩
  | 61 => ⟨S200000x64, .f32⟩
  | 62 => ⟨S200000x64, .f32⟩
  | 63 => ⟨S1x1x64x64, .f32⟩
  | 64 => ⟨S64x64, .f32⟩
  | 65 => ⟨S1x1x64, .f32⟩
  | 66 => ⟨S64, .f32⟩
  | 67 => ⟨S1x1x64x64, .f32⟩
  | 68 => ⟨S64x64, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x64, .f32⟩
  | 78 => ⟨S_, .f32⟩
  | 79 => ⟨S500000x64, .f32⟩
  | 80 => ⟨S500000x1, .i32⟩
  | 81 => ⟨S500000x64, .f32⟩
  | 82 => ⟨S_, .f32⟩
  | 83 => ⟨S500000, .f32⟩
  | 84 => ⟨S_, .f32⟩
  | 85 => ⟨S500000, .f32⟩
  | 86 => ⟨S500000x1, .i32⟩
  | 87 => ⟨S500000, .f32⟩
  | 88 => ⟨S_, .f32⟩
  | 89 => ⟨S500000, .f32⟩
  | 90 => ⟨S500000, .f32⟩
  | 91 => ⟨S500000x1, .f32⟩
  | 92 => ⟨S500000x64, .f32⟩
  | 93 => ⟨S500000x64, .f32⟩
  | 94 => ⟨S500000x64, .f32⟩
  | 95 => ⟨S1x64, .f32⟩
  | 96 => ⟨S500000x64, .f32⟩
  | 97 => ⟨S500000x64, .f32⟩
  | 98 => ⟨S500000x64, .f32⟩
  | 99 => ⟨S500000x64, .f32⟩
  | 100 => ⟨S1x1x64x64, .f32⟩
  | 101 => ⟨S64x64, .f32⟩
  | 102 => ⟨S1x1x64, .f32⟩
  | 103 => ⟨S64, .f32⟩
  | 104 => ⟨S1x1x64x64, .f32⟩
  | 105 => ⟨S64x64, .f32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S2000000x1, .i32⟩
  | 114 => ⟨S2000000x64, .f32⟩
  | 115 => ⟨S_, .f32⟩
  | 116 => ⟨S500000x64, .f32⟩
  | 117 => ⟨S2000000x1, .i32⟩
  | 118 => ⟨S500000x64, .f32⟩
  | 119 => ⟨S_, .f32⟩
  | 120 => ⟨S2000000, .f32⟩
  | 121 => ⟨S_, .f32⟩
  | 122 => ⟨S500000, .f32⟩
  | 123 => ⟨S2000000x1, .i32⟩
  | 124 => ⟨S500000, .f32⟩
  | 125 => ⟨S_, .f32⟩
  | 126 => ⟨S500000, .f32⟩
  | 127 => ⟨S500000, .f32⟩
  | _ => ⟨S500000x32, .f32⟩

abbrev hbmTy0_2 (i : Nat) : BufTy := match i % 128 with
  | 0 => ⟨S500000x1, .f32⟩
  | 1 => ⟨S500000x64, .f32⟩
  | 2 => ⟨S500000x64, .f32⟩
  | 3 => ⟨S500000x64, .f32⟩
  | 4 => ⟨S1x64, .f32⟩
  | 5 => ⟨S500000x64, .f32⟩
  | 6 => ⟨S500000x64, .f32⟩
  | 7 => ⟨S500000x64, .f32⟩
  | 8 => ⟨S500000x64, .f32⟩
  | 9 => ⟨S500000x64, .f32⟩
  | 10 => ⟨S_, .f32⟩
  | 11 => ⟨S500000x64, .f32⟩
  | 12 => ⟨S500000x64, .f32⟩
  | 13 => ⟨S_, .f32⟩
  | 14 => ⟨S500000x64, .f32⟩
  | 15 => ⟨S500000x64, .f32⟩
  | 16 => ⟨S_, .f32⟩
  | 17 => ⟨S200000x64, .f32⟩
  | 18 => ⟨S200000x64, .f32⟩
  | 19 => ⟨S1x1x64x64, .f32⟩
  | 20 => ⟨S64x64, .f32⟩
  | 21 => ⟨S1x1x64, .f32⟩
  | 22 => ⟨S64, .f32⟩
  | 23 => ⟨S1x1x64x64, .f32⟩
  | 24 => ⟨S64x64, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x64, .f32⟩
  | 34 => ⟨S_, .f32⟩
  | 35 => ⟨S200000x64, .f32⟩
  | 36 => ⟨S500000x1, .i32⟩
  | 37 => ⟨S200000x64, .f32⟩
  | 38 => ⟨S_, .f32⟩
  | 39 => ⟨S500000, .f32⟩
  | 40 => ⟨S_, .f32⟩
  | 41 => ⟨S200000, .f32⟩
  | 42 => ⟨S500000x1, .i32⟩
  | 43 => ⟨S200000, .f32⟩
  | 44 => ⟨S_, .f32⟩
  | 45 => ⟨S200000, .f32⟩
  | 46 => ⟨S200000, .f32⟩
  | 47 => ⟨S200000x1, .f32⟩
  | 48 => ⟨S200000x64, .f32⟩
  | 49 => ⟨S200000x64, .f32⟩
  | 50 => ⟨S200000x64, .f32⟩
  | 51 => ⟨S1x64, .f32⟩
  | 52 => ⟨S200000x64, .f32⟩
  | 53 => ⟨S200000x64, .f32⟩
  | 54 => ⟨S200000x64, .f32⟩
  | 55 => ⟨S200000x64, .f32⟩
  | 56 => ⟨S1x1x64x64, .f32⟩
  | 57 => ⟨S64x64, .f32⟩
  | 58 => ⟨S1x1x64, .f32⟩
  | 59 => ⟨S64, .f32⟩
  | 60 => ⟨S1x1x64x64, .f32⟩
  | 61 => ⟨S64x64, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x64, .f32⟩
  | 71 => ⟨S_, .f32⟩
  | 72 => ⟨S500000x64, .f32⟩
  | 73 => ⟨S500000x1, .i32⟩
  | 74 => ⟨S500000x64, .f32⟩
  | 75 => ⟨S_, .f32⟩
  | 76 => ⟨S500000, .f32⟩
  | 77 => ⟨S_, .f32⟩
  | 78 => ⟨S500000, .f32⟩
  | 79 => ⟨S500000x1, .i32⟩
  | 80 => ⟨S500000, .f32⟩
  | 81 => ⟨S_, .f32⟩
  | 82 => ⟨S500000, .f32⟩
  | 83 => ⟨S500000, .f32⟩
  | 84 => ⟨S500000x1, .f32⟩
  | 85 => ⟨S500000x64, .f32⟩
  | 86 => ⟨S500000x64, .f32⟩
  | 87 => ⟨S500000x64, .f32⟩
  | 88 => ⟨S1x64, .f32⟩
  | 89 => ⟨S500000x64, .f32⟩
  | 90 => ⟨S500000x64, .f32⟩
  | 91 => ⟨S500000x64, .f32⟩
  | 92 => ⟨S500000x64, .f32⟩
  | 93 => ⟨S1x1x64x64, .f32⟩
  | 94 => ⟨S64x64, .f32⟩
  | 95 => ⟨S1x1x64, .f32⟩
  | 96 => ⟨S64, .f32⟩
  | 97 => ⟨S1x1x64x64, .f32⟩
  | 98 => ⟨S64x64, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S2000000x64, .f32⟩
  | 108 => ⟨S_, .f32⟩
  | 109 => ⟨S500000x64, .f32⟩
  | 110 => ⟨S2000000x1, .i32⟩
  | 111 => ⟨S500000x64, .f32⟩
  | 112 => ⟨S_, .f32⟩
  | 113 => ⟨S2000000, .f32⟩
  | 114 => ⟨S_, .f32⟩
  | 115 => ⟨S500000, .f32⟩
  | 116 => ⟨S2000000x1, .i32⟩
  | 117 => ⟨S500000, .f32⟩
  | 118 => ⟨S_, .f32⟩
  | 119 => ⟨S500000, .f32⟩
  | 120 => ⟨S500000, .f32⟩
  | 121 => ⟨S500000x1, .f32⟩
  | 122 => ⟨S500000x64, .f32⟩
  | 123 => ⟨S500000x64, .f32⟩
  | 124 => ⟨S500000x64, .f32⟩
  | 125 => ⟨S1x64, .f32⟩
  | 126 => ⟨S500000x64, .f32⟩
  | 127 => ⟨S500000x64, .f32⟩
  | _ => ⟨S500000x32, .f32⟩

abbrev hbmTy0_3 (i : Nat) : BufTy := match i % 128 with
  | 0 => ⟨S500000x64, .f32⟩
  | 1 => ⟨S500000x64, .f32⟩
  | 2 => ⟨S500000x64, .f32⟩
  | 3 => ⟨S_, .f32⟩
  | 4 => ⟨S500000x64, .f32⟩
  | 5 => ⟨S500000x64, .f32⟩
  | 6 => ⟨S_, .f32⟩
  | 7 => ⟨S500000x64, .f32⟩
  | 8 => ⟨S500000x64, .f32⟩
  | 9 => ⟨S_, .f32⟩
  | 10 => ⟨S200000x64, .f32⟩
  | 11 => ⟨S200000x64, .f32⟩
  | 12 => ⟨S500000x32, .f32⟩
  | 13 => ⟨S1x32, .f32⟩
  | 14 => ⟨S500000x32, .f32⟩
  | 15 => ⟨S500000x32, .f32⟩
  | 16 => ⟨S_, .f32⟩
  | 17 => ⟨S500000x32, .f32⟩
  | 18 => ⟨S500000x32, .f32⟩
  | 19 => ⟨S500000x1, .f32⟩
  | 20 => ⟨S1x1, .f32⟩
  | 21 => ⟨S500000x1, .f32⟩
  | 22 => ⟨S500000x1, .f32⟩
  | 23 => ⟨S500000, .f32⟩
  | _ => ⟨S500000x32, .f32⟩

abbrev hbmTy (i : Nat) : BufTy := match i / 128 with
  | 0 => hbmTy0_0 i
  | 1 => hbmTy0_1 i
  | 2 => hbmTy0_2 i
  | 3 => hbmTy0_3 i
  | _ => ⟨S500000x32, .f32⟩

abbrev bufTy : (tb : Table) → Fin (tcTables nBuf tb) → BufTy
  | .hbm, ⟨i, _⟩ => hbmTy i
  | _, _ => ⟨S500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_cst_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_4 : Ref sig .tc := ⟨.hbm, 76, rfl⟩
abbrev main_v47 : Ref sig .tc := ⟨.hbm, 77, rfl⟩
abbrev main_v48 : Ref sig .tc := ⟨.hbm, 78, rfl⟩
abbrev main_c_5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_10 : Ref sig .tc := ⟨.hbm, 113, rfl⟩
abbrev main_v78 : Ref sig .tc := ⟨.hbm, 114, rfl⟩
abbrev main_v79 : Ref sig .tc := ⟨.hbm, 115, rfl⟩
abbrev main_c_11 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_12 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_13 : Ref sig .tc := ⟨.hbm, 126, rfl⟩
abbrev main_v88 : Ref sig .tc := ⟨.hbm, 127, rfl⟩
abbrev main_cst_14 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_15 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_16 : Ref sig .tc := ⟨.hbm, 145, rfl⟩
abbrev main_v104 : Ref sig .tc := ⟨.hbm, 146, rfl⟩
abbrev main_v105 : Ref sig .tc := ⟨.hbm, 147, rfl⟩
abbrev main_call2_cst : Ref sig .tc := ⟨.hbm, 148, rfl⟩
abbrev main_call2_v0 : Ref sig .tc := ⟨.hbm, 149, rfl⟩
abbrev main_v106 : Ref sig .tc := ⟨.hbm, 150, rfl⟩
abbrev main_call3_cst : Ref sig .tc := ⟨.hbm, 151, rfl⟩
abbrev main_call3_v0 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_17 : Ref sig .tc := ⟨.hbm, 160, rfl⟩
abbrev main_v114 : Ref sig .tc := ⟨.hbm, 161, rfl⟩
abbrev main_v115 : Ref sig .tc := ⟨.hbm, 162, rfl⟩
abbrev main_c_18 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_19 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_20 : Ref sig .tc := ⟨.hbm, 173, rfl⟩
abbrev main_v124 : Ref sig .tc := ⟨.hbm, 174, rfl⟩
abbrev main_cst_21 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_22 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_c_23 : Ref sig .tc := ⟨.hbm, 197, rfl⟩
abbrev main_v145 : Ref sig .tc := ⟨.hbm, 198, rfl⟩
abbrev main_v146 : Ref sig .tc := ⟨.hbm, 199, rfl⟩
abbrev main_c_24 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_25 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_26 : Ref sig .tc := ⟨.hbm, 210, rfl⟩
abbrev main_v155 : Ref sig .tc := ⟨.hbm, 211, rfl⟩
abbrev main_cst_27 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_28 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_c_29 : Ref sig .tc := ⟨.hbm, 234, rfl⟩
abbrev main_v176 : Ref sig .tc := ⟨.hbm, 235, rfl⟩
abbrev main_v177 : Ref sig .tc := ⟨.hbm, 236, rfl⟩
abbrev main_c_30 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_cst_31 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_cst_32 : Ref sig .tc := ⟨.hbm, 247, rfl⟩
abbrev main_v186 : Ref sig .tc := ⟨.hbm, 248, rfl⟩
abbrev main_cst_33 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_cst_34 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_cst_35 : Ref sig .tc := ⟨.hbm, 266, rfl⟩
abbrev main_v202 : Ref sig .tc := ⟨.hbm, 267, rfl⟩
abbrev main_v203 : Ref sig .tc := ⟨.hbm, 268, rfl⟩
abbrev main_call4_cst : Ref sig .tc := ⟨.hbm, 269, rfl⟩
abbrev main_call4_v0 : Ref sig .tc := ⟨.hbm, 270, rfl⟩
abbrev main_v204 : Ref sig .tc := ⟨.hbm, 271, rfl⟩
abbrev main_call5_cst : Ref sig .tc := ⟨.hbm, 272, rfl⟩
abbrev main_call5_v0 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_c_36 : Ref sig .tc := ⟨.hbm, 281, rfl⟩
abbrev main_v212 : Ref sig .tc := ⟨.hbm, 282, rfl⟩
abbrev main_v213 : Ref sig .tc := ⟨.hbm, 283, rfl⟩
abbrev main_c_37 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_cst_38 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_cst_39 : Ref sig .tc := ⟨.hbm, 294, rfl⟩
abbrev main_v222 : Ref sig .tc := ⟨.hbm, 295, rfl⟩
abbrev main_cst_40 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_cst_41 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_c_42 : Ref sig .tc := ⟨.hbm, 318, rfl⟩
abbrev main_v243 : Ref sig .tc := ⟨.hbm, 319, rfl⟩
abbrev main_v244 : Ref sig .tc := ⟨.hbm, 320, rfl⟩
abbrev main_c_43 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_cst_44 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_cst_45 : Ref sig .tc := ⟨.hbm, 331, rfl⟩
abbrev main_v253 : Ref sig .tc := ⟨.hbm, 332, rfl⟩
abbrev main_cst_46 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_cst_47 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_c_48 : Ref sig .tc := ⟨.hbm, 355, rfl⟩
abbrev main_v274 : Ref sig .tc := ⟨.hbm, 356, rfl⟩
abbrev main_v275 : Ref sig .tc := ⟨.hbm, 357, rfl⟩
abbrev main_c_49 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_cst_50 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_cst_51 : Ref sig .tc := ⟨.hbm, 368, rfl⟩
abbrev main_v284 : Ref sig .tc := ⟨.hbm, 369, rfl⟩
abbrev main_cst_52 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_cst_53 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_cst_54 : Ref sig .tc := ⟨.hbm, 387, rfl⟩
abbrev main_v300 : Ref sig .tc := ⟨.hbm, 388, rfl⟩
abbrev main_v301 : Ref sig .tc := ⟨.hbm, 389, rfl⟩
abbrev main_call6_cst : Ref sig .tc := ⟨.hbm, 390, rfl⟩
abbrev main_call6_v0 : Ref sig .tc := ⟨.hbm, 391, rfl⟩
abbrev main_v302 : Ref sig .tc := ⟨.hbm, 392, rfl⟩
abbrev main_call7_cst : Ref sig .tc := ⟨.hbm, 393, rfl⟩
abbrev main_call7_v0 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_v306 : Ref sig .tc := ⟨.hbm, 398, rfl⟩
abbrev main_v307 : Ref sig .tc := ⟨.hbm, 399, rfl⟩
abbrev main_call8_cst : Ref sig .tc := ⟨.hbm, 400, rfl⟩
abbrev main_call8_v0 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  slices_S3x3x64x64_S1x1x64x64_0_0_0_0 : S3x3x64x64.Slices ![0, 0, 0, 0] S1x1x64x64
  shapeCasts_S1x1x64x64_S64x64 : S1x1x64x64.ShapeCasts S64x64
  slices_S3x3x64_S1x1x64_0_0_0 : S3x3x64.Slices ![0, 0, 0] S1x1x64
  shapeCasts_S1x1x64_S64 : S1x1x64.ShapeCasts S64
  bcast_S_S500000 : S_.BroadcastsInDim S500000 (![] : Fin 0 → Fin S500000.rank)
  bcast_S500000_S500000x1_0 : S500000.BroadcastsInDim S500000x1 (![0] : Fin 1 → Fin S500000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  slices_S3x3x64x64_S1x1x64x64_0_1_0_0 : S3x3x64x64.Slices ![0, 1, 0, 0] S1x1x64x64
  slices_S3x3x64_S1x1x64_0_1_0 : S3x3x64.Slices ![0, 1, 0] S1x1x64
  bcast_S500000x1_S500000x64_0_1 : S500000x1.BroadcastsInDim S500000x64 (![0, 1] : Fin 2 → Fin S500000x64.rank)
  slices_S3x3x64x64_S1x1x64x64_0_2_0_0 : S3x3x64x64.Slices ![0, 2, 0, 0] S1x1x64x64
  slices_S3x3x64_S1x1x64_0_2_0 : S3x3x64.Slices ![0, 2, 0] S1x1x64
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S3x3x64x64_S1x1x64x64_1_0_0_0 : S3x3x64x64.Slices ![1, 0, 0, 0] S1x1x64x64
  slices_S3x3x64_S1x1x64_1_0_0 : S3x3x64.Slices ![1, 0, 0] S1x1x64
  slices_S3x3x64x64_S1x1x64x64_1_1_0_0 : S3x3x64x64.Slices ![1, 1, 0, 0] S1x1x64x64
  slices_S3x3x64_S1x1x64_1_1_0 : S3x3x64.Slices ![1, 1, 0] S1x1x64
  slices_S3x3x64x64_S1x1x64x64_1_2_0_0 : S3x3x64x64.Slices ![1, 2, 0, 0] S1x1x64x64
  slices_S3x3x64_S1x1x64_1_2_0 : S3x3x64.Slices ![1, 2, 0] S1x1x64
  slices_S3x3x64x64_S1x1x64x64_2_0_0_0 : S3x3x64x64.Slices ![2, 0, 0, 0] S1x1x64x64
  slices_S3x3x64_S1x1x64_2_0_0 : S3x3x64.Slices ![2, 0, 0] S1x1x64
  slices_S3x3x64x64_S1x1x64x64_2_1_0_0 : S3x3x64x64.Slices ![2, 1, 0, 0] S1x1x64x64
  slices_S3x3x64_S1x1x64_2_1_0 : S3x3x64.Slices ![2, 1, 0] S1x1x64
  slices_S3x3x64x64_S1x1x64x64_2_2_0_0 : S3x3x64x64.Slices ![2, 2, 0, 0] S1x1x64x64
  slices_S3x3x64_S1x1x64_2_2_0 : S3x3x64.Slices ![2, 2, 0] S1x1x64
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  dot_S500000x32_S32x64_S500000x64_1_0_0_1_n_n_wf : DotDims.WF S500000x32 S32x64 S500000x64 [1] [0] [0] [1] [] []
  dot_S200000x16_S16x64_S200000x64_1_0_0_1_n_n_wf : DotDims.WF S200000x16 S16x64 S200000x64 [1] [0] [0] [1] [] []
  gather_S500000x64_S500000x1_S500000x64_1_0_n_n_0_1_164_wf : GatherDims.WF S500000x64 S500000x1 S500000x64 [1] [0] [] [0] [] 1 ![1, 64]
  scatter_S200000x64_S500000x1_S500000x64_1_0_0_1_wf : ScatterDims.WF S200000x64 S500000x1 S500000x64 [1] [0] [0] 1
  scatter_S200000_S500000x1_S500000_n_0_0_1_wf : ScatterDims.WF S200000 S500000x1 S500000 [] [0] [0] 1
  dot_S200000x64_S64x64_S200000x64_1_0_0_1_n_n_wf : DotDims.WF S200000x64 S64x64 S200000x64 [1] [0] [0] [1] [] []
  gather_S200000x64_S500000x1_S500000x64_1_0_n_n_0_1_164_wf : GatherDims.WF S200000x64 S500000x1 S500000x64 [1] [0] [] [0] [] 1 ![1, 64]
  scatter_S500000x64_S500000x1_S500000x64_1_0_0_1_wf : ScatterDims.WF S500000x64 S500000x1 S500000x64 [1] [0] [0] 1
  scatter_S500000_S500000x1_S500000_n_0_0_1_wf : ScatterDims.WF S500000 S500000x1 S500000 [] [0] [0] 1
  dot_S500000x64_S64x64_S500000x64_1_0_0_1_n_n_wf : DotDims.WF S500000x64 S64x64 S500000x64 [1] [0] [0] [1] [] []
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  scatter_S500000_S2000000x1_S2000000_n_0_0_1_wf : ScatterDims.WF S500000 S2000000x1 S2000000 [] [0] [0] 1
  dot_S500000x64_S64x32_S500000x32_1_0_0_1_n_n_wf : DotDims.WF S500000x64 S64x32 S500000x32 [1] [0] [0] [1] [] []
  dot_S500000x32_S32x1_S500000x1_1_0_0_1_n_n_wf : DotDims.WF S500000x32 S32x1 S500000x1 [1] [0] [0] [1] [] []

variable [Facts₀]

def dot_S500000x32_S32x64_S500000x64_1_0_0_1_n_n : DotDims S500000x32 S32x64 S500000x64 where
  lhsContracting := [1]
  rhsContracting := [0]
  lhsNonContracting := [0]
  rhsNonContracting := [1]
  lhsBatch := []
  rhsBatch := []
  wf := dot_S500000x32_S32x64_S500000x64_1_0_0_1_n_n_wf
def dot_S200000x16_S16x64_S200000x64_1_0_0_1_n_n : DotDims S200000x16 S16x64 S200000x64 where
  lhsContracting := [1]
  rhsContracting := [0]
  lhsNonContracting := [0]
  rhsNonContracting := [1]
  lhsBatch := []
  rhsBatch := []
  wf := dot_S200000x16_S16x64_S200000x64_1_0_0_1_n_n_wf
def gather_S500000x64_S500000x1_S500000x64_1_0_n_n_0_1_164 : GatherDims S500000x64 S500000x1 S500000x64 where
  offsetDims := [1]
  collapsedSliceDims := [0]
  operandBatchingDims := []
  startIndicesBatchingDims := []
  startIndexMap := [0]
  indexVectorDim := 1
  sliceSizes := ![1, 64]
  wf := gather_S500000x64_S500000x1_S500000x64_1_0_n_n_0_1_164_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def scatter_S500000x64_S500000x1_S500000x64_1_0_0_1 : ScatterDims S500000x64 S500000x1 S500000x64 where
  updateWindowDims := [1]
  insertedWindowDims := [0]
  scatterDimsToOperandDims := [0]
  indexVectorDim := 1
  wf := scatter_S500000x64_S500000x1_S500000x64_1_0_0_1_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def dot_S500000x64_S64x32_S500000x32_1_0_0_1_n_n : DotDims S500000x64 S64x32 S500000x32 where
  lhsContracting := [1]
  rhsContracting := [0]
  lhsNonContracting := [0]
  rhsNonContracting := [1]
  lhsBatch := []
  rhsBatch := []
  wf := dot_S500000x64_S64x32_S500000x32_1_0_0_1_n_n_wf
def dot_S500000x32_S32x1_S500000x1_1_0_0_1_n_n : DotDims S500000x32 S32x1 S500000x1 where
  lhsContracting := [1]
  rhsContracting := [0]
  lhsNonContracting := [0]
  rhsNonContracting := [1]
  lhsBatch := []
  rhsBatch := []
  wf := dot_S500000x32_S32x1_S500000x1_1_0_0_1_n_n_wf

class Facts : Prop extends Facts₀ where

variable [Facts]
-- ==== Proof.KRun.lean ====
/-
  The kernel program's run with its result named.

  Every weakly fair execution of the program on the TensorCores, from any memory with zero counters, terminates without
  fault; in every final state the result buffer holds the contents that folding the program's segments over the launch
  memory gives it (the host stretches applied in order, each region's arrays replaced by what its write-backs leave),
  and every argument array is as launched.
-/
import proofs.«139518_j50508815401658_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, valued: the result buffer ends at the last boundary's contents, the arguments as launched. -/
theorem run_valued : θ_run defs (onTc (τ := τ) (main (F := F))) ⟨m, fun _ => 0, ρ⟩ (fun r => ∀ c : Dev nD,
      r.2.mem ((c.tc : Thread nD τ).loc main_v229) = Gen.W19 m ρ c (Proc.devRef .tc main_v229)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v229 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c)⟩)

end Cert.KernelIdeal.KRun

end
-- ==== Proof.KDefs.lean ====
/-
  The graph aggregations of the kernel program's host side, each as one function of the arrays it reads.

  For each of the three relations (planet→star, star→planet, planet→planet): the clamped neighbour count of every
  destination node, and the sum over a destination's incoming edges of the source node's feature row.  These are the
  program's own operation terms composed; nothing downstream looks inside them.
-/
import proofs.«139518_j50508815401658_2_alg».proof.Proof.Gen.KernelIdeal
import Idealize.ShloMosaic.PureOps.Ideal

noncomputable section

namespace Cert.KernelIdeal.KDefs

open Cert.KernelIdeal Cert.KernelIdeal.Gen
open Idealize.ShloMosaic

/-- Neighbour counts of the star nodes under the planet→star relation, clamped below at one: ones scattered-added along the destination indices into zeros, then the entrywise maximum with one. -/
def cO (dst : (⟨S500000, .i32⟩ : BufTy).Contents (Elt Ideal)) : (⟨S200000, .f32⟩ : BufTy).Contents (Elt Ideal) :=
  ((maximumf (F := Ideal) (φ := .f32) : (⟨S200000, .f32⟩ : BufTy).Contents (Elt Ideal) → (⟨S200000, .f32⟩ : BufTy).Contents (Elt Ideal) → (⟨S200000, .f32⟩ : BufTy).Contents (Elt Ideal)) (((fun x i u => Host.scatterAdd (F := Ideal) (φ := .f32) scatter_S200000_S500000x1_S500000_n_0_0_1 x i u) : (⟨S200000, .f32⟩ : BufTy).Contents (Elt Ideal) → (⟨S500000x1, .i32⟩ : BufTy).Contents (Elt Ideal) → (⟨S500000, .f32⟩ : BufTy).Contents (Elt Ideal) → (⟨S200000, .f32⟩ : BufTy).Contents (Elt Ideal)) ((broadcastInDim S200000 ![] bcast_S_S200000 : (⟨S_, .f32⟩ : BufTy).Contents (Elt Ideal) → (⟨S200000, .f32⟩ : BufTy).Contents (Elt Ideal)) (constant (F := Ideal) S_ .f32 0x00000000#32)) ((broadcastInDim S500000x1 ![0] bcast_S500000_S500000x1_0 : (⟨S500000, .i32⟩ : BufTy).Contents (Elt Ideal) → (⟨S500000x1, .i32⟩ : BufTy).Contents (Elt Ideal)) dst) ((broadcastInDim S500000 ![] bcast_S_S500000 : (⟨S_, .f32⟩ : BufTy).Contents (Elt Ideal) → (⟨S500000, .f32⟩ : BufTy).Contents (Elt Ideal)) (constant (F := Ideal) S_ .f32 0x3F800000#32))) ((broadcastInDim S200000 ![] bcast_S_S200000 : (⟨S_, .f32⟩ : BufTy).Contents (Elt Ideal) → (⟨S200000, .f32⟩ : BufTy).Contents (Elt Ideal)) (constant (F := Ideal) S_ .f32 0x3F800000#32)))

/-- Neighbour counts of the planet nodes under the star→planet relation, clamped below at one. -/
def cH (dst : (⟨S500000, .i32⟩ : BufTy).Contents (Elt Ideal)) : (⟨S500000, .f32⟩ : BufTy).Contents (Elt Ideal) :=
  ((maximumf (F := Ideal) (φ := .f32) : (⟨S500000, .f32⟩ : BufTy).Contents (Elt Ideal) → (⟨S500000, .f32⟩ : BufTy).Contents (Elt Ideal) → (⟨S500000, .f32⟩ : BufTy).Contents (Elt Ideal)) (((fun x i u => Host.scatterAdd (F := Ideal) (φ := .f32) scatter_S500000_S500000x1_S500000_n_0_0_1 x i u) : (⟨S500000, .f32⟩ : BufTy).Contents (Elt Ideal) → (⟨S500000x1, .i32⟩ : BufTy).Contents (Elt Ideal) → (⟨S500000, .f32⟩ : BufTy).Contents (Elt Ideal) → (⟨S500000, .f32⟩ : BufTy).Contents (Elt Ideal)) ((broadcastInDim S500000 ![] bcast_S_S500000 : (⟨S_, .f32⟩ : BufTy).Contents (Elt Ideal) → (⟨S500000, .f32⟩ : BufTy).Contents (Elt Ideal)) (constant (F := Ideal) S_ .f32 0x00000000#32)) ((broadcastInDim S500000x1 ![0] bcast_S500000_S500000x1_0 : (⟨S500000, .i32⟩ : BufTy).Contents (Elt Ideal) → (⟨S500000x1, .i32⟩ : BufTy).Contents (Elt Ideal)) dst) ((broadcastInDim S500000 ![] bcast_S_S500000 : (⟨S_, .f32⟩ : BufTy).Contents (Elt Ideal) → (⟨S500000, .f32⟩ : BufTy).Contents (Elt Ideal)) (constant (F := Ideal) S_ .f32 0x3F800000#32))) ((broadcastInDim S500000 ![] bcast_S_S500000 : (⟨S_, .f32⟩ : BufTy).Contents (Elt Ideal) → (⟨S500000, .f32⟩ : BufTy).Contents (Elt Ideal)) (constant (F := Ideal) S_ .f32 0x3F800000#32)))

/-- Neighbour counts of the planet nodes under the planet→planet relation, clamped below at one. -/
def cS (dst : (⟨S2000000, .i32⟩ : BufTy).Contents (Elt Ideal)) : (⟨S500000, .f32⟩ : BufTy).Contents (Elt Ideal) :=
  ((maximumf (F := Ideal) (φ := .f32) : (⟨S500000, .f32⟩ : BufTy).Contents (Elt Ideal) → (⟨S500000, .f32⟩ : BufTy).Contents (Elt Ideal) → (⟨S500000, .f32⟩ : BufTy).Contents (Elt Ideal)) (((fun x i u => Host.scatterAdd (F := Ideal) (φ := .f32) scatter_S500000_S2000000x1_S2000000_n_0_0_1 x i u) : (⟨S500000, .f32⟩ : BufTy).Contents (Elt Ideal) → (⟨S2000000x1, .i32⟩ : BufTy).Contents (Elt Ideal) → (⟨S2000000, .f32⟩ : BufTy).Contents (Elt Ideal) → (⟨S500000, .f32⟩ : BufTy).Contents (Elt Ideal)) ((broadcastInDim S500000 ![] bcast_S_S500000 : (⟨S_, .f32⟩ : BufTy).Contents (Elt Ideal) → (⟨S500000, .f32⟩ : BufTy).Contents (Elt Ideal)) (constant (F := Ideal) S_ .f32 0x00000000#32)) ((broadcastInDim S2000000x1 ![0] bcast_S2000000_S2000000x1_0 : (⟨S2000000, .i32⟩ : BufTy).Contents (Elt Ideal) → (⟨S2000000x1, .i32⟩ : BufTy).Contents (Elt Ideal)) dst) ((broadcastInDim S2000000 ![] bcast_S_S2000000 : (⟨S_, .f32⟩ : BufTy).Contents (Elt Ideal) → (⟨S2000000, .f32⟩ : BufTy).Contents (Elt Ideal)) (constant (F := Ideal) S_ .f32 0x3F800000#32))) ((broadcastInDim S500000 ![] bcast_S_S500000 : (⟨S_, .f32⟩ : BufTy).Contents (Elt Ideal) → (⟨S500000, .f32⟩ : BufTy).Contents (Elt Ideal)) (constant (F := Ideal) S_ .f32 0x3F800000#32)))

/-- Neighbour sums for the planet→star relation: the source rows of `h` (a negative index wrapped once), widened to single precision, scattered-added along the destination indices into zeros. -/
def aggO (h : (⟨S500000x64, .bf16⟩ : BufTy).Contents (Elt Ideal)) (src dst : (⟨S500000, .i32⟩ : BufTy).Contents (Elt Ideal)) : (⟨S200000x64, .f32⟩ : BufTy).Contents (Elt Ideal) :=
  (((fun x i u => Host.scatterAdd (F := Ideal) (φ := .f32) scatter_S200000x64_S500000x1_S500000x64_1_0_0_1 x i u) : (⟨S200000x64, .f32⟩ : BufTy).Contents (Elt Ideal) → (⟨S500000x1, .i32⟩ : BufTy).Contents (Elt Ideal) → (⟨S500000x64, .f32⟩ : BufTy).Contents (Elt Ideal) → (⟨S200000x64, .f32⟩ : BufTy).Contents (Elt Ideal)) ((broadcastInDim S200000x64 ![] bcast_S_S200000x64 : (⟨S_, .f32⟩ : BufTy).Contents (Elt Ideal) → (⟨S200000x64, .f32⟩ : BufTy).Contents (Elt Ideal)) (constant (F := Ideal) S_ .f32 0x00000000#32)) ((broadcastInDim S500000x1 ![0] bcast_S500000_S500000x1_0 : (⟨S500000, .i32⟩ : BufTy).Contents (Elt Ideal) → (⟨S500000x1, .i32⟩ : BufTy).Contents (Elt Ideal)) dst) (((extf (F := Ideal) (φ := .bf16) .f32 · bitsLt_bf16_f32) : (⟨S500000x64, .bf16⟩ : BufTy).Contents (Elt Ideal) → (⟨S500000x64, .f32⟩ : BufTy).Contents (Elt Ideal)) (((fun x i => Host.gather gather_S500000x64_S500000x1_S500000x64_1_0_n_n_0_1_164 x i) : (⟨S500000x64, .bf16⟩ : BufTy).Contents (Elt Ideal) → (⟨S500000x1, .i32⟩ : BufTy).Contents (Elt Ideal) → (⟨S500000x64, .bf16⟩ : BufTy).Contents (Elt Ideal)) h ((broadcastInDim S500000x1 ![0] bcast_S500000_S500000x1_0 : (⟨S500000, .i32⟩ : BufTy).Contents (Elt Ideal) → (⟨S500000x1, .i32⟩ : BufTy).Contents (Elt Ideal)) ((select : (⟨S500000, .i1⟩ : BufTy).Contents (Elt Ideal) → (⟨S500000, .i32⟩ : BufTy).Contents (Elt Ideal) → (⟨S500000, .i32⟩ : BufTy).Contents (Elt Ideal) → (⟨S500000, .i32⟩ : BufTy).Contents (Elt Ideal)) ((cmpi .slt : (⟨S500000, .i32⟩ : BufTy).Contents (Elt Ideal) → (⟨S500000, .i32⟩ : BufTy).Contents (Elt Ideal) → (⟨S500000, .i1⟩ : BufTy).Contents (Elt Ideal)) src ((broadcastInDim S500000 ![] bcast_S_S500000 : (⟨S_, .i32⟩ : BufTy).Contents (Elt Ideal) → (⟨S500000, .i32⟩ : BufTy).Contents (Elt Ideal)) (constantI S_ 32 0#32))) ((addi : (⟨S500000, .i32⟩ : BufTy).Contents (Elt Ideal) → (⟨S500000, .i32⟩ : BufTy).Contents (Elt Ideal) → (⟨S500000, .i32⟩ : BufTy).Contents (Elt Ideal)) src ((broadcastInDim S500000 ![] bcast_S_S500000 : (⟨S_, .i32⟩ : BufTy).Contents (Elt Ideal) → (⟨S500000, .i32⟩ : BufTy).Contents (Elt Ideal)) (constantI S_ 32 500000#32))) src)))))

/-- Neighbour sums for the star→planet relation. -/
def aggH (h : (⟨S200000x64, .bf16⟩ : BufTy).Contents (Elt Ideal)) (src dst : (⟨S500000, .i32⟩ : BufTy).Contents (Elt Ideal)) : (⟨S500000x64, .f32⟩ : BufTy).Contents (Elt Ideal) :=
  (((fun x i u => Host.scatterAdd (F := Ideal) (φ := .f32) scatter_S500000x64_S500000x1_S500000x64_1_0_0_1 x i u) : (⟨S500000x64, .f32⟩ : BufTy).Contents (Elt Ideal) → (⟨S500000x1, .i32⟩ : BufTy).Contents (Elt Ideal) → (⟨S500000x64, .f32⟩ : BufTy).Contents (Elt Ideal) → (⟨S500000x64, .f32⟩ : BufTy).Contents (Elt Ideal)) ((broadcastInDim S500000x64 ![] bcast_S_S500000x64 : (⟨S_, .f32⟩ : BufTy).Contents (Elt Ideal) → (⟨S500000x64, .f32⟩ : BufTy).Contents (Elt Ideal)) (constant (F := Ideal) S_ .f32 0x00000000#32)) ((broadcastInDim S500000x1 ![0] bcast_S500000_S500000x1_0 : (⟨S500000, .i32⟩ : BufTy).Contents (Elt Ideal) → (⟨S500000x1, .i32⟩ : BufTy).Contents (Elt Ideal)) dst) (((extf (F := Ideal) (φ := .bf16) .f32 · bitsLt_bf16_f32) : (⟨S500000x64, .bf16⟩ : BufTy).Contents (Elt Ideal) → (⟨S500000x64, .f32⟩ : BufTy).Contents (Elt Ideal)) (((fun x i => Host.gather gather_S200000x64_S500000x1_S500000x64_1_0_n_n_0_1_164 x i) : (⟨S200000x64, .bf16⟩ : BufTy).Contents (Elt Ideal) → (⟨S500000x1, .i32⟩ : BufTy).Contents (Elt Ideal) → (⟨S500000x64, .bf16⟩ : BufTy).Contents (Elt Ideal)) h ((broadcastInDim S500000x1 ![0] bcast_S500000_S500000x1_0 : (⟨S500000, .i32⟩ : BufTy).Contents (Elt Ideal) → (⟨S500000x1, .i32⟩ : BufTy).Contents (Elt Ideal)) ((select : (⟨S500000, .i1⟩ : BufTy).Contents (Elt Ideal) → (⟨S500000, .i32⟩ : BufTy).Contents (Elt Ideal) → (⟨S500000, .i32⟩ : BufTy).Contents (Elt Ideal) → (⟨S500000, .i32⟩ : BufTy).Contents (Elt Ideal)) ((cmpi .slt : (⟨S500000, .i32⟩ : BufTy).Contents (Elt Ideal) → (⟨S500000, .i32⟩ : BufTy).Contents (Elt Ideal) → (⟨S500000, .i1⟩ : BufTy).Contents (Elt Ideal)) src ((broadcastInDim S500000 ![] bcast_S_S500000 : (⟨S_, .i32⟩ : BufTy).Contents (Elt Ideal) → (⟨S500000, .i32⟩ : BufTy).Contents (Elt Ideal)) (constantI S_ 32 0#32))) ((addi : (⟨S500000, .i32⟩ : BufTy).Contents (Elt Ideal) → (⟨S500000, .i32⟩ : BufTy).Contents (Elt Ideal) → (⟨S500000, .i32⟩ : BufTy).Contents (Elt Ideal)) src ((broadcastInDim S500000 ![] bcast_S_S500000 : (⟨S_, .i32⟩ : BufTy).Contents (Elt Ideal) → (⟨S500000, .i32⟩ : BufTy).Contents (Elt Ideal)) (constantI S_ 32 200000#32))) src)))))

/-- Neighbour sums for the planet→planet relation. -/
def aggS (h : (⟨S500000x64, .bf16⟩ : BufTy).Contents (Elt Ideal)) (src dst : (⟨S2000000, .i32⟩ : BufTy).Contents (Elt Ideal)) : (⟨S500000x64, .f32⟩ : BufTy).Contents (Elt Ideal) :=
  (((fun x i u => Host.scatterAdd (F := Ideal) (φ := .f32) scatter_S500000x64_S2000000x1_S2000000x64_1_0_0_1 x i u) : (⟨S500000x64, .f32⟩ : BufTy).Contents (Elt Ideal) → (⟨S2000000x1, .i32⟩ : BufTy).Contents (Elt Ideal) → (⟨S2000000x64, .f32⟩ : BufTy).Contents (Elt Ideal) → (⟨S500000x64, .f32⟩ : BufTy).Contents (Elt Ideal)) ((broadcastInDim S500000x64 ![] bcast_S_S500000x64 : (⟨S_, .f32⟩ : BufTy).Contents (Elt Ideal) → (⟨S500000x64, .f32⟩ : BufTy).Contents (Elt Ideal)) (constant (F := Ideal) S_ .f32 0x00000000#32)) ((broadcastInDim S2000000x1 ![0] bcast_S2000000_S2000000x1_0 : (⟨S2000000, .i32⟩ : BufTy).Contents (Elt Ideal) → (⟨S2000000x1, .i32⟩ : BufTy).Contents (Elt Ideal)) dst) (((extf (F := Ideal) (φ := .bf16) .f32 · bitsLt_bf16_f32) : (⟨S2000000x64, .bf16⟩ : BufTy).Contents (Elt Ideal) → (⟨S2000000x64, .f32⟩ : BufTy).Contents (Elt Ideal)) (((fun x i => Host.gather gather_S500000x64_S2000000x1_S2000000x64_1_0_n_n_0_1_164 x i) : (⟨S500000x64, .bf16⟩ : BufTy).Contents (Elt Ideal) → (⟨S2000000x1, .i32⟩ : BufTy).Contents (Elt Ideal) → (⟨S2000000x64, .bf16⟩ : BufTy).Contents (Elt Ideal)) h ((broadcastInDim S2000000x1 ![0] bcast_S2000000_S2000000x1_0 : (⟨S2000000, .i32⟩ : BufTy).Contents (Elt Ideal) → (⟨S2000000x1, .i32⟩ : BufTy).Contents (Elt Ideal)) ((select : (⟨S2000000, .i1⟩ : BufTy).Contents (Elt Ideal) → (⟨S2000000, .i32⟩ : BufTy).Contents (Elt Ideal) → (⟨S2000000, .i32⟩ : BufTy).Contents (Elt Ideal) → (⟨S2000000, .i32⟩ : BufTy).Contents (Elt Ideal)) ((cmpi .slt : (⟨S2000000, .i32⟩ : BufTy).Contents (Elt Ideal) → (⟨S2000000, .i32⟩ : BufTy).Contents (Elt Ideal) → (⟨S2000000, .i1⟩ : BufTy).Contents (Elt Ideal)) src ((broadcastInDim S2000000 ![] bcast_S_S2000000 : (⟨S_, .i32⟩ : BufTy).Contents (Elt Ideal) → (⟨S2000000, .i32⟩ : BufTy).Contents (Elt Ideal)) (constantI S_ 32 0#32))) ((addi : (⟨S2000000, .i32⟩ : BufTy).Contents (Elt Ideal) → (⟨S2000000, .i32⟩ : BufTy).Contents (Elt Ideal) → (⟨S2000000, .i32⟩ : BufTy).Contents (Elt Ideal)) src ((broadcastInDim S2000000 ![] bcast_S_S2000000 : (⟨S_, .i32⟩ : BufTy).Contents (Elt Ideal) → (⟨S2000000, .i32⟩ : BufTy).Contents (Elt Ideal)) (constantI S_ 32 500000#32))) src)))))

end Cert.KernelIdeal.KDefs

end
-- ==== Proof.KHost0.lean ====
/-
  Host stretch 0 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost0

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_v0]

theorem writes_sub : (hostOps0 (F := Ideal)).Forall fun op => op.writes ⊆ (writes.map (Proc.devRef (τ := τ) .tc)).toFinset := by
  simp only [hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps0 (F := Ideal)) V (Proc.devRef .tc r) = V (Proc.devRef .tc r) :=
  StableHlo.after_of_writes_sub (hostOps0 (F := Ideal)) V writes_sub hr

theorem after_v0 :
    StableHlo.after (hostOps0 (F := Ideal)) V (Proc.devRef .tc main_v0) =
      (shapeCast S1x64 (V (Proc.devRef .tc main_arg9)) shapeCasts_S64_S1x64) := by
  after_results_simp <;> rfl

end Cert.KernelIdeal.KHost0

end
-- ==== Proof.KHost1.lean ====
/-
  Host stretch 1 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost1

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_v2]

theorem writes_sub : (hostOps1 (F := Ideal)).Forall fun op => op.writes ⊆ (writes.map (Proc.devRef (τ := τ) .tc)).toFinset := by
  simp only [hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps1 (F := Ideal)) V (Proc.devRef .tc r) = V (Proc.devRef .tc r) :=
  StableHlo.after_of_writes_sub (hostOps1 (F := Ideal)) V writes_sub hr

theorem after_v2 :
    StableHlo.after (hostOps1 (F := Ideal)) V (Proc.devRef .tc main_v2) =
      (shapeCast S1x64 (V (Proc.devRef .tc main_arg11)) shapeCasts_S64_S1x64) := by
  after_results_simp <;> rfl

end Cert.KernelIdeal.KHost1

end
-- ==== Proof.KHost2.lean ====
/-
  Host stretch 2 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost2

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_cst, main_v4, main_cst_0, main_v5, main_v6, main_v7, main_cst_1, main_v8, main_v9, main_cst_2, main_v10, main_v11, main_v12, main_cst_3, main_v13, main_cst_4, main_v14, main_v15, main_v16, main_cst_5, main_v17, main_v18, main_cst_6, main_v19, main_v20, main_v21, main_cst_7, main_v22, main_cst_8, main_v23, main_v24, main_v25, main_cst_9, main_v26, main_v27, main_cst_10, main_v28, main_v29, main_v30, main_c, main_v31, main_v32, main_c_11, main_v33, main_v34, main_v35, main_v36, main_v37, main_v38, main_cst_12, main_v39, main_v40, main_v41, main_v42, main_v43, main_v44, main_v45, main_v46, main_v47, main_v48]

theorem writes_sub : (hostOps2 (F := Ideal)).Forall fun op => op.writes ⊆ (writes.map (Proc.devRef (τ := τ) .tc)).toFinset := by
  simp only [hostOps2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps2 (F := Ideal)) V (Proc.devRef .tc r) = V (Proc.devRef .tc r) :=
  StableHlo.after_of_writes_sub (hostOps2 (F := Ideal)) V writes_sub hr

theorem after_v12 :
    StableHlo.after (hostOps2 (F := Ideal)) V (Proc.devRef .tc main_v12) =
      (shapeCast S200000x1 ((Host.divf (F := Ideal) (φ := .f32) : (⟨S200000, .f32⟩ : BufTy).Contents (Elt Ideal) → (⟨S200000, .f32⟩ : BufTy).Contents (Elt Ideal) → (⟨S200000, .f32⟩ : BufTy).Contents (Elt Ideal)) ((broadcastInDim S200000 ![] bcast_S_S200000 : (⟨S_, .f32⟩ : BufTy).Contents (Elt Ideal) → (⟨S200000, .f32⟩ : BufTy).Contents (Elt Ideal)) (constant (F := Ideal) S_ .f32 0x3F800000#32)) (KDefs.cO (V (Proc.devRef .tc main_arg3)))) shapeCasts_S200000_S200000x1) := by
  after_results_simp <;> rfl

theorem after_v21 :
    StableHlo.after (hostOps2 (F := Ideal)) V (Proc.devRef .tc main_v21) =
      (shapeCast S500000x1 ((Host.divf (F := Ideal) (φ := .f32) : (⟨S500000, .f32⟩ : BufTy).Contents (Elt Ideal) → (⟨S500000, .f32⟩ : BufTy).Contents (Elt Ideal) → (⟨S500000, .f32⟩ : BufTy).Contents (Elt Ideal)) ((broadcastInDim S500000 ![] bcast_S_S500000 : (⟨S_, .f32⟩ : BufTy).Contents (Elt Ideal) → (⟨S500000, .f32⟩ : BufTy).Contents (Elt Ideal)) (constant (F := Ideal) S_ .f32 0x3F800000#32)) (KDefs.cH (V (Proc.devRef .tc main_arg5)))) shapeCasts_S500000_S500000x1) := by
  after_results_simp <;> rfl

theorem after_v30 :
    StableHlo.after (hostOps2 (F := Ideal)) V (Proc.devRef .tc main_v30) =
      (shapeCast S500000x1 ((Host.divf (F := Ideal) (φ := .f32) : (⟨S500000, .f32⟩ : BufTy).Contents (Elt Ideal) → (⟨S500000, .f32⟩ : BufTy).Contents (Elt Ideal) → (⟨S500000, .f32⟩ : BufTy).Contents (Elt Ideal)) ((broadcastInDim S500000 ![] bcast_S_S500000 : (⟨S_, .f32⟩ : BufTy).Contents (Elt Ideal) → (⟨S500000, .f32⟩ : BufTy).Contents (Elt Ideal)) (constant (F := Ideal) S_ .f32 0x3F800000#32)) (KDefs.cS (V (Proc.devRef .tc main_arg7)))) shapeCasts_S500000_S500000x1) := by
  after_results_simp <;> rfl

theorem after_v41 :
    StableHlo.after (hostOps2 (F := Ideal)) V (Proc.devRef .tc main_v41) =
      (KDefs.aggO (V (Proc.devRef .tc main_v1)) (V (Proc.devRef .tc main_arg2)) (V (Proc.devRef .tc main_arg3))) := by
  after_results_simp <;> rfl

theorem after_v43 :
    StableHlo.after (hostOps2 (F := Ideal)) V (Proc.devRef .tc main_v43) =
      (shapeCast S64x64 (((extractStridedSlice S1x1x64x64 ![0, 0, 0, 0] · slices_S3x3x64x64_S1x1x64x64_0_0_0_0) : (⟨S3x3x64x64, .f32⟩ : BufTy).Contents (Elt Ideal) → (⟨S1x1x64x64, .f32⟩ : BufTy).Contents (Elt Ideal)) (V (Proc.devRef .tc main_arg12))) shapeCasts_S1x1x64x64_S64x64) := by
  after_results_simp <;> rfl

theorem after_v48 :
    StableHlo.after (hostOps2 (F := Ideal)) V (Proc.devRef .tc main_v48) =
      (shapeCast S1x64 (shapeCast S64 (((extractStridedSlice S1x1x64 ![0, 0, 0] · slices_S3x3x64_S1x1x64_0_0_0) : (⟨S3x3x64, .f32⟩ : BufTy).Contents (Elt Ideal) → (⟨S1x1x64, .f32⟩ : BufTy).Contents (Elt Ideal)) (V (Proc.devRef .tc main_arg13))) shapeCasts_S1x1x64_S64) shapeCasts_S64_S1x64) := by
  after_results_simp <;> rfl

theorem after_v47 :
    StableHlo.after (hostOps2 (F := Ideal)) V (Proc.devRef .tc main_v47) =
      (shapeCast S64x64 (((extractStridedSlice S1x1x64x64 ![0, 0, 0, 0] · slices_S3x3x64x64_S1x1x64x64_0_0_0_0) : (⟨S3x3x64x64, .f32⟩ : BufTy).Contents (Elt Ideal) → (⟨S1x1x64x64, .f32⟩ : BufTy).Contents (Elt Ideal)) (V (Proc.devRef .tc main_arg14))) shapeCasts_S1x1x64x64_S64x64) := by
  after_results_simp <;> rfl

end Cert.KernelIdeal.KHost2

end
-- ==== Proof.KHost3.lean ====
/-
  Host stretch 3 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost3

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_c_13, main_v50, main_v51, main_c_14, main_v52, main_v53, main_v54, main_v55, main_v56, main_v57, main_cst_15, main_v58, main_v59, main_v60, main_c_16, main_v61, main_v62, main_c_17, main_v63, main_v64, main_v65, main_v66, main_v67, main_v68, main_cst_18, main_v69, main_v70, main_v71, main_v72, main_v73, main_cst_19, main_v74, main_v75, main_v76, main_v77, main_cst_20, main_v78, main_v79, main_v80, main_v81, main_v82, main_v83, main_v84, main_cst_21, main_v85, main_v86, main_v87, main_v88, main_v89, main_v90, main_v91, main_cst_22, main_v92, main_v93, main_v94]

theorem writes_sub : (hostOps3 (F := Ideal)).Forall fun op => op.writes ⊆ (writes.map (Proc.devRef (τ := τ) .tc)).toFinset := by
  simp only [hostOps3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps3 (F := Ideal)) V (Proc.devRef .tc r) = V (Proc.devRef .tc r) :=
  StableHlo.after_of_writes_sub (hostOps3 (F := Ideal)) V writes_sub hr

theorem after_v60 :
    StableHlo.after (hostOps3 (F := Ideal)) V (Proc.devRef .tc main_v60) =
      (KDefs.aggH (V (Proc.devRef .tc main_v3)) (V (Proc.devRef .tc main_arg4)) (V (Proc.devRef .tc main_arg5))) := by
  after_results_simp <;> rfl

theorem after_v71 :
    StableHlo.after (hostOps3 (F := Ideal)) V (Proc.devRef .tc main_v71) =
      (KDefs.aggS (V (Proc.devRef .tc main_v1)) (V (Proc.devRef .tc main_arg6)) (V (Proc.devRef .tc main_arg7))) := by
  after_results_simp <;> rfl

theorem after_v75 :
    StableHlo.after (hostOps3 (F := Ideal)) V (Proc.devRef .tc main_v75) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) (shapeCast S64x64 (((extractStridedSlice S1x1x64x64 ![0, 1, 0, 0] · slices_S3x3x64x64_S1x1x64x64_0_1_0_0) : (⟨S3x3x64x64, .f32⟩ : BufTy).Contents (Elt Ideal) → (⟨S1x1x64x64, .f32⟩ : BufTy).Contents (Elt Ideal)) (V (Proc.devRef .tc main_arg12))) shapeCasts_S1x1x64x64_S64x64)) := by
  after_results_simp <;> rfl

theorem after_v79 :
    StableHlo.after (hostOps3 (F := Ideal)) V (Proc.devRef .tc main_v79) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) (shapeCast S64x64 (((extractStridedSlice S1x1x64x64 ![0, 2, 0, 0] · slices_S3x3x64x64_S1x1x64x64_0_2_0_0) : (⟨S3x3x64x64, .f32⟩ : BufTy).Contents (Elt Ideal) → (⟨S1x1x64x64, .f32⟩ : BufTy).Contents (Elt Ideal)) (V (Proc.devRef .tc main_arg12))) shapeCasts_S1x1x64x64_S64x64)) := by
  after_results_simp <;> rfl

theorem after_v94 :
    StableHlo.after (hostOps3 (F := Ideal)) V (Proc.devRef .tc main_v94) =
      (shapeCast S1x64 ((mulf (F := Ideal) (φ := .f32) : (⟨S64, .f32⟩ : BufTy).Contents (Elt Ideal) → (⟨S64, .f32⟩ : BufTy).Contents (Elt Ideal) → (⟨S64, .f32⟩ : BufTy).Contents (Elt Ideal)) ((broadcastInDim S64 ![] bcast_S_S64 : (⟨S_, .f32⟩ : BufTy).Contents (Elt Ideal) → (⟨S64, .f32⟩ : BufTy).Contents (Elt Ideal)) (constant (F := Ideal) S_ .f32 0x3F000000#32)) ((addf (F := Ideal) (φ := .f32) : (⟨S64, .f32⟩ : BufTy).Contents (Elt Ideal) → (⟨S64, .f32⟩ : BufTy).Contents (Elt Ideal) → (⟨S64, .f32⟩ : BufTy).Contents (Elt Ideal)) (shapeCast S64 (((extractStridedSlice S1x1x64 ![0, 1, 0] · slices_S3x3x64_S1x1x64_0_1_0) : (⟨S3x3x64, .f32⟩ : BufTy).Contents (Elt Ideal) → (⟨S1x1x64, .f32⟩ : BufTy).Contents (Elt Ideal)) (V (Proc.devRef .tc main_arg13))) shapeCasts_S1x1x64_S64) (shapeCast S64 (((extractStridedSlice S1x1x64 ![0, 2, 0] · slices_S3x3x64_S1x1x64_0_2_0) : (⟨S3x3x64, .f32⟩ : BufTy).Contents (Elt Ideal) → (⟨S1x1x64, .f32⟩ : BufTy).Contents (Elt Ideal)) (V (Proc.devRef .tc main_arg13))) shapeCasts_S1x1x64_S64))) shapeCasts_S64_S1x64) := by
  after_results_simp <;> rfl

theorem after_v93 :
    StableHlo.after (hostOps3 (F := Ideal)) V (Proc.devRef .tc main_v93) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) ((addf (F := Ideal) (φ := .f32) : (⟨S64x64, .f32⟩ : BufTy).Contents (Elt Ideal) → (⟨S64x64, .f32⟩ : BufTy).Contents (Elt Ideal) → (⟨S64x64, .f32⟩ : BufTy).Contents (Elt Ideal)) (shapeCast S64x64 (((extractStridedSlice S1x1x64x64 ![0, 1, 0, 0] · slices_S3x3x64x64_S1x1x64x64_0_1_0_0) : (⟨S3x3x64x64, .f32⟩ : BufTy).Contents (Elt Ideal) → (⟨S1x1x64x64, .f32⟩ : BufTy).Contents (Elt Ideal)) (V (Proc.devRef .tc main_arg14))) shapeCasts_S1x1x64x64_S64x64) (shapeCast S64x64 (((extractStridedSlice S1x1x64x64 ![0, 2, 0, 0] · slices_S3x3x64x64_S1x1x64x64_0_2_0_0) : (⟨S3x3x64x64, .f32⟩ : BufTy).Contents (Elt Ideal) → (⟨S1x1x64x64, .f32⟩ : BufTy).Contents (Elt Ideal)) (V (Proc.devRef .tc main_arg14))) shapeCasts_S1x1x64x64_S64x64))) := by
  after_results_simp <;> rfl

end Cert.KernelIdeal.KHost3

end
-- ==== Proof.KHost4.lean ====
/-
  Host stretch 4 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost4

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_c_23, main_v96, main_v97, main_c_24, main_v98, main_v99, main_v100, main_v101, main_v102, main_v103, main_cst_25, main_v104, main_v105, main_v106, main_v107, main_v108, main_v109, main_v110, main_v111, main_v112, main_v113]

theorem writes_sub : (hostOps4 (F := Ideal)).Forall fun op => op.writes ⊆ (writes.map (Proc.devRef (τ := τ) .tc)).toFinset := by
  simp only [hostOps4, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps4 (F := Ideal)) V (Proc.devRef .tc r) = V (Proc.devRef .tc r) :=
  StableHlo.after_of_writes_sub (hostOps4 (F := Ideal)) V writes_sub hr

theorem after_v106 :
    StableHlo.after (hostOps4 (F := Ideal)) V (Proc.devRef .tc main_v106) =
      (KDefs.aggO (V (Proc.devRef .tc main_v95)) (V (Proc.devRef .tc main_arg2)) (V (Proc.devRef .tc main_arg3))) := by
  after_results_simp <;> rfl

theorem after_v108 :
    StableHlo.after (hostOps4 (F := Ideal)) V (Proc.devRef .tc main_v108) =
      (shapeCast S64x64 (((extractStridedSlice S1x1x64x64 ![1, 0, 0, 0] · slices_S3x3x64x64_S1x1x64x64_1_0_0_0) : (⟨S3x3x64x64, .f32⟩ : BufTy).Contents (Elt Ideal) → (⟨S1x1x64x64, .f32⟩ : BufTy).Contents (Elt Ideal)) (V (Proc.devRef .tc main_arg12))) shapeCasts_S1x1x64x64_S64x64) := by
  after_results_simp <;> rfl

theorem after_v113 :
    StableHlo.after (hostOps4 (F := Ideal)) V (Proc.devRef .tc main_v113) =
      (shapeCast S1x64 (shapeCast S64 (((extractStridedSlice S1x1x64 ![1, 0, 0] · slices_S3x3x64_S1x1x64_1_0_0) : (⟨S3x3x64, .f32⟩ : BufTy).Contents (Elt Ideal) → (⟨S1x1x64, .f32⟩ : BufTy).Contents (Elt Ideal)) (V (Proc.devRef .tc main_arg13))) shapeCasts_S1x1x64_S64) shapeCasts_S64_S1x64) := by
  after_results_simp <;> rfl

theorem after_v112 :
    StableHlo.after (hostOps4 (F := Ideal)) V (Proc.devRef .tc main_v112) =
      (shapeCast S64x64 (((extractStridedSlice S1x1x64x64 ![1, 0, 0, 0] · slices_S3x3x64x64_S1x1x64x64_1_0_0_0) : (⟨S3x3x64x64, .f32⟩ : BufTy).Contents (Elt Ideal) → (⟨S1x1x64x64, .f32⟩ : BufTy).Contents (Elt Ideal)) (V (Proc.devRef .tc main_arg14))) shapeCasts_S1x1x64x64_S64x64) := by
  after_results_simp <;> rfl

end Cert.KernelIdeal.KHost4

end
-- ==== Proof.KHost5.lean ====
/-
  Host stretch 5 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost5

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_c_26, main_v115, main_v116, main_c_27, main_v117, main_v118, main_v119, main_v120, main_v121, main_v122, main_cst_28, main_v123, main_v124, main_v125, main_c_29, main_v126, main_v127, main_c_30, main_v128, main_v129, main_v130, main_v131, main_v132, main_v133, main_cst_31, main_v134, main_v135, main_v136, main_v137, main_v138, main_cst_32, main_v139, main_v140, main_v141, main_v142, main_cst_33, main_v143, main_v144, main_v145, main_v146, main_v147, main_v148, main_v149, main_cst_34, main_v150, main_v151, main_v152, main_v153, main_v154, main_v155, main_v156, main_cst_35, main_v157, main_v158, main_v159]

theorem writes_sub : (hostOps5 (F := Ideal)).Forall fun op => op.writes ⊆ (writes.map (Proc.devRef (τ := τ) .tc)).toFinset := by
  simp only [hostOps5, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps5 (F := Ideal)) V (Proc.devRef .tc r) = V (Proc.devRef .tc r) :=
  StableHlo.after_of_writes_sub (hostOps5 (F := Ideal)) V writes_sub hr

theorem after_v125 :
    StableHlo.after (hostOps5 (F := Ideal)) V (Proc.devRef .tc main_v125) =
      (KDefs.aggH (V (Proc.devRef .tc main_v49)) (V (Proc.devRef .tc main_arg4)) (V (Proc.devRef .tc main_arg5))) := by
  after_results_simp <;> rfl

theorem after_v136 :
    StableHlo.after (hostOps5 (F := Ideal)) V (Proc.devRef .tc main_v136) =
      (KDefs.aggS (V (Proc.devRef .tc main_v95)) (V (Proc.devRef .tc main_arg6)) (V (Proc.devRef .tc main_arg7))) := by
  after_results_simp <;> rfl

theorem after_v140 :
    StableHlo.after (hostOps5 (F := Ideal)) V (Proc.devRef .tc main_v140) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) (shapeCast S64x64 (((extractStridedSlice S1x1x64x64 ![1, 1, 0, 0] · slices_S3x3x64x64_S1x1x64x64_1_1_0_0) : (⟨S3x3x64x64, .f32⟩ : BufTy).Contents (Elt Ideal) → (⟨S1x1x64x64, .f32⟩ : BufTy).Contents (Elt Ideal)) (V (Proc.devRef .tc main_arg12))) shapeCasts_S1x1x64x64_S64x64)) := by
  after_results_simp <;> rfl

theorem after_v144 :
    StableHlo.after (hostOps5 (F := Ideal)) V (Proc.devRef .tc main_v144) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) (shapeCast S64x64 (((extractStridedSlice S1x1x64x64 ![1, 2, 0, 0] · slices_S3x3x64x64_S1x1x64x64_1_2_0_0) : (⟨S3x3x64x64, .f32⟩ : BufTy).Contents (Elt Ideal) → (⟨S1x1x64x64, .f32⟩ : BufTy).Contents (Elt Ideal)) (V (Proc.devRef .tc main_arg12))) shapeCasts_S1x1x64x64_S64x64)) := by
  after_results_simp <;> rfl

theorem after_v159 :
    StableHlo.after (hostOps5 (F := Ideal)) V (Proc.devRef .tc main_v159) =
      (shapeCast S1x64 ((mulf (F := Ideal) (φ := .f32) : (⟨S64, .f32⟩ : BufTy).Contents (Elt Ideal) → (⟨S64, .f32⟩ : BufTy).Contents (Elt Ideal) → (⟨S64, .f32⟩ : BufTy).Contents (Elt Ideal)) ((broadcastInDim S64 ![] bcast_S_S64 : (⟨S_, .f32⟩ : BufTy).Contents (Elt Ideal) → (⟨S64, .f32⟩ : BufTy).Contents (Elt Ideal)) (constant (F := Ideal) S_ .f32 0x3F000000#32)) ((addf (F := Ideal) (φ := .f32) : (⟨S64, .f32⟩ : BufTy).Contents (Elt Ideal) → (⟨S64, .f32⟩ : BufTy).Contents (Elt Ideal) → (⟨S64, .f32⟩ : BufTy).Contents (Elt Ideal)) (shapeCast S64 (((extractStridedSlice S1x1x64 ![1, 1, 0] · slices_S3x3x64_S1x1x64_1_1_0) : (⟨S3x3x64, .f32⟩ : BufTy).Contents (Elt Ideal) → (⟨S1x1x64, .f32⟩ : BufTy).Contents (Elt Ideal)) (V (Proc.devRef .tc main_arg13))) shapeCasts_S1x1x64_S64) (shapeCast S64 (((extractStridedSlice S1x1x64 ![1, 2, 0] · slices_S3x3x64_S1x1x64_1_2_0) : (⟨S3x3x64, .f32⟩ : BufTy).Contents (Elt Ideal) → (⟨S1x1x64, .f32⟩ : BufTy).Contents (Elt Ideal)) (V (Proc.devRef .tc main_arg13))) shapeCasts_S1x1x64_S64))) shapeCasts_S64_S1x64) := by
  after_results_simp <;> rfl

theorem after_v158 :
    StableHlo.after (hostOps5 (F := Ideal)) V (Proc.devRef .tc main_v158) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) ((addf (F := Ideal) (φ := .f32) : (⟨S64x64, .f32⟩ : BufTy).Contents (Elt Ideal) → (⟨S64x64, .f32⟩ : BufTy).Contents (Elt Ideal) → (⟨S64x64, .f32⟩ : BufTy).Contents (Elt Ideal)) (shapeCast S64x64 (((extractStridedSlice S1x1x64x64 ![1, 1, 0, 0] · slices_S3x3x64x64_S1x1x64x64_1_1_0_0) : (⟨S3x3x64x64, .f32⟩ : BufTy).Contents (Elt Ideal) → (⟨S1x1x64x64, .f32⟩ : BufTy).Contents (Elt Ideal)) (V (Proc.devRef .tc main_arg14))) shapeCasts_S1x1x64x64_S64x64) (shapeCast S64x64 (((extractStridedSlice S1x1x64x64 ![1, 2, 0, 0] · slices_S3x3x64x64_S1x1x64x64_1_2_0_0) : (⟨S3x3x64x64, .f32⟩ : BufTy).Contents (Elt Ideal) → (⟨S1x1x64x64, .f32⟩ : BufTy).Contents (Elt Ideal)) (V (Proc.devRef .tc main_arg14))) shapeCasts_S1x1x64x64_S64x64))) := by
  after_results_simp <;> rfl

end Cert.KernelIdeal.KHost5

end
-- ==== Proof.KHost6.lean ====
/-
  Host stretch 6 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost6

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_c_36, main_v161, main_v162, main_c_37, main_v163, main_v164, main_v165, main_v166, main_v167, main_v168, main_cst_38, main_v169, main_v170, main_v171, main_v172, main_v173, main_v174, main_v175, main_v176, main_v177, main_v178]

theorem writes_sub : (hostOps6 (F := Ideal)).Forall fun op => op.writes ⊆ (writes.map (Proc.devRef (τ := τ) .tc)).toFinset := by
  simp only [hostOps6, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps6 (F := Ideal)) V (Proc.devRef .tc r) = V (Proc.devRef .tc r) :=
  StableHlo.after_of_writes_sub (hostOps6 (F := Ideal)) V writes_sub hr

theorem after_v171 :
    StableHlo.after (hostOps6 (F := Ideal)) V (Proc.devRef .tc main_v171) =
      (KDefs.aggO (V (Proc.devRef .tc main_v160)) (V (Proc.devRef .tc main_arg2)) (V (Proc.devRef .tc main_arg3))) := by
  after_results_simp <;> rfl

theorem after_v173 :
    StableHlo.after (hostOps6 (F := Ideal)) V (Proc.devRef .tc main_v173) =
      (shapeCast S64x64 (((extractStridedSlice S1x1x64x64 ![2, 0, 0, 0] · slices_S3x3x64x64_S1x1x64x64_2_0_0_0) : (⟨S3x3x64x64, .f32⟩ : BufTy).Contents (Elt Ideal) → (⟨S1x1x64x64, .f32⟩ : BufTy).Contents (Elt Ideal)) (V (Proc.devRef .tc main_arg12))) shapeCasts_S1x1x64x64_S64x64) := by
  after_results_simp <;> rfl

theorem after_v178 :
    StableHlo.after (hostOps6 (F := Ideal)) V (Proc.devRef .tc main_v178) =
      (shapeCast S1x64 (shapeCast S64 (((extractStridedSlice S1x1x64 ![2, 0, 0] · slices_S3x3x64_S1x1x64_2_0_0) : (⟨S3x3x64, .f32⟩ : BufTy).Contents (Elt Ideal) → (⟨S1x1x64, .f32⟩ : BufTy).Contents (Elt Ideal)) (V (Proc.devRef .tc main_arg13))) shapeCasts_S1x1x64_S64) shapeCasts_S64_S1x64) := by
  after_results_simp <;> rfl

theorem after_v177 :
    StableHlo.after (hostOps6 (F := Ideal)) V (Proc.devRef .tc main_v177) =
      (shapeCast S64x64 (((extractStridedSlice S1x1x64x64 ![2, 0, 0, 0] · slices_S3x3x64x64_S1x1x64x64_2_0_0_0) : (⟨S3x3x64x64, .f32⟩ : BufTy).Contents (Elt Ideal) → (⟨S1x1x64x64, .f32⟩ : BufTy).Contents (Elt Ideal)) (V (Proc.devRef .tc main_arg14))) shapeCasts_S1x1x64x64_S64x64) := by
  after_results_simp <;> rfl

end Cert.KernelIdeal.KHost6

end
-- ==== Proof.KHost7.lean ====
/-
  Host stretch 7 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost7

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_c_39, main_v180, main_v181, main_c_40, main_v182, main_v183, main_v184, main_v185, main_v186, main_v187, main_cst_41, main_v188, main_v189, main_v190, main_c_42, main_v191, main_v192, main_c_43, main_v193, main_v194, main_v195, main_v196, main_v197, main_v198, main_cst_44, main_v199, main_v200, main_v201, main_v202, main_v203, main_cst_45, main_v204, main_v205, main_v206, main_v207, main_cst_46, main_v208, main_v209, main_v210, main_v211, main_v212, main_v213, main_v214, main_cst_47, main_v215, main_v216, main_v217, main_v218, main_v219, main_v220, main_v221, main_cst_48, main_v222, main_v223, main_v224]

theorem writes_sub : (hostOps7 (F := Ideal)).Forall fun op => op.writes ⊆ (writes.map (Proc.devRef (τ := τ) .tc)).toFinset := by
  simp only [hostOps7, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps7 (F := Ideal)) V (Proc.devRef .tc r) = V (Proc.devRef .tc r) :=
  StableHlo.after_of_writes_sub (hostOps7 (F := Ideal)) V writes_sub hr

theorem after_v190 :
    StableHlo.after (hostOps7 (F := Ideal)) V (Proc.devRef .tc main_v190) =
      (KDefs.aggH (V (Proc.devRef .tc main_v114)) (V (Proc.devRef .tc main_arg4)) (V (Proc.devRef .tc main_arg5))) := by
  after_results_simp <;> rfl

theorem after_v201 :
    StableHlo.after (hostOps7 (F := Ideal)) V (Proc.devRef .tc main_v201) =
      (KDefs.aggS (V (Proc.devRef .tc main_v160)) (V (Proc.devRef .tc main_arg6)) (V (Proc.devRef .tc main_arg7))) := by
  after_results_simp <;> rfl

theorem after_v205 :
    StableHlo.after (hostOps7 (F := Ideal)) V (Proc.devRef .tc main_v205) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) (shapeCast S64x64 (((extractStridedSlice S1x1x64x64 ![2, 1, 0, 0] · slices_S3x3x64x64_S1x1x64x64_2_1_0_0) : (⟨S3x3x64x64, .f32⟩ : BufTy).Contents (Elt Ideal) → (⟨S1x1x64x64, .f32⟩ : BufTy).Contents (Elt Ideal)) (V (Proc.devRef .tc main_arg12))) shapeCasts_S1x1x64x64_S64x64)) := by
  after_results_simp <;> rfl

theorem after_v209 :
    StableHlo.after (hostOps7 (F := Ideal)) V (Proc.devRef .tc main_v209) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) (shapeCast S64x64 (((extractStridedSlice S1x1x64x64 ![2, 2, 0, 0] · slices_S3x3x64x64_S1x1x64x64_2_2_0_0) : (⟨S3x3x64x64, .f32⟩ : BufTy).Contents (Elt Ideal) → (⟨S1x1x64x64, .f32⟩ : BufTy).Contents (Elt Ideal)) (V (Proc.devRef .tc main_arg12))) shapeCasts_S1x1x64x64_S64x64)) := by
  after_results_simp <;> rfl

theorem after_v224 :
    StableHlo.after (hostOps7 (F := Ideal)) V (Proc.devRef .tc main_v224) =
      (shapeCast S1x64 ((mulf (F := Ideal) (φ := .f32) : (⟨S64, .f32⟩ : BufTy).Contents (Elt Ideal) → (⟨S64, .f32⟩ : BufTy).Contents (Elt Ideal) → (⟨S64, .f32⟩ : BufTy).Contents (Elt Ideal)) ((broadcastInDim S64 ![] bcast_S_S64 : (⟨S_, .f32⟩ : BufTy).Contents (Elt Ideal) → (⟨S64, .f32⟩ : BufTy).Contents (Elt Ideal)) (constant (F := Ideal) S_ .f32 0x3F000000#32)) ((addf (F := Ideal) (φ := .f32) : (⟨S64, .f32⟩ : BufTy).Contents (Elt Ideal) → (⟨S64, .f32⟩ : BufTy).Contents (Elt Ideal) → (⟨S64, .f32⟩ : BufTy).Contents (Elt Ideal)) (shapeCast S64 (((extractStridedSlice S1x1x64 ![2, 1, 0] · slices_S3x3x64_S1x1x64_2_1_0) : (⟨S3x3x64, .f32⟩ : BufTy).Contents (Elt Ideal) → (⟨S1x1x64, .f32⟩ : BufTy).Contents (Elt Ideal)) (V (Proc.devRef .tc main_arg13))) shapeCasts_S1x1x64_S64) (shapeCast S64 (((extractStridedSlice S1x1x64 ![2, 2, 0] · slices_S3x3x64_S1x1x64_2_2_0) : (⟨S3x3x64, .f32⟩ : BufTy).Contents (Elt Ideal) → (⟨S1x1x64, .f32⟩ : BufTy).Contents (Elt Ideal)) (V (Proc.devRef .tc main_arg13))) shapeCasts_S1x1x64_S64))) shapeCasts_S64_S1x64) := by
  after_results_simp <;> rfl

theorem after_v223 :
    StableHlo.after (hostOps7 (F := Ideal)) V (Proc.devRef .tc main_v223) =
      ((mulf (F := Ideal) (φ := .f32) : (⟨S64x64, .f32⟩ : BufTy).Contents (Elt Ideal) → (⟨S64x64, .f32⟩ : BufTy).Contents (Elt Ideal) → (⟨S64x64, .f32⟩ : BufTy).Contents (Elt Ideal)) ((broadcastInDim S64x64 ![] bcast_S_S64x64 : (⟨S_, .f32⟩ : BufTy).Contents (Elt Ideal) → (⟨S64x64, .f32⟩ : BufTy).Contents (Elt Ideal)) (constant (F := Ideal) S_ .f32 0x3F000000#32)) ((addf (F := Ideal) (φ := .f32) : (⟨S64x64, .f32⟩ : BufTy).Contents (Elt Ideal) → (⟨S64x64, .f32⟩ : BufTy).Contents (Elt Ideal) → (⟨S64x64, .f32⟩ : BufTy).Contents (Elt Ideal)) (shapeCast S64x64 (((extractStridedSlice S1x1x64x64 ![2, 1, 0, 0] · slices_S3x3x64x64_S1x1x64x64_2_1_0_0) : (⟨S3x3x64x64, .f32⟩ : BufTy).Contents (Elt Ideal) → (⟨S1x1x64x64, .f32⟩ : BufTy).Contents (Elt Ideal)) (V (Proc.devRef .tc main_arg14))) shapeCasts_S1x1x64x64_S64x64) (shapeCast S64x64 (((extractStridedSlice S1x1x64x64 ![2, 2, 0, 0] · slices_S3x3x64x64_S1x1x64x64_2_2_0_0) : (⟨S3x3x64x64, .f32⟩ : BufTy).Contents (Elt Ideal) → (⟨S1x1x64x64, .f32⟩ : BufTy).Contents (Elt Ideal)) (V (Proc.devRef .tc main_arg14))) shapeCasts_S1x1x64x64_S64x64))) := by
  after_results_simp <;> rfl

end Cert.KernelIdeal.KHost7

end
-- ==== Proof.KHost8.lean ====
/-
  Host stretch 8 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost8

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_v226, main_v227]

theorem writes_sub : (hostOps8 (F := Ideal)).Forall fun op => op.writes ⊆ (writes.map (Proc.devRef (τ := τ) .tc)).toFinset := by
  simp only [hostOps8, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps8 (F := Ideal)) V (Proc.devRef .tc r) = V (Proc.devRef .tc r) :=
  StableHlo.after_of_writes_sub (hostOps8 (F := Ideal)) V writes_sub hr

theorem after_v226 :
    StableHlo.after (hostOps8 (F := Ideal)) V (Proc.devRef .tc main_v226) =
      (shapeCast S1x32 (V (Proc.devRef .tc main_arg16)) shapeCasts_S32_S1x32) := by
  after_results_simp <;> rfl

theorem after_v227 :
    StableHlo.after (hostOps8 (F := Ideal)) V (Proc.devRef .tc main_v227) =
      (shapeCast S1x1 (V (Proc.devRef .tc main_arg18)) shapeCasts_S1_S1x1) := by
  after_results_simp <;> rfl

end Cert.KernelIdeal.KHost8

end
-- ==== Proof.KHost9.lean ====
/-
  Host stretch 9 of the kernel program, read as functions of the buffer contents it starts from.

  `after_v…`: the contents of a buffer the stretch defines, as the composed operation term over the contents `V` at the
  stretch's start (the graph aggregations kept behind their names).  `keeps`: a buffer the stretch does not write is
  unchanged.
-/
import proofs.«139518_j50508815401658_2_alg».proof.Proof.Gen.KernelIdeal.Launch
import proofs.«139518_j50508815401658_2_alg».proof.Proof.KDefs
import Idealize.ShloMosaic.Lib.StableHlo.Run

set_option maxRecDepth 16384

noncomputable section

namespace Cert.KernelIdeal.KHost9

open Cert.KernelIdeal Cert.KernelIdeal.Gen
open Idealize.ShloMosaic Idealize.ShloMosaic.TcCoe
open Idealize.ShloMosaic.StableHlo

variable (V : Valuation τ sig (Elt Ideal))

/-- Every buffer the stretch writes. -/
def writes : List (Ref sig .tc) :=
  [main_v229]

theorem writes_sub : (hostOps9 (F := Ideal)).Forall fun op => op.writes ⊆ (writes.map (Proc.devRef (τ := τ) .tc)).toFinset := by
  simp only [hostOps9, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer outside the stretch's writes keeps its contents. -/
theorem keeps {r : Ref sig .tc} (hr : r ∉ writes) :
    StableHlo.after (hostOps9 (F := Ideal)) V (Proc.devRef .tc r) = V (Proc.devRef .tc r) :=
  StableHlo.after_of_writes_sub (hostOps9 (F := Ideal)) V writes_sub hr

theorem after_v229 :
    StableHlo.after (hostOps9 (F := Ideal)) V (Proc.devRef .tc main_v229) =
      (shapeCast S500000 (V (Proc.devRef .tc main_v228)) shapeCasts_S500000x1_S500000) := by
  after_results_simp <;> rfl

end Cert.KernelIdeal.KHost9

end
-- ==== Proof.KWalkA.lean ====
/-
  The argument arrays through the program's segments: no host stretch and no region writes an argument, so at every
  segment boundary up to its last reader an argument holds its launch contents.
-/
import proofs.«139518_j50508815401658_2_alg».proof.Proof.Gen.KernelIdeal.Frame
import proofs.«139518_j50508815401658_2_alg».proof.Proof.KHost0
import proofs.«139518_j50508815401658_2_alg».proof.Proof.KHost1
import proofs.«139518_j50508815401658_2_alg».proof.Proof.KHost2
import proofs.«139518_j50508815401658_2_alg».proof.Proof.KHost3
import proofs.«139518_j50508815401658_2_alg».proof.Proof.KHost4
import proofs.«139518_j50508815401658_2_alg».proof.Proof.KHost5
import proofs.«139518_j50508815401658_2_alg».proof.Proof.KHost6
import proofs.«139518_j50508815401658_2_alg».proof.Proof.KHost7
import proofs.«139518_j50508815401658_2_alg».proof.Proof.KHost8
import proofs.«139518_j50508815401658_2_alg».proof.Proof.KHost9

set_option maxRecDepth 16384

noncomputable section

namespace Cert.KernelIdeal.KWalkA

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

theorem at1_arg0 : W1 m ρ c (Proc.devRef .tc main_arg0) = m ((c : Thread nD τ).loc main_arg0) :=
  (KHost0.keeps (W0 m ρ c) (r := main_arg0) (by decide)).trans rfl

theorem at1_arg1 : W1 m ρ c (Proc.devRef .tc main_arg1) = m ((c : Thread nD τ).loc main_arg1) :=
  (KHost0.keeps (W0 m ρ c) (r := main_arg1) (by decide)).trans rfl
theorem at2_arg1 : W2 m ρ c (Proc.devRef .tc main_arg1) = m ((c : Thread nD τ).loc main_arg1) :=
  (W2_of_ne m ρ c main_arg1 (by decide)).trans (at1_arg1 m ρ c)
theorem at3_arg1 : W3 m ρ c (Proc.devRef .tc main_arg1) = m ((c : Thread nD τ).loc main_arg1) :=
  (KHost1.keeps (W2 m ρ c) (r := main_arg1) (by decide)).trans (at2_arg1 m ρ c)

theorem at1_arg15 : W1 m ρ c (Proc.devRef .tc main_arg15) = m ((c : Thread nD τ).loc main_arg15) :=
  (KHost0.keeps (W0 m ρ c) (r := main_arg15) (by decide)).trans rfl
theorem at2_arg15 : W2 m ρ c (Proc.devRef .tc main_arg15) = m ((c : Thread nD τ).loc main_arg15) :=
  (W2_of_ne m ρ c main_arg15 (by decide)).trans (at1_arg15 m ρ c)
theorem at3_arg15 : W3 m ρ c (Proc.devRef .tc main_arg15) = m ((c : Thread nD τ).loc main_arg15) :=
  (KHost1.keeps (W2 m ρ c) (r := main_arg15) (by decide)).trans (at2_arg15 m ρ c)
theorem at4_arg15 : W4 m ρ c (Proc.devRef .tc main_arg15) = m ((c : Thread nD τ).loc main_arg15) :=
  (W4_of_ne m ρ c main_arg15 (by decide)).trans (at3_arg15 m ρ c)
theorem at5_arg15 : W5 m ρ c (Proc.devRef .tc main_arg15) = m ((c : Thread nD τ).loc main_arg15) :=
  (KHost2.keeps (W4 m ρ c) (r := main_arg15) (by decide)).trans (at4_arg15 m ρ c)
theorem at6_arg15 : W6 m ρ c (Proc.devRef .tc main_arg15) = m ((c : Thread nD τ).loc main_arg15) :=
  (W6_of_ne m ρ c main_arg15 (by decide)).trans (at5_arg15 m ρ c)
theorem at7_arg15 : W7 m ρ c (Proc.devRef .tc main_arg15) = m ((c : Thread nD τ).loc main_arg15) :=
  (KHost3.keeps (W6 m ρ c) (r := main_arg15) (by decide)).trans (at6_arg15 m ρ c)
theorem at8_arg15 : W8 m ρ c (Proc.devRef .tc main_arg15) = m ((c : Thread nD τ).loc main_arg15) :=
  (W8_of_ne m ρ c main_arg15 (by decide)).trans (at7_arg15 m ρ c)
theorem at9_arg15 : W9 m ρ c (Proc.devRef .tc main_arg15) = m ((c : Thread nD τ).loc main_arg15) :=
  (KHost4.keeps (W8 m ρ c) (r := main_arg15) (by decide)).trans (at8_arg15 m ρ c)
theorem at10_arg15 : W10 m ρ c (Proc.devRef .tc main_arg15) = m ((c : Thread nD τ).loc main_arg15) :=
  (W10_of_ne m ρ c main_arg15 (by decide)).trans (at9_arg15 m ρ c)
theorem at11_arg15 : W11 m ρ c (Proc.devRef .tc main_arg15) = m ((c : Thread nD τ).loc main_arg15) :=
  (KHost5.keeps (W10 m ρ c) (r := main_arg15) (by decide)).trans (at10_arg15 m ρ c)
theorem at12_arg15 : W12 m ρ c (Proc.devRef .tc main_arg15) = m ((c : Thread nD τ).loc main_arg15) :=
  (W12_of_ne m ρ c main_arg15 (by decide)).trans (at11_arg15 m ρ c)
theorem at13_arg15 : W13 m ρ c (Proc.devRef .tc main_arg15) = m ((c : Thread nD τ).loc main_arg15) :=
  (KHost6.keeps (W12 m ρ c) (r := main_arg15) (by decide)).trans (at12_arg15 m ρ c)
theorem at14_arg15 : W14 m ρ c (Proc.devRef .tc main_arg15) = m ((c : Thread nD τ).loc main_arg15) :=
  (W14_of_ne m ρ c main_arg15 (by decide)).trans (at13_arg15 m ρ c)
theorem at15_arg15 : W15 m ρ c (Proc.devRef .tc main_arg15) = m ((c : Thread nD τ).loc main_arg15) :=
  (KHost7.keeps (W14 m ρ c) (r := main_arg15) (by decide)).trans (at14_arg15 m ρ c)
theorem at16_arg15 : W16 m ρ c (Proc.devRef .tc main_arg15) = m ((c : Thread nD τ).loc main_arg15) :=
  (W16_of_ne m ρ c main_arg15 (by decide)).trans (at15_arg15 m ρ c)
theorem at17_arg15 : W17 m ρ c (Proc.devRef .tc main_arg15) = m ((c : Thread nD τ).loc main_arg15) :=
  (KHost8.keeps (W16 m ρ c) (r := main_arg15) (by decide)).trans (at16_arg15 m ρ c)

theorem at1_arg11 : W1 m ρ c (Proc.devRef .tc main_arg11) = m ((c : Thread nD τ).loc main_arg11) :=
  (KHost0.keeps (W0 m ρ c) (r := main_arg11) (by decide)).trans rfl
theorem at2_arg11 : W2 m ρ c (Proc.devRef .tc main_arg11) = m ((c : Thread nD τ).loc main_arg11) :=
  (W2_of_ne m ρ c main_arg11 (by decide)).trans (at1_arg11 m ρ c)

theorem at1_arg5 : W1 m ρ c (Proc.devRef .tc main_arg5) = m ((c : Thread nD τ).loc main_arg5) :=
  (KHost0.keeps (W0 m ρ c) (r := main_arg5) (by decide)).trans rfl
theorem at2_arg5 : W2 m ρ c (Proc.devRef .tc main_arg5) = m ((c : Thread nD τ).loc main_arg5) :=
  (W2_of_ne m ρ c main_arg5 (by decide)).trans (at1_arg5 m ρ c)
theorem at3_arg5 : W3 m ρ c (Proc.devRef .tc main_arg5) = m ((c : Thread nD τ).loc main_arg5) :=
  (KHost1.keeps (W2 m ρ c) (r := main_arg5) (by decide)).trans (at2_arg5 m ρ c)
theorem at4_arg5 : W4 m ρ c (Proc.devRef .tc main_arg5) = m ((c : Thread nD τ).loc main_arg5) :=
  (W4_of_ne m ρ c main_arg5 (by decide)).trans (at3_arg5 m ρ c)
theorem at5_arg5 : W5 m ρ c (Proc.devRef .tc main_arg5) = m ((c : Thread nD τ).loc main_arg5) :=
  (KHost2.keeps (W4 m ρ c) (r := main_arg5) (by decide)).trans (at4_arg5 m ρ c)
theorem at6_arg5 : W6 m ρ c (Proc.devRef .tc main_arg5) = m ((c : Thread nD τ).loc main_arg5) :=
  (W6_of_ne m ρ c main_arg5 (by decide)).trans (at5_arg5 m ρ c)
theorem at7_arg5 : W7 m ρ c (Proc.devRef .tc main_arg5) = m ((c : Thread nD τ).loc main_arg5) :=
  (KHost3.keeps (W6 m ρ c) (r := main_arg5) (by decide)).trans (at6_arg5 m ρ c)
theorem at8_arg5 : W8 m ρ c (Proc.devRef .tc main_arg5) = m ((c : Thread nD τ).loc main_arg5) :=
  (W8_of_ne m ρ c main_arg5 (by decide)).trans (at7_arg5 m ρ c)
theorem at9_arg5 : W9 m ρ c (Proc.devRef .tc main_arg5) = m ((c : Thread nD τ).loc main_arg5) :=
  (KHost4.keeps (W8 m ρ c) (r := main_arg5) (by decide)).trans (at8_arg5 m ρ c)
theorem at10_arg5 : W10 m ρ c (Proc.devRef .tc main_arg5) = m ((c : Thread nD τ).loc main_arg5) :=
  (W10_of_ne m ρ c main_arg5 (by decide)).trans (at9_arg5 m ρ c)
theorem at11_arg5 : W11 m ρ c (Proc.devRef .tc main_arg5) = m ((c : Thread nD τ).loc main_arg5) :=
  (KHost5.keeps (W10 m ρ c) (r := main_arg5) (by decide)).trans (at10_arg5 m ρ c)
theorem at12_arg5 : W12 m ρ c (Proc.devRef .tc main_arg5) = m ((c : Thread nD τ).loc main_arg5) :=
  (W12_of_ne m ρ c main_arg5 (by decide)).trans (at11_arg5 m ρ c)
theorem at13_arg5 : W13 m ρ c (Proc.devRef .tc main_arg5) = m ((c : Thread nD τ).loc main_arg5) :=
  (KHost6.keeps (W12 m ρ c) (r := main_arg5) (by decide)).trans (at12_arg5 m ρ c)
theorem at14_arg5 : W14 m ρ c (Proc.devRef .tc main_arg5) = m ((c : Thread nD τ).loc main_arg5) :=
  (W14_of_ne m ρ c main_arg5 (by decide)).trans (at13_arg5 m ρ c)

theorem at1_arg2 : W1 m ρ c (Proc.devRef .tc main_arg2) = m ((c : Thread nD τ).loc main_arg2) :=
  (KHost0.keeps (W0 m ρ c) (r := main_arg2) (by decide)).trans rfl
theorem at2_arg2 : W2 m ρ c (Proc.devRef .tc main_arg2) = m ((c : Thread nD τ).loc main_arg2) :=
  (W2_of_ne m ρ c main_arg2 (by decide)).trans (at1_arg2 m ρ c)
theorem at3_arg2 : W3 m ρ c (Proc.devRef .tc main_arg2) = m ((c : Thread nD τ).loc main_arg2) :=
  (KHost1.keeps (W2 m ρ c) (r := main_arg2) (by decide)).trans (at2_arg2 m ρ c)
theorem at4_arg2 : W4 m ρ c (Proc.devRef .tc main_arg2) = m ((c : Thread nD τ).loc main_arg2) :=
  (W4_of_ne m ρ c main_arg2 (by decide)).trans (at3_arg2 m ρ c)
theorem at5_arg2 : W5 m ρ c (Proc.devRef .tc main_arg2) = m ((c : Thread nD τ).loc main_arg2) :=
  (KHost2.keeps (W4 m ρ c) (r := main_arg2) (by decide)).trans (at4_arg2 m ρ c)
theorem at6_arg2 : W6 m ρ c (Proc.devRef .tc main_arg2) = m ((c : Thread nD τ).loc main_arg2) :=
  (W6_of_ne m ρ c main_arg2 (by decide)).trans (at5_arg2 m ρ c)
theorem at7_arg2 : W7 m ρ c (Proc.devRef .tc main_arg2) = m ((c : Thread nD τ).loc main_arg2) :=
  (KHost3.keeps (W6 m ρ c) (r := main_arg2) (by decide)).trans (at6_arg2 m ρ c)
theorem at8_arg2 : W8 m ρ c (Proc.devRef .tc main_arg2) = m ((c : Thread nD τ).loc main_arg2) :=
  (W8_of_ne m ρ c main_arg2 (by decide)).trans (at7_arg2 m ρ c)
theorem at9_arg2 : W9 m ρ c (Proc.devRef .tc main_arg2) = m ((c : Thread nD τ).loc main_arg2) :=
  (KHost4.keeps (W8 m ρ c) (r := main_arg2) (by decide)).trans (at8_arg2 m ρ c)
theorem at10_arg2 : W10 m ρ c (Proc.devRef .tc main_arg2) = m ((c : Thread nD τ).loc main_arg2) :=
  (W10_of_ne m ρ c main_arg2 (by decide)).trans (at9_arg2 m ρ c)
theorem at11_arg2 : W11 m ρ c (Proc.devRef .tc main_arg2) = m ((c : Thread nD τ).loc main_arg2) :=
  (KHost5.keeps (W10 m ρ c) (r := main_arg2) (by decide)).trans (at10_arg2 m ρ c)
theorem at12_arg2 : W12 m ρ c (Proc.devRef .tc main_arg2) = m ((c : Thread nD τ).loc main_arg2) :=
  (W12_of_ne m ρ c main_arg2 (by decide)).trans (at11_arg2 m ρ c)

theorem at1_arg13 : W1 m ρ c (Proc.devRef .tc main_arg13) = m ((c : Thread nD τ).loc main_arg13) :=
  (KHost0.keeps (W0 m ρ c) (r := main_arg13) (by decide)).trans rfl
theorem at2_arg13 : W2 m ρ c (Proc.devRef .tc main_arg13) = m ((c : Thread nD τ).loc main_arg13) :=
  (W2_of_ne m ρ c main_arg13 (by decide)).trans (at1_arg13 m ρ c)
theorem at3_arg13 : W3 m ρ c (Proc.devRef .tc main_arg13) = m ((c : Thread nD τ).loc main_arg13) :=
  (KHost1.keeps (W2 m ρ c) (r := main_arg13) (by decide)).trans (at2_arg13 m ρ c)
theorem at4_arg13 : W4 m ρ c (Proc.devRef .tc main_arg13) = m ((c : Thread nD τ).loc main_arg13) :=
  (W4_of_ne m ρ c main_arg13 (by decide)).trans (at3_arg13 m ρ c)
theorem at5_arg13 : W5 m ρ c (Proc.devRef .tc main_arg13) = m ((c : Thread nD τ).loc main_arg13) :=
  (KHost2.keeps (W4 m ρ c) (r := main_arg13) (by decide)).trans (at4_arg13 m ρ c)
theorem at6_arg13 : W6 m ρ c (Proc.devRef .tc main_arg13) = m ((c : Thread nD τ).loc main_arg13) :=
  (W6_of_ne m ρ c main_arg13 (by decide)).trans (at5_arg13 m ρ c)
theorem at7_arg13 : W7 m ρ c (Proc.devRef .tc main_arg13) = m ((c : Thread nD τ).loc main_arg13) :=
  (KHost3.keeps (W6 m ρ c) (r := main_arg13) (by decide)).trans (at6_arg13 m ρ c)
theorem at8_arg13 : W8 m ρ c (Proc.devRef .tc main_arg13) = m ((c : Thread nD τ).loc main_arg13) :=
  (W8_of_ne m ρ c main_arg13 (by decide)).trans (at7_arg13 m ρ c)
theorem at9_arg13 : W9 m ρ c (Proc.devRef .tc main_arg13) = m ((c : Thread nD τ).loc main_arg13) :=
  (KHost4.keeps (W8 m ρ c) (r := main_arg13) (by decide)).trans (at8_arg13 m ρ c)
theorem at10_arg13 : W10 m ρ c (Proc.devRef .tc main_arg13) = m ((c : Thread nD τ).loc main_arg13) :=
  (W10_of_ne m ρ c main_arg13 (by decide)).trans (at9_arg13 m ρ c)
theorem at11_arg13 : W11 m ρ c (Proc.devRef .tc main_arg13) = m ((c : Thread nD τ).loc main_arg13) :=
  (KHost5.keeps (W10 m ρ c) (r := main_arg13) (by decide)).trans (at10_arg13 m ρ c)
theorem at12_arg13 : W12 m ρ c (Proc.devRef .tc main_arg13) = m ((c : Thread nD τ).loc main_arg13) :=
  (W12_of_ne m ρ c main_arg13 (by decide)).trans (at11_arg13 m ρ c)
theorem at13_arg13 : W13 m ρ c (Proc.devRef .tc main_arg13) = m ((c : Thread nD τ).loc main_arg13) :=
  (KHost6.keeps (W12 m ρ c) (r := main_arg13) (by decide)).trans (at12_arg13 m ρ c)
theorem at14_arg13 : W14 m ρ c (Proc.devRef .tc main_arg13) = m ((c : Thread nD τ).loc main_arg13) :=
  (W14_of_ne m ρ c main_arg13 (by decide)).trans (at13_arg13 m ρ c)

theorem at1_arg4 : W1 m ρ c (Proc.devRef .tc main_arg4) = m ((c : Thread nD τ).loc main_arg4) :=
  (KHost0.keeps (W0 m ρ c) (r := main_arg4) (by decide)).trans rfl
theorem at2_arg4 : W2 m ρ c (Proc.devRef .tc main_arg4) = m ((c : Thread nD τ).loc main_arg4) :=
  (W2_of_ne m ρ c main_arg4 (by decide)).trans (at1_arg4 m ρ c)
theorem at3_arg4 : W3 m ρ c (Proc.devRef .tc main_arg4) = m ((c : Thread nD τ).loc main_arg4) :=
  (KHost1.keeps (W2 m ρ c) (r := main_arg4) (by decide)).trans (at2_arg4 m ρ c)
theorem at4_arg4 : W4 m ρ c (Proc.devRef .tc main_arg4) = m ((c : Thread nD τ).loc main_arg4) :=
  (W4_of_ne m ρ c main_arg4 (by decide)).trans (at3_arg4 m ρ c)
theorem at5_arg4 : W5 m ρ c (Proc.devRef .tc main_arg4) = m ((c : Thread nD τ).loc main_arg4) :=
  (KHost2.keeps (W4 m ρ c) (r := main_arg4) (by decide)).trans (at4_arg4 m ρ c)
theorem at6_arg4 : W6 m ρ c (Proc.devRef .tc main_arg4) = m ((c : Thread nD τ).loc main_arg4) :=
  (W6_of_ne m ρ c main_arg4 (by decide)).trans (at5_arg4 m ρ c)
theorem at7_arg4 : W7 m ρ c (Proc.devRef .tc main_arg4) = m ((c : Thread nD τ).loc main_arg4) :=
  (KHost3.keeps (W6 m ρ c) (r := main_arg4) (by decide)).trans (at6_arg4 m ρ c)
theorem at8_arg4 : W8 m ρ c (Proc.devRef .tc main_arg4) = m ((c : Thread nD τ).loc main_arg4) :=
  (W8_of_ne m ρ c main_arg4 (by decide)).trans (at7_arg4 m ρ c)
theorem at9_arg4 : W9 m ρ c (Proc.devRef .tc main_arg4) = m ((c : Thread nD τ).loc main_arg4) :=
  (KHost4.keeps (W8 m ρ c) (r := main_arg4) (by decide)).trans (at8_arg4 m ρ c)
theorem at10_arg4 : W10 m ρ c (Proc.devRef .tc main_arg4) = m ((c : Thread nD τ).loc main_arg4) :=
  (W10_of_ne m ρ c main_arg4 (by decide)).trans (at9_arg4 m ρ c)
theorem at11_arg4 : W11 m ρ c (Proc.devRef .tc main_arg4) = m ((c : Thread nD τ).loc main_arg4) :=
  (KHost5.keeps (W10 m ρ c) (r := main_arg4) (by decide)).trans (at10_arg4 m ρ c)
theorem at12_arg4 : W12 m ρ c (Proc.devRef .tc main_arg4) = m ((c : Thread nD τ).loc main_arg4) :=
  (W12_of_ne m ρ c main_arg4 (by decide)).trans (at11_arg4 m ρ c)
theorem at13_arg4 : W13 m ρ c (Proc.devRef .tc main_arg4) = m ((c : Thread nD τ).loc main_arg4) :=
  (KHost6.keeps (W12 m ρ c) (r := main_arg4) (by decide)).trans (at12_arg4 m ρ c)
theorem at14_arg4 : W14 m ρ c (Proc.devRef .tc main_arg4) = m ((c : Thread nD τ).loc main_arg4) :=
  (W14_of_ne m ρ c main_arg4 (by decide)).trans (at13_arg4 m ρ c)

theorem at1_arg16 : W1 m ρ c (Proc.devRef .tc main_arg16) = m ((c : Thread nD τ).loc main_arg16) :=
  (KHost0.keeps (W0 m ρ c) (r := main_arg16) (by decide)).trans rfl
theorem at2_arg16 : W2 m ρ c (Proc.devRef .tc main_arg16) = m ((c : Thread nD τ).loc main_arg16) :=
  (W2_of_ne m ρ c main_arg16 (by decide)).trans (at1_arg16 m ρ c)
theorem at3_arg16 : W3 m ρ c (Proc.devRef .tc main_arg16) = m ((c : Thread nD τ).loc main_arg16) :=
  (KHost1.keeps (W2 m ρ c) (r := main_arg16) (by decide)).trans (at2_arg16 m ρ c)
theorem at4_arg16 : W4 m ρ c (Proc.devRef .tc main_arg16) = m ((c : Thread nD τ).loc main_arg16) :=
  (W4_of_ne m ρ c main_arg16 (by decide)).trans (at3_arg16 m ρ c)
theorem at5_arg16 : W5 m ρ c (Proc.devRef .tc main_arg16) = m ((c : Thread nD τ).loc main_arg16) :=
  (KHost2.keeps (W4 m ρ c) (r := main_arg16) (by decide)).trans (at4_arg16 m ρ c)
theorem at6_arg16 : W6 m ρ c (Proc.devRef .tc main_arg16) = m ((c : Thread nD τ).loc main_arg16) :=
  (W6_of_ne m ρ c main_arg16 (by decide)).trans (at5_arg16 m ρ c)
theorem at7_arg16 : W7 m ρ c (Proc.devRef .tc main_arg16) = m ((c : Thread nD τ).loc main_arg16) :=
  (KHost3.keeps (W6 m ρ c) (r := main_arg16) (by decide)).trans (at6_arg16 m ρ c)
theorem at8_arg16 : W8 m ρ c (Proc.devRef .tc main_arg16) = m ((c : Thread nD τ).loc main_arg16) :=
  (W8_of_ne m ρ c main_arg16 (by decide)).trans (at7_arg16 m ρ c)
theorem at9_arg16 : W9 m ρ c (Proc.devRef .tc main_arg16) = m ((c : Thread nD τ).loc main_arg16) :=
  (KHost4.keeps (W8 m ρ c) (r := main_arg16) (by decide)).trans (at8_arg16 m ρ c)
theorem at10_arg16 : W10 m ρ c (Proc.devRef .tc main_arg16) = m ((c : Thread nD τ).loc main_arg16) :=
  (W10_of_ne m ρ c main_arg16 (by decide)).trans (at9_arg16 m ρ c)
theorem at11_arg16 : W11 m ρ c (Proc.devRef .tc main_arg16) = m ((c : Thread nD τ).loc main_arg16) :=
  (KHost5.keeps (W10 m ρ c) (r := main_arg16) (by decide)).trans (at10_arg16 m ρ c)
theorem at12_arg16 : W12 m ρ c (Proc.devRef .tc main_arg16) = m ((c : Thread nD τ).loc main_arg16) :=
  (W12_of_ne m ρ c main_arg16 (by decide)).trans (at11_arg16 m ρ c)
theorem at13_arg16 : W13 m ρ c (Proc.devRef .tc main_arg16) = m ((c : Thread nD τ).loc main_arg16) :=
  (KHost6.keeps (W12 m ρ c) (r := main_arg16) (by decide)).trans (at12_arg16 m ρ c)
theorem at14_arg16 : W14 m ρ c (Proc.devRef .tc main_arg16) = m ((c : Thread nD τ).loc main_arg16) :=
  (W14_of_ne m ρ c main_arg16 (by decide)).trans (at13_arg16 m ρ c)
theorem at15_arg16 : W15 m ρ c (Proc.devRef .tc main_arg16) = m ((c : Thread nD τ).loc main_arg16) :=
  (KHost7.keeps (W14 m ρ c) (r := main_arg16) (by decide)).trans (at14_arg16 m ρ c)
theorem at16_arg16 : W16 m ρ c (Proc.devRef .tc main_arg16) = m ((c : Thread nD τ).loc main_arg16) :=
  (W16_of_ne m ρ c main_arg16 (by decide)).trans (at15_arg16 m ρ c)

end Cert.KernelIdeal.KWalkA

end
-- ==== Proof.KWalkB.lean ====
/-
  The argument arrays through the program's segments: no host stretch and no region writes an argument, so at every
  segment boundary up to its last reader an argument holds its launch contents.
-/
import proofs.«139518_j50508815401658_2_alg».proof.Proof.Gen.KernelIdeal.Frame
import proofs.«139518_j50508815401658_2_alg».proof.Proof.KHost0
import proofs.«139518_j50508815401658_2_alg».proof.Proof.KHost1
import proofs.«139518_j50508815401658_2_alg».proof.Proof.KHost2
import proofs.«139518_j50508815401658_2_alg».proof.Proof.KHost3
import proofs.«139518_j50508815401658_2_alg».proof.Proof.KHost4
import proofs.«139518_j50508815401658_2_alg».proof.Proof.KHost5
import proofs.«139518_j50508815401658_2_alg».proof.Proof.KHost6
import proofs.«139518_j50508815401658_2_alg».proof.Proof.KHost7
import proofs.«139518_j50508815401658_2_alg».proof.Proof.KHost8
import proofs.«139518_j50508815401658_2_alg».proof.Proof.KHost9

set_option maxRecDepth 16384

noncomputable section

namespace Cert.KernelIdeal.KWalkB

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

theorem at1_arg8 : W1 m ρ c (Proc.devRef .tc main_arg8) = m ((c : Thread nD τ).loc main_arg8) :=
  (KHost0.keeps (W0 m ρ c) (r := main_arg8) (by decide)).trans rfl

theorem at1_arg10 : W1 m ρ c (Proc.devRef .tc main_arg10) = m ((c : Thread nD τ).loc main_arg10) :=
  (KHost0.keeps (W0 m ρ c) (r := main_arg10) (by decide)).trans rfl
theorem at2_arg10 : W2 m ρ c (Proc.devRef .tc main_arg10) = m ((c : Thread nD τ).loc main_arg10) :=
  (W2_of_ne m ρ c main_arg10 (by decide)).trans (at1_arg10 m ρ c)
theorem at3_arg10 : W3 m ρ c (Proc.devRef .tc main_arg10) = m ((c : Thread nD τ).loc main_arg10) :=
  (KHost1.keeps (W2 m ρ c) (r := main_arg10) (by decide)).trans (at2_arg10 m ρ c)

theorem at1_arg17 : W1 m ρ c (Proc.devRef .tc main_arg17) = m ((c : Thread nD τ).loc main_arg17) :=
  (KHost0.keeps (W0 m ρ c) (r := main_arg17) (by decide)).trans rfl
theorem at2_arg17 : W2 m ρ c (Proc.devRef .tc main_arg17) = m ((c : Thread nD τ).loc main_arg17) :=
  (W2_of_ne m ρ c main_arg17 (by decide)).trans (at1_arg17 m ρ c)
theorem at3_arg17 : W3 m ρ c (Proc.devRef .tc main_arg17) = m ((c : Thread nD τ).loc main_arg17) :=
  (KHost1.keeps (W2 m ρ c) (r := main_arg17) (by decide)).trans (at2_arg17 m ρ c)
theorem at4_arg17 : W4 m ρ c (Proc.devRef .tc main_arg17) = m ((c : Thread nD τ).loc main_arg17) :=
  (W4_of_ne m ρ c main_arg17 (by decide)).trans (at3_arg17 m ρ c)
theorem at5_arg17 : W5 m ρ c (Proc.devRef .tc main_arg17) = m ((c : Thread nD τ).loc main_arg17) :=
  (KHost2.keeps (W4 m ρ c) (r := main_arg17) (by decide)).trans (at4_arg17 m ρ c)
theorem at6_arg17 : W6 m ρ c (Proc.devRef .tc main_arg17) = m ((c : Thread nD τ).loc main_arg17) :=
  (W6_of_ne m ρ c main_arg17 (by decide)).trans (at5_arg17 m ρ c)
theorem at7_arg17 : W7 m ρ c (Proc.devRef .tc main_arg17) = m ((c : Thread nD τ).loc main_arg17) :=
  (KHost3.keeps (W6 m ρ c) (r := main_arg17) (by decide)).trans (at6_arg17 m ρ c)
theorem at8_arg17 : W8 m ρ c (Proc.devRef .tc main_arg17) = m ((c : Thread nD τ).loc main_arg17) :=
  (W8_of_ne m ρ c main_arg17 (by decide)).trans (at7_arg17 m ρ c)
theorem at9_arg17 : W9 m ρ c (Proc.devRef .tc main_arg17) = m ((c : Thread nD τ).loc main_arg17) :=
  (KHost4.keeps (W8 m ρ c) (r := main_arg17) (by decide)).trans (at8_arg17 m ρ c)
theorem at10_arg17 : W10 m ρ c (Proc.devRef .tc main_arg17) = m ((c : Thread nD τ).loc main_arg17) :=
  (W10_of_ne m ρ c main_arg17 (by decide)).trans (at9_arg17 m ρ c)
theorem at11_arg17 : W11 m ρ c (Proc.devRef .tc main_arg17) = m ((c : Thread nD τ).loc main_arg17) :=
  (KHost5.keeps (W10 m ρ c) (r := main_arg17) (by decide)).trans (at10_arg17 m ρ c)
theorem at12_arg17 : W12 m ρ c (Proc.devRef .tc main_arg17) = m ((c : Thread nD τ).loc main_arg17) :=
  (W12_of_ne m ρ c main_arg17 (by decide)).trans (at11_arg17 m ρ c)
theorem at13_arg17 : W13 m ρ c (Proc.devRef .tc main_arg17) = m ((c : Thread nD τ).loc main_arg17) :=
  (KHost6.keeps (W12 m ρ c) (r := main_arg17) (by decide)).trans (at12_arg17 m ρ c)
theorem at14_arg17 : W14 m ρ c (Proc.devRef .tc main_arg17) = m ((c : Thread nD τ).loc main_arg17) :=
  (W14_of_ne m ρ c main_arg17 (by decide)).trans (at13_arg17 m ρ c)
theorem at15_arg17 : W15 m ρ c (Proc.devRef .tc main_arg17) = m ((c : Thread nD τ).loc main_arg17) :=
  (KHost7.keeps (W14 m ρ c) (r := main_arg17) (by decide)).trans (at14_arg17 m ρ c)
theorem at16_arg17 : W16 m ρ c (Proc.devRef .tc main_arg17) = m ((c : Thread nD τ).loc main_arg17) :=
  (W16_of_ne m ρ c main_arg17 (by decide)).trans (at15_arg17 m ρ c)
theorem at17_arg17 : W17 m ρ c (Proc.devRef .tc main_arg17) = m ((c : Thread nD τ).loc main_arg17) :=
  (KHost8.keeps (W16 m ρ c) (r := main_arg17) (by decide)).trans (at16_arg17 m ρ c)

theorem at1_arg3 : W1 m ρ c (Proc.devRef .tc main_arg3) = m ((c : Thread nD τ).loc main_arg3) :=
  (KHost0.keeps (W0 m ρ c) (r := main_arg3) (by decide)).trans rfl
theorem at2_arg3 : W2 m ρ c (Proc.devRef .tc main_arg3) = m ((c : Thread nD τ).loc main_arg3) :=
  (W2_of_ne m ρ c main_arg3 (by decide)).trans (at1_arg3 m ρ c)
theorem at3_arg3 : W3 m ρ c (Proc.devRef .tc main_arg3) = m ((c : Thread nD τ).loc main_arg3) :=
  (KHost1.keeps (W2 m ρ c) (r := main_arg3) (by decide)).trans (at2_arg3 m ρ c)
theorem at4_arg3 : W4 m ρ c (Proc.devRef .tc main_arg3) = m ((c : Thread nD τ).loc main_arg3) :=
  (W4_of_ne m ρ c main_arg3 (by decide)).trans (at3_arg3 m ρ c)
theorem at5_arg3 : W5 m ρ c (Proc.devRef .tc main_arg3) = m ((c : Thread nD τ).loc main_arg3) :=
  (KHost2.keeps (W4 m ρ c) (r := main_arg3) (by decide)).trans (at4_arg3 m ρ c)
theorem at6_arg3 : W6 m ρ c (Proc.devRef .tc main_arg3) = m ((c : Thread nD τ).loc main_arg3) :=
  (W6_of_ne m ρ c main_arg3 (by decide)).trans (at5_arg3 m ρ c)
theorem at7_arg3 : W7 m ρ c (Proc.devRef .tc main_arg3) = m ((c : Thread nD τ).loc main_arg3) :=
  (KHost3.keeps (W6 m ρ c) (r := main_arg3) (by decide)).trans (at6_arg3 m ρ c)
theorem at8_arg3 : W8 m ρ c (Proc.devRef .tc main_arg3) = m ((c : Thread nD τ).loc main_arg3) :=
  (W8_of_ne m ρ c main_arg3 (by decide)).trans (at7_arg3 m ρ c)
theorem at9_arg3 : W9 m ρ c (Proc.devRef .tc main_arg3) = m ((c : Thread nD τ).loc main_arg3) :=
  (KHost4.keeps (W8 m ρ c) (r := main_arg3) (by decide)).trans (at8_arg3 m ρ c)
theorem at10_arg3 : W10 m ρ c (Proc.devRef .tc main_arg3) = m ((c : Thread nD τ).loc main_arg3) :=
  (W10_of_ne m ρ c main_arg3 (by decide)).trans (at9_arg3 m ρ c)
theorem at11_arg3 : W11 m ρ c (Proc.devRef .tc main_arg3) = m ((c : Thread nD τ).loc main_arg3) :=
  (KHost5.keeps (W10 m ρ c) (r := main_arg3) (by decide)).trans (at10_arg3 m ρ c)
theorem at12_arg3 : W12 m ρ c (Proc.devRef .tc main_arg3) = m ((c : Thread nD τ).loc main_arg3) :=
  (W12_of_ne m ρ c main_arg3 (by decide)).trans (at11_arg3 m ρ c)

theorem at1_arg7 : W1 m ρ c (Proc.devRef .tc main_arg7) = m ((c : Thread nD τ).loc main_arg7) :=
  (KHost0.keeps (W0 m ρ c) (r := main_arg7) (by decide)).trans rfl
theorem at2_arg7 : W2 m ρ c (Proc.devRef .tc main_arg7) = m ((c : Thread nD τ).loc main_arg7) :=
  (W2_of_ne m ρ c main_arg7 (by decide)).trans (at1_arg7 m ρ c)
theorem at3_arg7 : W3 m ρ c (Proc.devRef .tc main_arg7) = m ((c : Thread nD τ).loc main_arg7) :=
  (KHost1.keeps (W2 m ρ c) (r := main_arg7) (by decide)).trans (at2_arg7 m ρ c)
theorem at4_arg7 : W4 m ρ c (Proc.devRef .tc main_arg7) = m ((c : Thread nD τ).loc main_arg7) :=
  (W4_of_ne m ρ c main_arg7 (by decide)).trans (at3_arg7 m ρ c)
theorem at5_arg7 : W5 m ρ c (Proc.devRef .tc main_arg7) = m ((c : Thread nD τ).loc main_arg7) :=
  (KHost2.keeps (W4 m ρ c) (r := main_arg7) (by decide)).trans (at4_arg7 m ρ c)
theorem at6_arg7 : W6 m ρ c (Proc.devRef .tc main_arg7) = m ((c : Thread nD τ).loc main_arg7) :=
  (W6_of_ne m ρ c main_arg7 (by decide)).trans (at5_arg7 m ρ c)
theorem at7_arg7 : W7 m ρ c (Proc.devRef .tc main_arg7) = m ((c : Thread nD τ).loc main_arg7) :=
  (KHost3.keeps (W6 m ρ c) (r := main_arg7) (by decide)).trans (at6_arg7 m ρ c)
theorem at8_arg7 : W8 m ρ c (Proc.devRef .tc main_arg7) = m ((c : Thread nD τ).loc main_arg7) :=
  (W8_of_ne m ρ c main_arg7 (by decide)).trans (at7_arg7 m ρ c)
theorem at9_arg7 : W9 m ρ c (Proc.devRef .tc main_arg7) = m ((c : Thread nD τ).loc main_arg7) :=
  (KHost4.keeps (W8 m ρ c) (r := main_arg7) (by decide)).trans (at8_arg7 m ρ c)
theorem at10_arg7 : W10 m ρ c (Proc.devRef .tc main_arg7) = m ((c : Thread nD τ).loc main_arg7) :=
  (W10_of_ne m ρ c main_arg7 (by decide)).trans (at9_arg7 m ρ c)
theorem at11_arg7 : W11 m ρ c (Proc.devRef .tc main_arg7) = m ((c : Thread nD τ).loc main_arg7) :=
  (KHost5.keeps (W10 m ρ c) (r := main_arg7) (by decide)).trans (at10_arg7 m ρ c)
theorem at12_arg7 : W12 m ρ c (Proc.devRef .tc main_arg7) = m ((c : Thread nD τ).loc main_arg7) :=
  (W12_of_ne m ρ c main_arg7 (by decide)).trans (at11_arg7 m ρ c)
theorem at13_arg7 : W13 m ρ c (Proc.devRef .tc main_arg7) = m ((c : Thread nD τ).loc main_arg7) :=
  (KHost6.keeps (W12 m ρ c) (r := main_arg7) (by decide)).trans (at12_arg7 m ρ c)
theorem at14_arg7 : W14 m ρ c (Proc.devRef .tc main_arg7) = m ((c : Thread nD τ).loc main_arg7) :=
  (W14_of_ne m ρ c main_arg7 (by decide)).trans (at13_arg7 m ρ c)

theorem at1_arg12 : W1 m ρ c (Proc.devRef .tc main_arg12) = m ((c : Thread nD τ).loc main_arg12) :=
  (KHost0.keeps (W0 m ρ c) (r := main_arg12) (by decide)).trans rfl
theorem at2_arg12 : W2 m ρ c (Proc.devRef .tc main_arg12) = m ((c : Thread nD τ).loc main_arg12) :=
  (W2_of_ne m ρ c main_arg12 (by decide)).trans (at1_arg12 m ρ c)
theorem at3_arg12 : W3 m ρ c (Proc.devRef .tc main_arg12) = m ((c : Thread nD τ).loc main_arg12) :=
  (KHost1.keeps (W2 m ρ c) (r := main_arg12) (by decide)).trans (at2_arg12 m ρ c)
theorem at4_arg12 : W4 m ρ c (Proc.devRef .tc main_arg12) = m ((c : Thread nD τ).loc main_arg12) :=
  (W4_of_ne m ρ c main_arg12 (by decide)).trans (at3_arg12 m ρ c)
theorem at5_arg12 : W5 m ρ c (Proc.devRef .tc main_arg12) = m ((c : Thread nD τ).loc main_arg12) :=
  (KHost2.keeps (W4 m ρ c) (r := main_arg12) (by decide)).trans (at4_arg12 m ρ c)
theorem at6_arg12 : W6 m ρ c (Proc.devRef .tc main_arg12) = m ((c : Thread nD τ).loc main_arg12) :=
  (W6_of_ne m ρ c main_arg12 (by decide)).trans (at5_arg12 m ρ c)
theorem at7_arg12 : W7 m ρ c (Proc.devRef .tc main_arg12) = m ((c : Thread nD τ).loc main_arg12) :=
  (KHost3.keeps (W6 m ρ c) (r := main_arg12) (by decide)).trans (at6_arg12 m ρ c)
theorem at8_arg12 : W8 m ρ c (Proc.devRef .tc main_arg12) = m ((c : Thread nD τ).loc main_arg12) :=
  (W8_of_ne m ρ c main_arg12 (by decide)).trans (at7_arg12 m ρ c)
theorem at9_arg12 : W9 m ρ c (Proc.devRef .tc main_arg12) = m ((c : Thread nD τ).loc main_arg12) :=
  (KHost4.keeps (W8 m ρ c) (r := main_arg12) (by decide)).trans (at8_arg12 m ρ c)
theorem at10_arg12 : W10 m ρ c (Proc.devRef .tc main_arg12) = m ((c : Thread nD τ).loc main_arg12) :=
  (W10_of_ne m ρ c main_arg12 (by decide)).trans (at9_arg12 m ρ c)
theorem at11_arg12 : W11 m ρ c (Proc.devRef .tc main_arg12) = m ((c : Thread nD τ).loc main_arg12) :=
  (KHost5.keeps (W10 m ρ c) (r := main_arg12) (by decide)).trans (at10_arg12 m ρ c)
theorem at12_arg12 : W12 m ρ c (Proc.devRef .tc main_arg12) = m ((c : Thread nD τ).loc main_arg12) :=
  (W12_of_ne m ρ c main_arg12 (by decide)).trans (at11_arg12 m ρ c)
theorem at13_arg12 : W13 m ρ c (Proc.devRef .tc main_arg12) = m ((c : Thread nD τ).loc main_arg12) :=
  (KHost6.keeps (W12 m ρ c) (r := main_arg12) (by decide)).trans (at12_arg12 m ρ c)
theorem at14_arg12 : W14 m ρ c (Proc.devRef .tc main_arg12) = m ((c : Thread nD τ).loc main_arg12) :=
  (W14_of_ne m ρ c main_arg12 (by decide)).trans (at13_arg12 m ρ c)

theorem at1_arg14 : W1 m ρ c (Proc.devRef .tc main_arg14) = m ((c : Thread nD τ).loc main_arg14) :=
  (KHost0.keeps (W0 m ρ c) (r := main_arg14) (by decide)).trans rfl
theorem at2_arg14 : W2 m ρ c (Proc.devRef .tc main_arg14) = m ((c : Thread nD τ).loc main_arg14) :=
  (W2_of_ne m ρ c main_arg14 (by decide)).trans (at1_arg14 m ρ c)
theorem at3_arg14 : W3 m ρ c (Proc.devRef .tc main_arg14) = m ((c : Thread nD τ).loc main_arg14) :=
  (KHost1.keeps (W2 m ρ c) (r := main_arg14) (by decide)).trans (at2_arg14 m ρ c)
theorem at4_arg14 : W4 m ρ c (Proc.devRef .tc main_arg14) = m ((c : Thread nD τ).loc main_arg14) :=
  (W4_of_ne m ρ c main_arg14 (by decide)).trans (at3_arg14 m ρ c)
theorem at5_arg14 : W5 m ρ c (Proc.devRef .tc main_arg14) = m ((c : Thread nD τ).loc main_arg14) :=
  (KHost2.keeps (W4 m ρ c) (r := main_arg14) (by decide)).trans (at4_arg14 m ρ c)
theorem at6_arg14 : W6 m ρ c (Proc.devRef .tc main_arg14) = m ((c : Thread nD τ).loc main_arg14) :=
  (W6_of_ne m ρ c main_arg14 (by decide)).trans (at5_arg14 m ρ c)
theorem at7_arg14 : W7 m ρ c (Proc.devRef .tc main_arg14) = m ((c : Thread nD τ).loc main_arg14) :=
  (KHost3.keeps (W6 m ρ c) (r := main_arg14) (by decide)).trans (at6_arg14 m ρ c)
theorem at8_arg14 : W8 m ρ c (Proc.devRef .tc main_arg14) = m ((c : Thread nD τ).loc main_arg14) :=
  (W8_of_ne m ρ c main_arg14 (by decide)).trans (at7_arg14 m ρ c)
theorem at9_arg14 : W9 m ρ c (Proc.devRef .tc main_arg14) = m ((c : Thread nD τ).loc main_arg14) :=
  (KHost4.keeps (W8 m ρ c) (r := main_arg14) (by decide)).trans (at8_arg14 m ρ c)
theorem at10_arg14 : W10 m ρ c (Proc.devRef .tc main_arg14) = m ((c : Thread nD τ).loc main_arg14) :=
  (W10_of_ne m ρ c main_arg14 (by decide)).trans (at9_arg14 m ρ c)
theorem at11_arg14 : W11 m ρ c (Proc.devRef .tc main_arg14) = m ((c : Thread nD τ).loc main_arg14) :=
  (KHost5.keeps (W10 m ρ c) (r := main_arg14) (by decide)).trans (at10_arg14 m ρ c)
theorem at12_arg14 : W12 m ρ c (Proc.devRef .tc main_arg14) = m ((c : Thread nD τ).loc main_arg14) :=
  (W12_of_ne m ρ c main_arg14 (by decide)).trans (at11_arg14 m ρ c)
theorem at13_arg14 : W13 m ρ c (Proc.devRef .tc main_arg14) = m ((c : Thread nD τ).loc main_arg14) :=
  (KHost6.keeps (W12 m ρ c) (r := main_arg14) (by decide)).trans (at12_arg14 m ρ c)
theorem at14_arg14 : W14 m ρ c (Proc.devRef .tc main_arg14) = m ((c : Thread nD τ).loc main_arg14) :=
  (W14_of_ne m ρ c main_arg14 (by decide)).trans (at13_arg14 m ρ c)

theorem at1_arg6 : W1 m ρ c (Proc.devRef .tc main_arg6) = m ((c : Thread nD τ).loc main_arg6) :=
  (KHost0.keeps (W0 m ρ c) (r := main_arg6) (by decide)).trans rfl
theorem at2_arg6 : W2 m ρ c (Proc.devRef .tc main_arg6) = m ((c : Thread nD τ).loc main_arg6) :=
  (W2_of_ne m ρ c main_arg6 (by decide)).trans (at1_arg6 m ρ c)
theorem at3_arg6 : W3 m ρ c (Proc.devRef .tc main_arg6) = m ((c : Thread nD τ).loc main_arg6) :=
  (KHost1.keeps (W2 m ρ c) (r := main_arg6) (by decide)).trans (at2_arg6 m ρ c)
theorem at4_arg6 : W4 m ρ c (Proc.devRef .tc main_arg6) = m ((c : Thread nD τ).loc main_arg6) :=
  (W4_of_ne m ρ c main_arg6 (by decide)).trans (at3_arg6 m ρ c)
theorem at5_arg6 : W5 m ρ c (Proc.devRef .tc main_arg6) = m ((c : Thread nD τ).loc main_arg6) :=
  (KHost2.keeps (W4 m ρ c) (r := main_arg6) (by decide)).trans (at4_arg6 m ρ c)
theorem at6_arg6 : W6 m ρ c (Proc.devRef .tc main_arg6) = m ((c : Thread nD τ).loc main_arg6) :=
  (W6_of_ne m ρ c main_arg6 (by decide)).trans (at5_arg6 m ρ c)
theorem at7_arg6 : W7 m ρ c (Proc.devRef .tc main_arg6) = m ((c : Thread nD τ).loc main_arg6) :=
  (KHost3.keeps (W6 m ρ c) (r := main_arg6) (by decide)).trans (at6_arg6 m ρ c)
theorem at8_arg6 : W8 m ρ c (Proc.devRef .tc main_arg6) = m ((c : Thread nD τ).loc main_arg6) :=
  (W8_of_ne m ρ c main_arg6 (by decide)).trans (at7_arg6 m ρ c)
theorem at9_arg6 : W9 m ρ c (Proc.devRef .tc main_arg6) = m ((c : Thread nD τ).loc main_arg6) :=
  (KHost4.keeps (W8 m ρ c) (r := main_arg6) (by decide)).trans (at8_arg6 m ρ c)
theorem at10_arg6 : W10 m ρ c (Proc.devRef .tc main_arg6) = m ((c : Thread nD τ).loc main_arg6) :=
  (W10_of_ne m ρ c main_arg6 (by decide)).trans (at9_arg6 m ρ c)
theorem at11_arg6 : W11 m ρ c (Proc.devRef .tc main_arg6) = m ((c : Thread nD τ).loc main_arg6) :=
  (KHost5.keeps (W10 m ρ c) (r := main_arg6) (by decide)).trans (at10_arg6 m ρ c)
theorem at12_arg6 : W12 m ρ c (Proc.devRef .tc main_arg6) = m ((c : Thread nD τ).loc main_arg6) :=
  (W12_of_ne m ρ c main_arg6 (by decide)).trans (at11_arg6 m ρ c)
theorem at13_arg6 : W13 m ρ c (Proc.devRef .tc main_arg6) = m ((c : Thread nD τ).loc main_arg6) :=
  (KHost6.keeps (W12 m ρ c) (r := main_arg6) (by decide)).trans (at12_arg6 m ρ c)
theorem at14_arg6 : W14 m ρ c (Proc.devRef .tc main_arg6) = m ((c : Thread nD τ).loc main_arg6) :=
  (W14_of_ne m ρ c main_arg6 (by decide)).trans (at13_arg6 m ρ c)

theorem at1_arg18 : W1 m ρ c (Proc.devRef .tc main_arg18) = m ((c : Thread nD τ).loc main_arg18) :=
  (KHost0.keeps (W0 m ρ c) (r := main_arg18) (by decide)).trans rfl
theorem at2_arg18 : W2 m ρ c (Proc.devRef .tc main_arg18) = m ((c : Thread nD τ).loc main_arg18) :=
  (W2_of_ne m ρ c main_arg18 (by decide)).trans (at1_arg18 m ρ c)
theorem at3_arg18 : W3 m ρ c (Proc.devRef .tc main_arg18) = m ((c : Thread nD τ).loc main_arg18) :=
  (KHost1.keeps (W2 m ρ c) (r := main_arg18) (by decide)).trans (at2_arg18 m ρ c)
theorem at4_arg18 : W4 m ρ c (Proc.devRef .tc main_arg18) = m ((c : Thread nD τ).loc main_arg18) :=
  (W4_of_ne m ρ c main_arg18 (by decide)).trans (at3_arg18 m ρ c)
theorem at5_arg18 : W5 m ρ c (Proc.devRef .tc main_arg18) = m ((c : Thread nD τ).loc main_arg18) :=
  (KHost2.keeps (W4 m ρ c) (r := main_arg18) (by decide)).trans (at4_arg18 m ρ c)
theorem at6_arg18 : W6 m ρ c (Proc.devRef .tc main_arg18) = m ((c : Thread nD τ).loc main_arg18) :=
  (W6_of_ne m ρ c main_arg18 (by decide)).trans (at5_arg18 m ρ c)
theorem at7_arg18 : W7 m ρ c (Proc.devRef .tc main_arg18) = m ((c : Thread nD τ).loc main_arg18) :=
  (KHost3.keeps (W6 m ρ c) (r := main_arg18) (by decide)).trans (at6_arg18 m ρ c)
theorem at8_arg18 : W8 m ρ c (Proc.devRef .tc main_arg18) = m ((c : Thread nD τ).loc main_arg18) :=
  (W8_of_ne m ρ c main_arg18 (by decide)).trans (at7_arg18 m ρ c)
theorem at9_arg18 : W9 m ρ c (Proc.devRef .tc main_arg18) = m ((c : Thread nD τ).loc main_arg18) :=
  (KHost4.keeps (W8 m ρ c) (r := main_arg18) (by decide)).trans (at8_arg18 m ρ c)
theorem at10_arg18 : W10 m ρ c (Proc.devRef .tc main_arg18) = m ((c : Thread nD τ).loc main_arg18) :=
  (W10_of_ne m ρ c main_arg18 (by decide)).trans (at9_arg18 m ρ c)
theorem at11_arg18 : W11 m ρ c (Proc.devRef .tc main_arg18) = m ((c : Thread nD τ).loc main_arg18) :=
  (KHost5.keeps (W10 m ρ c) (r := main_arg18) (by decide)).trans (at10_arg18 m ρ c)
theorem at12_arg18 : W12 m ρ c (Proc.devRef .tc main_arg18) = m ((c : Thread nD τ).loc main_arg18) :=
  (W12_of_ne m ρ c main_arg18 (by decide)).trans (at11_arg18 m ρ c)
theorem at13_arg18 : W13 m ρ c (Proc.devRef .tc main_arg18) = m ((c : Thread nD τ).loc main_arg18) :=
  (KHost6.keeps (W12 m ρ c) (r := main_arg18) (by decide)).trans (at12_arg18 m ρ c)
theorem at14_arg18 : W14 m ρ c (Proc.devRef .tc main_arg18) = m ((c : Thread nD τ).loc main_arg18) :=
  (W14_of_ne m ρ c main_arg18 (by decide)).trans (at13_arg18 m ρ c)
theorem at15_arg18 : W15 m ρ c (Proc.devRef .tc main_arg18) = m ((c : Thread nD τ).loc main_arg18) :=
  (KHost7.keeps (W14 m ρ c) (r := main_arg18) (by decide)).trans (at14_arg18 m ρ c)
theorem at16_arg18 : W16 m ρ c (Proc.devRef .tc main_arg18) = m ((c : Thread nD τ).loc main_arg18) :=
  (W16_of_ne m ρ c main_arg18 (by decide)).trans (at15_arg18 m ρ c)

end Cert.KernelIdeal.KWalkB

end
-- ==== Proof.KWalkV.lean ====
/-
  The intermediate arrays through the program's segments: from the boundary where an array is produced (by a host
  stretch or as a region's output) to its last reader nothing writes it, so it keeps its contents.
-/
import proofs.«139518_j50508815401658_2_alg».proof.Proof.Gen.KernelIdeal.Frame
import proofs.«139518_j50508815401658_2_alg».proof.Proof.KHost0
import proofs.«139518_j50508815401658_2_alg».proof.Proof.KHost1
import proofs.«139518_j50508815401658_2_alg».proof.Proof.KHost2
import proofs.«139518_j50508815401658_2_alg».proof.Proof.KHost3
import proofs.«139518_j50508815401658_2_alg».proof.Proof.KHost4
import proofs.«139518_j50508815401658_2_alg».proof.Proof.KHost5
import proofs.«139518_j50508815401658_2_alg».proof.Proof.KHost6
import proofs.«139518_j50508815401658_2_alg».proof.Proof.KHost7
import proofs.«139518_j50508815401658_2_alg».proof.Proof.KHost8
import proofs.«139518_j50508815401658_2_alg».proof.Proof.KHost9

set_option maxRecDepth 16384

noncomputable section

namespace Cert.KernelIdeal.KWalkV

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

theorem at6_v12 : W6 m ρ c (Proc.devRef .tc main_v12) = W5 m ρ c (Proc.devRef .tc main_v12) :=
  ((W6_arr m ρ c 1).trans (((dat2 (V5 m ρ) c).arrAt_in 1 rfl _).trans (A_eq2 (V5 m ρ) c 1))).trans rfl
theorem at7_v12 : W7 m ρ c (Proc.devRef .tc main_v12) = W5 m ρ c (Proc.devRef .tc main_v12) :=
  (KHost3.keeps (W6 m ρ c) (r := main_v12) (by decide)).trans (at6_v12 m ρ c)
theorem at8_v12 : W8 m ρ c (Proc.devRef .tc main_v12) = W5 m ρ c (Proc.devRef .tc main_v12) :=
  (W8_of_ne m ρ c main_v12 (by decide)).trans (at7_v12 m ρ c)
theorem at9_v12 : W9 m ρ c (Proc.devRef .tc main_v12) = W5 m ρ c (Proc.devRef .tc main_v12) :=
  (KHost4.keeps (W8 m ρ c) (r := main_v12) (by decide)).trans (at8_v12 m ρ c)
theorem at10_v12 : W10 m ρ c (Proc.devRef .tc main_v12) = W5 m ρ c (Proc.devRef .tc main_v12) :=
  ((W10_arr m ρ c 1).trans (((dat4 (V9 m ρ) c).arrAt_in 1 rfl _).trans (A_eq4 (V9 m ρ) c 1))).trans (at9_v12 m ρ c)
theorem at11_v12 : W11 m ρ c (Proc.devRef .tc main_v12) = W5 m ρ c (Proc.devRef .tc main_v12) :=
  (KHost5.keeps (W10 m ρ c) (r := main_v12) (by decide)).trans (at10_v12 m ρ c)
theorem at12_v12 : W12 m ρ c (Proc.devRef .tc main_v12) = W5 m ρ c (Proc.devRef .tc main_v12) :=
  (W12_of_ne m ρ c main_v12 (by decide)).trans (at11_v12 m ρ c)
theorem at13_v12 : W13 m ρ c (Proc.devRef .tc main_v12) = W5 m ρ c (Proc.devRef .tc main_v12) :=
  (KHost6.keeps (W12 m ρ c) (r := main_v12) (by decide)).trans (at12_v12 m ρ c)

theorem at5_v3 : W5 m ρ c (Proc.devRef .tc main_v3) = W4 m ρ c (Proc.devRef .tc main_v3) :=
  (KHost2.keeps (W4 m ρ c) (r := main_v3) (by decide)).trans rfl
theorem at6_v3 : W6 m ρ c (Proc.devRef .tc main_v3) = W4 m ρ c (Proc.devRef .tc main_v3) :=
  ((W6_arr m ρ c 2).trans (((dat2 (V5 m ρ) c).arrAt_in 2 rfl _).trans (A_eq2 (V5 m ρ) c 2))).trans (at5_v3 m ρ c)

theorem at6_v21 : W6 m ρ c (Proc.devRef .tc main_v21) = W5 m ρ c (Proc.devRef .tc main_v21) :=
  (W6_of_ne m ρ c main_v21 (by decide)).trans rfl
theorem at7_v21 : W7 m ρ c (Proc.devRef .tc main_v21) = W5 m ρ c (Proc.devRef .tc main_v21) :=
  (KHost3.keeps (W6 m ρ c) (r := main_v21) (by decide)).trans (at6_v21 m ρ c)
theorem at8_v21 : W8 m ρ c (Proc.devRef .tc main_v21) = W5 m ρ c (Proc.devRef .tc main_v21) :=
  ((W8_arr m ρ c 1).trans (((dat3 (V7 m ρ) c).arrAt_in 1 rfl _).trans (A_eq3 (V7 m ρ) c 1))).trans (at7_v21 m ρ c)
theorem at9_v21 : W9 m ρ c (Proc.devRef .tc main_v21) = W5 m ρ c (Proc.devRef .tc main_v21) :=
  (KHost4.keeps (W8 m ρ c) (r := main_v21) (by decide)).trans (at8_v21 m ρ c)
theorem at10_v21 : W10 m ρ c (Proc.devRef .tc main_v21) = W5 m ρ c (Proc.devRef .tc main_v21) :=
  (W10_of_ne m ρ c main_v21 (by decide)).trans (at9_v21 m ρ c)
theorem at11_v21 : W11 m ρ c (Proc.devRef .tc main_v21) = W5 m ρ c (Proc.devRef .tc main_v21) :=
  (KHost5.keeps (W10 m ρ c) (r := main_v21) (by decide)).trans (at10_v21 m ρ c)
theorem at12_v21 : W12 m ρ c (Proc.devRef .tc main_v21) = W5 m ρ c (Proc.devRef .tc main_v21) :=
  ((W12_arr m ρ c 1).trans (((dat5 (V11 m ρ) c).arrAt_in 1 rfl _).trans (A_eq5 (V11 m ρ) c 1))).trans (at11_v21 m ρ c)
theorem at13_v21 : W13 m ρ c (Proc.devRef .tc main_v21) = W5 m ρ c (Proc.devRef .tc main_v21) :=
  (KHost6.keeps (W12 m ρ c) (r := main_v21) (by decide)).trans (at12_v21 m ρ c)
theorem at14_v21 : W14 m ρ c (Proc.devRef .tc main_v21) = W5 m ρ c (Proc.devRef .tc main_v21) :=
  (W14_of_ne m ρ c main_v21 (by decide)).trans (at13_v21 m ρ c)
theorem at15_v21 : W15 m ρ c (Proc.devRef .tc main_v21) = W5 m ρ c (Proc.devRef .tc main_v21) :=
  (KHost7.keeps (W14 m ρ c) (r := main_v21) (by decide)).trans (at14_v21 m ρ c)

theorem at6_v30 : W6 m ρ c (Proc.devRef .tc main_v30) = W5 m ρ c (Proc.devRef .tc main_v30) :=
  (W6_of_ne m ρ c main_v30 (by decide)).trans rfl
theorem at7_v30 : W7 m ρ c (Proc.devRef .tc main_v30) = W5 m ρ c (Proc.devRef .tc main_v30) :=
  (KHost3.keeps (W6 m ρ c) (r := main_v30) (by decide)).trans (at6_v30 m ρ c)
theorem at8_v30 : W8 m ρ c (Proc.devRef .tc main_v30) = W5 m ρ c (Proc.devRef .tc main_v30) :=
  ((W8_arr m ρ c 3).trans (((dat3 (V7 m ρ) c).arrAt_in 3 rfl _).trans (A_eq3 (V7 m ρ) c 3))).trans (at7_v30 m ρ c)
theorem at9_v30 : W9 m ρ c (Proc.devRef .tc main_v30) = W5 m ρ c (Proc.devRef .tc main_v30) :=
  (KHost4.keeps (W8 m ρ c) (r := main_v30) (by decide)).trans (at8_v30 m ρ c)
theorem at10_v30 : W10 m ρ c (Proc.devRef .tc main_v30) = W5 m ρ c (Proc.devRef .tc main_v30) :=
  (W10_of_ne m ρ c main_v30 (by decide)).trans (at9_v30 m ρ c)
theorem at11_v30 : W11 m ρ c (Proc.devRef .tc main_v30) = W5 m ρ c (Proc.devRef .tc main_v30) :=
  (KHost5.keeps (W10 m ρ c) (r := main_v30) (by decide)).trans (at10_v30 m ρ c)
theorem at12_v30 : W12 m ρ c (Proc.devRef .tc main_v30) = W5 m ρ c (Proc.devRef .tc main_v30) :=
  ((W12_arr m ρ c 3).trans (((dat5 (V11 m ρ) c).arrAt_in 3 rfl _).trans (A_eq5 (V11 m ρ) c 3))).trans (at11_v30 m ρ c)
theorem at13_v30 : W13 m ρ c (Proc.devRef .tc main_v30) = W5 m ρ c (Proc.devRef .tc main_v30) :=
  (KHost6.keeps (W12 m ρ c) (r := main_v30) (by decide)).trans (at12_v30 m ρ c)
theorem at14_v30 : W14 m ρ c (Proc.devRef .tc main_v30) = W5 m ρ c (Proc.devRef .tc main_v30) :=
  (W14_of_ne m ρ c main_v30 (by decide)).trans (at13_v30 m ρ c)
theorem at15_v30 : W15 m ρ c (Proc.devRef .tc main_v30) = W5 m ρ c (Proc.devRef .tc main_v30) :=
  (KHost7.keeps (W14 m ρ c) (r := main_v30) (by decide)).trans (at14_v30 m ρ c)

theorem at3_v1 : W3 m ρ c (Proc.devRef .tc main_v1) = W2 m ρ c (Proc.devRef .tc main_v1) :=
  (KHost1.keeps (W2 m ρ c) (r := main_v1) (by decide)).trans rfl
theorem at4_v1 : W4 m ρ c (Proc.devRef .tc main_v1) = W2 m ρ c (Proc.devRef .tc main_v1) :=
  (W4_of_ne m ρ c main_v1 (by decide)).trans (at3_v1 m ρ c)
theorem at5_v1 : W5 m ρ c (Proc.devRef .tc main_v1) = W2 m ρ c (Proc.devRef .tc main_v1) :=
  (KHost2.keeps (W4 m ρ c) (r := main_v1) (by decide)).trans (at4_v1 m ρ c)
theorem at6_v1 : W6 m ρ c (Proc.devRef .tc main_v1) = W2 m ρ c (Proc.devRef .tc main_v1) :=
  (W6_of_ne m ρ c main_v1 (by decide)).trans (at5_v1 m ρ c)
theorem at7_v1 : W7 m ρ c (Proc.devRef .tc main_v1) = W2 m ρ c (Proc.devRef .tc main_v1) :=
  (KHost3.keeps (W6 m ρ c) (r := main_v1) (by decide)).trans (at6_v1 m ρ c)

theorem at7_v49 : W7 m ρ c (Proc.devRef .tc main_v49) = W6 m ρ c (Proc.devRef .tc main_v49) :=
  (KHost3.keeps (W6 m ρ c) (r := main_v49) (by decide)).trans rfl
theorem at8_v49 : W8 m ρ c (Proc.devRef .tc main_v49) = W6 m ρ c (Proc.devRef .tc main_v49) :=
  (W8_of_ne m ρ c main_v49 (by decide)).trans (at7_v49 m ρ c)
theorem at9_v49 : W9 m ρ c (Proc.devRef .tc main_v49) = W6 m ρ c (Proc.devRef .tc main_v49) :=
  (KHost4.keeps (W8 m ρ c) (r := main_v49) (by decide)).trans (at8_v49 m ρ c)
theorem at10_v49 : W10 m ρ c (Proc.devRef .tc main_v49) = W6 m ρ c (Proc.devRef .tc main_v49) :=
  ((W10_arr m ρ c 2).trans (((dat4 (V9 m ρ) c).arrAt_in 2 rfl _).trans (A_eq4 (V9 m ρ) c 2))).trans (at9_v49 m ρ c)

theorem at9_v95 : W9 m ρ c (Proc.devRef .tc main_v95) = W8 m ρ c (Proc.devRef .tc main_v95) :=
  (KHost4.keeps (W8 m ρ c) (r := main_v95) (by decide)).trans rfl
theorem at10_v95 : W10 m ρ c (Proc.devRef .tc main_v95) = W8 m ρ c (Proc.devRef .tc main_v95) :=
  (W10_of_ne m ρ c main_v95 (by decide)).trans (at9_v95 m ρ c)
theorem at11_v95 : W11 m ρ c (Proc.devRef .tc main_v95) = W8 m ρ c (Proc.devRef .tc main_v95) :=
  (KHost5.keeps (W10 m ρ c) (r := main_v95) (by decide)).trans (at10_v95 m ρ c)

theorem at11_v114 : W11 m ρ c (Proc.devRef .tc main_v114) = W10 m ρ c (Proc.devRef .tc main_v114) :=
  (KHost5.keeps (W10 m ρ c) (r := main_v114) (by decide)).trans rfl
theorem at12_v114 : W12 m ρ c (Proc.devRef .tc main_v114) = W10 m ρ c (Proc.devRef .tc main_v114) :=
  (W12_of_ne m ρ c main_v114 (by decide)).trans (at11_v114 m ρ c)
theorem at13_v114 : W13 m ρ c (Proc.devRef .tc main_v114) = W10 m ρ c (Proc.devRef .tc main_v114) :=
  (KHost6.keeps (W12 m ρ c) (r := main_v114) (by decide)).trans (at12_v114 m ρ c)
theorem at14_v114 : W14 m ρ c (Proc.devRef .tc main_v114) = W10 m ρ c (Proc.devRef .tc main_v114) :=
  ((W14_arr m ρ c 2).trans (((dat6 (V13 m ρ) c).arrAt_in 2 rfl _).trans (A_eq6 (V13 m ρ) c 2))).trans (at13_v114 m ρ c)

theorem at13_v160 : W13 m ρ c (Proc.devRef .tc main_v160) = W12 m ρ c (Proc.devRef .tc main_v160) :=
  (KHost6.keeps (W12 m ρ c) (r := main_v160) (by decide)).trans rfl
theorem at14_v160 : W14 m ρ c (Proc.devRef .tc main_v160) = W12 m ρ c (Proc.devRef .tc main_v160) :=
  (W14_of_ne m ρ c main_v160 (by decide)).trans (at13_v160 m ρ c)
theorem at15_v160 : W15 m ρ c (Proc.devRef .tc main_v160) = W12 m ρ c (Proc.devRef .tc main_v160) :=
  (KHost7.keeps (W14 m ρ c) (r := main_v160) (by decide)).trans (at14_v160 m ρ c)

theorem at17_v225 : W17 m ρ c (Proc.devRef .tc main_v225) = W16 m ρ c (Proc.devRef .tc main_v225) :=
  (KHost8.keeps (W16 m ρ c) (r := main_v225) (by decide)).trans rfl

end Cert.KernelIdeal.KWalkV

end
-- ==== Proof.Spec.lean ====
/-
  The stages of a three-layer heterogeneous graph network (mean-aggregating neighbourhood convolutions over two node
  types) as entrywise functions on matrices of extended reals.

  A matrix is a function on the multi-indices of a literal two-axis shape; entry (p, q) is read at `ix2 p q`.
  * `lin x w b`: the product `x · w` plus the row vector `b` added to every row.
  * `relu`: the entrywise maximum with zero.
  * A neighbourhood convolution adds a linear image of the MEAN of the neighbours' features (their sum `a` divided by the
    neighbour count `c`, a column) to a linear image of the node's own features `xd`.  `sageR` is that, dividing; `sageK1`
    multiplies the sum by a reciprocal column `r` instead and clamps at zero.
  * A node type that receives two relations takes the mean of the two convolutions and clamps (`meanRelu`); `sageK2` is
    the same quantity with the factor one half folded into the weights and the bias beforehand (`scale`, `scaleSum`).
-/
import Idealize.ShloMosaic.PureOps.Ideal
import Idealize.ShloMosaic.Lib.ValueIdx

noncomputable section

open scoped BigOperators
open Idealize.ShloMosaic Idealize.ShloMosaic.ValueIdx

namespace Sage

variable {M K N H : ℕ}

/-- Matrices of extended reals, indexed by the shape's multi-indices. -/
abbrev Mat (M N : ℕ) : Type := (⟨2, ![M, N]⟩ : Shape).Idx → EReal

/-- One half, as the single-precision word both programs carry. -/
def half : EReal := Ideal.ofBits .f32 0x3F000000#32

/-- One, as the single-precision word both programs carry. -/
def one : EReal := Ideal.ofBits .f32 0x3F800000#32

/-- `x · w + b`, the row vector `b` added to every row. -/
def lin (x : Mat M K) (w : Mat K N) (b : Mat 1 N) : Mat M N :=
  fun i => (∑ k : Fin K, x (ix2 (i 0) k) * w (ix2 k (i 1))) + b (ix2 0 (i 1))

/-- The entrywise maximum with zero. -/
def relu (a : Mat M N) : Mat M N := fun i => max (a i) 0

/-- The reciprocal of a column, entry by entry. -/
def recip (c : Mat M 1) : Mat M 1 := fun i => Ideal.div one (c i)

/-- One half of a matrix. -/
def scale (w : Mat K N) : Mat K N := fun i => half * w i

/-- One half of the sum of two matrices. -/
def scaleSum (w1 w2 : Mat K N) : Mat K N := fun i => half * (w1 i + w2 i)

/-- A convolution with the neighbour sum `a` scaled by a reciprocal column `r`, clamped at zero. -/
def sageK1 (a : Mat M H) (r : Mat M 1) (xd : Mat M H) (wl : Mat H H) (bl : Mat 1 H) (wr : Mat H H) : Mat M H :=
  fun i =>
    max (((∑ k : Fin H, (a (ix2 (i 0) k) * r (ix2 (i 0) 0)) * wl (ix2 k (i 1))) + bl (ix2 0 (i 1)))
      + ∑ k : Fin H, xd (ix2 (i 0) k) * wr (ix2 k (i 1))) 0

/-- Two relations into one node type, the mean's factor already folded into `wl1`, `wl2`, `blc`, `wrc`; clamped at zero. -/
def sageK2 (a1 : Mat M H) (r1 : Mat M 1) (a2 : Mat M H) (r2 : Mat M 1) (xd : Mat M H)
    (wl1 wl2 : Mat H H) (blc : Mat 1 H) (wrc : Mat H H) : Mat M H :=
  fun i =>
    max ((((∑ k : Fin H, (a1 (ix2 (i 0) k) * r1 (ix2 (i 0) 0)) * wl1 (ix2 k (i 1)))
          + ∑ k : Fin H, (a2 (ix2 (i 0) k) * r2 (ix2 (i 0) 0)) * wl2 (ix2 k (i 1)))
        + blc (ix2 0 (i 1)))
      + ∑ k : Fin H, xd (ix2 (i 0) k) * wrc (ix2 k (i 1))) 0

/-- A convolution with the neighbour sum `a` divided by the count column `c`. -/
def sageR (a : Mat M H) (c : Mat M 1) (xd : Mat M H) (wl : Mat H H) (bl : Mat 1 H) (wr : Mat H H) : Mat M H :=
  fun i =>
    ((∑ k : Fin H, Ideal.div (a (ix2 (i 0) k)) (c (ix2 (i 0) 0)) * wl (ix2 k (i 1))) + bl (ix2 0 (i 1)))
      + ∑ k : Fin H, xd (ix2 (i 0) k) * wr (ix2 k (i 1))

/-- The mean of two matrices, clamped at zero. -/
def meanRelu (o1 o2 : Mat M N) : Mat M N := fun i => max ((o1 i + o2 i) * half) 0

end Sage

end
-- ==== Proof.LibRowBroadcast.lean ====
/-
  A vector spread over a matrix, read at an entry.

  A length-`N` vector made a column and then repeated along `H` columns has, at `(r, j)`, the vector's entry `r`;
  a length-`H` vector made a row and then repeated down `N` rows has, at `(r, j)`, the vector's entry `j`;
  and a length-`N` vector reshaped to an `N × 1` column has, at `(r, 0)`, the vector's entry `r`.
-/
import Idealize.ShloMosaic.Lib.Pipeline.Value
import Idealize.ShloMosaic.Lib.ValueIdx

noncomputable section

open Idealize.ShloMosaic Idealize.ShloMosaic.ValueIdx

namespace RowBroadcast

variable {α : Type} {N H : ℕ}

/-- A vector as a column … -/
theorem col_apply (h : (⟨1, ![N]⟩ : Shape).BroadcastsInDim ⟨2, ![N, 1]⟩ ![0]) (v : (⟨1, ![N]⟩ : Shape).Idx → α)
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- … repeated along the columns: entry `(r, j)` is the vector's entry `r`. -/
theorem rows_apply (h1 : (⟨1, ![N]⟩ : Shape).BroadcastsInDim ⟨2, ![N, 1]⟩ ![0])
    (h2 : (⟨2, ![N, 1]⟩ : Shape).BroadcastsInDim ⟨2, ![N, H]⟩ ![0, 1]) (v : (⟨1, ![N]⟩ : Shape).Idx → α)
    (r : Fin N) (j : Fin H) :
    broadcastInDim ⟨2, ![N, H]⟩ ![0, 1] h2 (broadcastInDim ⟨2, ![N, 1]⟩ ![0] h1 v) (ix2 r j) = v (ix1 r) := by
  refine (broadcastInDim_apply ![0, 1] h2 _ (ix2 r j) (ix2 r (0 : Fin 1)) fun a => ?_).trans (col_apply h1 v r 0)
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A vector as a row, repeated down the rows: entry `(r, j)` is the vector's entry `j`. -/
theorem cols_apply (h1 : (⟨1, ![H]⟩ : Shape).BroadcastsInDim ⟨2, ![1, H]⟩ ![1])
    (h2 : (⟨2, ![1, H]⟩ : Shape).BroadcastsInDim ⟨2, ![N, H]⟩ ![0, 1]) (v : (⟨1, ![H]⟩ : Shape).Idx → α)
    (r : Fin N) (j : Fin H) :
    broadcastInDim ⟨2, ![N, H]⟩ ![0, 1] h2 (broadcastInDim ⟨2, ![1, H]⟩ ![1] h1 v) (ix2 r j) = v (ix1 j) := by
  refine (broadcastInDim_apply ![0, 1] h2 _ (ix2 r j) (ix2 (0 : Fin 1) j) fun a => ?_).trans
    (broadcastInDim_apply ![1] h1 v (ix2 (0 : Fin 1) j) (ix1 j) fun a => ?_)
  · match a with
    | ⟨0, _⟩ =>
      show 0 = if (1 : ℕ) = 1 then 0 else r.val
      rw [if_pos rfl]
    | ⟨1, _⟩ =>
      show j.val = if H = 1 then 0 else j.val
      split
      · have := j.isLt; omega
      · rfl
  · match a with
    | ⟨0, _⟩ =>
      show j.val = if H = 1 then 0 else j.val
      split
      · have := j.isLt; omega
      · rfl

/-- A vector reshaped to a column: entry `(r, 0)` is the vector's entry `r`. -/
theorem reshape_col_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end RowBroadcast

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.KGlue.lean ====
/-
  The kernel program's layout glue read entry by entry.

  * A vector reshaped to a one-row matrix, or to a one-column matrix.
  * The reciprocal column: one divided by each count, laid out as a column.
  * One relation's weight matrix cut out of the stacked `[3, 3, 64, 64]` weights (slice, then drop the two unit axes),
    and one relation's bias vector cut out of the stacked `[3, 3, 64]` biases.
  * The same with the factor one half folded in: half the matrix; half the sum of two matrices or of two bias vectors.
  * The final column `[M, 1]` flattened to a vector.
-/
import proofs.«139518_j50508815401658_2_alg».proof.Proof.Spec
import proofs.«139518_j50508815401658_2_alg».proof.Proof.LibRowBroadcast
import proofs.«139518_j50508815401658_2_alg».proof.Proof.LibLayout
import Idealize.ShloMosaic.Lib.IdealHost
import Idealize.ShloMosaic.Lib.Pipeline.Value

noncomputable section

namespace KGlue

open Idealize.ShloMosaic Idealize.ShloMosaic.ValueIdx

/-- A vector as a one-row matrix. -/
theorem row_eq {N : ℕ} (x : (⟨1, ![N]⟩ : Shape).Idx → EReal) (h : (⟨1, ![N]⟩ : Shape).ShapeCasts (⟨2, ![1, N]⟩ : Shape)) :
    (shapeCast (⟨2, ![1, N]⟩ : Shape) x h : Sage.Mat 1 N) = fun i => x (ix1 (i 1)) := by
  funext i
  obtain ⟨p, q, rfl⟩ : ∃ (p : Fin 1) (q : Fin N), i = ix2 p q := ⟨i 0, i 1, eq_ix2 i⟩
  obtain rfl : p = 0 := Subsingleton.elim _ _
  exact RowOfFlat.apply x h q

/-- A vector as a one-column matrix. -/
theorem col_eq {N : ℕ} (x : (⟨1, ![N]⟩ : Shape).Idx → EReal) (h : (⟨1, ![N]⟩ : Shape).ShapeCasts (⟨2, ![N, 1]⟩ : Shape)) :
    (shapeCast (⟨2, ![N, 1]⟩ : Shape) x h : Sage.Mat N 1) = fun i => x (ix1 (i 0)) := by
  funext i
  obtain ⟨p, q, rfl⟩ : ∃ (p : Fin N) (q : Fin 1), i = ix2 p q := ⟨i 0, i 1, eq_ix2 i⟩
  exact RowBroadcast.reshape_col_apply x h p q

/-- One over each count, as a column: the reciprocal of the counts' column. -/
theorem recip_col {N : ℕ} (c : (⟨1, ![N]⟩ : Shape).Idx → EReal)
    (hb : (⟨0, ![]⟩ : Shape).BroadcastsInDim (⟨1, ![N]⟩ : Shape) ![])
    (hc : (⟨1, ![N]⟩ : Shape).ShapeCasts (⟨2, ![N, 1]⟩ : Shape)) :
    (shapeCast (⟨2, ![N, 1]⟩ : Shape)
        (Host.divf (F := Ideal) (φ := .f32)
          (broadcastInDim (⟨1, ![N]⟩ : Shape) ![] hb (constant (F := Ideal) (⟨0, ![]⟩ : Shape) .f32 0x3F800000#32)) c) hc : Sage.Mat N 1)
      = Sage.recip (fun i => c (ix1 (i 0)) : Sage.Mat N 1) := by
  funext i
  obtain ⟨p, q, rfl⟩ : ∃ (p : Fin N) (q : Fin 1), i = ix2 p q := ⟨i 0, i 1, eq_ix2 i⟩
  refine (RowBroadcast.reshape_col_apply _ hc p q).trans ?_
  show Ideal.div (broadcastInDim (⟨1, ![N]⟩ : Shape) ![] hb (constant (F := Ideal) (⟨0, ![]⟩ : Shape) .f32 0x3F800000#32) (ix1 p)) (c (ix1 p)) = _
  rw [broadcastInDim_scalar_apply]
  rfl

/-- A column `[M, 1]` flattened to a vector. -/
theorem flat_col {M : ℕ} (x : (⟨2, ![M, 1]⟩ : Shape).Idx → EReal) (h : (⟨2, ![M, 1]⟩ : Shape).ShapeCasts (⟨1, ![M]⟩ : Shape)) :
    shapeCast (⟨1, ![M]⟩ : Shape) x h = fun i => x (ix2 (i 0) 0) := by
  funext i
  obtain ⟨p, rfl⟩ : ∃ p : Fin M, i = ix1 p := ⟨i 0, eq_ix1 i⟩
  refine shapeCast_apply x h _ _ ?_
  rw [Shape.rowMajor_val_two, Shape.rowMajor_val_one]
  show p.val * 1 + 0 = p.val
  omega

/-- Relation `(l, r)`'s matrix out of the stacked weights. -/
theorem w4_eq (w : (⟨4, ![3, 3, 64, 64]⟩ : Shape).Idx → EReal) (l r : Fin 3)
    (hs : (⟨4, ![3, 3, 64, 64]⟩ : Shape).Slices ![l.val, r.val, 0, 0] (⟨4, ![1, 1, 64, 64]⟩ : Shape))
    (hc : (⟨4, ![1, 1, 64, 64]⟩ : Shape).ShapeCasts (⟨2, ![64, 64]⟩ : Shape)) :
    (shapeCast (⟨2, ![64, 64]⟩ : Shape) (extractStridedSlice (⟨4, ![1, 1, 64, 64]⟩ : Shape) ![l.val, r.val, 0, 0] w hs) hc : Sage.Mat 64 64)
      = fun i => w (ix4 l r (i 0) (i 1)) := by
  funext i
  obtain ⟨p, q, rfl⟩ : ∃ (p : Fin 64) (q : Fin 64), i = ix2 p q := ⟨i 0, i 1, eq_ix2 i⟩
  refine (shapeCast_apply _ hc (ix2 p q) (ix4 (0 : Fin 1) (0 : Fin 1) p q) ?_).trans ?_
  · rw [Shape.rowMajor_val_four, Shape.rowMajor_val_two]
    show ((0 * 1 + 0) * 64 + p.val) * 64 + q.val = p.val * 64 + q.val
    omega
  · refine extractStridedSlice_apply _ w hs _ (ix4 l r p q) fun a => ?_
    match a with
    | ⟨0, _⟩ => show l.val = l.val + 0; omega
    | ⟨1, _⟩ => show r.val = r.val + 0; omega
    | ⟨2, _⟩ => show p.val = 0 + p.val; omega
    | ⟨3, _⟩ => show q.val = 0 + q.val; omega

/-- Relation `(l, r)`'s bias vector out of the stacked biases. -/
theorem b3_eq (b : (⟨3, ![3, 3, 64]⟩ : Shape).Idx → EReal) (l r : Fin 3)
    (hs : (⟨3, ![3, 3, 64]⟩ : Shape).Slices ![l.val, r.val, 0] (⟨3, ![1, 1, 64]⟩ : Shape))
    (hc : (⟨3, ![1, 1, 64]⟩ : Shape).ShapeCasts (⟨1, ![64]⟩ : Shape)) :
    shapeCast (⟨1, ![64]⟩ : Shape) (extractStridedSlice (⟨3, ![1, 1, 64]⟩ : Shape) ![l.val, r.val, 0] b hs) hc
      = fun j => b (ix3 l r (j 0)) := by
  funext j
  obtain ⟨q, rfl⟩ : ∃ q : Fin 64, j = ix1 q := ⟨j 0, eq_ix1 j⟩
  refine (shapeCast_apply _ hc (ix1 q) (ix3 (0 : Fin 1) (0 : Fin 1) q) ?_).trans ?_
  · rw [Shape.rowMajor_val_three, Shape.rowMajor_val_one]
    show (0 * 1 + 0) * 64 + q.val = q.val
    omega
  · refine extractStridedSlice_apply _ b hs _ (ix3 l r q) fun a => ?_
    match a with
    | ⟨0, _⟩ => show l.val = l.val + 0; omega
    | ⟨1, _⟩ => show r.val = r.val + 0; omega
    | ⟨2, _⟩ => show q.val = 0 + q.val; omega

/-- Half of a matrix: the constant one half, broadcast, times the matrix. -/
theorem scale_eq {K N : ℕ} (w : Sage.Mat K N) (hb : (⟨0, ![]⟩ : Shape).BroadcastsInDim (⟨2, ![K, N]⟩ : Shape) ![]) :
    (mulf (F := Ideal) (φ := .f32)
        (broadcastInDim (⟨2, ![K, N]⟩ : Shape) ![] hb (constant (F := Ideal) (⟨0, ![]⟩ : Shape) .f32 0x3F000000#32)) w : Sage.Mat K N)
      = Sage.scale w := by
  funext i
  show broadcastInDim (⟨2, ![K, N]⟩ : Shape) ![] hb (constant (F := Ideal) (⟨0, ![]⟩ : Shape) .f32 0x3F000000#32) i * w i = _
  rw [broadcastInDim_scalar_apply]
  rfl

/-- Half the sum of two matrices. -/
theorem scaleSum_eq {K N : ℕ} (w1 w2 : Sage.Mat K N) (hb : (⟨0, ![]⟩ : Shape).BroadcastsInDim (⟨2, ![K, N]⟩ : Shape) ![]) :
    (mulf (F := Ideal) (φ := .f32)
        (broadcastInDim (⟨2, ![K, N]⟩ : Shape) ![] hb (constant (F := Ideal) (⟨0, ![]⟩ : Shape) .f32 0x3F000000#32))
        (addf (F := Ideal) (φ := .f32) w1 w2) : Sage.Mat K N)
      = Sage.scaleSum w1 w2 := by
  funext i
  show broadcastInDim (⟨2, ![K, N]⟩ : Shape) ![] hb (constant (F := Ideal) (⟨0, ![]⟩ : Shape) .f32 0x3F000000#32) i * (w1 i + w2 i) = _
  rw [broadcastInDim_scalar_apply]
  rfl

/-- Half the sum of two vectors, as a one-row matrix. -/
theorem scaleSum_row_eq {N : ℕ} (b1 b2 : (⟨1, ![N]⟩ : Shape).Idx → EReal)
    (hb : (⟨0, ![]⟩ : Shape).BroadcastsInDim (⟨1, ![N]⟩ : Shape) ![])
    (hc : (⟨1, ![N]⟩ : Shape).ShapeCasts (⟨2, ![1, N]⟩ : Shape)) :
    (shapeCast (⟨2, ![1, N]⟩ : Shape)
        (mulf (F := Ideal) (φ := .f32)
          (broadcastInDim (⟨1, ![N]⟩ : Shape) ![] hb (constant (F := Ideal) (⟨0, ![]⟩ : Shape) .f32 0x3F000000#32))
          (addf (F := Ideal) (φ := .f32) b1 b2)) hc : Sage.Mat 1 N)
      = Sage.scaleSum (fun i => b1 (ix1 (i 1)) : Sage.Mat 1 N) (fun i => b2 (ix1 (i 1)) : Sage.Mat 1 N) := by
  rw [row_eq]
  funext i
  show broadcastInDim (⟨1, ![N]⟩ : Shape) ![] hb (constant (F := Ideal) (⟨0, ![]⟩ : Shape) .f32 0x3F000000#32) (ix1 (i 1))
      * (b1 (ix1 (i 1)) + b2 (ix1 (i 1))) = _
  rw [broadcastInDim_scalar_apply]
  rfl

/-- Relation `(l, r)`'s bias vector as a one-row matrix. -/
theorem b3_row_eq (b : (⟨3, ![3, 3, 64]⟩ : Shape).Idx → EReal) (l r : Fin 3)
    (hs : (⟨3, ![3, 3, 64]⟩ : Shape).Slices ![l.val, r.val, 0] (⟨3, ![1, 1, 64]⟩ : Shape))
    (hc : (⟨3, ![1, 1, 64]⟩ : Shape).ShapeCasts (⟨1, ![64]⟩ : Shape))
    (hr : (⟨1, ![64]⟩ : Shape).ShapeCasts (⟨2, ![1, 64]⟩ : Shape)) :
    (shapeCast (⟨2, ![1, 64]⟩ : Shape)
        (shapeCast (⟨1, ![64]⟩ : Shape) (extractStridedSlice (⟨3, ![1, 1, 64]⟩ : Shape) ![l.val, r.val, 0] b hs) hc) hr : Sage.Mat 1 64)
      = fun i => b (ix3 l r (i 1)) := by
  rw [row_eq, b3_eq]

/-- Half of relation `(l, r)`'s matrix. -/
theorem scale_w4 (w : (⟨4, ![3, 3, 64, 64]⟩ : Shape).Idx → EReal) (l r : Fin 3)
    (hb : (⟨0, ![]⟩ : Shape).BroadcastsInDim (⟨2, ![64, 64]⟩ : Shape) ![])
    (hs : (⟨4, ![3, 3, 64, 64]⟩ : Shape).Slices ![l.val, r.val, 0, 0] (⟨4, ![1, 1, 64, 64]⟩ : Shape))
    (hc : (⟨4, ![1, 1, 64, 64]⟩ : Shape).ShapeCasts (⟨2, ![64, 64]⟩ : Shape)) :
    (mulf (F := Ideal) (φ := .f32)
        (broadcastInDim (⟨2, ![64, 64]⟩ : Shape) ![] hb (constant (F := Ideal) (⟨0, ![]⟩ : Shape) .f32 0x3F000000#32))
        (shapeCast (⟨2, ![64, 64]⟩ : Shape) (extractStridedSlice (⟨4, ![1, 1, 64, 64]⟩ : Shape) ![l.val, r.val, 0, 0] w hs) hc) : Sage.Mat 64 64)
      = Sage.scale (fun i => w (ix4 l r (i 0) (i 1)) : Sage.Mat 64 64) := by
  rw [w4_eq]; exact scale_eq _ hb

/-- Half the sum of relations `(l, r1)`'s and `(l, r2)`'s matrices. -/
theorem scaleSum_w4 (w : (⟨4, ![3, 3, 64, 64]⟩ : Shape).Idx → EReal) (l r1 r2 : Fin 3)
    (hb : (⟨0, ![]⟩ : Shape).BroadcastsInDim (⟨2, ![64, 64]⟩ : Shape) ![])
    (hs1 : (⟨4, ![3, 3, 64, 64]⟩ : Shape).Slices ![l.val, r1.val, 0, 0] (⟨4, ![1, 1, 64, 64]⟩ : Shape))
    (hs2 : (⟨4, ![3, 3, 64, 64]⟩ : Shape).Slices ![l.val, r2.val, 0, 0] (⟨4, ![1, 1, 64, 64]⟩ : Shape))
    (hc : (⟨4, ![1, 1, 64, 64]⟩ : Shape).ShapeCasts (⟨2, ![64, 64]⟩ : Shape)) :
    (mulf (F := Ideal) (φ := .f32)
        (broadcastInDim (⟨2, ![64, 64]⟩ : Shape) ![] hb (constant (F := Ideal) (⟨0, ![]⟩ : Shape) .f32 0x3F000000#32))
        (addf (F := Ideal) (φ := .f32)
          (shapeCast (⟨2, ![64, 64]⟩ : Shape) (extractStridedSlice (⟨4, ![1, 1, 64, 64]⟩ : Shape) ![l.val, r1.val, 0, 0] w hs1) hc)
          (shapeCast (⟨2, ![64, 64]⟩ : Shape) (extractStridedSlice (⟨4, ![1, 1, 64, 64]⟩ : Shape) ![l.val, r2.val, 0, 0] w hs2) hc)) : Sage.Mat 64 64)
      = Sage.scaleSum (fun i => w (ix4 l r1 (i 0) (i 1)) : Sage.Mat 64 64) (fun i => w (ix4 l r2 (i 0) (i 1)) : Sage.Mat 64 64) := by
  rw [w4_eq, w4_eq]; exact scaleSum_eq _ _ hb

/-- Half the sum of relations `(l, r1)`'s and `(l, r2)`'s bias vectors, as a one-row matrix. -/
theorem scaleSum_b3 (b : (⟨3, ![3, 3, 64]⟩ : Shape).Idx → EReal) (l r1 r2 : Fin 3)
    (hb : (⟨0, ![]⟩ : Shape).BroadcastsInDim (⟨1, ![64]⟩ : Shape) ![])
    (hs1 : (⟨3, ![3, 3, 64]⟩ : Shape).Slices ![l.val, r1.val, 0] (⟨3, ![1, 1, 64]⟩ : Shape))
    (hs2 : (⟨3, ![3, 3, 64]⟩ : Shape).Slices ![l.val, r2.val, 0] (⟨3, ![1, 1, 64]⟩ : Shape))
    (hc : (⟨3, ![1, 1, 64]⟩ : Shape).ShapeCasts (⟨1, ![64]⟩ : Shape))
    (hr : (⟨1, ![64]⟩ : Shape).ShapeCasts (⟨2, ![1, 64]⟩ : Shape)) :
    (shapeCast (⟨2, ![1, 64]⟩ : Shape)
        (mulf (F := Ideal) (φ := .f32)
          (broadcastInDim (⟨1, ![64]⟩ : Shape) ![] hb (constant (F := Ideal) (⟨0, ![]⟩ : Shape) .f32 0x3F000000#32))
          (addf (F := Ideal) (φ := .f32)
            (shapeCast (⟨1, ![64]⟩ : Shape) (extractStridedSlice (⟨3, ![1, 1, 64]⟩ : Shape) ![l.val, r1.val, 0] b hs1) hc)
            (shapeCast (⟨1, ![64]⟩ : Shape) (extractStridedSlice (⟨3, ![1, 1, 64]⟩ : Shape) ![l.val, r2.val, 0] b hs2) hc))) hr : Sage.Mat 1 64)
      = Sage.scaleSum (fun i => b (ix3 l r1 (i 1)) : Sage.Mat 1 64) (fun i => b (ix3 l r2 (i 1)) : Sage.Mat 1 64) := by
  rw [b3_eq, b3_eq]; exact scaleSum_row_eq _ _ hb hr

end KGlue

end
-- ==== Proof.KVals.lean ====
/-
  What each buffer a host stretch defines holds when the stretch ends, as a function of the argument arrays at launch and
  of the region outputs it reads: the stretch's operation term, its operands walked back to where they were produced,
  and the layout operations read entry by entry.
-/
import proofs.«139518_j50508815401658_2_alg».proof.Proof.Gen.KernelIdeal.Frame
import proofs.«139518_j50508815401658_2_alg».proof.Proof.KHost0
import proofs.«139518_j50508815401658_2_alg».proof.Proof.KHost1
import proofs.«139518_j50508815401658_2_alg».proof.Proof.KHost2
import proofs.«139518_j50508815401658_2_alg».proof.Proof.KHost3
import proofs.«139518_j50508815401658_2_alg».proof.Proof.KHost4
import proofs.«139518_j50508815401658_2_alg».proof.Proof.KHost5
import proofs.«139518_j50508815401658_2_alg».proof.Proof.KHost6
import proofs.«139518_j50508815401658_2_alg».proof.Proof.KHost7
import proofs.«139518_j50508815401658_2_alg».proof.Proof.KHost8
import proofs.«139518_j50508815401658_2_alg».proof.Proof.KHost9
import proofs.«139518_j50508815401658_2_alg».proof.Proof.KWalkA
import proofs.«139518_j50508815401658_2_alg».proof.Proof.KWalkB
import proofs.«139518_j50508815401658_2_alg».proof.Proof.KWalkV
import proofs.«139518_j50508815401658_2_alg».proof.Proof.KGlue

set_option maxRecDepth 16384

noncomputable section

namespace Cert.KernelIdeal.KVals

open Cert.KernelIdeal Cert.KernelIdeal.Gen
open Idealize.ShloMosaic Idealize.ShloMosaic.TcCoe
open Idealize.SL.Sem
open Idealize.ShloMosaic.ValueIdx

variable (m : (ℓ : Loc nD τ sig) → Buf (Elt Ideal) ℓ) (ρ : Dev nD → PrngReg) (c : Dev nD)

theorem val_v0 : W1 m ρ c (Proc.devRef .tc main_v0) = (fun i => (m ((c : Thread nD τ).loc main_arg9)) (ix1 (i 1)) : Sage.Mat 1 64) := by
  refine (KHost0.after_v0 (W0 m ρ c)).trans ?_
  exact KGlue.row_eq _ _

theorem val_v2 : W3 m ρ c (Proc.devRef .tc main_v2) = (fun i => (m ((c : Thread nD τ).loc main_arg11)) (ix1 (i 1)) : Sage.Mat 1 64) := by
  refine (KHost1.after_v2 (W2 m ρ c)).trans ?_
  rw [KWalkA.at2_arg11 m ρ c]
  exact KGlue.row_eq _ _

theorem val_v226 : W17 m ρ c (Proc.devRef .tc main_v226) = (fun i => (m ((c : Thread nD τ).loc main_arg16)) (ix1 (i 1)) : Sage.Mat 1 32) := by
  refine (KHost8.after_v226 (W16 m ρ c)).trans ?_
  rw [KWalkA.at16_arg16 m ρ c]
  exact KGlue.row_eq _ _

theorem val_v227 : W17 m ρ c (Proc.devRef .tc main_v227) = (fun i => (m ((c : Thread nD τ).loc main_arg18)) (ix1 (i 1)) : Sage.Mat 1 1) := by
  refine (KHost8.after_v227 (W16 m ρ c)).trans ?_
  rw [KWalkB.at16_arg18 m ρ c]
  exact KGlue.row_eq _ _

theorem val_v12 : W5 m ρ c (Proc.devRef .tc main_v12) = Sage.recip (fun i => KDefs.cO (m ((c : Thread nD τ).loc main_arg3)) (ix1 (i 0)) : Sage.Mat 200000 1) := by
  refine (KHost2.after_v12 (W4 m ρ c)).trans ?_
  rw [KWalkB.at4_arg3 m ρ c]
  exact KGlue.recip_col _ _ _

theorem val_v21 : W5 m ρ c (Proc.devRef .tc main_v21) = Sage.recip (fun i => KDefs.cH (m ((c : Thread nD τ).loc main_arg5)) (ix1 (i 0)) : Sage.Mat 500000 1) := by
  refine (KHost2.after_v21 (W4 m ρ c)).trans ?_
  rw [KWalkA.at4_arg5 m ρ c]
  exact KGlue.recip_col _ _ _

theorem val_v30 : W5 m ρ c (Proc.devRef .tc main_v30) = Sage.recip (fun i => KDefs.cS (m ((c : Thread nD τ).loc main_arg7)) (ix1 (i 0)) : Sage.Mat 500000 1) := by
  refine (KHost2.after_v30 (W4 m ρ c)).trans ?_
  rw [KWalkB.at4_arg7 m ρ c]
  exact KGlue.recip_col _ _ _

theorem val_v41 : W5 m ρ c (Proc.devRef .tc main_v41) = KDefs.aggO (W2 m ρ c (Proc.devRef .tc main_v1)) (m ((c : Thread nD τ).loc main_arg2)) (m ((c : Thread nD τ).loc main_arg3)) := by
  refine (KHost2.after_v41 (W4 m ρ c)).trans ?_
  rw [KWalkB.at4_arg3 m ρ c, KWalkV.at4_v1 m ρ c, KWalkA.at4_arg2 m ρ c]

theorem val_v60 : W7 m ρ c (Proc.devRef .tc main_v60) = KDefs.aggH (W4 m ρ c (Proc.devRef .tc main_v3)) (m ((c : Thread nD τ).loc main_arg4)) (m ((c : Thread nD τ).loc main_arg5)) := by
  refine (KHost3.after_v60 (W6 m ρ c)).trans ?_
  rw [KWalkA.at6_arg5 m ρ c, KWalkV.at6_v3 m ρ c, KWalkA.at6_arg4 m ρ c]

theorem val_v71 : W7 m ρ c (Proc.devRef .tc main_v71) = KDefs.aggS (W2 m ρ c (Proc.devRef .tc main_v1)) (m ((c : Thread nD τ).loc main_arg6)) (m ((c : Thread nD τ).loc main_arg7)) := by
  refine (KHost3.after_v71 (W6 m ρ c)).trans ?_
  rw [KWalkB.at6_arg7 m ρ c, KWalkV.at6_v1 m ρ c, KWalkB.at6_arg6 m ρ c]

theorem val_v106 : W9 m ρ c (Proc.devRef .tc main_v106) = KDefs.aggO (W8 m ρ c (Proc.devRef .tc main_v95)) (m ((c : Thread nD τ).loc main_arg2)) (m ((c : Thread nD τ).loc main_arg3)) := by
  refine (KHost4.after_v106 (W8 m ρ c)).trans ?_
  rw [KWalkB.at8_arg3 m ρ c, KWalkA.at8_arg2 m ρ c]

theorem val_v125 : W11 m ρ c (Proc.devRef .tc main_v125) = KDefs.aggH (W6 m ρ c (Proc.devRef .tc main_v49)) (m ((c : Thread nD τ).loc main_arg4)) (m ((c : Thread nD τ).loc main_arg5)) := by
  refine (KHost5.after_v125 (W10 m ρ c)).trans ?_
  rw [KWalkA.at10_arg5 m ρ c, KWalkV.at10_v49 m ρ c, KWalkA.at10_arg4 m ρ c]

theorem val_v136 : W11 m ρ c (Proc.devRef .tc main_v136) = KDefs.aggS (W8 m ρ c (Proc.devRef .tc main_v95)) (m ((c : Thread nD τ).loc main_arg6)) (m ((c : Thread nD τ).loc main_arg7)) := by
  refine (KHost5.after_v136 (W10 m ρ c)).trans ?_
  rw [KWalkB.at10_arg7 m ρ c, KWalkV.at10_v95 m ρ c, KWalkB.at10_arg6 m ρ c]

theorem val_v171 : W13 m ρ c (Proc.devRef .tc main_v171) = KDefs.aggO (W12 m ρ c (Proc.devRef .tc main_v160)) (m ((c : Thread nD τ).loc main_arg2)) (m ((c : Thread nD τ).loc main_arg3)) := by
  refine (KHost6.after_v171 (W12 m ρ c)).trans ?_
  rw [KWalkB.at12_arg3 m ρ c, KWalkA.at12_arg2 m ρ c]

theorem val_v190 : W15 m ρ c (Proc.devRef .tc main_v190) = KDefs.aggH (W10 m ρ c (Proc.devRef .tc main_v114)) (m ((c : Thread nD τ).loc main_arg4)) (m ((c : Thread nD τ).loc main_arg5)) := by
  refine (KHost7.after_v190 (W14 m ρ c)).trans ?_
  rw [KWalkA.at14_arg5 m ρ c, KWalkV.at14_v114 m ρ c, KWalkA.at14_arg4 m ρ c]

theorem val_v201 : W15 m ρ c (Proc.devRef .tc main_v201) = KDefs.aggS (W12 m ρ c (Proc.devRef .tc main_v160)) (m ((c : Thread nD τ).loc main_arg6)) (m ((c : Thread nD τ).loc main_arg7)) := by
  refine (KHost7.after_v201 (W14 m ρ c)).trans ?_
  rw [KWalkB.at14_arg7 m ρ c, KWalkV.at14_v160 m ρ c, KWalkB.at14_arg6 m ρ c]

theorem val_v43 : W5 m ρ c (Proc.devRef .tc main_v43) = (fun i => (m ((c : Thread nD τ).loc main_arg12)) (ix4 (0 : Fin 3) (0 : Fin 3) (i 0) (i 1)) : Sage.Mat 64 64) := by
  refine (KHost2.after_v43 (W4 m ρ c)).trans ?_
  rw [KWalkB.at4_arg12 m ρ c]
  exact KGlue.w4_eq _ (0 : Fin 3) (0 : Fin 3) _ _

theorem val_v48 : W5 m ρ c (Proc.devRef .tc main_v48) = (fun i => (m ((c : Thread nD τ).loc main_arg13)) (ix3 (0 : Fin 3) (0 : Fin 3) (i 1)) : Sage.Mat 1 64) := by
  refine (KHost2.after_v48 (W4 m ρ c)).trans ?_
  rw [KWalkA.at4_arg13 m ρ c]
  exact KGlue.b3_row_eq _ (0 : Fin 3) (0 : Fin 3) _ _ _

theorem val_v47 : W5 m ρ c (Proc.devRef .tc main_v47) = (fun i => (m ((c : Thread nD τ).loc main_arg14)) (ix4 (0 : Fin 3) (0 : Fin 3) (i 0) (i 1)) : Sage.Mat 64 64) := by
  refine (KHost2.after_v47 (W4 m ρ c)).trans ?_
  rw [KWalkB.at4_arg14 m ρ c]
  exact KGlue.w4_eq _ (0 : Fin 3) (0 : Fin 3) _ _

theorem val_v108 : W9 m ρ c (Proc.devRef .tc main_v108) = (fun i => (m ((c : Thread nD τ).loc main_arg12)) (ix4 (1 : Fin 3) (0 : Fin 3) (i 0) (i 1)) : Sage.Mat 64 64) := by
  refine (KHost4.after_v108 (W8 m ρ c)).trans ?_
  rw [KWalkB.at8_arg12 m ρ c]
  exact KGlue.w4_eq _ (1 : Fin 3) (0 : Fin 3) _ _

theorem val_v113 : W9 m ρ c (Proc.devRef .tc main_v113) = (fun i => (m ((c : Thread nD τ).loc main_arg13)) (ix3 (1 : Fin 3) (0 : Fin 3) (i 1)) : Sage.Mat 1 64) := by
  refine (KHost4.after_v113 (W8 m ρ c)).trans ?_
  rw [KWalkA.at8_arg13 m ρ c]
  exact KGlue.b3_row_eq _ (1 : Fin 3) (0 : Fin 3) _ _ _

theorem val_v112 : W9 m ρ c (Proc.devRef .tc main_v112) = (fun i => (m ((c : Thread nD τ).loc main_arg14)) (ix4 (1 : Fin 3) (0 : Fin 3) (i 0) (i 1)) : Sage.Mat 64 64) := by
  refine (KHost4.after_v112 (W8 m ρ c)).trans ?_
  rw [KWalkB.at8_arg14 m ρ c]
  exact KGlue.w4_eq _ (1 : Fin 3) (0 : Fin 3) _ _

theorem val_v173 : W13 m ρ c (Proc.devRef .tc main_v173) = (fun i => (m ((c : Thread nD τ).loc main_arg12)) (ix4 (2 : Fin 3) (0 : Fin 3) (i 0) (i 1)) : Sage.Mat 64 64) := by
  refine (KHost6.after_v173 (W12 m ρ c)).trans ?_
  rw [KWalkB.at12_arg12 m ρ c]
  exact KGlue.w4_eq _ (2 : Fin 3) (0 : Fin 3) _ _

theorem val_v178 : W13 m ρ c (Proc.devRef .tc main_v178) = (fun i => (m ((c : Thread nD τ).loc main_arg13)) (ix3 (2 : Fin 3) (0 : Fin 3) (i 1)) : Sage.Mat 1 64) := by
  refine (KHost6.after_v178 (W12 m ρ c)).trans ?_
  rw [KWalkA.at12_arg13 m ρ c]
  exact KGlue.b3_row_eq _ (2 : Fin 3) (0 : Fin 3) _ _ _

theorem val_v177 : W13 m ρ c (Proc.devRef .tc main_v177) = (fun i => (m ((c : Thread nD τ).loc main_arg14)) (ix4 (2 : Fin 3) (0 : Fin 3) (i 0) (i 1)) : Sage.Mat 64 64) := by
  refine (KHost6.after_v177 (W12 m ρ c)).trans ?_
  rw [KWalkB.at12_arg14 m ρ c]
  exact KGlue.w4_eq _ (2 : Fin 3) (0 : Fin 3) _ _

theorem val_v75 : W7 m ρ c (Proc.devRef .tc main_v75) = Sage.scale (fun i => (m ((c : Thread nD τ).loc main_arg12)) (ix4 (0 : Fin 3) (1 : Fin 3) (i 0) (i 1)) : Sage.Mat 64 64) := by
  refine (KHost3.after_v75 (W6 m ρ c)).trans ?_
  rw [KWalkB.at6_arg12 m ρ c]
  exact KGlue.scale_w4 _ (0 : Fin 3) (1 : Fin 3) _ _ _

theorem val_v79 : W7 m ρ c (Proc.devRef .tc main_v79) = Sage.scale (fun i => (m ((c : Thread nD τ).loc main_arg12)) (ix4 (0 : Fin 3) (2 : Fin 3) (i 0) (i 1)) : Sage.Mat 64 64) := by
  refine (KHost3.after_v79 (W6 m ρ c)).trans ?_
  rw [KWalkB.at6_arg12 m ρ c]
  exact KGlue.scale_w4 _ (0 : Fin 3) (2 : Fin 3) _ _ _

theorem val_v94 : W7 m ρ c (Proc.devRef .tc main_v94) = Sage.scaleSum (fun i => (m ((c : Thread nD τ).loc main_arg13)) (ix3 (0 : Fin 3) (1 : Fin 3) (i 1)) : Sage.Mat 1 64) (fun i => (m ((c : Thread nD τ).loc main_arg13)) (ix3 (0 : Fin 3) (2 : Fin 3) (i 1)) : Sage.Mat 1 64) := by
  refine (KHost3.after_v94 (W6 m ρ c)).trans ?_
  rw [KWalkA.at6_arg13 m ρ c]
  exact KGlue.scaleSum_b3 _ (0 : Fin 3) (1 : Fin 3) (2 : Fin 3) _ _ _ _ _

theorem val_v93 : W7 m ρ c (Proc.devRef .tc main_v93) = Sage.scaleSum (fun i => (m ((c : Thread nD τ).loc main_arg14)) (ix4 (0 : Fin 3) (1 : Fin 3) (i 0) (i 1)) : Sage.Mat 64 64) (fun i => (m ((c : Thread nD τ).loc main_arg14)) (ix4 (0 : Fin 3) (2 : Fin 3) (i 0) (i 1)) : Sage.Mat 64 64) := by
  refine (KHost3.after_v93 (W6 m ρ c)).trans ?_
  rw [KWalkB.at6_arg14 m ρ c]
  exact KGlue.scaleSum_w4 _ (0 : Fin 3) (1 : Fin 3) (2 : Fin 3) _ _ _ _

theorem val_v140 : W11 m ρ c (Proc.devRef .tc main_v140) = Sage.scale (fun i => (m ((c : Thread nD τ).loc main_arg12)) (ix4 (1 : Fin 3) (1 : Fin 3) (i 0) (i 1)) : Sage.Mat 64 64) := by
  refine (KHost5.after_v140 (W10 m ρ c)).trans ?_
  rw [KWalkB.at10_arg12 m ρ c]
  exact KGlue.scale_w4 _ (1 : Fin 3) (1 : Fin 3) _ _ _

theorem val_v144 : W11 m ρ c (Proc.devRef .tc main_v144) = Sage.scale (fun i => (m ((c : Thread nD τ).loc main_arg12)) (ix4 (1 : Fin 3) (2 : Fin 3) (i 0) (i 1)) : Sage.Mat 64 64) := by
  refine (KHost5.after_v144 (W10 m ρ c)).trans ?_
  rw [KWalkB.at10_arg12 m ρ c]
  exact KGlue.scale_w4 _ (1 : Fin 3) (2 : Fin 3) _ _ _

theorem val_v159 : W11 m ρ c (Proc.devRef .tc main_v159) = Sage.scaleSum (fun i => (m ((c : Thread nD τ).loc main_arg13)) (ix3 (1 : Fin 3) (1 : Fin 3) (i 1)) : Sage.Mat 1 64) (fun i => (m ((c : Thread nD τ).loc main_arg13)) (ix3 (1 : Fin 3) (2 : Fin 3) (i 1)) : Sage.Mat 1 64) := by
  refine (KHost5.after_v159 (W10 m ρ c)).trans ?_
  rw [KWalkA.at10_arg13 m ρ c]
  exact KGlue.scaleSum_b3 _ (1 : Fin 3) (1 : Fin 3) (2 : Fin 3) _ _ _ _ _

theorem val_v158 : W11 m ρ c (Proc.devRef .tc main_v158) = Sage.scaleSum (fun i => (m ((c : Thread nD τ).loc main_arg14)) (ix4 (1 : Fin 3) (1 : Fin 3) (i 0) (i 1)) : Sage.Mat 64 64) (fun i => (m ((c : Thread nD τ).loc main_arg14)) (ix4 (1 : Fin 3) (2 : Fin 3) (i 0) (i 1)) : Sage.Mat 64 64) := by
  refine (KHost5.after_v158 (W10 m ρ c)).trans ?_
  rw [KWalkB.at10_arg14 m ρ c]
  exact KGlue.scaleSum_w4 _ (1 : Fin 3) (1 : Fin 3) (2 : Fin 3) _ _ _ _

theorem val_v205 : W15 m ρ c (Proc.devRef .tc main_v205) = Sage.scale (fun i => (m ((c : Thread nD τ).loc main_arg12)) (ix4 (2 : Fin 3) (1 : Fin 3) (i 0) (i 1)) : Sage.Mat 64 64) := by
  refine (KHost7.after_v205 (W14 m ρ c)).trans ?_
  rw [KWalkB.at14_arg12 m ρ c]
  exact KGlue.scale_w4 _ (2 : Fin 3) (1 : Fin 3) _ _ _

theorem val_v209 : W15 m ρ c (Proc.devRef .tc main_v209) = Sage.scale (fun i => (m ((c : Thread nD τ).loc main_arg12)) (ix4 (2 : Fin 3) (2 : Fin 3) (i 0) (i 1)) : Sage.Mat 64 64) := by
  refine (KHost7.after_v209 (W14 m ρ c)).trans ?_
  rw [KWalkB.at14_arg12 m ρ c]
  exact KGlue.scale_w4 _ (2 : Fin 3) (2 : Fin 3) _ _ _

theorem val_v224 : W15 m ρ c (Proc.devRef .tc main_v224) = Sage.scaleSum (fun i => (m ((c : Thread nD τ).loc main_arg13)) (ix3 (2 : Fin 3) (1 : Fin 3) (i 1)) : Sage.Mat 1 64) (fun i => (m ((c : Thread nD τ).loc main_arg13)) (ix3 (2 : Fin 3) (2 : Fin 3) (i 1)) : Sage.Mat 1 64) := by
  refine (KHost7.after_v224 (W14 m ρ c)).trans ?_
  rw [KWalkA.at14_arg13 m ρ c]
  exact KGlue.scaleSum_b3 _ (2 : Fin 3) (1 : Fin 3) (2 : Fin 3) _ _ _ _ _

theorem val_v223 : W15 m ρ c (Proc.devRef .tc main_v223) = Sage.scaleSum (fun i => (m ((c : Thread nD τ).loc main_arg14)) (ix4 (2 : Fin 3) (1 : Fin 3) (i 0) (i 1)) : Sage.Mat 64 64) (fun i => (m ((c : Thread nD τ).loc main_arg14)) (ix4 (2 : Fin 3) (2 : Fin 3) (i 0) (i 1)) : Sage.Mat 64 64) := by
  refine (KHost7.after_v223 (W14 m ρ c)).trans ?_
  rw [KWalkB.at14_arg14 m ρ c]
  exact KGlue.scaleSum_w4 _ (2 : Fin 3) (1 : Fin 3) (2 : Fin 3) _ _ _ _

theorem val_v229 : W19 m ρ c (Proc.devRef .tc main_v229) = (fun i => (W18 m ρ c (Proc.devRef .tc main_v228)) (ix2 (i 0) 0)) := by
  refine (KHost9.after_v229 (W18 m ρ c)).trans ?_
  exact KGlue.flat_col _ _

end Cert.KernelIdeal.KVals

end
-- ==== Proof.KEntry.lean ====
/-
  What every region finds in each of its input arrays when it is entered, as a function of the argument arrays at launch
  and of the earlier regions' outputs.
-/
import proofs.«139518_j50508815401658_2_alg».proof.Proof.Gen.KernelIdeal.Frame
import proofs.«139518_j50508815401658_2_alg».proof.Proof.KHost0
import proofs.«139518_j50508815401658_2_alg».proof.Proof.KHost1
import proofs.«139518_j50508815401658_2_alg».proof.Proof.KHost2
import proofs.«139518_j50508815401658_2_alg».proof.Proof.KHost3
import proofs.«139518_j50508815401658_2_alg».proof.Proof.KHost4
import proofs.«139518_j50508815401658_2_alg».proof.Proof.KHost5
import proofs.«139518_j50508815401658_2_alg».proof.Proof.KHost6
import proofs.«139518_j50508815401658_2_alg».proof.Proof.KHost7
import proofs.«139518_j50508815401658_2_alg».proof.Proof.KHost8
import proofs.«139518_j50508815401658_2_alg».proof.Proof.KHost9
import proofs.«139518_j50508815401658_2_alg».proof.Proof.KVals

set_option maxRecDepth 16384

noncomputable section

namespace Cert.KernelIdeal.KEntry

open Cert.KernelIdeal Cert.KernelIdeal.Gen
open Idealize.ShloMosaic Idealize.ShloMosaic.TcCoe
open Idealize.SL.Sem
open Idealize.ShloMosaic.ValueIdx

variable (m : (ℓ : Loc nD τ sig) → Buf (Elt Ideal) ℓ) (ρ : Dev nD → PrngReg) (c : Dev nD)

/-- Region 0, window 0 (`main_arg0`). -/
theorem in0_0 : V1 m ρ c (Pipeline.arrRef spec0 0) = (m ((c : Thread nD τ).loc main_arg0)) := by
  show W1 m ρ c (Proc.devRef .tc main_arg0) = _
  exact KWalkA.at1_arg0 m ρ c
/-- Region 0, window 1 (`main_arg8`). -/
theorem in0_1 : V1 m ρ c (Pipeline.arrRef spec0 1) = (m ((c : Thread nD τ).loc main_arg8)) := by
  show W1 m ρ c (Proc.devRef .tc main_arg8) = _
  exact KWalkB.at1_arg8 m ρ c
/-- Region 0, window 2 (`main_v0`). -/
theorem in0_2 : V1 m ρ c (Pipeline.arrRef spec0 2) = (fun i => (m ((c : Thread nD τ).loc main_arg9)) (ix1 (i 1)) : Sage.Mat 1 64) := by
  show W1 m ρ c (Proc.devRef .tc main_v0) = _
  exact KVals.val_v0 m ρ c

/-- Region 1, window 0 (`main_arg1`). -/
theorem in1_0 : V3 m ρ c (Pipeline.arrRef spec1 0) = (m ((c : Thread nD τ).loc main_arg1)) := by
  show W3 m ρ c (Proc.devRef .tc main_arg1) = _
  exact KWalkA.at3_arg1 m ρ c
/-- Region 1, window 1 (`main_arg10`). -/
theorem in1_1 : V3 m ρ c (Pipeline.arrRef spec1 1) = (m ((c : Thread nD τ).loc main_arg10)) := by
  show W3 m ρ c (Proc.devRef .tc main_arg10) = _
  exact KWalkB.at3_arg10 m ρ c
/-- Region 1, window 2 (`main_v2`). -/
theorem in1_2 : V3 m ρ c (Pipeline.arrRef spec1 2) = (fun i => (m ((c : Thread nD τ).loc main_arg11)) (ix1 (i 1)) : Sage.Mat 1 64) := by
  show W3 m ρ c (Proc.devRef .tc main_v2) = _
  exact KVals.val_v2 m ρ c

/-- Region 2, window 0 (`main_v41`). -/
theorem in2_0 : V5 m ρ c (Pipeline.arrRef spec2 0) = KDefs.aggO (W2 m ρ c (Proc.devRef .tc main_v1)) (m ((c : Thread nD τ).loc main_arg2)) (m ((c : Thread nD τ).loc main_arg3)) := by
  show W5 m ρ c (Proc.devRef .tc main_v41) = _
  exact KVals.val_v41 m ρ c
/-- Region 2, window 1 (`main_v12`). -/
theorem in2_1 : V5 m ρ c (Pipeline.arrRef spec2 1) = Sage.recip (fun i => KDefs.cO (m ((c : Thread nD τ).loc main_arg3)) (ix1 (i 0)) : Sage.Mat 200000 1) := by
  show W5 m ρ c (Proc.devRef .tc main_v12) = _
  exact KVals.val_v12 m ρ c
/-- Region 2, window 2 (`main_v3`). -/
theorem in2_2 : V5 m ρ c (Pipeline.arrRef spec2 2) = (W4 m ρ c (Proc.devRef .tc main_v3)) := by
  show W5 m ρ c (Proc.devRef .tc main_v3) = _
  exact KWalkV.at5_v3 m ρ c
/-- Region 2, window 3 (`main_v43`). -/
theorem in2_3 : V5 m ρ c (Pipeline.arrRef spec2 3) = (fun i => (m ((c : Thread nD τ).loc main_arg12)) (ix4 (0 : Fin 3) (0 : Fin 3) (i 0) (i 1)) : Sage.Mat 64 64) := by
  show W5 m ρ c (Proc.devRef .tc main_v43) = _
  exact KVals.val_v43 m ρ c
/-- Region 2, window 4 (`main_v48`). -/
theorem in2_4 : V5 m ρ c (Pipeline.arrRef spec2 4) = (fun i => (m ((c : Thread nD τ).loc main_arg13)) (ix3 (0 : Fin 3) (0 : Fin 3) (i 1)) : Sage.Mat 1 64) := by
  show W5 m ρ c (Proc.devRef .tc main_v48) = _
  exact KVals.val_v48 m ρ c
/-- Region 2, window 5 (`main_v47`). -/
theorem in2_5 : V5 m ρ c (Pipeline.arrRef spec2 5) = (fun i => (m ((c : Thread nD τ).loc main_arg14)) (ix4 (0 : Fin 3) (0 : Fin 3) (i 0) (i 1)) : Sage.Mat 64 64) := by
  show W5 m ρ c (Proc.devRef .tc main_v47) = _
  exact KVals.val_v47 m ρ c

/-- Region 3, window 0 (`main_v60`). -/
theorem in3_0 : V7 m ρ c (Pipeline.arrRef spec3 0) = KDefs.aggH (W4 m ρ c (Proc.devRef .tc main_v3)) (m ((c : Thread nD τ).loc main_arg4)) (m ((c : Thread nD τ).loc main_arg5)) := by
  show W7 m ρ c (Proc.devRef .tc main_v60) = _
  exact KVals.val_v60 m ρ c
/-- Region 3, window 1 (`main_v21`). -/
theorem in3_1 : V7 m ρ c (Pipeline.arrRef spec3 1) = Sage.recip (fun i => KDefs.cH (m ((c : Thread nD τ).loc main_arg5)) (ix1 (i 0)) : Sage.Mat 500000 1) := by
  show W7 m ρ c (Proc.devRef .tc main_v21) = _
  exact (KWalkV.at7_v21 m ρ c).trans (KVals.val_v21 m ρ c)
/-- Region 3, window 2 (`main_v71`). -/
theorem in3_2 : V7 m ρ c (Pipeline.arrRef spec3 2) = KDefs.aggS (W2 m ρ c (Proc.devRef .tc main_v1)) (m ((c : Thread nD τ).loc main_arg6)) (m ((c : Thread nD τ).loc main_arg7)) := by
  show W7 m ρ c (Proc.devRef .tc main_v71) = _
  exact KVals.val_v71 m ρ c
/-- Region 3, window 3 (`main_v30`). -/
theorem in3_3 : V7 m ρ c (Pipeline.arrRef spec3 3) = Sage.recip (fun i => KDefs.cS (m ((c : Thread nD τ).loc main_arg7)) (ix1 (i 0)) : Sage.Mat 500000 1) := by
  show W7 m ρ c (Proc.devRef .tc main_v30) = _
  exact (KWalkV.at7_v30 m ρ c).trans (KVals.val_v30 m ρ c)
/-- Region 3, window 4 (`main_v1`). -/
theorem in3_4 : V7 m ρ c (Pipeline.arrRef spec3 4) = (W2 m ρ c (Proc.devRef .tc main_v1)) := by
  show W7 m ρ c (Proc.devRef .tc main_v1) = _
  exact KWalkV.at7_v1 m ρ c
/-- Region 3, window 5 (`main_v75`). -/
theorem in3_5 : V7 m ρ c (Pipeline.arrRef spec3 5) = Sage.scale (fun i => (m ((c : Thread nD τ).loc main_arg12)) (ix4 (0 : Fin 3) (1 : Fin 3) (i 0) (i 1)) : Sage.Mat 64 64) := by
  show W7 m ρ c (Proc.devRef .tc main_v75) = _
  exact KVals.val_v75 m ρ c
/-- Region 3, window 6 (`main_v79`). -/
theorem in3_6 : V7 m ρ c (Pipeline.arrRef spec3 6) = Sage.scale (fun i => (m ((c : Thread nD τ).loc main_arg12)) (ix4 (0 : Fin 3) (2 : Fin 3) (i 0) (i 1)) : Sage.Mat 64 64) := by
  show W7 m ρ c (Proc.devRef .tc main_v79) = _
  exact KVals.val_v79 m ρ c
/-- Region 3, window 7 (`main_v94`). -/
theorem in3_7 : V7 m ρ c (Pipeline.arrRef spec3 7) = Sage.scaleSum (fun i => (m ((c : Thread nD τ).loc main_arg13)) (ix3 (0 : Fin 3) (1 : Fin 3) (i 1)) : Sage.Mat 1 64) (fun i => (m ((c : Thread nD τ).loc main_arg13)) (ix3 (0 : Fin 3) (2 : Fin 3) (i 1)) : Sage.Mat 1 64) := by
  show W7 m ρ c (Proc.devRef .tc main_v94) = _
  exact KVals.val_v94 m ρ c
/-- Region 3, window 8 (`main_v93`). -/
theorem in3_8 : V7 m ρ c (Pipeline.arrRef spec3 8) = Sage.scaleSum (fun i => (m ((c : Thread nD τ).loc main_arg14)) (ix4 (0 : Fin 3) (1 : Fin 3) (i 0) (i 1)) : Sage.Mat 64 64) (fun i => (m ((c : Thread nD τ).loc main_arg14)) (ix4 (0 : Fin 3) (2 : Fin 3) (i 0) (i 1)) : Sage.Mat 64 64) := by
  show W7 m ρ c (Proc.devRef .tc main_v93) = _
  exact KVals.val_v93 m ρ c

/-- Region 4, window 0 (`main_v106`). -/
theorem in4_0 : V9 m ρ c (Pipeline.arrRef spec4 0) = KDefs.aggO (W8 m ρ c (Proc.devRef .tc main_v95)) (m ((c : Thread nD τ).loc main_arg2)) (m ((c : Thread nD τ).loc main_arg3)) := by
  show W9 m ρ c (Proc.devRef .tc main_v106) = _
  exact KVals.val_v106 m ρ c
/-- Region 4, window 1 (`main_v12`). -/
theorem in4_1 : V9 m ρ c (Pipeline.arrRef spec4 1) = Sage.recip (fun i => KDefs.cO (m ((c : Thread nD τ).loc main_arg3)) (ix1 (i 0)) : Sage.Mat 200000 1) := by
  show W9 m ρ c (Proc.devRef .tc main_v12) = _
  exact (KWalkV.at9_v12 m ρ c).trans (KVals.val_v12 m ρ c)
/-- Region 4, window 2 (`main_v49`). -/
theorem in4_2 : V9 m ρ c (Pipeline.arrRef spec4 2) = (W6 m ρ c (Proc.devRef .tc main_v49)) := by
  show W9 m ρ c (Proc.devRef .tc main_v49) = _
  exact KWalkV.at9_v49 m ρ c
/-- Region 4, window 3 (`main_v108`). -/
theorem in4_3 : V9 m ρ c (Pipeline.arrRef spec4 3) = (fun i => (m ((c : Thread nD τ).loc main_arg12)) (ix4 (1 : Fin 3) (0 : Fin 3) (i 0) (i 1)) : Sage.Mat 64 64) := by
  show W9 m ρ c (Proc.devRef .tc main_v108) = _
  exact KVals.val_v108 m ρ c
/-- Region 4, window 4 (`main_v113`). -/
theorem in4_4 : V9 m ρ c (Pipeline.arrRef spec4 4) = (fun i => (m ((c : Thread nD τ).loc main_arg13)) (ix3 (1 : Fin 3) (0 : Fin 3) (i 1)) : Sage.Mat 1 64) := by
  show W9 m ρ c (Proc.devRef .tc main_v113) = _
  exact KVals.val_v113 m ρ c
/-- Region 4, window 5 (`main_v112`). -/
theorem in4_5 : V9 m ρ c (Pipeline.arrRef spec4 5) = (fun i => (m ((c : Thread nD τ).loc main_arg14)) (ix4 (1 : Fin 3) (0 : Fin 3) (i 0) (i 1)) : Sage.Mat 64 64) := by
  show W9 m ρ c (Proc.devRef .tc main_v112) = _
  exact KVals.val_v112 m ρ c

/-- Region 5, window 0 (`main_v125`). -/
theorem in5_0 : V11 m ρ c (Pipeline.arrRef spec5 0) = KDefs.aggH (W6 m ρ c (Proc.devRef .tc main_v49)) (m ((c : Thread nD τ).loc main_arg4)) (m ((c : Thread nD τ).loc main_arg5)) := by
  show W11 m ρ c (Proc.devRef .tc main_v125) = _
  exact KVals.val_v125 m ρ c
/-- Region 5, window 1 (`main_v21`). -/
theorem in5_1 : V11 m ρ c (Pipeline.arrRef spec5 1) = Sage.recip (fun i => KDefs.cH (m ((c : Thread nD τ).loc main_arg5)) (ix1 (i 0)) : Sage.Mat 500000 1) := by
  show W11 m ρ c (Proc.devRef .tc main_v21) = _
  exact (KWalkV.at11_v21 m ρ c).trans (KVals.val_v21 m ρ c)
/-- Region 5, window 2 (`main_v136`). -/
theorem in5_2 : V11 m ρ c (Pipeline.arrRef spec5 2) = KDefs.aggS (W8 m ρ c (Proc.devRef .tc main_v95)) (m ((c : Thread nD τ).loc main_arg6)) (m ((c : Thread nD τ).loc main_arg7)) := by
  show W11 m ρ c (Proc.devRef .tc main_v136) = _
  exact KVals.val_v136 m ρ c
/-- Region 5, window 3 (`main_v30`). -/
theorem in5_3 : V11 m ρ c (Pipeline.arrRef spec5 3) = Sage.recip (fun i => KDefs.cS (m ((c : Thread nD τ).loc main_arg7)) (ix1 (i 0)) : Sage.Mat 500000 1) := by
  show W11 m ρ c (Proc.devRef .tc main_v30) = _
  exact (KWalkV.at11_v30 m ρ c).trans (KVals.val_v30 m ρ c)
/-- Region 5, window 4 (`main_v95`). -/
theorem in5_4 : V11 m ρ c (Pipeline.arrRef spec5 4) = (W8 m ρ c (Proc.devRef .tc main_v95)) := by
  show W11 m ρ c (Proc.devRef .tc main_v95) = _
  exact KWalkV.at11_v95 m ρ c
/-- Region 5, window 5 (`main_v140`). -/
theorem in5_5 : V11 m ρ c (Pipeline.arrRef spec5 5) = Sage.scale (fun i => (m ((c : Thread nD τ).loc main_arg12)) (ix4 (1 : Fin 3) (1 : Fin 3) (i 0) (i 1)) : Sage.Mat 64 64) := by
  show W11 m ρ c (Proc.devRef .tc main_v140) = _
  exact KVals.val_v140 m ρ c
/-- Region 5, window 6 (`main_v144`). -/
theorem in5_6 : V11 m ρ c (Pipeline.arrRef spec5 6) = Sage.scale (fun i => (m ((c : Thread nD τ).loc main_arg12)) (ix4 (1 : Fin 3) (2 : Fin 3) (i 0) (i 1)) : Sage.Mat 64 64) := by
  show W11 m ρ c (Proc.devRef .tc main_v144) = _
  exact KVals.val_v144 m ρ c
/-- Region 5, window 7 (`main_v159`). -/
theorem in5_7 : V11 m ρ c (Pipeline.arrRef spec5 7) = Sage.scaleSum (fun i => (m ((c : Thread nD τ).loc main_arg13)) (ix3 (1 : Fin 3) (1 : Fin 3) (i 1)) : Sage.Mat 1 64) (fun i => (m ((c : Thread nD τ).loc main_arg13)) (ix3 (1 : Fin 3) (2 : Fin 3) (i 1)) : Sage.Mat 1 64) := by
  show W11 m ρ c (Proc.devRef .tc main_v159) = _
  exact KVals.val_v159 m ρ c
/-- Region 5, window 8 (`main_v158`). -/
theorem in5_8 : V11 m ρ c (Pipeline.arrRef spec5 8) = Sage.scaleSum (fun i => (m ((c : Thread nD τ).loc main_arg14)) (ix4 (1 : Fin 3) (1 : Fin 3) (i 0) (i 1)) : Sage.Mat 64 64) (fun i => (m ((c : Thread nD τ).loc main_arg14)) (ix4 (1 : Fin 3) (2 : Fin 3) (i 0) (i 1)) : Sage.Mat 64 64) := by
  show W11 m ρ c (Proc.devRef .tc main_v158) = _
  exact KVals.val_v158 m ρ c

/-- Region 6, window 0 (`main_v171`). -/
theorem in6_0 : V13 m ρ c (Pipeline.arrRef spec6 0) = KDefs.aggO (W12 m ρ c (Proc.devRef .tc main_v160)) (m ((c : Thread nD τ).loc main_arg2)) (m ((c : Thread nD τ).loc main_arg3)) := by
  show W13 m ρ c (Proc.devRef .tc main_v171) = _
  exact KVals.val_v171 m ρ c
/-- Region 6, window 1 (`main_v12`). -/
theorem in6_1 : V13 m ρ c (Pipeline.arrRef spec6 1) = Sage.recip (fun i => KDefs.cO (m ((c : Thread nD τ).loc main_arg3)) (ix1 (i 0)) : Sage.Mat 200000 1) := by
  show W13 m ρ c (Proc.devRef .tc main_v12) = _
  exact (KWalkV.at13_v12 m ρ c).trans (KVals.val_v12 m ρ c)
/-- Region 6, window 2 (`main_v114`). -/
theorem in6_2 : V13 m ρ c (Pipeline.arrRef spec6 2) = (W10 m ρ c (Proc.devRef .tc main_v114)) := by
  show W13 m ρ c (Proc.devRef .tc main_v114) = _
  exact KWalkV.at13_v114 m ρ c
/-- Region 6, window 3 (`main_v173`). -/
theorem in6_3 : V13 m ρ c (Pipeline.arrRef spec6 3) = (fun i => (m ((c : Thread nD τ).loc main_arg12)) (ix4 (2 : Fin 3) (0 : Fin 3) (i 0) (i 1)) : Sage.Mat 64 64) := by
  show W13 m ρ c (Proc.devRef .tc main_v173) = _
  exact KVals.val_v173 m ρ c
/-- Region 6, window 4 (`main_v178`). -/
theorem in6_4 : V13 m ρ c (Pipeline.arrRef spec6 4) = (fun i => (m ((c : Thread nD τ).loc main_arg13)) (ix3 (2 : Fin 3) (0 : Fin 3) (i 1)) : Sage.Mat 1 64) := by
  show W13 m ρ c (Proc.devRef .tc main_v178) = _
  exact KVals.val_v178 m ρ c
/-- Region 6, window 5 (`main_v177`). -/
theorem in6_5 : V13 m ρ c (Pipeline.arrRef spec6 5) = (fun i => (m ((c : Thread nD τ).loc main_arg14)) (ix4 (2 : Fin 3) (0 : Fin 3) (i 0) (i 1)) : Sage.Mat 64 64) := by
  show W13 m ρ c (Proc.devRef .tc main_v177) = _
  exact KVals.val_v177 m ρ c

/-- Region 7, window 0 (`main_v190`). -/
theorem in7_0 : V15 m ρ c (Pipeline.arrRef spec7 0) = KDefs.aggH (W10 m ρ c (Proc.devRef .tc main_v114)) (m ((c : Thread nD τ).loc main_arg4)) (m ((c : Thread nD τ).loc main_arg5)) := by
  show W15 m ρ c (Proc.devRef .tc main_v190) = _
  exact KVals.val_v190 m ρ c
/-- Region 7, window 1 (`main_v21`). -/
theorem in7_1 : V15 m ρ c (Pipeline.arrRef spec7 1) = Sage.recip (fun i => KDefs.cH (m ((c : Thread nD τ).loc main_arg5)) (ix1 (i 0)) : Sage.Mat 500000 1) := by
  show W15 m ρ c (Proc.devRef .tc main_v21) = _
  exact (KWalkV.at15_v21 m ρ c).trans (KVals.val_v21 m ρ c)
/-- Region 7, window 2 (`main_v201`). -/
theorem in7_2 : V15 m ρ c (Pipeline.arrRef spec7 2) = KDefs.aggS (W12 m ρ c (Proc.devRef .tc main_v160)) (m ((c : Thread nD τ).loc main_arg6)) (m ((c : Thread nD τ).loc main_arg7)) := by
  show W15 m ρ c (Proc.devRef .tc main_v201) = _
  exact KVals.val_v201 m ρ c
/-- Region 7, window 3 (`main_v30`). -/
theorem in7_3 : V15 m ρ c (Pipeline.arrRef spec7 3) = Sage.recip (fun i => KDefs.cS (m ((c : Thread nD τ).loc main_arg7)) (ix1 (i 0)) : Sage.Mat 500000 1) := by
  show W15 m ρ c (Proc.devRef .tc main_v30) = _
  exact (KWalkV.at15_v30 m ρ c).trans (KVals.val_v30 m ρ c)
/-- Region 7, window 4 (`main_v160`). -/
theorem in7_4 : V15 m ρ c (Pipeline.arrRef spec7 4) = (W12 m ρ c (Proc.devRef .tc main_v160)) := by
  show W15 m ρ c (Proc.devRef .tc main_v160) = _
  exact KWalkV.at15_v160 m ρ c
/-- Region 7, window 5 (`main_v205`). -/
theorem in7_5 : V15 m ρ c (Pipeline.arrRef spec7 5) = Sage.scale (fun i => (m ((c : Thread nD τ).loc main_arg12)) (ix4 (2 : Fin 3) (1 : Fin 3) (i 0) (i 1)) : Sage.Mat 64 64) := by
  show W15 m ρ c (Proc.devRef .tc main_v205) = _
  exact KVals.val_v205 m ρ c
/-- Region 7, window 6 (`main_v209`). -/
theorem in7_6 : V15 m ρ c (Pipeline.arrRef spec7 6) = Sage.scale (fun i => (m ((c : Thread nD τ).loc main_arg12)) (ix4 (2 : Fin 3) (2 : Fin 3) (i 0) (i 1)) : Sage.Mat 64 64) := by
  show W15 m ρ c (Proc.devRef .tc main_v209) = _
  exact KVals.val_v209 m ρ c
/-- Region 7, window 7 (`main_v224`). -/
theorem in7_7 : V15 m ρ c (Pipeline.arrRef spec7 7) = Sage.scaleSum (fun i => (m ((c : Thread nD τ).loc main_arg13)) (ix3 (2 : Fin 3) (1 : Fin 3) (i 1)) : Sage.Mat 1 64) (fun i => (m ((c : Thread nD τ).loc main_arg13)) (ix3 (2 : Fin 3) (2 : Fin 3) (i 1)) : Sage.Mat 1 64) := by
  show W15 m ρ c (Proc.devRef .tc main_v224) = _
  exact KVals.val_v224 m ρ c
/-- Region 7, window 8 (`main_v223`). -/
theorem in7_8 : V15 m ρ c (Pipeline.arrRef spec7 8) = Sage.scaleSum (fun i => (m ((c : Thread nD τ).loc main_arg14)) (ix4 (2 : Fin 3) (1 : Fin 3) (i 0) (i 1)) : Sage.Mat 64 64) (fun i => (m ((c : Thread nD τ).loc main_arg14)) (ix4 (2 : Fin 3) (2 : Fin 3) (i 0) (i 1)) : Sage.Mat 64 64) := by
  show W15 m ρ c (Proc.devRef .tc main_v223) = _
  exact KVals.val_v223 m ρ c

/-- Region 8, window 0 (`main_v225`). -/
theorem in8_0 : V17 m ρ c (Pipeline.arrRef spec8 0) = (W16 m ρ c (Proc.devRef .tc main_v225)) := by
  show W17 m ρ c (Proc.devRef .tc main_v225) = _
  exact KWalkV.at17_v225 m ρ c
/-- Region 8, window 1 (`main_arg15`). -/
theorem in8_1 : V17 m ρ c (Pipeline.arrRef spec8 1) = (m ((c : Thread nD τ).loc main_arg15)) := by
  show W17 m ρ c (Proc.devRef .tc main_arg15) = _
  exact KWalkA.at17_arg15 m ρ c
/-- Region 8, window 2 (`main_v226`). -/
theorem in8_2 : V17 m ρ c (Pipeline.arrRef spec8 2) = (fun i => (m ((c : Thread nD τ).loc main_arg16)) (ix1 (i 1)) : Sage.Mat 1 32) := by
  show W17 m ρ c (Proc.devRef .tc main_v226) = _
  exact KVals.val_v226 m ρ c
/-- Region 8, window 3 (`main_arg17`). -/
theorem in8_3 : V17 m ρ c (Pipeline.arrRef spec8 3) = (m ((c : Thread nD τ).loc main_arg17)) := by
  show W17 m ρ c (Proc.devRef .tc main_arg17) = _
  exact KWalkB.at17_arg17 m ρ c
/-- Region 8, window 4 (`main_v227`). -/
theorem in8_4 : V17 m ρ c (Pipeline.arrRef spec8 4) = (fun i => (m ((c : Thread nD τ).loc main_arg18)) (ix1 (i 1)) : Sage.Mat 1 1) := by
  show W17 m ρ c (Proc.devRef .tc main_v227) = _
  exact KVals.val_v227 m ρ c

end Cert.KernelIdeal.KEntry

end
-- ==== Proof.RefAgg.lean ====
/-
  The neighbourhood sums and neighbour counts of the three relations, as the reference program computes them.

  For a relation with edge list (src, dst) over E edges, source features x and N destination nodes:
  * the neighbourhood sum at destination d is the sum of the rows x[src e] over the edges e with dst e = d: the rows are
    taken by a gather (an edge's source index below zero is first moved up by the number of source nodes), then added into
    an all-zero [N, 64] array at the rows dst;
  * the neighbour count at d is the number of edges with dst e = d, taken as ones added into an all-zero [N] array, and
    then raised to at least one.
  These composites are kept closed: nothing below reads them at an index.
-/
import proofs.«139518_j50508815401658_2_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Orbits (planets → stars, 500000 edges): the sum of the source planets' rows at each star. -/
def aggO (x : (⟨S500000x64, .f32⟩ : BufTy).Contents (Elt Ideal)) (src dst : (⟨S500000, .i32⟩ : BufTy).Contents (Elt Ideal)) :
    (⟨S200000x64, .f32⟩ : BufTy).Contents (Elt Ideal) :=
  Host.scatterAdd (F := Ideal) scatter_S200000x64_S500000x1_S500000x64_1_0_0_1
    (broadcastInDim S200000x64 ![] bcast_S_S200000x64 (constant (F := Ideal) S_ .f32 0x00000000#32))
    (broadcastInDim S500000x1 ![0] bcast_S500000_S500000x1_0 dst)
    (Host.gather gather_S500000x64_S500000x1_S500000x64_1_0_n_n_0_1_164 x
      (broadcastInDim S500000x1 ![0] bcast_S500000_S500000x1_0
        (select (cmpi .slt src (broadcastInDim S500000 ![] bcast_S_S500000 (constantI S_ 32 0#32)))
          (addi src (broadcastInDim S500000 ![] bcast_S_S500000 (constantI S_ 32 500000#32))) src)))

/-- Hosts (stars → planets, 500000 edges): the sum of the source stars' rows at each planet. -/
def aggH (x : (⟨S200000x64, .f32⟩ : BufTy).Contents (Elt Ideal)) (src dst : (⟨S500000, .i32⟩ : BufTy).Contents (Elt Ideal)) :
    (⟨S500000x64, .f32⟩ : BufTy).Contents (Elt Ideal) :=
  Host.scatterAdd (F := Ideal) scatter_S500000x64_S500000x1_S500000x64_1_0_0_1
    (broadcastInDim S500000x64 ![] bcast_S_S500000x64 (constant (F := Ideal) S_ .f32 0x00000000#32))
    (broadcastInDim S500000x1 ![0] bcast_S500000_S500000x1_0 dst)
    (Host.gather gather_S200000x64_S500000x1_S500000x64_1_0_n_n_0_1_164 x
      (broadcastInDim S500000x1 ![0] bcast_S500000_S500000x1_0
        (select (cmpi .slt src (broadcastInDim S500000 ![] bcast_S_S500000 (constantI S_ 32 0#32)))
          (addi src (broadcastInDim S500000 ![] bcast_S_S500000 (constantI S_ 32 200000#32))) src)))

/-- Sibling (planets → planets, 2000000 edges): the sum of the source planets' rows at each planet. -/
def aggS (x : (⟨S500000x64, .f32⟩ : BufTy).Contents (Elt Ideal)) (src dst : (⟨S2000000, .i32⟩ : BufTy).Contents (Elt Ideal)) :
    (⟨S500000x64, .f32⟩ : BufTy).Contents (Elt Ideal) :=
  Host.scatterAdd (F := Ideal) scatter_S500000x64_S2000000x1_S2000000x64_1_0_0_1
    (broadcastInDim S500000x64 ![] bcast_S_S500000x64 (constant (F := Ideal) S_ .f32 0x00000000#32))
    (broadcastInDim S2000000x1 ![0] bcast_S2000000_S2000000x1_0 dst)
    (Host.gather gather_S500000x64_S2000000x1_S2000000x64_1_0_n_n_0_1_164 x
      (broadcastInDim S2000000x1 ![0] bcast_S2000000_S2000000x1_0
        (select (cmpi .slt src (broadcastInDim S2000000 ![] bcast_S_S2000000 (constantI S_ 32 0#32)))
          (addi src (broadcastInDim S2000000 ![] bcast_S_S2000000 (constantI S_ 32 500000#32))) src)))

/-- Orbits: the number of edges into each star, raised to at least one. -/
def cO (dst : (⟨S500000, .i32⟩ : BufTy).Contents (Elt Ideal)) : (⟨S200000, .f32⟩ : BufTy).Contents (Elt Ideal) :=
  maximumf
    (Host.scatterAdd (F := Ideal) scatter_S200000_S500000x1_S500000_n_0_0_1
      (broadcastInDim S200000 ![] bcast_S_S200000 (constant (F := Ideal) S_ .f32 0x00000000#32))
      (broadcastInDim S500000x1 ![0] bcast_S500000_S500000x1_0 dst)
      (broadcastInDim S500000 ![] bcast_S_S500000 (constant (F := Ideal) S_ .f32 0x3F800000#32)))
    (broadcastInDim S200000 ![] bcast_S_S200000 (constant (F := Ideal) S_ .f32 0x3F800000#32))

/-- Hosts: the number of edges into each planet, raised to at least one. -/
def cH (dst : (⟨S500000, .i32⟩ : BufTy).Contents (Elt Ideal)) : (⟨S500000, .f32⟩ : BufTy).Contents (Elt Ideal) :=
  maximumf
    (Host.scatterAdd (F := Ideal) scatter_S500000_S500000x1_S500000_n_0_0_1
      (broadcastInDim S500000 ![] bcast_S_S500000 (constant (F := Ideal) S_ .f32 0x00000000#32))
      (broadcastInDim S500000x1 ![0] bcast_S500000_S500000x1_0 dst)
      (broadcastInDim S500000 ![] bcast_S_S500000 (constant (F := Ideal) S_ .f32 0x3F800000#32)))
    (broadcastInDim S500000 ![] bcast_S_S500000 (constant (F := Ideal) S_ .f32 0x3F800000#32))

/-- Sibling: the number of edges into each planet, raised to at least one. -/
def cS (dst : (⟨S2000000, .i32⟩ : BufTy).Contents (Elt Ideal)) : (⟨S500000, .f32⟩ : BufTy).Contents (Elt Ideal) :=
  maximumf
    (Host.scatterAdd (F := Ideal) scatter_S500000_S2000000x1_S2000000_n_0_0_1
      (broadcastInDim S500000 ![] bcast_S_S500000 (constant (F := Ideal) S_ .f32 0x00000000#32))
      (broadcastInDim S2000000x1 ![0] bcast_S2000000_S2000000x1_0 dst)
      (broadcastInDim S2000000 ![] bcast_S_S2000000 (constant (F := Ideal) S_ .f32 0x3F800000#32)))
    (broadcastInDim S500000 ![] bcast_S_S500000 (constant (F := Ideal) S_ .f32 0x3F800000#32))

end Cert.ReferenceIdeal.RefValue

end
-- ==== Proof.KDefsRef.lean ====
/-
  The kernel program's graph aggregations are the reference's: the same gathers and scatter-additions over the same index
  arrays, the kernel's widening of the gathered rows to single precision being the identity on extended reals.
-/
import proofs.«139518_j50508815401658_2_alg».proof.Proof.KDefs
import proofs.«139518_j50508815401658_2_alg».proof.Proof.RefAgg

noncomputable section

namespace Cert.KernelIdeal.KDefs

open Idealize.ShloMosaic

theorem cO_eq (dst : (⟨Cert.KernelIdeal.S500000, .i32⟩ : BufTy).Contents (Elt Ideal)) : cO dst = Cert.ReferenceIdeal.RefValue.cO dst := rfl
theorem cH_eq (dst : (⟨Cert.KernelIdeal.S500000, .i32⟩ : BufTy).Contents (Elt Ideal)) : cH dst = Cert.ReferenceIdeal.RefValue.cH dst := rfl
theorem cS_eq (dst : (⟨Cert.KernelIdeal.S2000000, .i32⟩ : BufTy).Contents (Elt Ideal)) : cS dst = Cert.ReferenceIdeal.RefValue.cS dst := rfl

theorem aggO_eq (h : (⟨Cert.KernelIdeal.S500000x64, .bf16⟩ : BufTy).Contents (Elt Ideal))
    (src dst : (⟨Cert.KernelIdeal.S500000, .i32⟩ : BufTy).Contents (Elt Ideal)) : aggO h src dst = Cert.ReferenceIdeal.RefValue.aggO h src dst := rfl
theorem aggH_eq (h : (⟨Cert.KernelIdeal.S200000x64, .bf16⟩ : BufTy).Contents (Elt Ideal))
    (src dst : (⟨Cert.KernelIdeal.S500000, .i32⟩ : BufTy).Contents (Elt Ideal)) : aggH h src dst = Cert.ReferenceIdeal.RefValue.aggH h src dst := rfl
theorem aggS_eq (h : (⟨Cert.KernelIdeal.S500000x64, .bf16⟩ : BufTy).Contents (Elt Ideal))
    (src dst : (⟨Cert.KernelIdeal.S2000000, .i32⟩ : BufTy).Contents (Elt Ideal)) : aggS h src dst = Cert.ReferenceIdeal.RefValue.aggS h src dst := rfl

end Cert.KernelIdeal.KDefs

end
-- ==== Proof.RefSpec.lean ====
/-
  The reference's result as one function of its nineteen argument arrays, built from the stage functions of the
  specification and the closed neighbourhood sums and counts.

  * `W4 w l r`, `B3 b l r`: block (l, r) of a [3, 3, 64, 64] weight array as a 64 × 64 matrix, and of a [3, 3, 64] bias array
    as a 1 × 64 row.  `row v`: a vector as a one-row matrix.  `col v`: a vector as a one-column matrix.
  * `layerS`: one layer's star update — the convolution over the orbits relation, clamped at zero.
  * `layerP`: one layer's planet update — the mean of the convolutions over the hosts and the sibling relation, clamped.
  * `hpR k`, `hsR k`: planet and star features after k layers (k = 0: the input projections).
  * `RVal`: the two-layer readout of the planets' features after three layers, as a vector.
-/
import proofs.«139518_j50508815401658_2_alg».proof.Proof.Spec
import proofs.«139518_j50508815401658_2_alg».proof.Proof.RefAgg

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- Block (l, r) of a [3, 3, 64, 64] array as a matrix. -/
abbrev W4 (w : (⟨S3x3x64x64, .f32⟩ : BufTy).Contents (Elt Ideal)) (l r : Fin 3) : Sage.Mat 64 64 :=
  fun i => w (ix4 l r (i 0) (i 1))

/-- Block (l, r) of a [3, 3, 64] array as a one-row matrix. -/
abbrev B3 (b : (⟨S3x3x64, .f32⟩ : BufTy).Contents (Elt Ideal)) (l r : Fin 3) : Sage.Mat 1 64 :=
  fun i => b (ix3 l r (i 1))

/-- A vector as a one-row matrix. -/
abbrev row {N : ℕ} (v : (⟨1, ![N]⟩ : Shape).Idx → EReal) : Sage.Mat 1 N := fun i => v (ix1 (i 1))

/-- A vector as a one-column matrix. -/
abbrev col {M : ℕ} (v : (⟨1, ![M]⟩ : Shape).Idx → EReal) : Sage.Mat M 1 := fun i => v (ix1 (i 0))

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

/-- The star update of layer l from planet features hp and star features hs. -/
def layerS (l : Fin 3) (hp : Sage.Mat 500000 64) (hs : Sage.Mat 200000 64) : Sage.Mat 200000 64 :=
  Sage.relu (Sage.sageR (aggO hp x2 x3) (col (cO x3)) hs (W4 x12 l 0) (B3 x13 l 0) (W4 x14 l 0))

/-- The planet update of layer l from planet features hp and star features hs. -/
def layerP (l : Fin 3) (hp : Sage.Mat 500000 64) (hs : Sage.Mat 200000 64) : Sage.Mat 500000 64 :=
  Sage.meanRelu
    (Sage.sageR (aggH hs x4 x5) (col (cH x5)) hp (W4 x12 l 1) (B3 x13 l 1) (W4 x14 l 1))
    (Sage.sageR (aggS hp x6 x7) (col (cS x7)) hp (W4 x12 l 2) (B3 x13 l 2) (W4 x14 l 2))

/-- The planets' input projection. -/
def hp0 : Sage.Mat 500000 64 := Sage.relu (Sage.lin x0 x8 (row x9))

/-- The stars' input projection. -/
def hs0 : Sage.Mat 200000 64 := Sage.relu (Sage.lin x1 x10 (row x11))

/-- Planet features after one layer. -/
def hp1 : Sage.Mat 500000 64 :=
  layerP x4 x5 x6 x7 x12 x13 x14 0 (hp0 x0 x8 x9) (hs0 x1 x10 x11)

/-- Star features after one layer. -/
def hs1 : Sage.Mat 200000 64 :=
  layerS x2 x3 x12 x13 x14 0 (hp0 x0 x8 x9) (hs0 x1 x10 x11)

/-- Planet features after two layers. -/
def hp2 : Sage.Mat 500000 64 :=
  layerP x4 x5 x6 x7 x12 x13 x14 1 (hp1 x0 x1 x4 x5 x6 x7 x8 x9 x10 x11 x12 x13 x14) (hs1 x0 x1 x2 x3 x8 x9 x10 x11 x12 x13 x14)

/-- Star features after two layers. -/
def hs2 : Sage.Mat 200000 64 :=
  layerS x2 x3 x12 x13 x14 1 (hp1 x0 x1 x4 x5 x6 x7 x8 x9 x10 x11 x12 x13 x14) (hs1 x0 x1 x2 x3 x8 x9 x10 x11 x12 x13 x14)

/-- Planet features after three layers. -/
def hp3 : Sage.Mat 500000 64 :=
  layerP x4 x5 x6 x7 x12 x13 x14 2 (hp2 x0 x1 x2 x3 x4 x5 x6 x7 x8 x9 x10 x11 x12 x13 x14) (hs2 x0 x1 x2 x3 x4 x5 x6 x7 x8 x9 x10 x11 x12 x13 x14)

/-- The readout as a one-column matrix: a clamped linear layer to 32 features, then a linear layer to one. -/
def headR (hp : Sage.Mat 500000 64) : Sage.Mat 500000 1 :=
  Sage.lin (Sage.relu (Sage.lin hp x15 (row x16))) x17 (row x18)

/-- The reference's result: the readout of the planets' features after three layers, as a vector. -/
def RVal : (⟨S500000, .f32⟩ : BufTy).Contents (Elt Ideal) :=
  fun i => headR x15 x16 x17 x18 (hp3 x0 x1 x2 x3 x4 x5 x6 x7 x8 x9 x10 x11 x12 x13 x14) (ix2 (i 0) 0)

end Cert.ReferenceIdeal.RefValue

end
-- ==== Proof.KSpec.lean ====
/-
  The kernel's arrangement of the network, over the same closed neighbourhood sums and counts as the reference's.

  Each layer's star update scales the neighbour sum by the reciprocal of the count column and clamps (`layerSK`); each
  planet update is ONE convolution over both relations whose weights and bias carry the mean's factor one half
  (`layerPK`).  The input projections and the readout are the reference's own.
-/
import proofs.«139518_j50508815401658_2_alg».proof.Proof.RefSpec

noncomputable section

namespace Cert.Bridge

open Cert.ReferenceIdeal Cert.ReferenceIdeal.Gen Cert.ReferenceIdeal.RefValue Idealize.ShloMosaic Idealize.ShloMosaic.TcCoe Idealize.SL.Sem Idealize.ShloMosaic.StableHlo Idealize.ShloMosaic.ValueIdx

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

/-- The star update of layer l, with the reciprocal count column. -/
def layerSK (l : Fin 3) (hp : Sage.Mat 500000 64) (hs : Sage.Mat 200000 64) : Sage.Mat 200000 64 :=
  Sage.sageK1 (aggO hp x2 x3) (Sage.recip (col (cO x3))) hs (W4 x12 l 0) (B3 x13 l 0) (W4 x14 l 0)

/-- The planet update of layer l, the mean of the two relations folded into halved weights and biases. -/
def layerPK (l : Fin 3) (hp : Sage.Mat 500000 64) (hs : Sage.Mat 200000 64) : Sage.Mat 500000 64 :=
  Sage.sageK2 (aggH hs x4 x5) (Sage.recip (col (cH x5))) (aggS hp x6 x7) (Sage.recip (col (cS x7))) hp
    (Sage.scale (W4 x12 l 1)) (Sage.scale (W4 x12 l 2)) (Sage.scaleSum (B3 x13 l 1) (B3 x13 l 2))
    (Sage.scaleSum (W4 x14 l 1) (W4 x14 l 2))

/-- Planet features after one layer. -/
def hpK1 : Sage.Mat 500000 64 := layerPK x4 x5 x6 x7 x12 x13 x14 0 (hp0 x0 x8 x9) (hs0 x1 x10 x11)

/-- Star features after one layer. -/
def hsK1 : Sage.Mat 200000 64 := layerSK x2 x3 x12 x13 x14 0 (hp0 x0 x8 x9) (hs0 x1 x10 x11)

/-- Planet features after two layers. -/
def hpK2 : Sage.Mat 500000 64 :=
  layerPK x4 x5 x6 x7 x12 x13 x14 1 (hpK1 x0 x1 x4 x5 x6 x7 x8 x9 x10 x11 x12 x13 x14) (hsK1 x0 x1 x2 x3 x8 x9 x10 x11 x12 x13 x14)

/-- Star features after two layers. -/
def hsK2 : Sage.Mat 200000 64 :=
  layerSK x2 x3 x12 x13 x14 1 (hpK1 x0 x1 x4 x5 x6 x7 x8 x9 x10 x11 x12 x13 x14) (hsK1 x0 x1 x2 x3 x8 x9 x10 x11 x12 x13 x14)

/-- Planet features after three layers. -/
def hpK3 : Sage.Mat 500000 64 :=
  layerPK x4 x5 x6 x7 x12 x13 x14 2 (hpK2 x0 x1 x2 x3 x4 x5 x6 x7 x8 x9 x10 x11 x12 x13 x14) (hsK2 x0 x1 x2 x3 x4 x5 x6 x7 x8 x9 x10 x11 x12 x13 x14)

/-- The kernel's result: the readout of the planets' features after three layers, as a vector. -/
def KVal : (⟨S500000, .f32⟩ : BufTy).Contents (Elt Ideal) :=
  fun i => headR x15 x16 x17 x18 (hpK3 x0 x1 x2 x3 x4 x5 x6 x7 x8 x9 x10 x11 x12 x13 x14) (ix2 (i 0) 0)

end Cert.Bridge

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibAffineBodies.lean ====
/-
  The arithmetic of the five kinds of kernel body, over the extended reals.

  Every body works on a tile of rows.  A "linear" body multiplies the tile `x` ([M, K]) by a weight matrix `w`
  ([K, N]) and adds a row vector `b` ([1, N]) to every row: entry (p, q) is `∑ k, x (p, k) * w (k, q) + b (0, q)`
  (the narrowing of both operands before the product is the identity on extended reals).  It may then clamp at
  zero from below, or apply the logistic function.  A "bias" body adds the row vector to every row of the tile
  and clamps at zero.  Each lemma below says that the body's chain of vector operations is that entrywise
  function.
-/
import Idealize.ShloMosaic.PureOps.Ideal.Laws
import Idealize.ShloMosaic.Lib.ValueIdx
import Idealize.ShloMosaic.Lib.ValueLayout
import Idealize.ShloMosaic.Lib.Pipeline.Value
import proofs.«139518_j50508815401658_2_alg».proof.Proof.LibMatmul

noncomputable section

open scoped BigOperators
open Idealize.ShloMosaic Idealize.ShloMosaic.ValueIdx

namespace Gcn

variable {M K N : ℕ}

/-- Matrices of extended reals, indexed by the shape's multi-indices. -/
abbrev Mat (M N : ℕ) : Type := (⟨2, ![M, N]⟩ : Shape).Idx → EReal

/-- `x · w + b`, the row vector `b` added to every row. -/
def affine (x : Mat M K) (w : Mat K N) (b : Mat 1 N) : Mat M N :=
  fun i => (∑ k : Fin K, x (ix2 (i 0) k) * w (ix2 k (i 1))) + b (ix2 0 (i 1))

/-- `max (a + b) 0`, the row vector `b` added to every row. -/
def biasRelu (a : Mat M N) (b : Mat 1 N) : Mat M N :=
  fun i => max (a i + b (ix2 0 (i 1))) 0

/-- `max (x · w + b) 0`. -/
def affineRelu (x : Mat M K) (w : Mat K N) (b : Mat 1 N) : Mat M N :=
  fun i => max (affine x w b i) 0

/-- The logistic function of `x · w + b`. -/
def affineLogistic (x : Mat M K) (w : Mat K N) (b : Mat 1 N) : Mat M N :=
  fun i => Ideal.logistic (affine x w b i)

/-- A row vector broadcast down the rows, read at an entry. -/
theorem rowBroadcast_apply (b : FVec Ideal (⟨2, ![1, N]⟩ : Shape) .f32)
    (hb : (⟨2, ![1, N]⟩ : Shape).Broadcasts (⟨2, ![M, N]⟩ : Shape)) (p : Fin M) (q : Fin N) :
    broadcastTo (⟨2, ![M, N]⟩ : Shape) b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

/-- The clamp at zero, read at an entry. -/
theorem clamp_apply (a : FVec Ideal (⟨2, ![M, N]⟩ : Shape) .f32) (i : (⟨2, ![M, N]⟩ : Shape).Idx) :
    maximumf a (broadcast (⟨2, ![M, N]⟩ : Shape) (Scalar.ofBits (F := Ideal) .f32 0x00000000#32)) i = max (a i) 0 := by
  rw [maximumf_apply, broadcast_apply]
  show max _ (Ideal.ofBits .f32 0x00000000#32) = _
  rw [Ideal.ofBits_zero_f32]

/-- The linear body: product into the zero matrix, then the row vector added. -/
theorem linear_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    addf (matmul d none (truncf .bf16 x h1) (truncf .bf16 w h2) (constant (⟨2, ![M, N]⟩ : Shape) .f32 0x00000000#32))
        (broadcastTo (⟨2, ![M, N]⟩ : Shape) b hb)
      = affine x w b := by
  funext i
  obtain ⟨p, q, rfl⟩ : ∃ (p : Fin M) (q : Fin N), i = ix2 p q := ⟨i 0, i 1, eq_ix2 i⟩
  rw [addf_apply, rowBroadcast_apply]
  refine congrArg (· + b (ix2 0 q)) ?_
  exact PlainMatmul.apply hd none (truncf .bf16 x h1) (truncf .bf16 w h2) p q

/-- The linear body followed by the clamp at zero. -/
theorem linear_relu_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    maximumf (addf (matmul d none (truncf .bf16 x h1) (truncf .bf16 w h2) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = affineRelu x w b := by
  rw [linear_body hd x w b h1 h2 hb]
  funext i
  exact clamp_apply _ i

/-- The linear body followed by the logistic function. -/
theorem linear_logistic_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    logistic (addf (matmul d none (truncf .bf16 x h1) (truncf .bf16 w h2) (constant (⟨2, ![M, N]⟩ : Shape) .f32 0x00000000#32))
        (broadcastTo (⟨2, ![M, N]⟩ : Shape) b hb))
      = affineLogistic x w b := by
  rw [linear_body hd x w b h1 h2 hb]
  rfl

/-- The bias body: the row vector added, then the clamp at zero. -/
theorem bias_body (a : FVec Ideal (⟨2, ![M, N]⟩ : Shape) .f32) (b : FVec Ideal (⟨2, ![1, N]⟩ : Shape) .f32)
    (hb : (⟨2, ![1, N]⟩ : Shape).Broadcasts (⟨2, ![M, N]⟩ : Shape)) :
    maximumf (addf a (broadcastTo (⟨2, ![M, N]⟩ : Shape) b hb))
        (broadcast (⟨2, ![M, N]⟩ : Shape) (Scalar.ofBits (F := Ideal) .f32 0x00000000#32))
      = biasRelu a b := by
  funext i
  obtain ⟨p, q, rfl⟩ : ∃ (p : Fin M) (q : Fin N), i = ix2 p q := ⟨i 0, i 1, eq_ix2 i⟩
  rw [clamp_apply, addf_apply, rowBroadcast_apply]
  rfl

/-! ## Two entries agree when the rows they depend on agree -/

theorem affine_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affine X W B j = affine A W' B' i := by
  subst hW hB
  have e : (j 1 : Fin N) = i 1 := Fin.ext h1
  show (∑ k : Fin K, X (ix2 (j 0) k) * W (ix2 k (j 1))) + B (ix2 0 (j 1))
    = (∑ k : Fin K, A (ix2 (i 0) k) * W (ix2 k (i 1))) + B (ix2 0 (i 1))
  rw [e]
  exact congrArg (· + B (ix2 0 (i 1))) (Finset.sum_congr rfl fun k _ => by rw [hX k])

theorem affineRelu_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineRelu X W B j = affineRelu A W' B' i := by
  unfold affineRelu
  rw [affine_congr j i hW hB hX h1]

theorem affineLogistic_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineLogistic X W B j = affineLogistic A W' B' i := by
  unfold affineLogistic
  rw [affine_congr j i hW hB hX h1]

theorem biasRelu_congr {M' : ℕ} {X : Mat M N} {B B' : Mat 1 N} {A : Mat M' N}
    (j : (⟨2, ![M, N]⟩ : Shape).Idx) (i : (⟨2, ![M', N]⟩ : Shape).Idx)
    (hB : B = B') (hX : X j = A i) (h1 : (j 1).val = (i 1).val) :
    biasRelu X B j = biasRelu A B' i := by
  subst hB
  have e : (j 1 : Fin N) = i 1 := Fin.ext h1
  show max (X j + B (ix2 0 (j 1))) 0 = max (A i + B (ix2 0 (i 1))) 0
  rw [e, hX]

end Gcn

end
-- ==== Proof.KBodies.lean ====
/-
  The arithmetic of the graph-network kernel bodies on a tile of rows, over the extended reals.

  Every body works on a tile of `M` rows.  Narrowing an operand to the half-width format before a product, and the
  result after it, is the identity on extended reals, and a reshape of a tile to its own shape changes nothing, so
  each body is an entrywise function of its operands:
  * the projection body is `max (x · w + b) 0`;
  * the single-relation convolution body scales row `p` of the neighbour sum `a` by the entry `r (p, 0)` of a
    column, multiplies by `wl`, adds the row vector `bl` and the product `xd · wr`, and clamps at zero;
  * the two-relation body does the same with two scaled neighbour sums;
  * the readout body is two linear layers with a clamp at zero between them.
-/
import Idealize.ShloMosaic.PureOps.Ideal.Laws
import Idealize.ShloMosaic.Lib.ValueIdx
import Idealize.ShloMosaic.Lib.ValueLayout
import Idealize.ShloMosaic.Lib.Pipeline.Value
import proofs.«139518_j50508815401658_2_alg».proof.Proof.LibMatmul
import proofs.«139518_j50508815401658_2_alg».proof.Proof.LibAffineBodies
import proofs.«139518_j50508815401658_2_alg».proof.Proof.Spec

noncomputable section

open scoped BigOperators
open Idealize.ShloMosaic Idealize.ShloMosaic.ValueIdx

namespace Sage.Body

variable {M K N H : ℕ}

/-- A column spread along the lanes, read at an entry: entry `(p, q)` is the column's entry `p`. -/
theorem colBroadcast_apply (r : FVec Ideal (⟨2, ![M, 1]⟩ : Shape) .f32)
    (hb : (⟨2, ![M, 1]⟩ : Shape).Broadcasts (⟨2, ![M, N]⟩ : Shape)) (p : Fin M) (q : Fin N) :
    broadcastTo (⟨2, ![M, N]⟩ : Shape) r hb (ix2 p q) = r (ix2 p 0) := by
  refine broadcastTo_apply r hb (ix2 p q) (ix2 p 0) fun a => ?_
  match a with
  | ⟨0, _⟩ =>
    show p.val = if M = 1 then 0 else p.val
    split
    · have := p.isLt; omega
    · rfl
  | ⟨1, _⟩ => exact (if_pos rfl).symm

/-- A plain product into the zero matrix, spelt as the bodies spell it, at an entry. -/
theorem matmul_apply {φ₁ φ₂ : FTy} {d : DotDims (⟨2, ![M, K]⟩ : Shape) (⟨2, ![K, N]⟩ : Shape) (⟨2, ![M, N]⟩ : Shape)}
    (hd : PlainMatmul.IsPlain d)
    (lhs : FVec Ideal (⟨2, ![M, K]⟩ : Shape) φ₁) (rhs : FVec Ideal (⟨2, ![K, N]⟩ : Shape) φ₂) (p : Fin M) (q : Fin N) :
    matmul d none lhs rhs (constant (⟨2, ![M, N]⟩ : Shape) .f32 0x00000000#32) (ix2 p q)
      = ∑ k : Fin K, (lhs (ix2 p k) : EReal) * (rhs (ix2 k q) : EReal) :=
  PlainMatmul.apply hd none lhs rhs p q

/-- The neighbour sum scaled row by row, narrowed: entry `(p, k)` is `a (p, k) * r (p, 0)`. -/
theorem scaled_apply (a : FVec Ideal (⟨2, ![M, H]⟩ : Shape) .f32) (r : FVec Ideal (⟨2, ![M, 1]⟩ : Shape) .f32)
    (hb : (⟨2, ![M, 1]⟩ : Shape).Broadcasts (⟨2, ![M, H]⟩ : Shape)) (h : FTy.bf16.bits < FTy.f32.bits)
    (p : Fin M) (k : Fin H) :
    (truncf .bf16 (mulf a (broadcastTo (⟨2, ![M, H]⟩ : Shape) r hb)) h : FVec Ideal (⟨2, ![M, H]⟩ : Shape) .bf16) (ix2 p k)
      = a (ix2 p k) * r (ix2 p 0) := by
  rw [truncf_apply, mulf_apply, colBroadcast_apply]

/-- The projection body: `max (x · w + b) 0`. -/
theorem proj_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 h3 : FTy.bf16.bits < FTy.f32.bits)
    (sb : (⟨2, ![1, N]⟩ : Shape).ShapeCasts (⟨2, ![1, N]⟩ : Shape))
    (hb : (⟨2, ![1, N]⟩ : Shape).Broadcasts (⟨2, ![M, N]⟩ : Shape)) :
    (truncf .bf16 (maximumf (addf (matmul d none (truncf .bf16 x h1) (truncf .bf16 w h2) (constant (⟨2, ![M, N]⟩ : Shape) .f32 0x00000000#32))
        (broadcastTo (⟨2, ![M, N]⟩ : Shape) (shapeCast (⟨2, ![1, N]⟩ : Shape) b sb) hb))
        (broadcast (⟨2, ![M, N]⟩ : Shape) (Scalar.ofBits (F := Ideal) .f32 0x00000000#32))) h3
          : FVec Ideal (⟨2, ![M, N]⟩ : Shape) .bf16)
      = Sage.relu (Sage.lin x w b) := by
  rw [shapeCast_self, Gcn.linear_relu_body hd x w b h1 h2 hb]
  rfl

/-- The single-relation convolution body. -/
theorem single_body {d : DotDims (⟨2, ![M, H]⟩ : Shape) (⟨2, ![H, H]⟩ : Shape) (⟨2, ![M, H]⟩ : Shape)}
    (hd : PlainMatmul.IsPlain d)
    (a : FVec Ideal (⟨2, ![M, H]⟩ : Shape) .f32) (r : FVec Ideal (⟨2, ![M, 1]⟩ : Shape) .f32)
    (xd : FVec Ideal (⟨2, ![M, H]⟩ : Shape) .bf16)
    (wl wr : FVec Ideal (⟨2, ![H, H]⟩ : Shape) .f32) (bl : FVec Ideal (⟨2, ![1, H]⟩ : Shape) .f32)
    (h1 h2 h3 h4 : FTy.bf16.bits < FTy.f32.bits)
    (sa sx : (⟨2, ![M, H]⟩ : Shape).ShapeCasts (⟨2, ![M, H]⟩ : Shape))
    (sr : (⟨2, ![M, 1]⟩ : Shape).ShapeCasts (⟨2, ![M, 1]⟩ : Shape))
    (swl swr : (⟨2, ![H, H]⟩ : Shape).ShapeCasts (⟨2, ![H, H]⟩ : Shape))
    (sb : (⟨2, ![1, H]⟩ : Shape).ShapeCasts (⟨2, ![1, H]⟩ : Shape))
    (hc : (⟨2, ![M, 1]⟩ : Shape).Broadcasts (⟨2, ![M, H]⟩ : Shape))
    (hb : (⟨2, ![1, H]⟩ : Shape).Broadcasts (⟨2, ![M, H]⟩ : Shape)) :
    (truncf .bf16 (maximumf
        (addf
          (addf
            (matmul d none
              (truncf .bf16 (mulf (shapeCast (⟨2, ![M, H]⟩ : Shape) a sa)
                (broadcastTo (⟨2, ![M, H]⟩ : Shape) (shapeCast (⟨2, ![M, 1]⟩ : Shape) r sr) hc)) h1)
              (truncf .bf16 (shapeCast (⟨2, ![H, H]⟩ : Shape) wl swl) h2)
              (constant (⟨2, ![M, H]⟩ : Shape) .f32 0x00000000#32))
            (broadcastTo (⟨2, ![M, H]⟩ : Shape) (shapeCast (⟨2, ![1, H]⟩ : Shape) bl sb) hb))
          (matmul d none (shapeCast (⟨2, ![M, H]⟩ : Shape) xd sx)
            (truncf .bf16 (shapeCast (⟨2, ![H, H]⟩ : Shape) wr swr) h3)
            (constant (⟨2, ![M, H]⟩ : Shape) .f32 0x00000000#32)))
        (broadcast (⟨2, ![M, H]⟩ : Shape) (Scalar.ofBits (F := Ideal) .f32 0x00000000#32))) h4
          : FVec Ideal (⟨2, ![M, H]⟩ : Shape) .bf16)
      = Sage.sageK1 a r xd wl bl wr := by
  funext i
  obtain ⟨p, q, rfl⟩ : ∃ (p : Fin M) (q : Fin H), i = ix2 p q := ⟨i 0, i 1, eq_ix2 i⟩
  simp only [shapeCast_self]
  rw [truncf_apply, Gcn.clamp_apply, addf_apply, addf_apply, Gcn.rowBroadcast_apply,
    matmul_apply hd, matmul_apply hd]
  simp only [truncf_apply, mulf_apply, colBroadcast_apply]
  rfl

/-- The two-relation convolution body. -/
theorem double_body {d : DotDims (⟨2, ![M, H]⟩ : Shape) (⟨2, ![H, H]⟩ : Shape) (⟨2, ![M, H]⟩ : Shape)}
    (hd : PlainMatmul.IsPlain d)
    (a1 : FVec Ideal (⟨2, ![M, H]⟩ : Shape) .f32) (r1 : FVec Ideal (⟨2, ![M, 1]⟩ : Shape) .f32)
    (a2 : FVec Ideal (⟨2, ![M, H]⟩ : Shape) .f32) (r2 : FVec Ideal (⟨2, ![M, 1]⟩ : Shape) .f32)
    (xd : FVec Ideal (⟨2, ![M, H]⟩ : Shape) .bf16)
    (wl1 wl2 wrc : FVec Ideal (⟨2, ![H, H]⟩ : Shape) .f32) (blc : FVec Ideal (⟨2, ![1, H]⟩ : Shape) .f32)
    (h1 h2 h3 h4 h5 h6 : FTy.bf16.bits < FTy.f32.bits)
    (sa1 sa2 sx : (⟨2, ![M, H]⟩ : Shape).ShapeCasts (⟨2, ![M, H]⟩ : Shape))
    (sr1 sr2 : (⟨2, ![M, 1]⟩ : Shape).ShapeCasts (⟨2, ![M, 1]⟩ : Shape))
    (sw1 sw2 sw3 : (⟨2, ![H, H]⟩ : Shape).ShapeCasts (⟨2, ![H, H]⟩ : Shape))
    (sb : (⟨2, ![1, H]⟩ : Shape).ShapeCasts (⟨2, ![1, H]⟩ : Shape))
    (hc1 hc2 : (⟨2, ![M, 1]⟩ : Shape).Broadcasts (⟨2, ![M, H]⟩ : Shape))
    (hb : (⟨2, ![1, H]⟩ : Shape).Broadcasts (⟨2, ![M, H]⟩ : Shape)) :
    (truncf .bf16 (maximumf
        (addf
          (addf
            (addf
              (matmul d none
                (truncf .bf16 (mulf (shapeCast (⟨2, ![M, H]⟩ : Shape) a1 sa1)
                  (broadcastTo (⟨2, ![M, H]⟩ : Shape) (shapeCast (⟨2, ![M, 1]⟩ : Shape) r1 sr1) hc1)) h1)
                (truncf .bf16 (shapeCast (⟨2, ![H, H]⟩ : Shape) wl1 sw1) h3)
                (constant (⟨2, ![M, H]⟩ : Shape) .f32 0x00000000#32))
              (matmul d none
                (truncf .bf16 (mulf (shapeCast (⟨2, ![M, H]⟩ : Shape) a2 sa2)
                  (broadcastTo (⟨2, ![M, H]⟩ : Shape) (shapeCast (⟨2, ![M, 1]⟩ : Shape) r2 sr2) hc2)) h2)
                (truncf .bf16 (shapeCast (⟨2, ![H, H]⟩ : Shape) wl2 sw2) h4)
                (constant (⟨2, ![M, H]⟩ : Shape) .f32 0x00000000#32)))
            (broadcastTo (⟨2, ![M, H]⟩ : Shape) (shapeCast (⟨2, ![1, H]⟩ : Shape) blc sb) hb))
          (matmul d none (shapeCast (⟨2, ![M, H]⟩ : Shape) xd sx)
            (truncf .bf16 (shapeCast (⟨2, ![H, H]⟩ : Shape) wrc sw3) h5)
            (constant (⟨2, ![M, H]⟩ : Shape) .f32 0x00000000#32)))
        (broadcast (⟨2, ![M, H]⟩ : Shape) (Scalar.ofBits (F := Ideal) .f32 0x00000000#32))) h6
          : FVec Ideal (⟨2, ![M, H]⟩ : Shape) .bf16)
      = Sage.sageK2 a1 r1 a2 r2 xd wl1 wl2 blc wrc := by
  funext i
  obtain ⟨p, q, rfl⟩ : ∃ (p : Fin M) (q : Fin H), i = ix2 p q := ⟨i 0, i 1, eq_ix2 i⟩
  simp only [shapeCast_self]
  rw [truncf_apply, Gcn.clamp_apply, addf_apply, addf_apply, addf_apply, Gcn.rowBroadcast_apply,
    matmul_apply hd, matmul_apply hd, matmul_apply hd]
  simp only [truncf_apply, mulf_apply, colBroadcast_apply]
  rfl

/-- The readout body: `(max (hp · w1 + b1) 0) · w2 + b2`. -/
theorem readout_body {d1 : DotDims (⟨2, ![M, K]⟩ : Shape) (⟨2, ![K, H]⟩ : Shape) (⟨2, ![M, H]⟩ : Shape)}
    {d2 : DotDims (⟨2, ![M, H]⟩ : Shape) (⟨2, ![H, N]⟩ : Shape) (⟨2, ![M, N]⟩ : Shape)}
    (hd1 : PlainMatmul.IsPlain d1) (hd2 : PlainMatmul.IsPlain d2)
    (hp : FVec Ideal (⟨2, ![M, K]⟩ : Shape) .bf16)
    (w1 : FVec Ideal (⟨2, ![K, H]⟩ : Shape) .f32) (b1 : FVec Ideal (⟨2, ![1, H]⟩ : Shape) .f32)
    (w2 : FVec Ideal (⟨2, ![H, N]⟩ : Shape) .f32) (b2 : FVec Ideal (⟨2, ![1, N]⟩ : Shape) .f32)
    (h1 h2 h3 : FTy.bf16.bits < FTy.f32.bits)
    (sh : (⟨2, ![M, K]⟩ : Shape).ShapeCasts (⟨2, ![M, K]⟩ : Shape))
    (s1 : (⟨2, ![1, H]⟩ : Shape).ShapeCasts (⟨2, ![1, H]⟩ : Shape))
    (s2 : (⟨2, ![1, N]⟩ : Shape).ShapeCasts (⟨2, ![1, N]⟩ : Shape))
    (hb1 : (⟨2, ![1, H]⟩ : Shape).Broadcasts (⟨2, ![M, H]⟩ : Shape))
    (hb2 : (⟨2, ![1, N]⟩ : Shape).Broadcasts (⟨2, ![M, N]⟩ : Shape)) :
    addf
        (matmul d2 none
          (truncf .bf16 (maximumf
            (addf (matmul d1 none (shapeCast (⟨2, ![M, K]⟩ : Shape) hp sh) (truncf .bf16 w1 h1)
                (constant (⟨2, ![M, H]⟩ : Shape) .f32 0x00000000#32))
              (broadcastTo (⟨2, ![M, H]⟩ : Shape) (shapeCast (⟨2, ![1, H]⟩ : Shape) b1 s1) hb1))
            (broadcast (⟨2, ![M, H]⟩ : Shape) (Scalar.ofBits (F := Ideal) .f32 0x00000000#32))) h2)
          (truncf .bf16 w2 h3)
          (constant (⟨2, ![M, N]⟩ : Shape) .f32 0x00000000#32))
        (broadcastTo (⟨2, ![M, N]⟩ : Shape) (shapeCast (⟨2, ![1, N]⟩ : Shape) b2 s2) hb2)
      = Sage.lin (Sage.relu (Sage.lin hp w1 b1)) w2 b2 := by
  funext i
  obtain ⟨p, q, rfl⟩ : ∃ (p : Fin M) (q : Fin N), i = ix2 p q := ⟨i 0, i 1, eq_ix2 i⟩
  simp only [shapeCast_self]
  rw [addf_apply, Gcn.rowBroadcast_apply, matmul_apply hd2]
  refine congrArg (· + b2 (ix2 0 q)) (Finset.sum_congr rfl fun k _ => ?_)
  rw [truncf_apply, truncf_apply, Gcn.clamp_apply, addf_apply, Gcn.rowBroadcast_apply, matmul_apply hd1]
  simp only [truncf_apply]
  rfl

/-! ## Two entries agree when the rows they depend on agree -/

theorem lin_congr {M' : ℕ} {x : Mat M K} {w W : Mat K N} {b B : Mat 1 N} {X : Mat M' K}
    (j : (⟨2, ![M, N]⟩ : Shape).Idx) (i : (⟨2, ![M', N]⟩ : Shape).Idx)
    (hx : ∀ k : Fin K, x (ix2 (j 0) k) = X (ix2 (i 0) k)) (hw : w = W) (hb : b = B)
    (h1 : (j 1).val = (i 1).val) :
    Sage.lin x w b j = Sage.lin X W B i := by
  subst hw hb
  have e : (j 1 : Fin N) = i 1 := Fin.ext h1
  show (∑ k : Fin K, x (ix2 (j 0) k) * w (ix2 k (j 1))) + b (ix2 0 (j 1))
    = (∑ k : Fin K, X (ix2 (i 0) k) * w (ix2 k (i 1))) + b (ix2 0 (i 1))
  rw [e]
  exact congrArg (· + b (ix2 0 (i 1))) (Finset.sum_congr rfl fun k _ => by rw [hx k])

theorem relu_lin_congr {M' : ℕ} {x : Mat M K} {w W : Mat K N} {b B : Mat 1 N} {X : Mat M' K}
    (j : (⟨2, ![M, N]⟩ : Shape).Idx) (i : (⟨2, ![M', N]⟩ : Shape).Idx)
    (hx : ∀ k : Fin K, x (ix2 (j 0) k) = X (ix2 (i 0) k)) (hw : w = W) (hb : b = B)
    (h1 : (j 1).val = (i 1).val) :
    Sage.relu (Sage.lin x w b) j = Sage.relu (Sage.lin X W B) i := by
  show max (Sage.lin x w b j) 0 = max (Sage.lin X W B i) 0
  rw [lin_congr j i hx hw hb h1]

theorem sageK1_congr {M' : ℕ} {a : Mat M H} {r : Mat M 1} {xd : Mat M H} {wl wr : Mat H H} {bl : Mat 1 H}
    {A : Mat M' H} {R : Mat M' 1} {XD : Mat M' H} {WL WR : Mat H H} {BL : Mat 1 H}
    (j : (⟨2, ![M, H]⟩ : Shape).Idx) (i : (⟨2, ![M', H]⟩ : Shape).Idx)
    (ha : ∀ k : Fin H, a (ix2 (j 0) k) = A (ix2 (i 0) k))
    (hr : r (ix2 (j 0) 0) = R (ix2 (i 0) 0))
    (hx : ∀ k : Fin H, xd (ix2 (j 0) k) = XD (ix2 (i 0) k))
    (hwl : wl = WL) (hbl : bl = BL) (hwr : wr = WR) (h1 : (j 1).val = (i 1).val) :
    Sage.sageK1 a r xd wl bl wr j = Sage.sageK1 A R XD WL BL WR i := by
  subst hwl hbl hwr
  have e : (j 1 : Fin H) = i 1 := Fin.ext h1
  show max (((∑ k : Fin H, (a (ix2 (j 0) k) * r (ix2 (j 0) 0)) * wl (ix2 k (j 1))) + bl (ix2 0 (j 1)))
      + ∑ k : Fin H, xd (ix2 (j 0) k) * wr (ix2 k (j 1))) 0
    = max (((∑ k : Fin H, (A (ix2 (i 0) k) * R (ix2 (i 0) 0)) * wl (ix2 k (i 1))) + bl (ix2 0 (i 1)))
      + ∑ k : Fin H, XD (ix2 (i 0) k) * wr (ix2 k (i 1))) 0
  rw [e, hr]
  simp only [ha, hx]

theorem sageK2_congr {M' : ℕ} {a1 a2 : Mat M H} {r1 r2 : Mat M 1} {xd : Mat M H} {wl1 wl2 wrc : Mat H H}
    {blc : Mat 1 H}
    {A1 A2 : Mat M' H} {R1 R2 : Mat M' 1} {XD : Mat M' H} {WL1 WL2 WRC : Mat H H} {BLC : Mat 1 H}
    (j : (⟨2, ![M, H]⟩ : Shape).Idx) (i : (⟨2, ![M', H]⟩ : Shape).Idx)
    (ha1 : ∀ k : Fin H, a1 (ix2 (j 0) k) = A1 (ix2 (i 0) k))
    (hr1 : r1 (ix2 (j 0) 0) = R1 (ix2 (i 0) 0))
    (ha2 : ∀ k : Fin H, a2 (ix2 (j 0) k) = A2 (ix2 (i 0) k))
    (hr2 : r2 (ix2 (j 0) 0) = R2 (ix2 (i 0) 0))
    (hx : ∀ k : Fin H, xd (ix2 (j 0) k) = XD (ix2 (i 0) k))
    (hwl1 : wl1 = WL1) (hwl2 : wl2 = WL2) (hbl : blc = BLC) (hwr : wrc = WRC) (h1 : (j 1).val = (i 1).val) :
    Sage.sageK2 a1 r1 a2 r2 xd wl1 wl2 blc wrc j = Sage.sageK2 A1 R1 A2 R2 XD WL1 WL2 BLC WRC i := by
  subst hwl1 hwl2 hbl hwr
  have e : (j 1 : Fin H) = i 1 := Fin.ext h1
  show max ((((∑ k : Fin H, (a1 (ix2 (j 0) k) * r1 (ix2 (j 0) 0)) * wl1 (ix2 k (j 1)))
          + ∑ k : Fin H, (a2 (ix2 (j 0) k) * r2 (ix2 (j 0) 0)) * wl2 (ix2 k (j 1)))
        + blc (ix2 0 (j 1)))
      + ∑ k : Fin H, xd (ix2 (j 0) k) * wrc (ix2 k (j 1))) 0
    = max ((((∑ k : Fin H, (A1 (ix2 (i 0) k) * R1 (ix2 (i 0) 0)) * wl1 (ix2 k (i 1)))
          + ∑ k : Fin H, (A2 (ix2 (i 0) k) * R2 (ix2 (i 0) 0)) * wl2 (ix2 k (i 1)))
        + blc (ix2 0 (i 1)))
      + ∑ k : Fin H, XD (ix2 (i 0) k) * wrc (ix2 k (i 1))) 0
  rw [e, hr1, hr2]
  simp only [ha1, ha2, hx]

theorem readout_congr {M' : ℕ} {hp : Mat M K} {w1 W1 : Mat K H} {b1 B1 : Mat 1 H} {w2 W2 : Mat H N} {b2 B2 : Mat 1 N}
    {HP : Mat M' K}
    (j : (⟨2, ![M, N]⟩ : Shape).Idx) (i : (⟨2, ![M', N]⟩ : Shape).Idx)
    (hx : ∀ k : Fin K, hp (ix2 (j 0) k) = HP (ix2 (i 0) k))
    (hw1 : w1 = W1) (hb1 : b1 = B1) (hw2 : w2 = W2) (hb2 : b2 = B2) (h1 : (j 1).val = (i 1).val) :
    Sage.lin (Sage.relu (Sage.lin hp w1 b1)) w2 b2 j = Sage.lin (Sage.relu (Sage.lin HP W1 B1)) W2 B2 i := by
  refine lin_congr j i (fun k => ?_) hw2 hb2 h1
  exact relu_lin_congr (ix2 (j 0) k) (ix2 (i 0) k) hx hw1 hb1 rfl

end Sage.Body

end
-- ==== Proof.KReg0.lean ====
/-
  Region 0: the input projection `max (x · w + b) 0`, tile by tile.

  The region walks 50 tiles of 10000 rows.  At tile `t` the body reads rows `10000 t … 10000 t + 9999` of the
  features (32 columns) and the resident weight matrix and bias row whole, and writes the same rows of the output.
  Row `p` of the output depends only on row `p` of the features, the tiles cover every row (row `p` lies in tile
  `p / 10000`), so the output array after the region is the projection of the whole feature array.
-/
import proofs.«139518_j50508815401658_2_alg».proof.Proof.Gen.KernelIdeal.Frame
import Idealize.ShloMosaic.Lib.Pipeline.Value
import proofs.«139518_j50508815401658_2_alg».proof.Proof.KBodies

noncomputable section

namespace Cert.KernelIdeal.RegValue0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainMatmul.IsPlain dot_S10000x32_S32x64_S10000x64_1_0_0_1_n_n := ⟨rfl, rfl, rfl, rfl, rfl, rfl⟩

/-- The body's arithmetic on one tile is the projection of the tile's rows. -/
theorem pay_eq (y0 : Vec Ideal S10000x32 .f32) (y1 : Vec Ideal S32x64 .f32) (y2 : Vec Ideal S1x64 .f32) :
    k0_pay1 (F := Ideal) y0 y1 y2 = Sage.relu (Sage.lin (M := 10000) (K := 32) (N := 64) y0 y1 y2) :=
  Sage.Body.proj_body plain y0 y1 y2 _ _ _ _ _

/-- The index maps over the 50 tiles: a row-tiled window's block index is the tile's number, a resident window's is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The windows' blocks, read at an entry -/

/-- Tile `t` of row-tiled window 0 holds rows `10000 t … 10000 t + 9999` of its array. -/
theorem blk0_apply (c : Dev nD) (t : Fin cfg0.N) (x : S10000x32.Idx) (k : S500000x32.Idx)
    (hk0 : (k 0).val = t.val * 10000 + (x 0).val) (hk1 : (k 1).val = (x 1).val) :
    (iblk0 V c 0 t : Vec Ideal S10000x32 .f32) x = (V c (Pipeline.arrRef spec0 0) : Vec Ideal S500000x32 .f32) k := by
  obtain ⟨e0, e1, -⟩ := idx_facts t
  unfold iblk0
  rw [View.read_apply]
  refine congrArg (V c (Pipeline.arrRef spec0 0)) (funext fun a => Fin.ext ?_)
  match a with
  | ⟨0, _⟩ => show win0_0.index t (0 : Fin 2) * 10000 + 1 * (x 0).val = (k 0).val; omega
  | ⟨1, _⟩ => show win0_0.index t (1 : Fin 2) * 32 + 1 * (x 1).val = (k 1).val; omega

/-- Resident window 1's block is its whole array, at every tile. -/
theorem blk1_eq (c : Dev nD) (t : Fin cfg0.N) :
    (iblk0 V c 1 t : Vec Ideal S32x64 .f32) = (V c (Pipeline.arrRef spec0 1) : Vec Ideal S32x64 .f32) := by
  obtain ⟨-, -, e0, e1, -⟩ := idx_facts t
  funext x
  unfold iblk0
  rw [View.read_apply]
  refine congrArg (V c (Pipeline.arrRef spec0 1)) (funext fun a => Fin.ext ?_)
  match a with
  | ⟨0, _⟩ => show win0_1.index t (0 : Fin 2) * 32 + 1 * (x 0).val = (x 0).val; omega
  | ⟨1, _⟩ => show win0_1.index t (1 : Fin 2) * 64 + 1 * (x 1).val = (x 1).val; omega

/-- Resident window 2's block is its whole array, at every tile. -/
theorem blk2_eq (c : Dev nD) (t : Fin cfg0.N) :
    (iblk0 V c 2 t : Vec Ideal S1x64 .f32) = (V c (Pipeline.arrRef spec0 2) : Vec Ideal S1x64 .f32) := by
  obtain ⟨-, -, -, -, e0, e1, -⟩ := idx_facts t
  funext x
  unfold iblk0
  rw [View.read_apply]
  refine congrArg (V c (Pipeline.arrRef spec0 2)) (funext fun a => Fin.ext ?_)
  match a with
  | ⟨0, _⟩ => show win0_2.index t (0 : Fin 2) * 1 + 1 * (x 0).val = (x 0).val; omega
  | ⟨1, _⟩ => show win0_2.index t (1 : Fin 2) * 64 + 1 * (x 1).val = (x 1).val; omega

/-! ## From tiles to the array -/

/-- The output array after the region, as one function of the input arrays. -/
abbrev G (c : Dev nD) : Vec Ideal S500000x64 .bf16 :=
  Sage.relu (Sage.lin (M := 500000) (K := 32) (N := 64) (V c (Pipeline.arrRef spec0 0)) (V c (Pipeline.arrRef spec0 1)) (V c (Pipeline.arrRef spec0 2)))

/-- What tile `t` writes back is tile `t` of that function of the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S10000x32) hz, View.ld_unit_zero (S := S32x64) hz, View.ld_unit_zero (S := S1x64) hz, View.ld_unit_zero (S := S10000x64) hz]
  rw [pay_eq]
  obtain ⟨-, -, -, -, -, -, e0, e1⟩ := idx_facts t
  funext j
  show Sage.relu (Sage.lin (M := 10000) (K := 32) (N := 64) (iblk0 V c 0 t) (iblk0 V c 1 t) (iblk0 V c 2 t)) j
    = G V c (((cfg0.win 3).blk t).view.emb j)
  have h0 : ((((cfg0.win 3).blk t).view.emb j : S500000x64.Idx) 0).val = t.val * 10000 + (j 0).val := by
    show win0_3.index t (0 : Fin 2) * 10000 + 1 * (j 0).val = _; omega
  have h1 : ((((cfg0.win 3).blk t).view.emb j : S500000x64.Idx) 1).val = (j 1).val := by
    show win0_3.index t (1 : Fin 2) * 64 + 1 * (j 1).val = _; omega
  exact Sage.Body.relu_lin_congr (M := 10000) (M' := 500000) (K := 32) (N := 64) j (((cfg0.win 3).blk t).view.emb j)
    (fun k => blk0_apply V c t _ _ h0 rfl) (blk1_eq V c t) (blk2_eq V c t) h1.symm

/-- An index of the output array is in tile `t` iff each coordinate is in the tile's range on its axis. -/
theorem mem_blk (t : Fin cfg0.N) (i : S500000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole (Pipeline.arrRef spec0 3)).slice (win0_3.rect t)).set ↔ _
  rw [View.set_slice_whole, Rect.mem_set_unit]
  exact Iff.rfl

/-- Every row lies in a tile: row `p` in tile `p / 10000`. -/
theorem cover (i : S500000x64.Idx) :
    ∃ t : Fin cfg0.N, (cfg0.win 3).flush t = true ∧ i ∈ ((cfg0.win 3).blk t).view.set := by
  have hi0 : (i 0).val < 500000 := (i 0).isLt
  have hi1 : (i 1).val < 64 := (i 1).isLt
  have hN : cfg0.N = 50 := N_0
  obtain ⟨t, ht⟩ : ∃ t : Fin cfg0.N, t.val = (i 0).val / 10000 := ⟨⟨(i 0).val / 10000, by rw [hN]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE OUTPUT ARRAY after the region is that function of the input arrays as the region finds them. -/
theorem final0 (c : Dev nD) : (dat0 V c).arrAt 3 cfg0.N
    = Sage.relu (Sage.lin (M := 500000) (K := 32) (N := 64) (V c (Pipeline.arrRef spec0 0)) (V c (Pipeline.arrRef spec0 1)) (V c (Pipeline.arrRef spec0 2))) :=
  (dat0 V c).arrAt_eq_of_cover 3 (G V c) (fun t _ => flushed_eq V c t) cover

end Cert.KernelIdeal.RegValue0

end
-- ==== Proof.KReg1.lean ====
/-
  Region 1: the input projection `max (x · w + b) 0`, tile by tile.

  The region walks 20 tiles of 10000 rows.  At tile `t` the body reads rows `10000 t … 10000 t + 9999` of the
  features (16 columns) and the resident weight matrix and bias row whole, and writes the same rows of the output.
  Row `p` of the output depends only on row `p` of the features, the tiles cover every row (row `p` lies in tile
  `p / 10000`), so the output array after the region is the projection of the whole feature array.
-/
import proofs.«139518_j50508815401658_2_alg».proof.Proof.Gen.KernelIdeal.Frame
import Idealize.ShloMosaic.Lib.Pipeline.Value
import proofs.«139518_j50508815401658_2_alg».proof.Proof.KBodies

noncomputable section

namespace Cert.KernelIdeal.RegValue1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainMatmul.IsPlain dot_S10000x16_S16x64_S10000x64_1_0_0_1_n_n := ⟨rfl, rfl, rfl, rfl, rfl, rfl⟩

/-- The body's arithmetic on one tile is the projection of the tile's rows. -/
theorem pay_eq (y0 : Vec Ideal S10000x16 .f32) (y1 : Vec Ideal S16x64 .f32) (y2 : Vec Ideal S1x64 .f32) :
    k1_pay1 (F := Ideal) y0 y1 y2 = Sage.relu (Sage.lin (M := 10000) (K := 16) (N := 64) y0 y1 y2) :=
  Sage.Body.proj_body plain y0 y1 y2 _ _ _ _ _

/-- The index maps over the 20 tiles: a row-tiled window's block index is the tile's number, a resident window's is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The windows' blocks, read at an entry -/

/-- Tile `t` of row-tiled window 0 holds rows `10000 t … 10000 t + 9999` of its array. -/
theorem blk0_apply (c : Dev nD) (t : Fin cfg1.N) (x : S10000x16.Idx) (k : S200000x16.Idx)
    (hk0 : (k 0).val = t.val * 10000 + (x 0).val) (hk1 : (k 1).val = (x 1).val) :
    (iblk1 V c 0 t : Vec Ideal S10000x16 .f32) x = (V c (Pipeline.arrRef spec1 0) : Vec Ideal S200000x16 .f32) k := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 10000 + 1 * (x 0).val = (k 0).val; omega
  | ⟨1, _⟩ => show win1_0.index t (1 : Fin 2) * 16 + 1 * (x 1).val = (k 1).val; omega

/-- Resident window 1's block is its whole array, at every tile. -/
theorem blk1_eq (c : Dev nD) (t : Fin cfg1.N) :
    (iblk1 V c 1 t : Vec Ideal S16x64 .f32) = (V c (Pipeline.arrRef spec1 1) : Vec Ideal S16x64 .f32) := by
  obtain ⟨-, -, e0, e1, -⟩ := idx_facts t
  funext x
  unfold iblk1
  rw [View.read_apply]
  refine congrArg (V c (Pipeline.arrRef spec1 1)) (funext fun a => Fin.ext ?_)
  match a with
  | ⟨0, _⟩ => show win1_1.index t (0 : Fin 2) * 16 + 1 * (x 0).val = (x 0).val; omega
  | ⟨1, _⟩ => show win1_1.index t (1 : Fin 2) * 64 + 1 * (x 1).val = (x 1).val; omega

/-- Resident window 2's block is its whole array, at every tile. -/
theorem blk2_eq (c : Dev nD) (t : Fin cfg1.N) :
    (iblk1 V c 2 t : Vec Ideal S1x64 .f32) = (V c (Pipeline.arrRef spec1 2) : Vec Ideal S1x64 .f32) := by
  obtain ⟨-, -, -, -, e0, e1, -⟩ := idx_facts t
  funext x
  unfold iblk1
  rw [View.read_apply]
  refine congrArg (V c (Pipeline.arrRef spec1 2)) (funext fun a => Fin.ext ?_)
  match a with
  | ⟨0, _⟩ => show win1_2.index t (0 : Fin 2) * 1 + 1 * (x 0).val = (x 0).val; omega
  | ⟨1, _⟩ => show win1_2.index t (1 : Fin 2) * 64 + 1 * (x 1).val = (x 1).val; omega

/-! ## From tiles to the array -/

/-- The output array after the region, as one function of the input arrays. -/
abbrev G (c : Dev nD) : Vec Ideal S200000x64 .bf16 :=
  Sage.relu (Sage.lin (M := 200000) (K := 16) (N := 64) (V c (Pipeline.arrRef spec1 0)) (V c (Pipeline.arrRef spec1 1)) (V c (Pipeline.arrRef spec1 2)))

/-- What tile `t` writes back is tile `t` of that function of the whole arrays. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S10000x16) hz, View.ld_unit_zero (S := S16x64) hz, View.ld_unit_zero (S := S1x64) hz, View.ld_unit_zero (S := S10000x64) hz]
  rw [pay_eq]
  obtain ⟨-, -, -, -, -, -, e0, e1⟩ := idx_facts t
  funext j
  show Sage.relu (Sage.lin (M := 10000) (K := 16) (N := 64) (iblk1 V c 0 t) (iblk1 V c 1 t) (iblk1 V c 2 t)) j
    = G V c (((cfg1.win 3).blk t).view.emb j)
  have h0 : ((((cfg1.win 3).blk t).view.emb j : S200000x64.Idx) 0).val = t.val * 10000 + (j 0).val := by
    show win1_3.index t (0 : Fin 2) * 10000 + 1 * (j 0).val = _; omega
  have h1 : ((((cfg1.win 3).blk t).view.emb j : S200000x64.Idx) 1).val = (j 1).val := by
    show win1_3.index t (1 : Fin 2) * 64 + 1 * (j 1).val = _; omega
  exact Sage.Body.relu_lin_congr (M := 10000) (M' := 200000) (K := 16) (N := 64) j (((cfg1.win 3).blk t).view.emb j)
    (fun k => blk0_apply V c t _ _ h0 rfl) (blk1_eq V c t) (blk2_eq V c t) h1.symm

/-- An index of the output array is in tile `t` iff each coordinate is in the tile's range on its axis. -/
theorem mem_blk (t : Fin cfg1.N) (i : S200000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole (Pipeline.arrRef spec1 3)).slice (win1_3.rect t)).set ↔ _
  rw [View.set_slice_whole, Rect.mem_set_unit]
  exact Iff.rfl

/-- Every row lies in a tile: row `p` in tile `p / 10000`. -/
theorem cover (i : S200000x64.Idx) :
    ∃ t : Fin cfg1.N, (cfg1.win 3).flush t = true ∧ i ∈ ((cfg1.win 3).blk t).view.set := by
  have hi0 : (i 0).val < 200000 := (i 0).isLt
  have hi1 : (i 1).val < 64 := (i 1).isLt
  have hN : cfg1.N = 20 := N_1
  obtain ⟨t, ht⟩ : ∃ t : Fin cfg1.N, t.val = (i 0).val / 10000 := ⟨⟨(i 0).val / 10000, by rw [hN]; omega⟩, rfl⟩
  obtain ⟨-, -, -, -, -, -, e0, e1⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE OUTPUT ARRAY after the region is that function of the input arrays as the region finds them. -/
theorem final1 (c : Dev nD) : (dat1 V c).arrAt 3 cfg1.N
    = Sage.relu (Sage.lin (M := 200000) (K := 16) (N := 64) (V c (Pipeline.arrRef spec1 0)) (V c (Pipeline.arrRef spec1 1)) (V c (Pipeline.arrRef spec1 2))) :=
  (dat1 V c).arrAt_eq_of_cover 3 (G V c) (fun t _ => flushed_eq V c t) cover

end Cert.KernelIdeal.RegValue1

end
-- ==== Proof.KReg2.lean ====
/-
  Region 2: a single-relation neighbourhood convolution, tile by tile.

  The region walks 40 tiles of 5000 rows.  At tile `t` the body reads rows `5000 t … 5000 t + 4999` of the neighbour
  sum, of the reciprocal-count column and of the node features, and the three resident parameter arrays whole, and
  writes the same rows of the output.  Row `p` of the output depends only on row `p` of the three row-tiled inputs,
  the tiles cover every row (row `p` lies in tile `p / 5000`), so the output array after the region is the
  convolution of the whole input arrays.
-/
import proofs.«139518_j50508815401658_2_alg».proof.Proof.Gen.KernelIdeal.Frame
import Idealize.ShloMosaic.Lib.Pipeline.Value
import proofs.«139518_j50508815401658_2_alg».proof.Proof.KBodies

noncomputable section

namespace Cert.KernelIdeal.RegValue2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainMatmul.IsPlain dot_S5000x64_S64x64_S5000x64_1_0_0_1_n_n := ⟨rfl, rfl, rfl, rfl, rfl, rfl⟩

/-- The body's arithmetic on one tile is the convolution of the tile's rows. -/
theorem pay_eq (y0 : Vec Ideal S5000x64 .f32) (y1 : Vec Ideal S5000x1 .f32) (y2 : Vec Ideal S5000x64 .bf16) (y3 : Vec Ideal S64x64 .f32) (y4 : Vec Ideal S64x64 .f32) (y5 : Vec Ideal S1x64 .f32) :
    k2_pay1 (F := Ideal) y0 y1 y2 y3 y4 y5 = Sage.sageK1 (M := 5000) (H := 64) y0 y1 y2 y3 y5 y4 :=
  Sage.Body.single_body plain y0 y1 y2 y3 y4 y5 _ _ _ _ _ _ _ _ _ _ _ _

/-- The index maps over the 40 tiles: a row-tiled window's block index is the tile's number, a resident window's is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The windows' blocks, read at an entry -/

/-- Tile `t` of row-tiled window 0 holds rows `5000 t … 5000 t + 4999` of its array. -/
theorem blk0_apply (c : Dev nD) (t : Fin cfg2.N) (x : S5000x64.Idx) (k : S200000x64.Idx)
    (hk0 : (k 0).val = t.val * 5000 + (x 0).val) (hk1 : (k 1).val = (x 1).val) :
    (iblk2 V c 0 t : Vec Ideal S5000x64 .f32) x = (V c (Pipeline.arrRef spec2 0) : Vec Ideal S200000x64 .f32) k := by
  obtain ⟨e0, e1, -⟩ := idx_facts t
  unfold iblk2
  rw [View.read_apply]
  refine congrArg (V c (Pipeline.arrRef spec2 0)) (funext fun a => Fin.ext ?_)
  match a with
  | ⟨0, _⟩ => show win2_0.index t (0 : Fin 2) * 5000 + 1 * (x 0).val = (k 0).val; omega
  | ⟨1, _⟩ => show win2_0.index t (1 : Fin 2) * 64 + 1 * (x 1).val = (k 1).val; omega

/-- Tile `t` of row-tiled window 1 holds rows `5000 t … 5000 t + 4999` of its array. -/
theorem blk1_apply (c : Dev nD) (t : Fin cfg2.N) (x : S5000x1.Idx) (k : S200000x1.Idx)
    (hk0 : (k 0).val = t.val * 5000 + (x 0).val) (hk1 : (k 1).val = (x 1).val) :
    (iblk2 V c 1 t : Vec Ideal S5000x1 .f32) x = (V c (Pipeline.arrRef spec2 1) : Vec Ideal S200000x1 .f32) k := by
  obtain ⟨-, -, e0, e1, -⟩ := idx_facts t
  unfold iblk2
  rw [View.read_apply]
  refine congrArg (V c (Pipeline.arrRef spec2 1)) (funext fun a => Fin.ext ?_)
  match a with
  | ⟨0, _⟩ => show win2_1.index t (0 : Fin 2) * 5000 + 1 * (x 0).val = (k 0).val; omega
  | ⟨1, _⟩ => show win2_1.index t (1 : Fin 2) * 1 + 1 * (x 1).val = (k 1).val; omega

/-- Tile `t` of row-tiled window 2 holds rows `5000 t … 5000 t + 4999` of its array. -/
theorem blk2_apply (c : Dev nD) (t : Fin cfg2.N) (x : S5000x64.Idx) (k : S200000x64.Idx)
    (hk0 : (k 0).val = t.val * 5000 + (x 0).val) (hk1 : (k 1).val = (x 1).val) :
    (iblk2 V c 2 t : Vec Ideal S5000x64 .bf16) x = (V c (Pipeline.arrRef spec2 2) : Vec Ideal S200000x64 .bf16) k := by
  obtain ⟨-, -, -, -, e0, e1, -⟩ := idx_facts t
  unfold iblk2
  rw [View.read_apply]
  refine congrArg (V c (Pipeline.arrRef spec2 2)) (funext fun a => Fin.ext ?_)
  match a with
  | ⟨0, _⟩ => show win2_2.index t (0 : Fin 2) * 5000 + 1 * (x 0).val = (k 0).val; omega
  | ⟨1, _⟩ => show win2_2.index t (1 : Fin 2) * 64 + 1 * (x 1).val = (k 1).val; omega

/-- Resident window 3's block is its whole array, at every tile. -/
theorem blk3_eq (c : Dev nD) (t : Fin cfg2.N) :
    (iblk2 V c 3 t : Vec Ideal S64x64 .f32) = (V c (Pipeline.arrRef spec2 3) : Vec Ideal S64x64 .f32) := by
  obtain ⟨-, -, -, -, -, -, e0, e1, -⟩ := idx_facts t
  funext x
  unfold iblk2
  rw [View.read_apply]
  refine congrArg (V c (Pipeline.arrRef spec2 3)) (funext fun a => Fin.ext ?_)
  match a with
  | ⟨0, _⟩ => show win2_3.index t (0 : Fin 2) * 64 + 1 * (x 0).val = (x 0).val; omega
  | ⟨1, _⟩ => show win2_3.index t (1 : Fin 2) * 64 + 1 * (x 1).val = (x 1).val; omega

/-- Resident window 4's block is its whole array, at every tile. -/
theorem blk4_eq (c : Dev nD) (t : Fin cfg2.N) :
    (iblk2 V c 4 t : Vec Ideal S1x64 .f32) = (V c (Pipeline.arrRef spec2 4) : Vec Ideal S1x64 .f32) := by
  obtain ⟨-, -, -, -, -, -, -, -, e0, e1, -⟩ := idx_facts t
  funext x
  unfold iblk2
  rw [View.read_apply]
  refine congrArg (V c (Pipeline.arrRef spec2 4)) (funext fun a => Fin.ext ?_)
  match a with
  | ⟨0, _⟩ => show win2_4.index t (0 : Fin 2) * 1 + 1 * (x 0).val = (x 0).val; omega
  | ⟨1, _⟩ => show win2_4.index t (1 : Fin 2) * 64 + 1 * (x 1).val = (x 1).val; omega

/-- Resident window 5's block is its whole array, at every tile. -/
theorem blk5_eq (c : Dev nD) (t : Fin cfg2.N) :
    (iblk2 V c 5 t : Vec Ideal S64x64 .f32) = (V c (Pipeline.arrRef spec2 5) : Vec Ideal S64x64 .f32) := by
  obtain ⟨-, -, -, -, -, -, -, -, -, -, e0, e1, -⟩ := idx_facts t
  funext x
  unfold iblk2
  rw [View.read_apply]
  refine congrArg (V c (Pipeline.arrRef spec2 5)) (funext fun a => Fin.ext ?_)
  match a with
  | ⟨0, _⟩ => show win2_5.index t (0 : Fin 2) * 64 + 1 * (x 0).val = (x 0).val; omega
  | ⟨1, _⟩ => show win2_5.index t (1 : Fin 2) * 64 + 1 * (x 1).val = (x 1).val; omega

/-! ## From tiles to the array -/

/-- The output array after the region, as one function of the input arrays. -/
abbrev G (c : Dev nD) : Vec Ideal S200000x64 .bf16 :=
  Sage.sageK1 (M := 200000) (H := 64) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))

/-- What tile `t` writes back is tile `t` of that function of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S64x64) hz, View.ld_unit_zero (S := S1x64) hz]
  rw [pay_eq]
  obtain ⟨-, -, -, -, -, -, -, -, -, -, -, -, e0, e1⟩ := idx_facts t
  funext j
  show Sage.sageK1 (M := 5000) (H := 64) (iblk2 V c 0 t) (iblk2 V c 1 t) (iblk2 V c 2 t) (iblk2 V c 3 t) (iblk2 V c 4 t) (iblk2 V c 5 t) j
    = G V c (((cfg2.win 6).blk t).view.emb j)
  have h0 : ((((cfg2.win 6).blk t).view.emb j : S200000x64.Idx) 0).val = t.val * 5000 + (j 0).val := by
    show win2_6.index t (0 : Fin 2) * 5000 + 1 * (j 0).val = _; omega
  have h1 : ((((cfg2.win 6).blk t).view.emb j : S200000x64.Idx) 1).val = (j 1).val := by
    show win2_6.index t (1 : Fin 2) * 64 + 1 * (j 1).val = _; omega
  exact Sage.Body.sageK1_congr (M := 5000) (M' := 200000) (H := 64) j (((cfg2.win 6).blk t).view.emb j)
    (fun k => blk0_apply V c t _ _ h0 rfl) (blk1_apply V c t _ _ h0 rfl) (fun k => blk2_apply V c t _ _ h0 rfl) (blk3_eq V c t) (blk4_eq V c t) (blk5_eq V c t) h1.symm

/-- An index of the output array is in tile `t` iff each coordinate is in the tile's range on its axis. -/
theorem mem_blk (t : Fin cfg2.N) (i : S200000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole (Pipeline.arrRef spec2 6)).slice (win2_6.rect t)).set ↔ _
  rw [View.set_slice_whole, Rect.mem_set_unit]
  exact Iff.rfl

/-- Every row lies in a tile: row `p` in tile `p / 5000`. -/
theorem cover (i : S200000x64.Idx) :
    ∃ t : Fin cfg2.N, (cfg2.win 6).flush t = true ∧ i ∈ ((cfg2.win 6).blk t).view.set := by
  have hi0 : (i 0).val < 200000 := (i 0).isLt
  have hi1 : (i 1).val < 64 := (i 1).isLt
  have hN : cfg2.N = 40 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e0, e1⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE OUTPUT ARRAY after the region is that function of the input arrays as the region finds them. -/
theorem final2 (c : Dev nD) : (dat2 V c).arrAt 6 cfg2.N
    = Sage.sageK1 (M := 200000) (H := 64) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (G V c) (fun t _ => flushed_eq V c t) cover

end Cert.KernelIdeal.RegValue2

end
-- ==== Proof.KReg3.lean ====
/-
  Region 3: a two-relation neighbourhood convolution, tile by tile.

  The region walks 100 tiles of 5000 rows.  At tile `t` the body reads rows `5000 t … 5000 t + 4999` of the two
  neighbour sums, of their reciprocal-count columns and of the node features, and the four resident parameter arrays
  whole, and writes the same rows of the output.  Row `p` of the output depends only on row `p` of the five
  row-tiled inputs, the tiles cover every row (row `p` lies in tile `p / 5000`), so the output array after the
  region is the convolution of the whole input arrays.
-/
import proofs.«139518_j50508815401658_2_alg».proof.Proof.Gen.KernelIdeal.Frame
import Idealize.ShloMosaic.Lib.Pipeline.Value
import proofs.«139518_j50508815401658_2_alg».proof.Proof.KBodies

noncomputable section

namespace Cert.KernelIdeal.RegValue3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainMatmul.IsPlain dot_S5000x64_S64x64_S5000x64_1_0_0_1_n_n := ⟨rfl, rfl, rfl, rfl, rfl, rfl⟩

/-- The body's arithmetic on one tile is the two-relation convolution of the tile's rows. -/
theorem pay_eq (y0 : Vec Ideal S5000x64 .f32) (y1 : Vec Ideal S5000x1 .f32) (y2 : Vec Ideal S5000x64 .f32) (y3 : Vec Ideal S5000x1 .f32) (y4 : Vec Ideal S5000x64 .bf16) (y5 : Vec Ideal S64x64 .f32) (y6 : Vec Ideal S64x64 .f32) (y7 : Vec Ideal S64x64 .f32) (y8 : Vec Ideal S1x64 .f32) :
    k3_pay1 (F := Ideal) y0 y1 y2 y3 y4 y5 y6 y7 y8 = Sage.sageK2 (M := 5000) (H := 64) y0 y1 y2 y3 y4 y5 y6 y8 y7 :=
  Sage.Body.double_body plain y0 y1 y2 y3 y4 y5 y6 y7 y8 _ _ _ _ _ _ _ _ _ _ _ _ _ _ _ _ _ _

/-- The index maps over the 100 tiles: a row-tiled window's block index is the tile's number, a resident window's is zero. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-! ## The windows' blocks, read at an entry -/

/-- Tile `t` of row-tiled window 0 holds rows `5000 t … 5000 t + 4999` of its array. -/
theorem blk0_apply (c : Dev nD) (t : Fin cfg3.N) (x : S5000x64.Idx) (k : S500000x64.Idx)
    (hk0 : (k 0).val = t.val * 5000 + (x 0).val) (hk1 : (k 1).val = (x 1).val) :
    (iblk3 V c 0 t : Vec Ideal S5000x64 .f32) x = (V c (Pipeline.arrRef spec3 0) : Vec Ideal S500000x64 .f32) k := by
  obtain ⟨e0, e1, -⟩ := idx_facts t
  unfold iblk3
  rw [View.read_apply]
  refine congrArg (V c (Pipeline.arrRef spec3 0)) (funext fun a => Fin.ext ?_)
  match a with
  | ⟨0, _⟩ => show win3_0.index t (0 : Fin 2) * 5000 + 1 * (x 0).val = (k 0).val; omega
  | ⟨1, _⟩ => show win3_0.index t (1 : Fin 2) * 64 + 1 * (x 1).val = (k 1).val; omega

/-- Tile `t` of row-tiled window 1 holds rows `5000 t … 5000 t + 4999` of its array. -/
theorem blk1_apply (c : Dev nD) (t : Fin cfg3.N) (x : S5000x1.Idx) (k : S500000x1.Idx)
    (hk0 : (k 0).val = t.val * 5000 + (x 0).val) (hk1 : (k 1).val = (x 1).val) :
    (iblk3 V c 1 t : Vec Ideal S5000x1 .f32) x = (V c (Pipeline.arrRef spec3 1) : Vec Ideal S500000x1 .f32) k := by
  obtain ⟨-, -, e0, e1, -⟩ := idx_facts t
  unfold iblk3
  rw [View.read_apply]
  refine congrArg (V c (Pipeline.arrRef spec3 1)) (funext fun a => Fin.ext ?_)
  match a with
  | ⟨0, _⟩ => show win3_1.index t (0 : Fin 2) * 5000 + 1 * (x 0).val = (k 0).val; omega
  | ⟨1, _⟩ => show win3_1.index t (1 : Fin 2) * 1 + 1 * (x 1).val = (k 1).val; omega

/-- Tile `t` of row-tiled window 2 holds rows `5000 t … 5000 t + 4999` of its array. -/
theorem blk2_apply (c : Dev nD) (t : Fin cfg3.N) (x : S5000x64.Idx) (k : S500000x64.Idx)
    (hk0 : (k 0).val = t.val * 5000 + (x 0).val) (hk1 : (k 1).val = (x 1).val) :
    (iblk3 V c 2 t : Vec Ideal S5000x64 .f32) x = (V c (Pipeline.arrRef spec3 2) : Vec Ideal S500000x64 .f32) k := by
  obtain ⟨-, -, -, -, e0, e1, -⟩ := idx_facts t
  unfold iblk3
  rw [View.read_apply]
  refine congrArg (V c (Pipeline.arrRef spec3 2)) (funext fun a => Fin.ext ?_)
  match a with
  | ⟨0, _⟩ => show win3_2.index t (0 : Fin 2) * 5000 + 1 * (x 0).val = (k 0).val; omega
  | ⟨1, _⟩ => show win3_2.index t (1 : Fin 2) * 64 + 1 * (x 1).val = (k 1).val; omega

/-- Tile `t` of row-tiled window 3 holds rows `5000 t … 5000 t + 4999` of its array. -/
theorem blk3_apply (c : Dev nD) (t : Fin cfg3.N) (x : S5000x1.Idx) (k : S500000x1.Idx)
    (hk0 : (k 0).val = t.val * 5000 + (x 0).val) (hk1 : (k 1).val = (x 1).val) :
    (iblk3 V c 3 t : Vec Ideal S5000x1 .f32) x = (V c (Pipeline.arrRef spec3 3) : Vec Ideal S500000x1 .f32) k := by
  obtain ⟨-, -, -, -, -, -, e0, e1, -⟩ := idx_facts t
  unfold iblk3
  rw [View.read_apply]
  refine congrArg (V c (Pipeline.arrRef spec3 3)) (funext fun a => Fin.ext ?_)
  match a with
  | ⟨0, _⟩ => show win3_3.index t (0 : Fin 2) * 5000 + 1 * (x 0).val = (k 0).val; omega
  | ⟨1, _⟩ => show win3_3.index t (1 : Fin 2) * 1 + 1 * (x 1).val = (k 1).val; omega

/-- Tile `t` of row-tiled window 4 holds rows `5000 t … 5000 t + 4999` of its array. -/
theorem blk4_apply (c : Dev nD) (t : Fin cfg3.N) (x : S5000x64.Idx) (k : S500000x64.Idx)
    (hk0 : (k 0).val = t.val * 5000 + (x 0).val) (hk1 : (k 1).val = (x 1).val) :
    (iblk3 V c 4 t : Vec Ideal S5000x64 .bf16) x = (V c (Pipeline.arrRef spec3 4) : Vec Ideal S500000x64 .bf16) k := by
  obtain ⟨-, -, -, -, -, -, -, -, e0, e1, -⟩ := idx_facts t
  unfold iblk3
  rw [View.read_apply]
  refine congrArg (V c (Pipeline.arrRef spec3 4)) (funext fun a => Fin.ext ?_)
  match a with
  | ⟨0, _⟩ => show win3_4.index t (0 : Fin 2) * 5000 + 1 * (x 0).val = (k 0).val; omega
  | ⟨1, _⟩ => show win3_4.index t (1 : Fin 2) * 64 + 1 * (x 1).val = (k 1).val; omega

/-- Resident window 5's block is its whole array, at every tile. -/
theorem blk5_eq (c : Dev nD) (t : Fin cfg3.N) :
    (iblk3 V c 5 t : Vec Ideal S64x64 .f32) = (V c (Pipeline.arrRef spec3 5) : Vec Ideal S64x64 .f32) := by
  obtain ⟨-, -, -, -, -, -, -, -, -, -, e0, e1, -⟩ := idx_facts t
  funext x
  unfold iblk3
  rw [View.read_apply]
  refine congrArg (V c (Pipeline.arrRef spec3 5)) (funext fun a => Fin.ext ?_)
  match a with
  | ⟨0, _⟩ => show win3_5.index t (0 : Fin 2) * 64 + 1 * (x 0).val = (x 0).val; omega
  | ⟨1, _⟩ => show win3_5.index t (1 : Fin 2) * 64 + 1 * (x 1).val = (x 1).val; omega

/-- Resident window 6's block is its whole array, at every tile. -/
theorem blk6_eq (c : Dev nD) (t : Fin cfg3.N) :
    (iblk3 V c 6 t : Vec Ideal S64x64 .f32) = (V c (Pipeline.arrRef spec3 6) : Vec Ideal S64x64 .f32) := by
  obtain ⟨-, -, -, -, -, -, -, -, -, -, -, -, e0, e1, -⟩ := idx_facts t
  funext x
  unfold iblk3
  rw [View.read_apply]
  refine congrArg (V c (Pipeline.arrRef spec3 6)) (funext fun a => Fin.ext ?_)
  match a with
  | ⟨0, _⟩ => show win3_6.index t (0 : Fin 2) * 64 + 1 * (x 0).val = (x 0).val; omega
  | ⟨1, _⟩ => show win3_6.index t (1 : Fin 2) * 64 + 1 * (x 1).val = (x 1).val; omega

/-- Resident window 7's block is its whole array, at every tile. -/
theorem blk7_eq (c : Dev nD) (t : Fin cfg3.N) :
    (iblk3 V c 7 t : Vec Ideal S1x64 .f32) = (V c (Pipeline.arrRef spec3 7) : Vec Ideal S1x64 .f32) := by
  obtain ⟨-, -, -, -, -, -, -, -, -, -, -, -, -, -, e0, e1, -⟩ := idx_facts t
  funext x
  unfold iblk3
  rw [View.read_apply]
  refine congrArg (V c (Pipeline.arrRef spec3 7)) (funext fun a => Fin.ext ?_)
  match a with
  | ⟨0, _⟩ => show win3_7.index t (0 : Fin 2) * 1 + 1 * (x 0).val = (x 0).val; omega
  | ⟨1, _⟩ => show win3_7.index t (1 : Fin 2) * 64 + 1 * (x 1).val = (x 1).val; omega

/-- Resident window 8's block is its whole array, at every tile. -/
theorem blk8_eq (c : Dev nD) (t : Fin cfg3.N) :
    (iblk3 V c 8 t : Vec Ideal S64x64 .f32) = (V c (Pipeline.arrRef spec3 8) : Vec Ideal S64x64 .f32) := by
  obtain ⟨-, -, -, -, -, -, -, -, -, -, -, -, -, -, -, -, e0, e1, -⟩ := idx_facts t
  funext x
  unfold iblk3
  rw [View.read_apply]
  refine congrArg (V c (Pipeline.arrRef spec3 8)) (funext fun a => Fin.ext ?_)
  match a with
  | ⟨0, _⟩ => show win3_8.index t (0 : Fin 2) * 64 + 1 * (x 0).val = (x 0).val; omega
  | ⟨1, _⟩ => show win3_8.index t (1 : Fin 2) * 64 + 1 * (x 1).val = (x 1).val; omega

/-! ## From tiles to the array -/

/-- The output array after the region, as one function of the input arrays. -/
abbrev G (c : Dev nD) : Vec Ideal S500000x64 .bf16 :=
  Sage.sageK2 (M := 500000) (H := 64) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))

/-- What tile `t` writes back is tile `t` of that function of the whole arrays. -/
theorem flushed_eq (c : Dev nD) (t : Fin cfg3.N) :
    (dat3 V c).flushed 9 t = ((cfg3.win 9).blk t).view.read (Elt Ideal) (G V c) := by
  show (cfg3.win 9).cut (grid3.coords t) ((dat3 V c).after 9 t) = _
  rw [after3_9]
  unfold out3_9
  rw [View.canon_unit_zero hz]
  simp only [View.ld_unit_zero (S := S5000x64) hz, View.ld_unit_zero (S := S5000x1) hz, View.ld_unit_zero (S := S64x64) hz, View.ld_unit_zero (S := S1x64) hz]
  rw [pay_eq]
  obtain ⟨-, -, -, -, -, -, -, -, -, -, -, -, -, -, -, -, -, -, e0, e1⟩ := idx_facts t
  funext j
  show Sage.sageK2 (M := 5000) (H := 64) (iblk3 V c 0 t) (iblk3 V c 1 t) (iblk3 V c 2 t) (iblk3 V c 3 t) (iblk3 V c 4 t) (iblk3 V c 5 t) (iblk3 V c 6 t) (iblk3 V c 7 t) (iblk3 V c 8 t) j
    = G V c (((cfg3.win 9).blk t).view.emb j)
  have h0 : ((((cfg3.win 9).blk t).view.emb j : S500000x64.Idx) 0).val = t.val * 5000 + (j 0).val := by
    show win3_9.index t (0 : Fin 2) * 5000 + 1 * (j 0).val = _; omega
  have h1 : ((((cfg3.win 9).blk t).view.emb j : S500000x64.Idx) 1).val = (j 1).val := by
    show win3_9.index t (1 : Fin 2) * 64 + 1 * (j 1).val = _; omega
  exact Sage.Body.sageK2_congr (M := 5000) (M' := 500000) (H := 64) j (((cfg3.win 9).blk t).view.emb j)
    (fun k => blk0_apply V c t _ _ h0 rfl) (blk1_apply V c t _ _ h0 rfl) (fun k => blk2_apply V c t _ _ h0 rfl) (blk3_apply V c t _ _ h0 rfl) (fun k => blk4_apply V c t _ _ h0 rfl) (blk5_eq V c t) (blk6_eq V c t) (blk7_eq V c t) (blk8_eq V c t) h1.symm

/-- An index of the output array is in tile `t` iff each coordinate is in the tile's range on its axis. -/
theorem mem_blk (t : Fin cfg3.N) (i : S500000x64.Idx) :
    i ∈ ((cfg3.win 9).blk t).view.set ↔ ∀ a : Fin 2, win3_9.index t a * S5000x64.size a ≤ (i a).val ∧ (i a).val < win3_9.index t a * S5000x64.size a + S5000x64.size a := by
  show i ∈ ((View.whole (Pipeline.arrRef spec3 9)).slice (win3_9.rect t)).set ↔ _
  rw [View.set_slice_whole, Rect.mem_set_unit]
  exact Iff.rfl

/-- Every row lies in a tile: row `p` in tile `p / 5000`. -/
theorem cover (i : S500000x64.Idx) :
    ∃ t : Fin cfg3.N, (cfg3.win 9).flush t = true ∧ i ∈ ((cfg3.win 9).blk t).view.set := by
  have hi0 : (i 0).val < 500000 := (i 0).isLt
  have hi1 : (i 1).val < 64 := (i 1).isLt
  have hN : cfg3.N = 100 := N_3
  obtain ⟨t, ht⟩ : ∃ t : Fin cfg3.N, t.val = (i 0).val / 5000 := ⟨⟨(i 0).val / 5000, by rw [hN]; omega⟩, rfl⟩
  obtain ⟨-, -, -, -, -, -, -, -, -, -, -, -, -, -, -, -, -, -, e0, e1⟩ := idx_facts t
  refine ⟨t, flush3_9 t, ?_⟩
  rw [mem_blk]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 64 ≤ (i 1).val ∧ (i 1).val < win3_9.index t (1 : Fin 2) * 64 + 64; omega

/-- THE OUTPUT ARRAY after the region is that function of the input arrays as the region finds them. -/
theorem final3 (c : Dev nD) : (dat3 V c).arrAt 9 cfg3.N
    = Sage.sageK2 (M := 500000) (H := 64) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 V c).arrAt_eq_of_cover 9 (G V c) (fun t _ => flushed_eq V c t) cover

end Cert.KernelIdeal.RegValue3

end
-- ==== Proof.KReg4.lean ====
/-
  Region 4: a single-relation neighbourhood convolution, tile by tile.

  The region walks 40 tiles of 5000 rows.  At tile `t` the body reads rows `5000 t … 5000 t + 4999` of the neighbour
  sum, of the reciprocal-count column and of the node features, and the three resident parameter arrays whole, and
  writes the same rows of the output.  Row `p` of the output depends only on row `p` of the three row-tiled inputs,
  the tiles cover every row (row `p` lies in tile `p / 5000`), so the output array after the region is the
  convolution of the whole input arrays.
-/
import proofs.«139518_j50508815401658_2_alg».proof.Proof.Gen.KernelIdeal.Frame
import Idealize.ShloMosaic.Lib.Pipeline.Value
import proofs.«139518_j50508815401658_2_alg».proof.Proof.KBodies

noncomputable section

namespace Cert.KernelIdeal.RegValue4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainMatmul.IsPlain dot_S5000x64_S64x64_S5000x64_1_0_0_1_n_n := ⟨rfl, rfl, rfl, rfl, rfl, rfl⟩

/-- The body's arithmetic on one tile is the convolution of the tile's rows. -/
theorem pay_eq (y0 : Vec Ideal S5000x64 .f32) (y1 : Vec Ideal S5000x1 .f32) (y2 : Vec Ideal S5000x64 .bf16) (y3 : Vec Ideal S64x64 .f32) (y4 : Vec Ideal S64x64 .f32) (y5 : Vec Ideal S1x64 .f32) :
    k4_pay1 (F := Ideal) y0 y1 y2 y3 y4 y5 = Sage.sageK1 (M := 5000) (H := 64) y0 y1 y2 y3 y5 y4 :=
  Sage.Body.single_body plain y0 y1 y2 y3 y4 y5 _ _ _ _ _ _ _ _ _ _ _ _

/-- The index maps over the 40 tiles: a row-tiled window's block index is the tile's number, a resident window's is zero. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-! ## The windows' blocks, read at an entry -/

/-- Tile `t` of row-tiled window 0 holds rows `5000 t … 5000 t + 4999` of its array. -/
theorem blk0_apply (c : Dev nD) (t : Fin cfg4.N) (x : S5000x64.Idx) (k : S200000x64.Idx)
    (hk0 : (k 0).val = t.val * 5000 + (x 0).val) (hk1 : (k 1).val = (x 1).val) :
    (iblk4 V c 0 t : Vec Ideal S5000x64 .f32) x = (V c (Pipeline.arrRef spec4 0) : Vec Ideal S200000x64 .f32) k := by
  obtain ⟨e0, e1, -⟩ := idx_facts t
  unfold iblk4
  rw [View.read_apply]
  refine congrArg (V c (Pipeline.arrRef spec4 0)) (funext fun a => Fin.ext ?_)
  match a with
  | ⟨0, _⟩ => show win4_0.index t (0 : Fin 2) * 5000 + 1 * (x 0).val = (k 0).val; omega
  | ⟨1, _⟩ => show win4_0.index t (1 : Fin 2) * 64 + 1 * (x 1).val = (k 1).val; omega

/-- Tile `t` of row-tiled window 1 holds rows `5000 t … 5000 t + 4999` of its array. -/
theorem blk1_apply (c : Dev nD) (t : Fin cfg4.N) (x : S5000x1.Idx) (k : S200000x1.Idx)
    (hk0 : (k 0).val = t.val * 5000 + (x 0).val) (hk1 : (k 1).val = (x 1).val) :
    (iblk4 V c 1 t : Vec Ideal S5000x1 .f32) x = (V c (Pipeline.arrRef spec4 1) : Vec Ideal S200000x1 .f32) k := by
  obtain ⟨-, -, e0, e1, -⟩ := idx_facts t
  unfold iblk4
  rw [View.read_apply]
  refine congrArg (V c (Pipeline.arrRef spec4 1)) (funext fun a => Fin.ext ?_)
  match a with
  | ⟨0, _⟩ => show win4_1.index t (0 : Fin 2) * 5000 + 1 * (x 0).val = (k 0).val; omega
  | ⟨1, _⟩ => show win4_1.index t (1 : Fin 2) * 1 + 1 * (x 1).val = (k 1).val; omega

/-- Tile `t` of row-tiled window 2 holds rows `5000 t … 5000 t + 4999` of its array. -/
theorem blk2_apply (c : Dev nD) (t : Fin cfg4.N) (x : S5000x64.Idx) (k : S200000x64.Idx)
    (hk0 : (k 0).val = t.val * 5000 + (x 0).val) (hk1 : (k 1).val = (x 1).val) :
    (iblk4 V c 2 t : Vec Ideal S5000x64 .bf16) x = (V c (Pipeline.arrRef spec4 2) : Vec Ideal S200000x64 .bf16) k := by
  obtain ⟨-, -, -, -, e0, e1, -⟩ := idx_facts t
  unfold iblk4
  rw [View.read_apply]
  refine congrArg (V c (Pipeline.arrRef spec4 2)) (funext fun a => Fin.ext ?_)
  match a with
  | ⟨0, _⟩ => show win4_2.index t (0 : Fin 2) * 5000 + 1 * (x 0).val = (k 0).val; omega
  | ⟨1, _⟩ => show win4_2.index t (1 : Fin 2) * 64 + 1 * (x 1).val = (k 1).val; omega

/-- Resident window 3's block is its whole array, at every tile. -/
theorem blk3_eq (c : Dev nD) (t : Fin cfg4.N) :
    (iblk4 V c 3 t : Vec Ideal S64x64 .f32) = (V c (Pipeline.arrRef spec4 3) : Vec Ideal S64x64 .f32) := by
  obtain ⟨-, -, -, -, -, -, e0, e1, -⟩ := idx_facts t
  funext x
  unfold iblk4
  rw [View.read_apply]
  refine congrArg (V c (Pipeline.arrRef spec4 3)) (funext fun a => Fin.ext ?_)
  match a with
  | ⟨0, _⟩ => show win4_3.index t (0 : Fin 2) * 64 + 1 * (x 0).val = (x 0).val; omega
  | ⟨1, _⟩ => show win4_3.index t (1 : Fin 2) * 64 + 1 * (x 1).val = (x 1).val; omega

/-- Resident window 4's block is its whole array, at every tile. -/
theorem blk4_eq (c : Dev nD) (t : Fin cfg4.N) :
    (iblk4 V c 4 t : Vec Ideal S1x64 .f32) = (V c (Pipeline.arrRef spec4 4) : Vec Ideal S1x64 .f32) := by
  obtain ⟨-, -, -, -, -, -, -, -, e0, e1, -⟩ := idx_facts t
  funext x
  unfold iblk4
  rw [View.read_apply]
  refine congrArg (V c (Pipeline.arrRef spec4 4)) (funext fun a => Fin.ext ?_)
  match a with
  | ⟨0, _⟩ => show win4_4.index t (0 : Fin 2) * 1 + 1 * (x 0).val = (x 0).val; omega
  | ⟨1, _⟩ => show win4_4.index t (1 : Fin 2) * 64 + 1 * (x 1).val = (x 1).val; omega

/-- Resident window 5's block is its whole array, at every tile. -/
theorem blk5_eq (c : Dev nD) (t : Fin cfg4.N) :
    (iblk4 V c 5 t : Vec Ideal S64x64 .f32) = (V c (Pipeline.arrRef spec4 5) : Vec Ideal S64x64 .f32) := by
  obtain ⟨-, -, -, -, -, -, -, -, -, -, e0, e1, -⟩ := idx_facts t
  funext x
  unfold iblk4
  rw [View.read_apply]
  refine congrArg (V c (Pipeline.arrRef spec4 5)) (funext fun a => Fin.ext ?_)
  match a with
  | ⟨0, _⟩ => show win4_5.index t (0 : Fin 2) * 64 + 1 * (x 0).val = (x 0).val; omega
  | ⟨1, _⟩ => show win4_5.index t (1 : Fin 2) * 64 + 1 * (x 1).val = (x 1).val; omega

/-! ## From tiles to the array -/

/-- The output array after the region, as one function of the input arrays. -/
abbrev G (c : Dev nD) : Vec Ideal S200000x64 .bf16 :=
  Sage.sageK1 (M := 200000) (H := 64) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))

/-- What tile `t` writes back is tile `t` of that function of the whole arrays. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S5000x64) hz, View.ld_unit_zero (S := S5000x1) hz, View.ld_unit_zero (S := S64x64) hz, View.ld_unit_zero (S := S1x64) hz]
  rw [pay_eq]
  obtain ⟨-, -, -, -, -, -, -, -, -, -, -, -, e0, e1⟩ := idx_facts t
  funext j
  show Sage.sageK1 (M := 5000) (H := 64) (iblk4 V c 0 t) (iblk4 V c 1 t) (iblk4 V c 2 t) (iblk4 V c 3 t) (iblk4 V c 4 t) (iblk4 V c 5 t) j
    = G V c (((cfg4.win 6).blk t).view.emb j)
  have h0 : ((((cfg4.win 6).blk t).view.emb j : S200000x64.Idx) 0).val = t.val * 5000 + (j 0).val := by
    show win4_6.index t (0 : Fin 2) * 5000 + 1 * (j 0).val = _; omega
  have h1 : ((((cfg4.win 6).blk t).view.emb j : S200000x64.Idx) 1).val = (j 1).val := by
    show win4_6.index t (1 : Fin 2) * 64 + 1 * (j 1).val = _; omega
  exact Sage.Body.sageK1_congr (M := 5000) (M' := 200000) (H := 64) j (((cfg4.win 6).blk t).view.emb j)
    (fun k => blk0_apply V c t _ _ h0 rfl) (blk1_apply V c t _ _ h0 rfl) (fun k => blk2_apply V c t _ _ h0 rfl) (blk3_eq V c t) (blk4_eq V c t) (blk5_eq V c t) h1.symm

/-- An index of the output array is in tile `t` iff each coordinate is in the tile's range on its axis. -/
theorem mem_blk (t : Fin cfg4.N) (i : S200000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole (Pipeline.arrRef spec4 6)).slice (win4_6.rect t)).set ↔ _
  rw [View.set_slice_whole, Rect.mem_set_unit]
  exact Iff.rfl

/-- Every row lies in a tile: row `p` in tile `p / 5000`. -/
theorem cover (i : S200000x64.Idx) :
    ∃ t : Fin cfg4.N, (cfg4.win 6).flush t = true ∧ i ∈ ((cfg4.win 6).blk t).view.set := by
  have hi0 : (i 0).val < 200000 := (i 0).isLt
  have hi1 : (i 1).val < 64 := (i 1).isLt
  have hN : cfg4.N = 40 := N_4
  obtain ⟨t, ht⟩ : ∃ t : Fin cfg4.N, t.val = (i 0).val / 5000 := ⟨⟨(i 0).val / 5000, by rw [hN]; omega⟩, rfl⟩
  obtain ⟨-, -, -, -, -, -, -, -, -, -, -, -, e0, e1⟩ := idx_facts t
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 64 ≤ (i 1).val ∧ (i 1).val < win4_6.index t (1 : Fin 2) * 64 + 64; omega

/-- THE OUTPUT ARRAY after the region is that function of the input arrays as the region finds them. -/
theorem final4 (c : Dev nD) : (dat4 V c).arrAt 6 cfg4.N
    = Sage.sageK1 (M := 200000) (H := 64) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 (G V c) (fun t _ => flushed_eq V c t) cover

end Cert.KernelIdeal.RegValue4

end
-- ==== Proof.KReg5.lean ====
/-
  Region 5: a two-relation neighbourhood convolution, tile by tile.

  The region walks 100 tiles of 5000 rows.  At tile `t` the body reads rows `5000 t … 5000 t + 4999` of the two
  neighbour sums, of their reciprocal-count columns and of the node features, and the four resident parameter arrays
  whole, and writes the same rows of the output.  Row `p` of the output depends only on row `p` of the five
  row-tiled inputs, the tiles cover every row (row `p` lies in tile `p / 5000`), so the output array after the
  region is the convolution of the whole input arrays.
-/
import proofs.«139518_j50508815401658_2_alg».proof.Proof.Gen.KernelIdeal.Frame
import Idealize.ShloMosaic.Lib.Pipeline.Value
import proofs.«139518_j50508815401658_2_alg».proof.Proof.KBodies

noncomputable section

namespace Cert.KernelIdeal.RegValue5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainMatmul.IsPlain dot_S5000x64_S64x64_S5000x64_1_0_0_1_n_n := ⟨rfl, rfl, rfl, rfl, rfl, rfl⟩

/-- The body's arithmetic on one tile is the two-relation convolution of the tile's rows. -/
theorem pay_eq (y0 : Vec Ideal S5000x64 .f32) (y1 : Vec Ideal S5000x1 .f32) (y2 : Vec Ideal S5000x64 .f32) (y3 : Vec Ideal S5000x1 .f32) (y4 : Vec Ideal S5000x64 .bf16) (y5 : Vec Ideal S64x64 .f32) (y6 : Vec Ideal S64x64 .f32) (y7 : Vec Ideal S64x64 .f32) (y8 : Vec Ideal S1x64 .f32) :
    k5_pay1 (F := Ideal) y0 y1 y2 y3 y4 y5 y6 y7 y8 = Sage.sageK2 (M := 5000) (H := 64) y0 y1 y2 y3 y4 y5 y6 y8 y7 :=
  Sage.Body.double_body plain y0 y1 y2 y3 y4 y5 y6 y7 y8 _ _ _ _ _ _ _ _ _ _ _ _ _ _ _ _ _ _

/-- The index maps over the 100 tiles: a row-tiled window's block index is the tile's number, a resident window's is zero. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-! ## The windows' blocks, read at an entry -/

/-- Tile `t` of row-tiled window 0 holds rows `5000 t … 5000 t + 4999` of its array. -/
theorem blk0_apply (c : Dev nD) (t : Fin cfg5.N) (x : S5000x64.Idx) (k : S500000x64.Idx)
    (hk0 : (k 0).val = t.val * 5000 + (x 0).val) (hk1 : (k 1).val = (x 1).val) :
    (iblk5 V c 0 t : Vec Ideal S5000x64 .f32) x = (V c (Pipeline.arrRef spec5 0) : Vec Ideal S500000x64 .f32) k := by
  obtain ⟨e0, e1, -⟩ := idx_facts t
  unfold iblk5
  rw [View.read_apply]
  refine congrArg (V c (Pipeline.arrRef spec5 0)) (funext fun a => Fin.ext ?_)
  match a with
  | ⟨0, _⟩ => show win5_0.index t (0 : Fin 2) * 5000 + 1 * (x 0).val = (k 0).val; omega
  | ⟨1, _⟩ => show win5_0.index t (1 : Fin 2) * 64 + 1 * (x 1).val = (k 1).val; omega

/-- Tile `t` of row-tiled window 1 holds rows `5000 t … 5000 t + 4999` of its array. -/
theorem blk1_apply (c : Dev nD) (t : Fin cfg5.N) (x : S5000x1.Idx) (k : S500000x1.Idx)
    (hk0 : (k 0).val = t.val * 5000 + (x 0).val) (hk1 : (k 1).val = (x 1).val) :
    (iblk5 V c 1 t : Vec Ideal S5000x1 .f32) x = (V c (Pipeline.arrRef spec5 1) : Vec Ideal S500000x1 .f32) k := by
  obtain ⟨-, -, e0, e1, -⟩ := idx_facts t
  unfold iblk5
  rw [View.read_apply]
  refine congrArg (V c (Pipeline.arrRef spec5 1)) (funext fun a => Fin.ext ?_)
  match a with
  | ⟨0, _⟩ => show win5_1.index t (0 : Fin 2) * 5000 + 1 * (x 0).val = (k 0).val; omega
  | ⟨1, _⟩ => show win5_1.index t (1 : Fin 2) * 1 + 1 * (x 1).val = (k 1).val; omega

/-- Tile `t` of row-tiled window 2 holds rows `5000 t … 5000 t + 4999` of its array. -/
theorem blk2_apply (c : Dev nD) (t : Fin cfg5.N) (x : S5000x64.Idx) (k : S500000x64.Idx)
    (hk0 : (k 0).val = t.val * 5000 + (x 0).val) (hk1 : (k 1).val = (x 1).val) :
    (iblk5 V c 2 t : Vec Ideal S5000x64 .f32) x = (V c (Pipeline.arrRef spec5 2) : Vec Ideal S500000x64 .f32) k := by
  obtain ⟨-, -, -, -, e0, e1, -⟩ := idx_facts t
  unfold iblk5
  rw [View.read_apply]
  refine congrArg (V c (Pipeline.arrRef spec5 2)) (funext fun a => Fin.ext ?_)
  match a with
  | ⟨0, _⟩ => show win5_2.index t (0 : Fin 2) * 5000 + 1 * (x 0).val = (k 0).val; omega
  | ⟨1, _⟩ => show win5_2.index t (1 : Fin 2) * 64 + 1 * (x 1).val = (k 1).val; omega

/-- Tile `t` of row-tiled window 3 holds rows `5000 t … 5000 t + 4999` of its array. -/
theorem blk3_apply (c : Dev nD) (t : Fin cfg5.N) (x : S5000x1.Idx) (k : S500000x1.Idx)
    (hk0 : (k 0).val = t.val * 5000 + (x 0).val) (hk1 : (k 1).val = (x 1).val) :
    (iblk5 V c 3 t : Vec Ideal S5000x1 .f32) x = (V c (Pipeline.arrRef spec5 3) : Vec Ideal S500000x1 .f32) k := by
  obtain ⟨-, -, -, -, -, -, e0, e1, -⟩ := idx_facts t
  unfold iblk5
  rw [View.read_apply]
  refine congrArg (V c (Pipeline.arrRef spec5 3)) (funext fun a => Fin.ext ?_)
  match a with
  | ⟨0, _⟩ => show win5_3.index t (0 : Fin 2) * 5000 + 1 * (x 0).val = (k 0).val; omega
  | ⟨1, _⟩ => show win5_3.index t (1 : Fin 2) * 1 + 1 * (x 1).val = (k 1).val; omega

/-- Tile `t` of row-tiled window 4 holds rows `5000 t … 5000 t + 4999` of its array. -/
theorem blk4_apply (c : Dev nD) (t : Fin cfg5.N) (x : S5000x64.Idx) (k : S500000x64.Idx)
    (hk0 : (k 0).val = t.val * 5000 + (x 0).val) (hk1 : (k 1).val = (x 1).val) :
    (iblk5 V c 4 t : Vec Ideal S5000x64 .bf16) x = (V c (Pipeline.arrRef spec5 4) : Vec Ideal S500000x64 .bf16) k := by
  obtain ⟨-, -, -, -, -, -, -, -, e0, e1, -⟩ := idx_facts t
  unfold iblk5
  rw [View.read_apply]
  refine congrArg (V c (Pipeline.arrRef spec5 4)) (funext fun a => Fin.ext ?_)
  match a with
  | ⟨0, _⟩ => show win5_4.index t (0 : Fin 2) * 5000 + 1 * (x 0).val = (k 0).val; omega
  | ⟨1, _⟩ => show win5_4.index t (1 : Fin 2) * 64 + 1 * (x 1).val = (k 1).val; omega

/-- Resident window 5's block is its whole array, at every tile. -/
theorem blk5_eq (c : Dev nD) (t : Fin cfg5.N) :
    (iblk5 V c 5 t : Vec Ideal S64x64 .f32) = (V c (Pipeline.arrRef spec5 5) : Vec Ideal S64x64 .f32) := by
  obtain ⟨-, -, -, -, -, -, -, -, -, -, e0, e1, -⟩ := idx_facts t
  funext x
  unfold iblk5
  rw [View.read_apply]
  refine congrArg (V c (Pipeline.arrRef spec5 5)) (funext fun a => Fin.ext ?_)
  match a with
  | ⟨0, _⟩ => show win5_5.index t (0 : Fin 2) * 64 + 1 * (x 0).val = (x 0).val; omega
  | ⟨1, _⟩ => show win5_5.index t (1 : Fin 2) * 64 + 1 * (x 1).val = (x 1).val; omega

/-- Resident window 6's block is its whole array, at every tile. -/
theorem blk6_eq (c : Dev nD) (t : Fin cfg5.N) :
    (iblk5 V c 6 t : Vec Ideal S64x64 .f32) = (V c (Pipeline.arrRef spec5 6) : Vec Ideal S64x64 .f32) := by
  obtain ⟨-, -, -, -, -, -, -, -, -, -, -, -, e0, e1, -⟩ := idx_facts t
  funext x
  unfold iblk5
  rw [View.read_apply]
  refine congrArg (V c (Pipeline.arrRef spec5 6)) (funext fun a => Fin.ext ?_)
  match a with
  | ⟨0, _⟩ => show win5_6.index t (0 : Fin 2) * 64 + 1 * (x 0).val = (x 0).val; omega
  | ⟨1, _⟩ => show win5_6.index t (1 : Fin 2) * 64 + 1 * (x 1).val = (x 1).val; omega

/-- Resident window 7's block is its whole array, at every tile. -/
theorem blk7_eq (c : Dev nD) (t : Fin cfg5.N) :
    (iblk5 V c 7 t : Vec Ideal S1x64 .f32) = (V c (Pipeline.arrRef spec5 7) : Vec Ideal S1x64 .f32) := by
  obtain ⟨-, -, -, -, -, -, -, -, -, -, -, -, -, -, e0, e1, -⟩ := idx_facts t
  funext x
  unfold iblk5
  rw [View.read_apply]
  refine congrArg (V c (Pipeline.arrRef spec5 7)) (funext fun a => Fin.ext ?_)
  match a with
  | ⟨0, _⟩ => show win5_7.index t (0 : Fin 2) * 1 + 1 * (x 0).val = (x 0).val; omega
  | ⟨1, _⟩ => show win5_7.index t (1 : Fin 2) * 64 + 1 * (x 1).val = (x 1).val; omega

/-- Resident window 8's block is its whole array, at every tile. -/
theorem blk8_eq (c : Dev nD) (t : Fin cfg5.N) :
    (iblk5 V c 8 t : Vec Ideal S64x64 .f32) = (V c (Pipeline.arrRef spec5 8) : Vec Ideal S64x64 .f32) := by
  obtain ⟨-, -, -, -, -, -, -, -, -, -, -, -, -, -, -, -, e0, e1, -⟩ := idx_facts t
  funext x
  unfold iblk5
  rw [View.read_apply]
  refine congrArg (V c (Pipeline.arrRef spec5 8)) (funext fun a => Fin.ext ?_)
  match a with
  | ⟨0, _⟩ => show win5_8.index t (0 : Fin 2) * 64 + 1 * (x 0).val = (x 0).val; omega
  | ⟨1, _⟩ => show win5_8.index t (1 : Fin 2) * 64 + 1 * (x 1).val = (x 1).val; omega

/-! ## From tiles to the array -/

/-- The output array after the region, as one function of the input arrays. -/
abbrev G (c : Dev nD) : Vec Ideal S500000x64 .bf16 :=
  Sage.sageK2 (M := 500000) (H := 64) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8))

/-- What tile `t` writes back is tile `t` of that function of the whole arrays. -/
theorem flushed_eq (c : Dev nD) (t : Fin cfg5.N) :
    (dat5 V c).flushed 9 t = ((cfg5.win 9).blk t).view.read (Elt Ideal) (G V c) := by
  show (cfg5.win 9).cut (grid5.coords t) ((dat5 V c).after 9 t) = _
  rw [after5_9]
  unfold out5_9
  rw [View.canon_unit_zero hz]
  simp only [View.ld_unit_zero (S := S5000x64) hz, View.ld_unit_zero (S := S5000x1) hz, View.ld_unit_zero (S := S64x64) hz, View.ld_unit_zero (S := S1x64) hz]
  rw [pay_eq]
  obtain ⟨-, -, -, -, -, -, -, -, -, -, -, -, -, -, -, -, -, -, e0, e1⟩ := idx_facts t
  funext j
  show Sage.sageK2 (M := 5000) (H := 64) (iblk5 V c 0 t) (iblk5 V c 1 t) (iblk5 V c 2 t) (iblk5 V c 3 t) (iblk5 V c 4 t) (iblk5 V c 5 t) (iblk5 V c 6 t) (iblk5 V c 7 t) (iblk5 V c 8 t) j
    = G V c (((cfg5.win 9).blk t).view.emb j)
  have h0 : ((((cfg5.win 9).blk t).view.emb j : S500000x64.Idx) 0).val = t.val * 5000 + (j 0).val := by
    show win5_9.index t (0 : Fin 2) * 5000 + 1 * (j 0).val = _; omega
  have h1 : ((((cfg5.win 9).blk t).view.emb j : S500000x64.Idx) 1).val = (j 1).val := by
    show win5_9.index t (1 : Fin 2) * 64 + 1 * (j 1).val = _; omega
  exact Sage.Body.sageK2_congr (M := 5000) (M' := 500000) (H := 64) j (((cfg5.win 9).blk t).view.emb j)
    (fun k => blk0_apply V c t _ _ h0 rfl) (blk1_apply V c t _ _ h0 rfl) (fun k => blk2_apply V c t _ _ h0 rfl) (blk3_apply V c t _ _ h0 rfl) (fun k => blk4_apply V c t _ _ h0 rfl) (blk5_eq V c t) (blk6_eq V c t) (blk7_eq V c t) (blk8_eq V c t) h1.symm

/-- An index of the output array is in tile `t` iff each coordinate is in the tile's range on its axis. -/
theorem mem_blk (t : Fin cfg5.N) (i : S500000x64.Idx) :
    i ∈ ((cfg5.win 9).blk t).view.set ↔ ∀ a : Fin 2, win5_9.index t a * S5000x64.size a ≤ (i a).val ∧ (i a).val < win5_9.index t a * S5000x64.size a + S5000x64.size a := by
  show i ∈ ((View.whole (Pipeline.arrRef spec5 9)).slice (win5_9.rect t)).set ↔ _
  rw [View.set_slice_whole, Rect.mem_set_unit]
  exact Iff.rfl

/-- Every row lies in a tile: row `p` in tile `p / 5000`. -/
theorem cover (i : S500000x64.Idx) :
    ∃ t : Fin cfg5.N, (cfg5.win 9).flush t = true ∧ i ∈ ((cfg5.win 9).blk t).view.set := by
  have hi0 : (i 0).val < 500000 := (i 0).isLt
  have hi1 : (i 1).val < 64 := (i 1).isLt
  have hN : cfg5.N = 100 := N_5
  obtain ⟨t, ht⟩ : ∃ t : Fin cfg5.N, t.val = (i 0).val / 5000 := ⟨⟨(i 0).val / 5000, by rw [hN]; omega⟩, rfl⟩
  obtain ⟨-, -, -, -, -, -, -, -, -, -, -, -, -, -, -, -, -, -, e0, e1⟩ := idx_facts t
  refine ⟨t, flush5_9 t, ?_⟩
  rw [mem_blk]
  intro a
  match a with
  | ⟨0, _⟩ => show win5_9.index t (0 : Fin 2) * 5000 ≤ (i 0).val ∧ (i 0).val < win5_9.index t (0 : Fin 2) * 5000 + 5000; omega
  | ⟨1, _⟩ => show win5_9.index t (1 : Fin 2) * 64 ≤ (i 1).val ∧ (i 1).val < win5_9.index t (1 : Fin 2) * 64 + 64; omega

/-- THE OUTPUT ARRAY after the region is that function of the input arrays as the region finds them. -/
theorem final5 (c : Dev nD) : (dat5 V c).arrAt 9 cfg5.N
    = Sage.sageK2 (M := 500000) (H := 64) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) :=
  (dat5 V c).arrAt_eq_of_cover 9 (G V c) (fun t _ => flushed_eq V c t) cover

end Cert.KernelIdeal.RegValue5

end
-- ==== Proof.KReg7.lean ====
/-
  Region 7: a two-relation neighbourhood convolution, tile by tile.

  The region walks 100 tiles of 5000 rows.  At tile `t` the body reads rows `5000 t … 5000 t + 4999` of the two
  neighbour sums, of their reciprocal-count columns and of the node features, and the four resident parameter arrays
  whole, and writes the same rows of the output.  Row `p` of the output depends only on row `p` of the five
  row-tiled inputs, the tiles cover every row (row `p` lies in tile `p / 5000`), so the output array after the
  region is the convolution of the whole input arrays.
-/
import proofs.«139518_j50508815401658_2_alg».proof.Proof.Gen.KernelIdeal.Frame
import Idealize.ShloMosaic.Lib.Pipeline.Value
import proofs.«139518_j50508815401658_2_alg».proof.Proof.KBodies

noncomputable section

namespace Cert.KernelIdeal.RegValue7

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainMatmul.IsPlain dot_S5000x64_S64x64_S5000x64_1_0_0_1_n_n := ⟨rfl, rfl, rfl, rfl, rfl, rfl⟩

/-- The body's arithmetic on one tile is the two-relation convolution of the tile's rows. -/
theorem pay_eq (y0 : Vec Ideal S5000x64 .f32) (y1 : Vec Ideal S5000x1 .f32) (y2 : Vec Ideal S5000x64 .f32) (y3 : Vec Ideal S5000x1 .f32) (y4 : Vec Ideal S5000x64 .bf16) (y5 : Vec Ideal S64x64 .f32) (y6 : Vec Ideal S64x64 .f32) (y7 : Vec Ideal S64x64 .f32) (y8 : Vec Ideal S1x64 .f32) :
    k7_pay1 (F := Ideal) y0 y1 y2 y3 y4 y5 y6 y7 y8 = Sage.sageK2 (M := 5000) (H := 64) y0 y1 y2 y3 y4 y5 y6 y8 y7 :=
  Sage.Body.double_body plain y0 y1 y2 y3 y4 y5 y6 y7 y8 _ _ _ _ _ _ _ _ _ _ _ _ _ _ _ _ _ _

/-- The index maps over the 100 tiles: a row-tiled window's block index is the tile's number, a resident window's is zero. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = t.val ∧ win7_9.index t (1 : Fin 2) = 0 :=
  (by decide +kernel : ∀ t : Fin grid7.N, _)

/-! ## The windows' blocks, read at an entry -/

/-- Tile `t` of row-tiled window 0 holds rows `5000 t … 5000 t + 4999` of its array. -/
theorem blk0_apply (c : Dev nD) (t : Fin cfg7.N) (x : S5000x64.Idx) (k : S500000x64.Idx)
    (hk0 : (k 0).val = t.val * 5000 + (x 0).val) (hk1 : (k 1).val = (x 1).val) :
    (iblk7 V c 0 t : Vec Ideal S5000x64 .f32) x = (V c (Pipeline.arrRef spec7 0) : Vec Ideal S500000x64 .f32) k := by
  obtain ⟨e0, e1, -⟩ := idx_facts t
  unfold iblk7
  rw [View.read_apply]
  refine congrArg (V c (Pipeline.arrRef spec7 0)) (funext fun a => Fin.ext ?_)
  match a with
  | ⟨0, _⟩ => show win7_0.index t (0 : Fin 2) * 5000 + 1 * (x 0).val = (k 0).val; omega
  | ⟨1, _⟩ => show win7_0.index t (1 : Fin 2) * 64 + 1 * (x 1).val = (k 1).val; omega

/-- Tile `t` of row-tiled window 1 holds rows `5000 t … 5000 t + 4999` of its array. -/
theorem blk1_apply (c : Dev nD) (t : Fin cfg7.N) (x : S5000x1.Idx) (k : S500000x1.Idx)
    (hk0 : (k 0).val = t.val * 5000 + (x 0).val) (hk1 : (k 1).val = (x 1).val) :
    (iblk7 V c 1 t : Vec Ideal S5000x1 .f32) x = (V c (Pipeline.arrRef spec7 1) : Vec Ideal S500000x1 .f32) k := by
  obtain ⟨-, -, e0, e1, -⟩ := idx_facts t
  unfold iblk7
  rw [View.read_apply]
  refine congrArg (V c (Pipeline.arrRef spec7 1)) (funext fun a => Fin.ext ?_)
  match a with
  | ⟨0, _⟩ => show win7_1.index t (0 : Fin 2) * 5000 + 1 * (x 0).val = (k 0).val; omega
  | ⟨1, _⟩ => show win7_1.index t (1 : Fin 2) * 1 + 1 * (x 1).val = (k 1).val; omega

/-- Tile `t` of row-tiled window 2 holds rows `5000 t … 5000 t + 4999` of its array. -/
theorem blk2_apply (c : Dev nD) (t : Fin cfg7.N) (x : S5000x64.Idx) (k : S500000x64.Idx)
    (hk0 : (k 0).val = t.val * 5000 + (x 0).val) (hk1 : (k 1).val = (x 1).val) :
    (iblk7 V c 2 t : Vec Ideal S5000x64 .f32) x = (V c (Pipeline.arrRef spec7 2) : Vec Ideal S500000x64 .f32) k := by
  obtain ⟨-, -, -, -, e0, e1, -⟩ := idx_facts t
  unfold iblk7
  rw [View.read_apply]
  refine congrArg (V c (Pipeline.arrRef spec7 2)) (funext fun a => Fin.ext ?_)
  match a with
  | ⟨0, _⟩ => show win7_2.index t (0 : Fin 2) * 5000 + 1 * (x 0).val = (k 0).val; omega
  | ⟨1, _⟩ => show win7_2.index t (1 : Fin 2) * 64 + 1 * (x 1).val = (k 1).val; omega

/-- Tile `t` of row-tiled window 3 holds rows `5000 t … 5000 t + 4999` of its array. -/
theorem blk3_apply (c : Dev nD) (t : Fin cfg7.N) (x : S5000x1.Idx) (k : S500000x1.Idx)
    (hk0 : (k 0).val = t.val * 5000 + (x 0).val) (hk1 : (k 1).val = (x 1).val) :
    (iblk7 V c 3 t : Vec Ideal S5000x1 .f32) x = (V c (Pipeline.arrRef spec7 3) : Vec Ideal S500000x1 .f32) k := by
  obtain ⟨-, -, -, -, -, -, e0, e1, -⟩ := idx_facts t
  unfold iblk7
  rw [View.read_apply]
  refine congrArg (V c (Pipeline.arrRef spec7 3)) (funext fun a => Fin.ext ?_)
  match a with
  | ⟨0, _⟩ => show win7_3.index t (0 : Fin 2) * 5000 + 1 * (x 0).val = (k 0).val; omega
  | ⟨1, _⟩ => show win7_3.index t (1 : Fin 2) * 1 + 1 * (x 1).val = (k 1).val; omega

/-- Tile `t` of row-tiled window 4 holds rows `5000 t … 5000 t + 4999` of its array. -/
theorem blk4_apply (c : Dev nD) (t : Fin cfg7.N) (x : S5000x64.Idx) (k : S500000x64.Idx)
    (hk0 : (k 0).val = t.val * 5000 + (x 0).val) (hk1 : (k 1).val = (x 1).val) :
    (iblk7 V c 4 t : Vec Ideal S5000x64 .bf16) x = (V c (Pipeline.arrRef spec7 4) : Vec Ideal S500000x64 .bf16) k := by
  obtain ⟨-, -, -, -, -, -, -, -, e0, e1, -⟩ := idx_facts t
  unfold iblk7
  rw [View.read_apply]
  refine congrArg (V c (Pipeline.arrRef spec7 4)) (funext fun a => Fin.ext ?_)
  match a with
  | ⟨0, _⟩ => show win7_4.index t (0 : Fin 2) * 5000 + 1 * (x 0).val = (k 0).val; omega
  | ⟨1, _⟩ => show win7_4.index t (1 : Fin 2) * 64 + 1 * (x 1).val = (k 1).val; omega

/-- Resident window 5's block is its whole array, at every tile. -/
theorem blk5_eq (c : Dev nD) (t : Fin cfg7.N) :
    (iblk7 V c 5 t : Vec Ideal S64x64 .f32) = (V c (Pipeline.arrRef spec7 5) : Vec Ideal S64x64 .f32) := by
  obtain ⟨-, -, -, -, -, -, -, -, -, -, e0, e1, -⟩ := idx_facts t
  funext x
  unfold iblk7
  rw [View.read_apply]
  refine congrArg (V c (Pipeline.arrRef spec7 5)) (funext fun a => Fin.ext ?_)
  match a with
  | ⟨0, _⟩ => show win7_5.index t (0 : Fin 2) * 64 + 1 * (x 0).val = (x 0).val; omega
  | ⟨1, _⟩ => show win7_5.index t (1 : Fin 2) * 64 + 1 * (x 1).val = (x 1).val; omega

/-- Resident window 6's block is its whole array, at every tile. -/
theorem blk6_eq (c : Dev nD) (t : Fin cfg7.N) :
    (iblk7 V c 6 t : Vec Ideal S64x64 .f32) = (V c (Pipeline.arrRef spec7 6) : Vec Ideal S64x64 .f32) := by
  obtain ⟨-, -, -, -, -, -, -, -, -, -, -, -, e0, e1, -⟩ := idx_facts t
  funext x
  unfold iblk7
  rw [View.read_apply]
  refine congrArg (V c (Pipeline.arrRef spec7 6)) (funext fun a => Fin.ext ?_)
  match a with
  | ⟨0, _⟩ => show win7_6.index t (0 : Fin 2) * 64 + 1 * (x 0).val = (x 0).val; omega
  | ⟨1, _⟩ => show win7_6.index t (1 : Fin 2) * 64 + 1 * (x 1).val = (x 1).val; omega

/-- Resident window 7's block is its whole array, at every tile. -/
theorem blk7_eq (c : Dev nD) (t : Fin cfg7.N) :
    (iblk7 V c 7 t : Vec Ideal S1x64 .f32) = (V c (Pipeline.arrRef spec7 7) : Vec Ideal S1x64 .f32) := by
  obtain ⟨-, -, -, -, -, -, -, -, -, -, -, -, -, -, e0, e1, -⟩ := idx_facts t
  funext x
  unfold iblk7
  rw [View.read_apply]
  refine congrArg (V c (Pipeline.arrRef spec7 7)) (funext fun a => Fin.ext ?_)
  match a with
  | ⟨0, _⟩ => show win7_7.index t (0 : Fin 2) * 1 + 1 * (x 0).val = (x 0).val; omega
  | ⟨1, _⟩ => show win7_7.index t (1 : Fin 2) * 64 + 1 * (x 1).val = (x 1).val; omega

/-- Resident window 8's block is its whole array, at every tile. -/
theorem blk8_eq (c : Dev nD) (t : Fin cfg7.N) :
    (iblk7 V c 8 t : Vec Ideal S64x64 .f32) = (V c (Pipeline.arrRef spec7 8) : Vec Ideal S64x64 .f32) := by
  obtain ⟨-, -, -, -, -, -, -, -, -, -, -, -, -, -, -, -, e0, e1, -⟩ := idx_facts t
  funext x
  unfold iblk7
  rw [View.read_apply]
  refine congrArg (V c (Pipeline.arrRef spec7 8)) (funext fun a => Fin.ext ?_)
  match a with
  | ⟨0, _⟩ => show win7_8.index t (0 : Fin 2) * 64 + 1 * (x 0).val = (x 0).val; omega
  | ⟨1, _⟩ => show win7_8.index t (1 : Fin 2) * 64 + 1 * (x 1).val = (x 1).val; omega

/-! ## From tiles to the array -/

/-- The output array after the region, as one function of the input arrays. -/
abbrev G (c : Dev nD) : Vec Ideal S500000x64 .bf16 :=
  Sage.sageK2 (M := 500000) (H := 64) (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8))

/-- What tile `t` writes back is tile `t` of that function of the whole arrays. -/
theorem flushed_eq (c : Dev nD) (t : Fin cfg7.N) :
    (dat7 V c).flushed 9 t = ((cfg7.win 9).blk t).view.read (Elt Ideal) (G V c) := by
  show (cfg7.win 9).cut (grid7.coords t) ((dat7 V c).after 9 t) = _
  rw [after7_9]
  unfold out7_9
  rw [View.canon_unit_zero hz]
  simp only [View.ld_unit_zero (S := S5000x64) hz, View.ld_unit_zero (S := S5000x1) hz, View.ld_unit_zero (S := S64x64) hz, View.ld_unit_zero (S := S1x64) hz]
  rw [pay_eq]
  obtain ⟨-, -, -, -, -, -, -, -, -, -, -, -, -, -, -, -, -, -, e0, e1⟩ := idx_facts t
  funext j
  show Sage.sageK2 (M := 5000) (H := 64) (iblk7 V c 0 t) (iblk7 V c 1 t) (iblk7 V c 2 t) (iblk7 V c 3 t) (iblk7 V c 4 t) (iblk7 V c 5 t) (iblk7 V c 6 t) (iblk7 V c 7 t) (iblk7 V c 8 t) j
    = G V c (((cfg7.win 9).blk t).view.emb j)
  have h0 : ((((cfg7.win 9).blk t).view.emb j : S500000x64.Idx) 0).val = t.val * 5000 + (j 0).val := by
    show win7_9.index t (0 : Fin 2) * 5000 + 1 * (j 0).val = _; omega
  have h1 : ((((cfg7.win 9).blk t).view.emb j : S500000x64.Idx) 1).val = (j 1).val := by
    show win7_9.index t (1 : Fin 2) * 64 + 1 * (j 1).val = _; omega
  exact Sage.Body.sageK2_congr (M := 5000) (M' := 500000) (H := 64) j (((cfg7.win 9).blk t).view.emb j)
    (fun k => blk0_apply V c t _ _ h0 rfl) (blk1_apply V c t _ _ h0 rfl) (fun k => blk2_apply V c t _ _ h0 rfl) (blk3_apply V c t _ _ h0 rfl) (fun k => blk4_apply V c t _ _ h0 rfl) (blk5_eq V c t) (blk6_eq V c t) (blk7_eq V c t) (blk8_eq V c t) h1.symm

/-- An index of the output array is in tile `t` iff each coordinate is in the tile's range on its axis. -/
theorem mem_blk (t : Fin cfg7.N) (i : S500000x64.Idx) :
    i ∈ ((cfg7.win 9).blk t).view.set ↔ ∀ a : Fin 2, win7_9.index t a * S5000x64.size a ≤ (i a).val ∧ (i a).val < win7_9.index t a * S5000x64.size a + S5000x64.size a := by
  show i ∈ ((View.whole (Pipeline.arrRef spec7 9)).slice (win7_9.rect t)).set ↔ _
  rw [View.set_slice_whole, Rect.mem_set_unit]
  exact Iff.rfl

/-- Every row lies in a tile: row `p` in tile `p / 5000`. -/
theorem cover (i : S500000x64.Idx) :
    ∃ t : Fin cfg7.N, (cfg7.win 9).flush t = true ∧ i ∈ ((cfg7.win 9).blk t).view.set := by
  have hi0 : (i 0).val < 500000 := (i 0).isLt
  have hi1 : (i 1).val < 64 := (i 1).isLt
  have hN : cfg7.N = 100 := N_7
  obtain ⟨t, ht⟩ : ∃ t : Fin cfg7.N, t.val = (i 0).val / 5000 := ⟨⟨(i 0).val / 5000, by rw [hN]; omega⟩, rfl⟩
  obtain ⟨-, -, -, -, -, -, -, -, -, -, -, -, -, -, -, -, -, -, e0, e1⟩ := idx_facts t
  refine ⟨t, flush7_9 t, ?_⟩
  rw [mem_blk]
  intro a
  match a with
  | ⟨0, _⟩ => show win7_9.index t (0 : Fin 2) * 5000 ≤ (i 0).val ∧ (i 0).val < win7_9.index t (0 : Fin 2) * 5000 + 5000; omega
  | ⟨1, _⟩ => show win7_9.index t (1 : Fin 2) * 64 ≤ (i 1).val ∧ (i 1).val < win7_9.index t (1 : Fin 2) * 64 + 64; omega

/-- THE OUTPUT ARRAY after the region is that function of the input arrays as the region finds them. -/
theorem final7 (c : Dev nD) : (dat7 V c).arrAt 9 cfg7.N
    = Sage.sageK2 (M := 500000) (H := 64) (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) :=
  (dat7 V c).arrAt_eq_of_cover 9 (G V c) (fun t _ => flushed_eq V c t) cover

end Cert.KernelIdeal.RegValue7

end
-- ==== Proof.KReg8.lean ====
/-
  Region 8: the readout `(max (h · w1 + b1) 0) · w2 + b2`, tile by tile.

  The region walks 50 tiles of 10000 rows.  At tile `t` the body reads rows `10000 t … 10000 t + 9999` of the node
  features and the four resident parameter arrays whole, and writes the same rows of the one-column output.  Row `p`
  of the output depends only on row `p` of the features, the tiles cover every row (row `p` lies in tile
  `p / 10000`), so the output array after the region is the readout of the whole feature array.
-/
import proofs.«139518_j50508815401658_2_alg».proof.Proof.Gen.KernelIdeal.Frame
import Idealize.ShloMosaic.Lib.Pipeline.Value
import proofs.«139518_j50508815401658_2_alg».proof.Proof.KBodies

noncomputable section

namespace Cert.KernelIdeal.RegValue8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product number 1 contracts the left operand's columns with the right operand's rows. -/
theorem plain1 : PlainMatmul.IsPlain dot_S10000x64_S64x32_S10000x32_1_0_0_1_n_n := ⟨rfl, rfl, rfl, rfl, rfl, rfl⟩

/-- The body's product number 2 contracts the left operand's columns with the right operand's rows. -/
theorem plain2 : PlainMatmul.IsPlain dot_S10000x32_S32x1_S10000x1_1_0_0_1_n_n := ⟨rfl, rfl, rfl, rfl, rfl, rfl⟩

/-- The body's arithmetic on one tile is the readout of the tile's rows. -/
theorem pay_eq (y0 : Vec Ideal S10000x64 .bf16) (y1 : Vec Ideal S64x32 .f32) (y2 : Vec Ideal S1x32 .f32) (y3 : Vec Ideal S32x1 .f32) (y4 : Vec Ideal S1x1 .f32) :
    k8_pay1 (F := Ideal) y0 y1 y2 y3 y4 = Sage.lin (M := 10000) (K := 32) (N := 1) (Sage.relu (Sage.lin (M := 10000) (K := 64) (N := 32) y0 y1 y2)) y3 y4 :=
  Sage.Body.readout_body plain1 plain2 y0 y1 y2 y3 y4 _ _ _ _ _ _ _ _

/-- The index maps over the 50 tiles: a row-tiled window's block index is the tile's number, a resident window's is zero. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-! ## The windows' blocks, read at an entry -/

/-- Tile `t` of row-tiled window 0 holds rows `10000 t … 10000 t + 9999` of its array. -/
theorem blk0_apply (c : Dev nD) (t : Fin cfg8.N) (x : S10000x64.Idx) (k : S500000x64.Idx)
    (hk0 : (k 0).val = t.val * 10000 + (x 0).val) (hk1 : (k 1).val = (x 1).val) :
    (iblk8 V c 0 t : Vec Ideal S10000x64 .bf16) x = (V c (Pipeline.arrRef spec8 0) : Vec Ideal S500000x64 .bf16) k := by
  obtain ⟨e0, e1, -⟩ := idx_facts t
  unfold iblk8
  rw [View.read_apply]
  refine congrArg (V c (Pipeline.arrRef spec8 0)) (funext fun a => Fin.ext ?_)
  match a with
  | ⟨0, _⟩ => show win8_0.index t (0 : Fin 2) * 10000 + 1 * (x 0).val = (k 0).val; omega
  | ⟨1, _⟩ => show win8_0.index t (1 : Fin 2) * 64 + 1 * (x 1).val = (k 1).val; omega

/-- Resident window 1's block is its whole array, at every tile. -/
theorem blk1_eq (c : Dev nD) (t : Fin cfg8.N) :
    (iblk8 V c 1 t : Vec Ideal S64x32 .f32) = (V c (Pipeline.arrRef spec8 1) : Vec Ideal S64x32 .f32) := by
  obtain ⟨-, -, e0, e1, -⟩ := idx_facts t
  funext x
  unfold iblk8
  rw [View.read_apply]
  refine congrArg (V c (Pipeline.arrRef spec8 1)) (funext fun a => Fin.ext ?_)
  match a with
  | ⟨0, _⟩ => show win8_1.index t (0 : Fin 2) * 64 + 1 * (x 0).val = (x 0).val; omega
  | ⟨1, _⟩ => show win8_1.index t (1 : Fin 2) * 32 + 1 * (x 1).val = (x 1).val; omega

/-- Resident window 2's block is its whole array, at every tile. -/
theorem blk2_eq (c : Dev nD) (t : Fin cfg8.N) :
    (iblk8 V c 2 t : Vec Ideal S1x32 .f32) = (V c (Pipeline.arrRef spec8 2) : Vec Ideal S1x32 .f32) := by
  obtain ⟨-, -, -, -, e0, e1, -⟩ := idx_facts t
  funext x
  unfold iblk8
  rw [View.read_apply]
  refine congrArg (V c (Pipeline.arrRef spec8 2)) (funext fun a => Fin.ext ?_)
  match a with
  | ⟨0, _⟩ => show win8_2.index t (0 : Fin 2) * 1 + 1 * (x 0).val = (x 0).val; omega
  | ⟨1, _⟩ => show win8_2.index t (1 : Fin 2) * 32 + 1 * (x 1).val = (x 1).val; omega

/-- Resident window 3's block is its whole array, at every tile. -/
theorem blk3_eq (c : Dev nD) (t : Fin cfg8.N) :
    (iblk8 V c 3 t : Vec Ideal S32x1 .f32) = (V c (Pipeline.arrRef spec8 3) : Vec Ideal S32x1 .f32) := by
  obtain ⟨-, -, -, -, -, -, e0, e1, -⟩ := idx_facts t
  funext x
  unfold iblk8
  rw [View.read_apply]
  refine congrArg (V c (Pipeline.arrRef spec8 3)) (funext fun a => Fin.ext ?_)
  match a with
  | ⟨0, _⟩ => show win8_3.index t (0 : Fin 2) * 32 + 1 * (x 0).val = (x 0).val; omega
  | ⟨1, _⟩ => show win8_3.index t (1 : Fin 2) * 1 + 1 * (x 1).val = (x 1).val; omega

/-- Resident window 4's block is its whole array, at every tile. -/
theorem blk4_eq (c : Dev nD) (t : Fin cfg8.N) :
    (iblk8 V c 4 t : Vec Ideal S1x1 .f32) = (V c (Pipeline.arrRef spec8 4) : Vec Ideal S1x1 .f32) := by
  obtain ⟨-, -, -, -, -, -, -, -, e0, e1, -⟩ := idx_facts t
  funext x
  unfold iblk8
  rw [View.read_apply]
  refine congrArg (V c (Pipeline.arrRef spec8 4)) (funext fun a => Fin.ext ?_)
  match a with
  | ⟨0, _⟩ => show win8_4.index t (0 : Fin 2) * 1 + 1 * (x 0).val = (x 0).val; omega
  | ⟨1, _⟩ => show win8_4.index t (1 : Fin 2) * 1 + 1 * (x 1).val = (x 1).val; omega

/-! ## From tiles to the array -/

/-- The output array after the region, as one function of the input arrays. -/
abbrev G (c : Dev nD) : Vec Ideal S500000x1 .f32 :=
  Sage.lin (M := 500000) (K := 32) (N := 1) (Sage.relu (Sage.lin (M := 500000) (K := 64) (N := 32) (V c (Pipeline.arrRef spec8 0)) (V c (Pipeline.arrRef spec8 1)) (V c (Pipeline.arrRef spec8 2)))) (V c (Pipeline.arrRef spec8 3)) (V c (Pipeline.arrRef spec8 4))

/-- What tile `t` writes back is tile `t` of that function of the whole arrays. -/
theorem flushed_eq (c : Dev nD) (t : Fin cfg8.N) :
    (dat8 V c).flushed 5 t = ((cfg8.win 5).blk t).view.read (Elt Ideal) (G V c) := by
  show (cfg8.win 5).cut (grid8.coords t) ((dat8 V c).after 5 t) = _
  rw [after8_5]
  unfold out8_5
  rw [View.canon_unit_zero hz]
  simp only [View.ld_unit_zero (S := S10000x64) hz, View.ld_unit_zero (S := S64x32) hz, View.ld_unit_zero (S := S1x32) hz, View.ld_unit_zero (S := S32x1) hz, View.ld_unit_zero (S := S1x1) hz, View.ld_unit_zero (S := S10000x1) hz]
  rw [pay_eq]
  obtain ⟨-, -, -, -, -, -, -, -, -, -, e0, e1⟩ := idx_facts t
  funext j
  show Sage.lin (M := 10000) (K := 32) (N := 1) (Sage.relu (Sage.lin (M := 10000) (K := 64) (N := 32) (iblk8 V c 0 t) (iblk8 V c 1 t) (iblk8 V c 2 t))) (iblk8 V c 3 t) (iblk8 V c 4 t) j
    = G V c (((cfg8.win 5).blk t).view.emb j)
  have h0 : ((((cfg8.win 5).blk t).view.emb j : S500000x1.Idx) 0).val = t.val * 10000 + (j 0).val := by
    show win8_5.index t (0 : Fin 2) * 10000 + 1 * (j 0).val = _; omega
  have h1 : ((((cfg8.win 5).blk t).view.emb j : S500000x1.Idx) 1).val = (j 1).val := by
    show win8_5.index t (1 : Fin 2) * 1 + 1 * (j 1).val = _; omega
  exact Sage.Body.readout_congr (M := 10000) (M' := 500000) (K := 64) (H := 32) (N := 1) j (((cfg8.win 5).blk t).view.emb j)
    (fun k => blk0_apply V c t _ _ h0 rfl) (blk1_eq V c t) (blk2_eq V c t) (blk3_eq V c t) (blk4_eq V c t) h1.symm

/-- An index of the output array is in tile `t` iff each coordinate is in the tile's range on its axis. -/
theorem mem_blk (t : Fin cfg8.N) (i : S500000x1.Idx) :
    i ∈ ((cfg8.win 5).blk t).view.set ↔ ∀ a : Fin 2, win8_5.index t a * S10000x1.size a ≤ (i a).val ∧ (i a).val < win8_5.index t a * S10000x1.size a + S10000x1.size a := by
  show i ∈ ((View.whole (Pipeline.arrRef spec8 5)).slice (win8_5.rect t)).set ↔ _
  rw [View.set_slice_whole, Rect.mem_set_unit]
  exact Iff.rfl

/-- Every row lies in a tile: row `p` in tile `p / 10000`. -/
theorem cover (i : S500000x1.Idx) :
    ∃ t : Fin cfg8.N, (cfg8.win 5).flush t = true ∧ i ∈ ((cfg8.win 5).blk t).view.set := by
  have hi0 : (i 0).val < 500000 := (i 0).isLt
  have hi1 : (i 1).val < 1 := (i 1).isLt
  have hN : cfg8.N = 50 := N_8
  obtain ⟨t, ht⟩ : ∃ t : Fin cfg8.N, t.val = (i 0).val / 10000 := ⟨⟨(i 0).val / 10000, by rw [hN]; omega⟩, rfl⟩
  obtain ⟨-, -, -, -, -, -, -, -, -, -, e0, e1⟩ := idx_facts t
  refine ⟨t, flush8_5 t, ?_⟩
  rw [mem_blk]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 1 ≤ (i 1).val ∧ (i 1).val < win8_5.index t (1 : Fin 2) * 1 + 1; omega

/-- THE OUTPUT ARRAY after the region is that function of the input arrays as the region finds them. -/
theorem final8 (c : Dev nD) : (dat8 V c).arrAt 5 cfg8.N
    = Sage.lin (M := 500000) (K := 32) (N := 1) (Sage.relu (Sage.lin (M := 500000) (K := 64) (N := 32) (V c (Pipeline.arrRef spec8 0)) (V c (Pipeline.arrRef spec8 1)) (V c (Pipeline.arrRef spec8 2)))) (V c (Pipeline.arrRef spec8 3)) (V c (Pipeline.arrRef spec8 4)) :=
  (dat8 V c).arrAt_eq_of_cover 5 (G V c) (fun t _ => flushed_eq V c t) cover

end Cert.KernelIdeal.RegValue8

end
-- ==== Proof.KChain.lean ====
/-
  The kernel program's result as one function of its nineteen argument arrays.

  The result buffer's contents after the last segment are walked back region by region: a region's output array is its
  stage function of the arrays it finds at entry; those are argument arrays as launched, earlier regions' outputs, or
  buffers a host stretch computed from them.  Composing the nine regions gives the kernel-form network value: the input
  projections, three layers of star and planet updates, and the readout, flattened to a vector.
-/
import proofs.«139518_j50508815401658_2_alg».proof.Proof.KEntry
import proofs.«139518_j50508815401658_2_alg».proof.Proof.KDefsRef
import proofs.«139518_j50508815401658_2_alg».proof.Proof.KSpec
import proofs.«139518_j50508815401658_2_alg».proof.Proof.KReg0
import proofs.«139518_j50508815401658_2_alg».proof.Proof.KReg1
import proofs.«139518_j50508815401658_2_alg».proof.Proof.KReg2
import proofs.«139518_j50508815401658_2_alg».proof.Proof.KReg3
import proofs.«139518_j50508815401658_2_alg».proof.Proof.KReg4
import proofs.«139518_j50508815401658_2_alg».proof.Proof.KReg5
import proofs.«139518_j50508815401658_2_alg».proof.Proof.KReg7
import proofs.«139518_j50508815401658_2_alg».proof.Proof.KReg8

set_option maxRecDepth 16384

noncomputable section

namespace Cert.KernelIdeal.KChain

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

set_option maxHeartbeats 1000000 in
/-- Region 0's output array. -/
theorem out0 : W2 m ρ c (Proc.devRef .tc main_v1) = (Cert.ReferenceIdeal.RefValue.hp0 (m ((c : Thread nD τ).loc main_arg0)) (m ((c : Thread nD τ).loc main_arg8)) (m ((c : Thread nD τ).loc main_arg9))) := by
  refine ((W2_arr m ρ c 3).trans (RegValue0.final0 (V1 m ρ) c)).trans ?_
  rw [KEntry.in0_0 m ρ c, KEntry.in0_1 m ρ c, KEntry.in0_2 m ρ c]
  rfl

set_option maxHeartbeats 1000000 in
/-- Region 1's output array. -/
theorem out1 : W4 m ρ c (Proc.devRef .tc main_v3) = (Cert.ReferenceIdeal.RefValue.hs0 (m ((c : Thread nD τ).loc main_arg1)) (m ((c : Thread nD τ).loc main_arg10)) (m ((c : Thread nD τ).loc main_arg11))) := by
  refine ((W4_arr m ρ c 3).trans (RegValue1.final1 (V3 m ρ) c)).trans ?_
  rw [KEntry.in1_0 m ρ c, KEntry.in1_1 m ρ c, KEntry.in1_2 m ρ c]
  rfl

set_option maxHeartbeats 1000000 in
/-- Region 2's output array. -/
theorem out2 : W6 m ρ c (Proc.devRef .tc main_v49) = (Cert.Bridge.hsK1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine ((W6_arr m ρ c 6).trans (RegValue2.final2 (V5 m ρ) c)).trans ?_
  rw [KEntry.in2_0 m ρ c, KEntry.in2_1 m ρ c, KEntry.in2_2 m ρ c, KEntry.in2_3 m ρ c, KEntry.in2_4 m ρ c, KEntry.in2_5 m ρ c, out0 m ρ c, out1 m ρ c, KDefs.aggO_eq, KDefs.cO_eq]
  rfl

set_option maxHeartbeats 4000000 in
/-- Region 3's output array. -/
theorem out3 : W8 m ρ c (Proc.devRef .tc main_v95) = (Cert.Bridge.hpK1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine ((W8_arr m ρ c 9).trans (RegValue3.final3 (V7 m ρ) c)).trans ?_
  rw [KEntry.in3_0 m ρ c, KEntry.in3_1 m ρ c, KEntry.in3_2 m ρ c, KEntry.in3_3 m ρ c, KEntry.in3_4 m ρ c, KEntry.in3_5 m ρ c, KEntry.in3_6 m ρ c, KEntry.in3_7 m ρ c, KEntry.in3_8 m ρ c, out0 m ρ c, out1 m ρ c, KDefs.aggH_eq, KDefs.aggS_eq, KDefs.cH_eq, KDefs.cS_eq]
  rfl

set_option maxHeartbeats 1000000 in
/-- Region 4's output array. -/
theorem out4 : W10 m ρ c (Proc.devRef .tc main_v114) = (Cert.Bridge.hsK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine ((W10_arr m ρ c 6).trans (RegValue4.final4 (V9 m ρ) c)).trans ?_
  rw [KEntry.in4_0 m ρ c, KEntry.in4_1 m ρ c, KEntry.in4_2 m ρ c, KEntry.in4_3 m ρ c, KEntry.in4_4 m ρ c, KEntry.in4_5 m ρ c, out2 m ρ c, out3 m ρ c, KDefs.aggO_eq, KDefs.cO_eq]
  rfl

set_option maxHeartbeats 4000000 in
/-- Region 5's output array. -/
theorem out5 : W12 m ρ c (Proc.devRef .tc main_v160) = (Cert.Bridge.hpK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine ((W12_arr m ρ c 9).trans (RegValue5.final5 (V11 m ρ) c)).trans ?_
  rw [KEntry.in5_0 m ρ c, KEntry.in5_1 m ρ c, KEntry.in5_2 m ρ c, KEntry.in5_3 m ρ c, KEntry.in5_4 m ρ c, KEntry.in5_5 m ρ c, KEntry.in5_6 m ρ c, KEntry.in5_7 m ρ c, KEntry.in5_8 m ρ c, out2 m ρ c, out3 m ρ c, KDefs.aggH_eq, KDefs.aggS_eq, KDefs.cH_eq, KDefs.cS_eq]
  rfl

set_option maxHeartbeats 4000000 in
/-- Region 7's output array. -/
theorem out7 : W16 m ρ c (Proc.devRef .tc main_v225) = (Cert.Bridge.hpK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine ((W16_arr m ρ c 9).trans (RegValue7.final7 (V15 m ρ) c)).trans ?_
  rw [KEntry.in7_0 m ρ c, KEntry.in7_1 m ρ c, KEntry.in7_2 m ρ c, KEntry.in7_3 m ρ c, KEntry.in7_4 m ρ c, KEntry.in7_5 m ρ c, KEntry.in7_6 m ρ c, KEntry.in7_7 m ρ c, KEntry.in7_8 m ρ c, out4 m ρ c, out5 m ρ c, KDefs.aggH_eq, KDefs.aggS_eq, KDefs.cH_eq, KDefs.cS_eq]
  rfl

set_option maxHeartbeats 1000000 in
/-- Region 8's output array. -/
theorem out8 : W18 m ρ c (Proc.devRef .tc main_v228) = (Cert.ReferenceIdeal.RefValue.headR (m ((c : Thread nD τ).loc main_arg15)) (m ((c : Thread nD τ).loc main_arg16)) (m ((c : Thread nD τ).loc main_arg17)) (m ((c : Thread nD τ).loc main_arg18)) (Cert.Bridge.hpK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))) := by
  refine ((W18_arr m ρ c 5).trans (RegValue8.final8 (V17 m ρ) c)).trans ?_
  rw [KEntry.in8_0 m ρ c, KEntry.in8_1 m ρ c, KEntry.in8_2 m ρ c, KEntry.in8_3 m ρ c, KEntry.in8_4 m ρ c, out7 m ρ c]
  rfl

/-- The result buffer after the last segment is the kernel-form network value of the launch arguments. -/
theorem result : W19 m ρ c (Proc.devRef .tc main_v229) = Cert.Bridge.KVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (KVals.val_v229 m ρ c).trans ?_
  rw [out8 m ρ c]
  rfl

end Cert.KernelIdeal.KChain

end
-- ==== Proof.RefProj.lean ====
/-
  The two input projections of the reference: a linear layer (features times weights, plus the bias vector added to
  every row) clamped at zero, for the planets (32 input features) and the stars (16 input features).
-/
import proofs.«139518_j50508815401658_2_alg».proof.Proof.RefReadP
import proofs.«139518_j50508815401658_2_alg».proof.Proof.RefSpec

noncomputable section

namespace Cert.ReferenceIdeal.RefValue

open scoped BigOperators
open Cert.ReferenceIdeal Cert.ReferenceIdeal.Gen Idealize.ShloMosaic Idealize.ShloMosaic.TcCoe Idealize.SL.Sem Idealize.ShloMosaic.StableHlo Idealize.ShloMosaic.ValueIdx Cert.ReferenceIdeal.Read

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

/-- The planets' linear layer at (p, q): the row of the features times the column of the weights, plus the bias entry. -/
theorem lin_hp0 (p : Fin 500000) (q : Fin 64) :
    val_main_v3 (F := Ideal) x0 x8 x9 (ix2 p q) = (∑ k : Fin 32, x0 (ix2 p k) * x8 (ix2 k q)) + x9 (ix1 q) := by
  rw [val_main_v3_apply]
  show val_main_v0 (F := Ideal) x0 x8 (ix2 p q) + val_main_v2 (F := Ideal) x9 (ix2 p q) = _
  rw [val_main_v0_apply, val_main_v2_apply, val_main_v1_apply,
    show idx_main_v1 (idx_main_v2 (ix2 p q)) = ix1 q from (funext fun a => by match a with | ⟨0, _⟩ => rfl)]
  refine congrArg (fun s => s + x9 (ix1 q)) (Finset.sum_congr rfl fun k _ => ?_)
  rw [show lidx_main_v0 (ix2 p q) k = ix2 p k from (funext fun a => by match a with | ⟨0, _⟩ => rfl | ⟨1, _⟩ => rfl),
    show ridx_main_v0 (ix2 p q) k = ix2 k q from (funext fun a => by match a with | ⟨0, _⟩ => rfl | ⟨1, _⟩ => rfl)]

/-- The planets' input projection is the specification's. -/
theorem proj_hp0 : (val_main_v4 (F := Ideal) x0 x8 x9 : Sage.Mat 500000 64) = hp0 x0 x8 x9 := by
  funext i
  obtain ⟨p, q, rfl⟩ : ∃ (p : Fin 500000) (q : Fin 64), i = ix2 p q := ⟨i 0, i 1, eq_ix2 i⟩
  rw [val_main_v4_apply, lin_hp0, val_main_call0_v0_apply, val_main_call0_cst_apply]
  show max _ (Ideal.ofBits .f32 0x00000000#32) = _
  rw [Ideal.ofBits_zero_f32]
  rfl

/-- The stars' linear layer at (p, q): the row of the features times the column of the weights, plus the bias entry. -/
theorem lin_hs0 (p : Fin 200000) (q : Fin 64) :
    val_main_v8 (F := Ideal) x1 x10 x11 (ix2 p q) = (∑ k : Fin 16, x1 (ix2 p k) * x10 (ix2 k q)) + x11 (ix1 q) := by
  rw [val_main_v8_apply]
  show val_main_v5 (F := Ideal) x1 x10 (ix2 p q) + val_main_v7 (F := Ideal) x11 (ix2 p q) = _
  rw [val_main_v5_apply, val_main_v7_apply, val_main_v6_apply,
    show idx_main_v6 (idx_main_v7 (ix2 p q)) = ix1 q from (funext fun a => by match a with | ⟨0, _⟩ => rfl)]
  refine congrArg (fun s => s + x11 (ix1 q)) (Finset.sum_congr rfl fun k _ => ?_)
  rw [show lidx_main_v5 (ix2 p q) k = ix2 p k from (funext fun a => by match a with | ⟨0, _⟩ => rfl | ⟨1, _⟩ => rfl),
    show ridx_main_v5 (ix2 p q) k = ix2 k q from (funext fun a => by match a with | ⟨0, _⟩ => rfl | ⟨1, _⟩ => rfl)]

/-- The stars' input projection is the specification's. -/
theorem proj_hs0 : (val_main_v9 (F := Ideal) x1 x10 x11 : Sage.Mat 200000 64) = hs0 x1 x10 x11 := by
  funext i
  obtain ⟨p, q, rfl⟩ : ∃ (p : Fin 200000) (q : Fin 64), i = ix2 p q := ⟨i 0, i 1, eq_ix2 i⟩
  rw [val_main_v9_apply, lin_hs0, val_main_call1_v0_apply, val_main_call1_cst_apply]
  show max _ (Ideal.ofBits .f32 0x00000000#32) = _
  rw [Ideal.ofBits_zero_f32]
  rfl

end Cert.ReferenceIdeal.RefValue

end
-- ==== Proof.RefLayer0.lean ====
/-
  Layer 0 of the reference, stage by stage: for each of the three relations the convolution is the specification's
  `Sage.sageR` of the closed neighbourhood sum and count, the destination's own features and block (0, r) of the
  three parameter arrays; the planets' update is `Sage.meanRelu` of the hosts and sibling convolutions, the stars' update
  `Sage.relu` of the orbits convolution.

  Each parameter block is a slice of the [3, 3, …] array flattened to a matrix (entry (k, q) of the flattening is entry
  (0, r, k, q), since k * 64 + q splits back into k and q); the bias block is a row repeated down the rows; the count
  is a column repeated along the features.
-/
import proofs.«139518_j50508815401658_2_alg».proof.Proof.RefReadP
import proofs.«139518_j50508815401658_2_alg».proof.Proof.RefSpec

noncomputable section

namespace Cert.ReferenceIdeal.RefValue

open scoped BigOperators
open Cert.ReferenceIdeal Cert.ReferenceIdeal.Gen Idealize.ShloMosaic Idealize.ShloMosaic.TcCoe Idealize.SL.Sem Idealize.ShloMosaic.StableHlo Idealize.ShloMosaic.ValueIdx Cert.ReferenceIdeal.Read

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

/-! ### Layer 0, relation 0 (O) -/

/-- Block (0, 0) of the [3, 3, 64, 64] array, cut out and flattened to 64 × 64, read at (k, q). -/
theorem wl_00 (k q : Fin 64) : val_main_v11 (F := Ideal) x12 (ix2 k q) = x12 (ix4 0 0 k q) := by
  rw [val_main_v11_apply, val_main_v10_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (0, 0) of the [3, 3, 64, 64] array, cut out and flattened to 64 × 64, read at (k, q). -/
theorem wr_00 (k q : Fin 64) : val_main_v15 (F := Ideal) x14 (ix2 k q) = x14 (ix4 0 0 k q) := by
  rw [val_main_v15_apply, val_main_v14_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (0, 0) of the [3, 3, 64] bias array, made a row and repeated down the 200000 rows, read at (p, q). -/
theorem bl_00 (p : Fin 200000) (q : Fin 64) : val_main_v37 (F := Ideal) x13 (ix2 p q) = x13 (ix3 0 0 q) := by
  rw [val_main_v37_apply, val_main_v36_apply, val_main_v13_apply, val_main_v12_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_00 : val_main_v31 (F := Ideal) x3 = cO x3 := rfl

/-- The count column repeated along the 64 features, read at (p, q). -/
theorem cntb_00 (p : Fin 200000) (q : Fin 64) : val_main_v33 (F := Ideal) x3 (ix2 p q) = cO x3 (ix1 p) := by
  rw [val_main_v33_apply, val_main_v32_apply, cnt_00]
  refine congrArg _ (funext fun a => Fin.ext ?_)
  match a with
  | ⟨0, _⟩ => rfl

/-- The neighbourhood sums are the closed sum term of the source features. -/
theorem agg_00 : val_main_v25 (F := Ideal) x0 x2 x3 x8 x9 = aggO (val_main_v4 (F := Ideal) x0 x8 x9) x2 x3 := rfl

/-- The mean: the neighbourhood sum divided by the count, at (p, k). -/
theorem mean_00 (p : Fin 200000) (k : Fin 64) :
    val_main_v34 (F := Ideal) x0 x2 x3 x8 x9 (ix2 p k) = Ideal.div ((aggO (val_main_v4 (F := Ideal) x0 x8 x9) x2 x3) (ix2 p k)) (cO x3 (ix1 p)) := by
  rw [val_main_v34_apply, agg_00, cntb_00]
  rfl

/-- The mean times Wl[0, 0], at (p, q). -/
theorem dotl_00 (p : Fin 200000) (q : Fin 64) :
    val_main_v35 (F := Ideal) x0 x2 x3 x8 x9 x12 (ix2 p q)
      = ∑ k : Fin 64, Ideal.div ((aggO (val_main_v4 (F := Ideal) x0 x8 x9) x2 x3) (ix2 p k)) (cO x3 (ix1 p)) * x12 (ix4 0 0 k q) := by
  rw [val_main_v35_apply]
  refine Finset.sum_congr rfl fun k _ => ?_
  rw [show lidx_main_v35 (ix2 p q) k = ix2 p k from (funext fun a => by match a with | ⟨0, _⟩ => rfl | ⟨1, _⟩ => rfl),
    show ridx_main_v35 (ix2 p q) k = ix2 k q from (funext fun a => by match a with | ⟨0, _⟩ => rfl | ⟨1, _⟩ => rfl),
    mean_00, wl_00]

/-- The destination's own features times Wr[0, 0], at (p, q). -/
theorem dotr_00 (p : Fin 200000) (q : Fin 64) :
    val_main_v39 (F := Ideal) x1 x10 x11 x14 (ix2 p q)
      = ∑ k : Fin 64, (val_main_v9 (F := Ideal) x1 x10 x11) (ix2 p k) * x14 (ix4 0 0 k q) := by
  rw [val_main_v39_apply]
  refine Finset.sum_congr rfl fun k _ => ?_
  rw [show lidx_main_v39 (ix2 p q) k = ix2 p k from (funext fun a => by match a with | ⟨0, _⟩ => rfl | ⟨1, _⟩ => rfl),
    show ridx_main_v39 (ix2 p q) k = ix2 k q from (funext fun a => by match a with | ⟨0, _⟩ => rfl | ⟨1, _⟩ => rfl),
    wr_00]

/-- The convolution of layer 0 over relation 0. -/
theorem sage_00 :
    (val_main_v40 (F := Ideal) x0 x1 x2 x3 x8 x9 x10 x11 x12 x13 x14 : Sage.Mat 200000 64)
      = Sage.sageR (aggO (val_main_v4 (F := Ideal) x0 x8 x9) x2 x3) (col (cO x3)) (val_main_v9 (F := Ideal) x1 x10 x11)
          (W4 x12 0 0) (B3 x13 0 0) (W4 x14 0 0) := by
  funext i
  obtain ⟨p, q, rfl⟩ : ∃ (p : Fin 200000) (q : Fin 64), i = ix2 p q := ⟨i 0, i 1, eq_ix2 i⟩
  rw [val_main_v40_apply, val_main_v38_apply, dotl_00, bl_00, dotr_00]
  rfl

/-! ### Layer 0, relation 1 (H) -/

/-- Block (0, 1) of the [3, 3, 64, 64] array, cut out and flattened to 64 × 64, read at (k, q). -/
theorem wl_01 (k q : Fin 64) : val_main_v42 (F := Ideal) x12 (ix2 k q) = x12 (ix4 0 1 k q) := by
  rw [val_main_v42_apply, val_main_v41_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (0, 1) of the [3, 3, 64, 64] array, cut out and flattened to 64 × 64, read at (k, q). -/
theorem wr_01 (k q : Fin 64) : val_main_v46 (F := Ideal) x14 (ix2 k q) = x14 (ix4 0 1 k q) := by
  rw [val_main_v46_apply, val_main_v45_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (0, 1) of the [3, 3, 64] bias array, made a row and repeated down the 500000 rows, read at (p, q). -/
theorem bl_01 (p : Fin 500000) (q : Fin 64) : val_main_v68 (F := Ideal) x13 (ix2 p q) = x13 (ix3 0 1 q) := by
  rw [val_main_v68_apply, val_main_v67_apply, val_main_v44_apply, val_main_v43_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_01 : val_main_v62 (F := Ideal) x5 = cH x5 := rfl

/-- The count column repeated along the 64 features, read at (p, q). -/
theorem cntb_01 (p : Fin 500000) (q : Fin 64) : val_main_v64 (F := Ideal) x5 (ix2 p q) = cH x5 (ix1 p) := by
  rw [val_main_v64_apply, val_main_v63_apply, cnt_01]
  refine congrArg _ (funext fun a => Fin.ext ?_)
  match a with
  | ⟨0, _⟩ => rfl

/-- The neighbourhood sums are the closed sum term of the source features. -/
theorem agg_01 : val_main_v56 (F := Ideal) x1 x4 x5 x10 x11 = aggH (val_main_v9 (F := Ideal) x1 x10 x11) x4 x5 := rfl

/-- The mean: the neighbourhood sum divided by the count, at (p, k). -/
theorem mean_01 (p : Fin 500000) (k : Fin 64) :
    val_main_v65 (F := Ideal) x1 x4 x5 x10 x11 (ix2 p k) = Ideal.div ((aggH (val_main_v9 (F := Ideal) x1 x10 x11) x4 x5) (ix2 p k)) (cH x5 (ix1 p)) := by
  rw [val_main_v65_apply, agg_01, cntb_01]
  rfl

/-- The mean times Wl[0, 1], at (p, q). -/
theorem dotl_01 (p : Fin 500000) (q : Fin 64) :
    val_main_v66 (F := Ideal) x1 x4 x5 x10 x11 x12 (ix2 p q)
      = ∑ k : Fin 64, Ideal.div ((aggH (val_main_v9 (F := Ideal) x1 x10 x11) x4 x5) (ix2 p k)) (cH x5 (ix1 p)) * x12 (ix4 0 1 k q) := by
  rw [val_main_v66_apply]
  refine Finset.sum_congr rfl fun k _ => ?_
  rw [show lidx_main_v66 (ix2 p q) k = ix2 p k from (funext fun a => by match a with | ⟨0, _⟩ => rfl | ⟨1, _⟩ => rfl),
    show ridx_main_v66 (ix2 p q) k = ix2 k q from (funext fun a => by match a with | ⟨0, _⟩ => rfl | ⟨1, _⟩ => rfl),
    mean_01, wl_01]

/-- The destination's own features times Wr[0, 1], at (p, q). -/
theorem dotr_01 (p : Fin 500000) (q : Fin 64) :
    val_main_v70 (F := Ideal) x0 x8 x9 x14 (ix2 p q)
      = ∑ k : Fin 64, (val_main_v4 (F := Ideal) x0 x8 x9) (ix2 p k) * x14 (ix4 0 1 k q) := by
  rw [val_main_v70_apply]
  refine Finset.sum_congr rfl fun k _ => ?_
  rw [show lidx_main_v70 (ix2 p q) k = ix2 p k from (funext fun a => by match a with | ⟨0, _⟩ => rfl | ⟨1, _⟩ => rfl),
    show ridx_main_v70 (ix2 p q) k = ix2 k q from (funext fun a => by match a with | ⟨0, _⟩ => rfl | ⟨1, _⟩ => rfl),
    wr_01]

/-- The convolution of layer 0 over relation 1. -/
theorem sage_01 :
    (val_main_v71 (F := Ideal) x0 x1 x4 x5 x8 x9 x10 x11 x12 x13 x14 : Sage.Mat 500000 64)
      = Sage.sageR (aggH (val_main_v9 (F := Ideal) x1 x10 x11) x4 x5) (col (cH x5)) (val_main_v4 (F := Ideal) x0 x8 x9)
          (W4 x12 0 1) (B3 x13 0 1) (W4 x14 0 1) := by
  funext i
  obtain ⟨p, q, rfl⟩ : ∃ (p : Fin 500000) (q : Fin 64), i = ix2 p q := ⟨i 0, i 1, eq_ix2 i⟩
  rw [val_main_v71_apply, val_main_v69_apply, dotl_01, bl_01, dotr_01]
  rfl

/-! ### Layer 0, relation 2 (S) -/

/-- Block (0, 2) of the [3, 3, 64, 64] array, cut out and flattened to 64 × 64, read at (k, q). -/
theorem wl_02 (k q : Fin 64) : val_main_v73 (F := Ideal) x12 (ix2 k q) = x12 (ix4 0 2 k q) := by
  rw [val_main_v73_apply, val_main_v72_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (0, 2) of the [3, 3, 64, 64] array, cut out and flattened to 64 × 64, read at (k, q). -/
theorem wr_02 (k q : Fin 64) : val_main_v77 (F := Ideal) x14 (ix2 k q) = x14 (ix4 0 2 k q) := by
  rw [val_main_v77_apply, val_main_v76_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (0, 2) of the [3, 3, 64] bias array, made a row and repeated down the 500000 rows, read at (p, q). -/
theorem bl_02 (p : Fin 500000) (q : Fin 64) : val_main_v99 (F := Ideal) x13 (ix2 p q) = x13 (ix3 0 2 q) := by
  rw [val_main_v99_apply, val_main_v98_apply, val_main_v75_apply, val_main_v74_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_02 : val_main_v93 (F := Ideal) x7 = cS x7 := rfl

/-- The count column repeated along the 64 features, read at (p, q). -/
theorem cntb_02 (p : Fin 500000) (q : Fin 64) : val_main_v95 (F := Ideal) x7 (ix2 p q) = cS x7 (ix1 p) := by
  rw [val_main_v95_apply, val_main_v94_apply, cnt_02]
  refine congrArg _ (funext fun a => Fin.ext ?_)
  match a with
  | ⟨0, _⟩ => rfl

/-- The neighbourhood sums are the closed sum term of the source features. -/
theorem agg_02 : val_main_v87 (F := Ideal) x0 x6 x7 x8 x9 = aggS (val_main_v4 (F := Ideal) x0 x8 x9) x6 x7 := rfl

/-- The mean: the neighbourhood sum divided by the count, at (p, k). -/
theorem mean_02 (p : Fin 500000) (k : Fin 64) :
    val_main_v96 (F := Ideal) x0 x6 x7 x8 x9 (ix2 p k) = Ideal.div ((aggS (val_main_v4 (F := Ideal) x0 x8 x9) x6 x7) (ix2 p k)) (cS x7 (ix1 p)) := by
  rw [val_main_v96_apply, agg_02, cntb_02]
  rfl

/-- The mean times Wl[0, 2], at (p, q). -/
theorem dotl_02 (p : Fin 500000) (q : Fin 64) :
    val_main_v97 (F := Ideal) x0 x6 x7 x8 x9 x12 (ix2 p q)
      = ∑ k : Fin 64, Ideal.div ((aggS (val_main_v4 (F := Ideal) x0 x8 x9) x6 x7) (ix2 p k)) (cS x7 (ix1 p)) * x12 (ix4 0 2 k q) := by
  rw [val_main_v97_apply]
  refine Finset.sum_congr rfl fun k _ => ?_
  rw [show lidx_main_v97 (ix2 p q) k = ix2 p k from (funext fun a => by match a with | ⟨0, _⟩ => rfl | ⟨1, _⟩ => rfl),
    show ridx_main_v97 (ix2 p q) k = ix2 k q from (funext fun a => by match a with | ⟨0, _⟩ => rfl | ⟨1, _⟩ => rfl),
    mean_02, wl_02]

/-- The destination's own features times Wr[0, 2], at (p, q). -/
theorem dotr_02 (p : Fin 500000) (q : Fin 64) :
    val_main_v101 (F := Ideal) x0 x8 x9 x14 (ix2 p q)
      = ∑ k : Fin 64, (val_main_v4 (F := Ideal) x0 x8 x9) (ix2 p k) * x14 (ix4 0 2 k q) := by
  rw [val_main_v101_apply]
  refine Finset.sum_congr rfl fun k _ => ?_
  rw [show lidx_main_v101 (ix2 p q) k = ix2 p k from (funext fun a => by match a with | ⟨0, _⟩ => rfl | ⟨1, _⟩ => rfl),
    show ridx_main_v101 (ix2 p q) k = ix2 k q from (funext fun a => by match a with | ⟨0, _⟩ => rfl | ⟨1, _⟩ => rfl),
    wr_02]

/-- The convolution of layer 0 over relation 2. -/
theorem sage_02 :
    (val_main_v102 (F := Ideal) x0 x6 x7 x8 x9 x12 x13 x14 : Sage.Mat 500000 64)
      = Sage.sageR (aggS (val_main_v4 (F := Ideal) x0 x8 x9) x6 x7) (col (cS x7)) (val_main_v4 (F := Ideal) x0 x8 x9)
          (W4 x12 0 2) (B3 x13 0 2) (W4 x14 0 2) := by
  funext i
  obtain ⟨p, q, rfl⟩ : ∃ (p : Fin 500000) (q : Fin 64), i = ix2 p q := ⟨i 0, i 1, eq_ix2 i⟩
  rw [val_main_v102_apply, val_main_v100_apply, dotl_02, bl_02, dotr_02]
  rfl

/-! ### Layer 0: the two updates -/

/-- The planets' update: the mean of the hosts and the sibling convolution, clamped at zero. -/
theorem updP_0 :
    (val_main_v106 (F := Ideal) x0 x1 x4 x5 x6 x7 x8 x9 x10 x11 x12 x13 x14 : Sage.Mat 500000 64)
      = Sage.meanRelu (val_main_v71 (F := Ideal) x0 x1 x4 x5 x8 x9 x10 x11 x12 x13 x14) (val_main_v102 (F := Ideal) x0 x6 x7 x8 x9 x12 x13 x14) := by
  funext i
  rw [val_main_v106_apply, val_main_v105_apply, val_main_v103_apply, val_main_v104_apply, val_main_cst_16_apply,
    val_main_call2_v0_apply, val_main_call2_cst_apply]
  show max ((_ + _) * Sage.half) (Ideal.ofBits .f32 0x00000000#32) = _
  rw [Ideal.ofBits_zero_f32]
  rfl

/-- The stars' update: the orbits convolution, clamped at zero. -/
theorem updS_0 :
    (val_main_v107 (F := Ideal) x0 x1 x2 x3 x8 x9 x10 x11 x12 x13 x14 : Sage.Mat 200000 64)
      = Sage.relu (val_main_v40 (F := Ideal) x0 x1 x2 x3 x8 x9 x10 x11 x12 x13 x14) := by
  funext i
  rw [val_main_v107_apply, val_main_call3_v0_apply, val_main_call3_cst_apply]
  show max _ (Ideal.ofBits .f32 0x00000000#32) = _
  rw [Ideal.ofBits_zero_f32]
  rfl

end Cert.ReferenceIdeal.RefValue

end
-- ==== Proof.RefLayer1.lean ====
/-
  Layer 1 of the reference, stage by stage: for each of the three relations the convolution is the specification's
  `Sage.sageR` of the closed neighbourhood sum and count, the destination's own features and block (1, r) of the
  three parameter arrays; the planets' update is `Sage.meanRelu` of the hosts and sibling convolutions, the stars' update
  `Sage.relu` of the orbits convolution.

  Each parameter block is a slice of the [3, 3, …] array flattened to a matrix (entry (k, q) of the flattening is entry
  (1, r, k, q), since k * 64 + q splits back into k and q); the bias block is a row repeated down the rows; the count
  is a column repeated along the features.
-/
import proofs.«139518_j50508815401658_2_alg».proof.Proof.RefReadP
import proofs.«139518_j50508815401658_2_alg».proof.Proof.RefSpec

noncomputable section

namespace Cert.ReferenceIdeal.RefValue

open scoped BigOperators
open Cert.ReferenceIdeal Cert.ReferenceIdeal.Gen Idealize.ShloMosaic Idealize.ShloMosaic.TcCoe Idealize.SL.Sem Idealize.ShloMosaic.StableHlo Idealize.ShloMosaic.ValueIdx Cert.ReferenceIdeal.Read

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

/-! ### Layer 1, relation 0 (O) -/

/-- Block (1, 0) of the [3, 3, 64, 64] array, cut out and flattened to 64 × 64, read at (k, q). -/
theorem wl_10 (k q : Fin 64) : val_main_v109 (F := Ideal) x12 (ix2 k q) = x12 (ix4 1 0 k q) := by
  rw [val_main_v109_apply, val_main_v108_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (1, 0) of the [3, 3, 64, 64] array, cut out and flattened to 64 × 64, read at (k, q). -/
theorem wr_10 (k q : Fin 64) : val_main_v113 (F := Ideal) x14 (ix2 k q) = x14 (ix4 1 0 k q) := by
  rw [val_main_v113_apply, val_main_v112_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (1, 0) of the [3, 3, 64] bias array, made a row and repeated down the 200000 rows, read at (p, q). -/
theorem bl_10 (p : Fin 200000) (q : Fin 64) : val_main_v135 (F := Ideal) x13 (ix2 p q) = x13 (ix3 1 0 q) := by
  rw [val_main_v135_apply, val_main_v134_apply, val_main_v111_apply, val_main_v110_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_10 : val_main_v129 (F := Ideal) x3 = cO x3 := rfl

/-- The count column repeated along the 64 features, read at (p, q). -/
theorem cntb_10 (p : Fin 200000) (q : Fin 64) : val_main_v131 (F := Ideal) x3 (ix2 p q) = cO x3 (ix1 p) := by
  rw [val_main_v131_apply, val_main_v130_apply, cnt_10]
  refine congrArg _ (funext fun a => Fin.ext ?_)
  match a with
  | ⟨0, _⟩ => rfl

/-- The neighbourhood sums are the closed sum term of the source features. -/
theorem agg_10 : val_main_v123 (F := Ideal) x0 x1 x2 x3 x4 x5 x6 x7 x8 x9 x10 x11 x12 x13 x14 = aggO (val_main_v106 (F := Ideal) x0 x1 x4 x5 x6 x7 x8 x9 x10 x11 x12 x13 x14) x2 x3 := rfl

/-- The mean: the neighbourhood sum divided by the count, at (p, k). -/
theorem mean_10 (p : Fin 200000) (k : Fin 64) :
    val_main_v132 (F := Ideal) x0 x1 x2 x3 x4 x5 x6 x7 x8 x9 x10 x11 x12 x13 x14 (ix2 p k) = Ideal.div ((aggO (val_main_v106 (F := Ideal) x0 x1 x4 x5 x6 x7 x8 x9 x10 x11 x12 x13 x14) x2 x3) (ix2 p k)) (cO x3 (ix1 p)) := by
  rw [val_main_v132_apply, agg_10, cntb_10]
  rfl

/-- The mean times Wl[1, 0], at (p, q). -/
theorem dotl_10 (p : Fin 200000) (q : Fin 64) :
    val_main_v133 (F := Ideal) x0 x1 x2 x3 x4 x5 x6 x7 x8 x9 x10 x11 x12 x13 x14 (ix2 p q)
      = ∑ k : Fin 64, Ideal.div ((aggO (val_main_v106 (F := Ideal) x0 x1 x4 x5 x6 x7 x8 x9 x10 x11 x12 x13 x14) x2 x3) (ix2 p k)) (cO x3 (ix1 p)) * x12 (ix4 1 0 k q) := by
  rw [val_main_v133_apply]
  refine Finset.sum_congr rfl fun k _ => ?_
  rw [show lidx_main_v133 (ix2 p q) k = ix2 p k from (funext fun a => by match a with | ⟨0, _⟩ => rfl | ⟨1, _⟩ => rfl),
    show ridx_main_v133 (ix2 p q) k = ix2 k q from (funext fun a => by match a with | ⟨0, _⟩ => rfl | ⟨1, _⟩ => rfl),
    mean_10, wl_10]

/-- The destination's own features times Wr[1, 0], at (p, q). -/
theorem dotr_10 (p : Fin 200000) (q : Fin 64) :
    val_main_v137 (F := Ideal) x0 x1 x2 x3 x8 x9 x10 x11 x12 x13 x14 (ix2 p q)
      = ∑ k : Fin 64, (val_main_v107 (F := Ideal) x0 x1 x2 x3 x8 x9 x10 x11 x12 x13 x14) (ix2 p k) * x14 (ix4 1 0 k q) := by
  rw [val_main_v137_apply]
  refine Finset.sum_congr rfl fun k _ => ?_
  rw [show lidx_main_v137 (ix2 p q) k = ix2 p k from (funext fun a => by match a with | ⟨0, _⟩ => rfl | ⟨1, _⟩ => rfl),
    show ridx_main_v137 (ix2 p q) k = ix2 k q from (funext fun a => by match a with | ⟨0, _⟩ => rfl | ⟨1, _⟩ => rfl),
    wr_10]

/-- The convolution of layer 1 over relation 0. -/
theorem sage_10 :
    (val_main_v138 (F := Ideal) x0 x1 x2 x3 x4 x5 x6 x7 x8 x9 x10 x11 x12 x13 x14 : Sage.Mat 200000 64)
      = Sage.sageR (aggO (val_main_v106 (F := Ideal) x0 x1 x4 x5 x6 x7 x8 x9 x10 x11 x12 x13 x14) x2 x3) (col (cO x3)) (val_main_v107 (F := Ideal) x0 x1 x2 x3 x8 x9 x10 x11 x12 x13 x14)
          (W4 x12 1 0) (B3 x13 1 0) (W4 x14 1 0) := by
  funext i
  obtain ⟨p, q, rfl⟩ : ∃ (p : Fin 200000) (q : Fin 64), i = ix2 p q := ⟨i 0, i 1, eq_ix2 i⟩
  rw [val_main_v138_apply, val_main_v136_apply, dotl_10, bl_10, dotr_10]
  rfl

/-! ### Layer 1, relation 1 (H) -/

/-- Block (1, 1) of the [3, 3, 64, 64] array, cut out and flattened to 64 × 64, read at (k, q). -/
theorem wl_11 (k q : Fin 64) : val_main_v140 (F := Ideal) x12 (ix2 k q) = x12 (ix4 1 1 k q) := by
  rw [val_main_v140_apply, val_main_v139_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (1, 1) of the [3, 3, 64, 64] array, cut out and flattened to 64 × 64, read at (k, q). -/
theorem wr_11 (k q : Fin 64) : val_main_v144 (F := Ideal) x14 (ix2 k q) = x14 (ix4 1 1 k q) := by
  rw [val_main_v144_apply, val_main_v143_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (1, 1) of the [3, 3, 64] bias array, made a row and repeated down the 500000 rows, read at (p, q). -/
theorem bl_11 (p : Fin 500000) (q : Fin 64) : val_main_v166 (F := Ideal) x13 (ix2 p q) = x13 (ix3 1 1 q) := by
  rw [val_main_v166_apply, val_main_v165_apply, val_main_v142_apply, val_main_v141_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_11 : val_main_v160 (F := Ideal) x5 = cH x5 := rfl

/-- The count column repeated along the 64 features, read at (p, q). -/
theorem cntb_11 (p : Fin 500000) (q : Fin 64) : val_main_v162 (F := Ideal) x5 (ix2 p q) = cH x5 (ix1 p) := by
  rw [val_main_v162_apply, val_main_v161_apply, cnt_11]
  refine congrArg _ (funext fun a => Fin.ext ?_)
  match a with
  | ⟨0, _⟩ => rfl

/-- The neighbourhood sums are the closed sum term of the source features. -/
theorem agg_11 : val_main_v154 (F := Ideal) x0 x1 x2 x3 x4 x5 x8 x9 x10 x11 x12 x13 x14 = aggH (val_main_v107 (F := Ideal) x0 x1 x2 x3 x8 x9 x10 x11 x12 x13 x14) x4 x5 := rfl

/-- The mean: the neighbourhood sum divided by the count, at (p, k). -/
theorem mean_11 (p : Fin 500000) (k : Fin 64) :
    val_main_v163 (F := Ideal) x0 x1 x2 x3 x4 x5 x8 x9 x10 x11 x12 x13 x14 (ix2 p k) = Ideal.div ((aggH (val_main_v107 (F := Ideal) x0 x1 x2 x3 x8 x9 x10 x11 x12 x13 x14) x4 x5) (ix2 p k)) (cH x5 (ix1 p)) := by
  rw [val_main_v163_apply, agg_11, cntb_11]
  rfl

/-- The mean times Wl[1, 1], at (p, q). -/
theorem dotl_11 (p : Fin 500000) (q : Fin 64) :
    val_main_v164 (F := Ideal) x0 x1 x2 x3 x4 x5 x8 x9 x10 x11 x12 x13 x14 (ix2 p q)
      = ∑ k : Fin 64, Ideal.div ((aggH (val_main_v107 (F := Ideal) x0 x1 x2 x3 x8 x9 x10 x11 x12 x13 x14) x4 x5) (ix2 p k)) (cH x5 (ix1 p)) * x12 (ix4 1 1 k q) := by
  rw [val_main_v164_apply]
  refine Finset.sum_congr rfl fun k _ => ?_
  rw [show lidx_main_v164 (ix2 p q) k = ix2 p k from (funext fun a => by match a with | ⟨0, _⟩ => rfl | ⟨1, _⟩ => rfl),
    show ridx_main_v164 (ix2 p q) k = ix2 k q from (funext fun a => by match a with | ⟨0, _⟩ => rfl | ⟨1, _⟩ => rfl),
    mean_11, wl_11]

/-- The destination's own features times Wr[1, 1], at (p, q). -/
theorem dotr_11 (p : Fin 500000) (q : Fin 64) :
    val_main_v168 (F := Ideal) x0 x1 x4 x5 x6 x7 x8 x9 x10 x11 x12 x13 x14 (ix2 p q)
      = ∑ k : Fin 64, (val_main_v106 (F := Ideal) x0 x1 x4 x5 x6 x7 x8 x9 x10 x11 x12 x13 x14) (ix2 p k) * x14 (ix4 1 1 k q) := by
  rw [val_main_v168_apply]
  refine Finset.sum_congr rfl fun k _ => ?_
  rw [show lidx_main_v168 (ix2 p q) k = ix2 p k from (funext fun a => by match a with | ⟨0, _⟩ => rfl | ⟨1, _⟩ => rfl),
    show ridx_main_v168 (ix2 p q) k = ix2 k q from (funext fun a => by match a with | ⟨0, _⟩ => rfl | ⟨1, _⟩ => rfl),
    wr_11]

/-- The convolution of layer 1 over relation 1. -/
theorem sage_11 :
    (val_main_v169 (F := Ideal) x0 x1 x2 x3 x4 x5 x6 x7 x8 x9 x10 x11 x12 x13 x14 : Sage.Mat 500000 64)
      = Sage.sageR (aggH (val_main_v107 (F := Ideal) x0 x1 x2 x3 x8 x9 x10 x11 x12 x13 x14) x4 x5) (col (cH x5)) (val_main_v106 (F := Ideal) x0 x1 x4 x5 x6 x7 x8 x9 x10 x11 x12 x13 x14)
          (W4 x12 1 1) (B3 x13 1 1) (W4 x14 1 1) := by
  funext i
  obtain ⟨p, q, rfl⟩ : ∃ (p : Fin 500000) (q : Fin 64), i = ix2 p q := ⟨i 0, i 1, eq_ix2 i⟩
  rw [val_main_v169_apply, val_main_v167_apply, dotl_11, bl_11, dotr_11]
  rfl

/-! ### Layer 1, relation 2 (S) -/

/-- Block (1, 2) of the [3, 3, 64, 64] array, cut out and flattened to 64 × 64, read at (k, q). -/
theorem wl_12 (k q : Fin 64) : val_main_v171 (F := Ideal) x12 (ix2 k q) = x12 (ix4 1 2 k q) := by
  rw [val_main_v171_apply, val_main_v170_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (1, 2) of the [3, 3, 64, 64] array, cut out and flattened to 64 × 64, read at (k, q). -/
theorem wr_12 (k q : Fin 64) : val_main_v175 (F := Ideal) x14 (ix2 k q) = x14 (ix4 1 2 k q) := by
  rw [val_main_v175_apply, val_main_v174_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (1, 2) of the [3, 3, 64] bias array, made a row and repeated down the 500000 rows, read at (p, q). -/
theorem bl_12 (p : Fin 500000) (q : Fin 64) : val_main_v197 (F := Ideal) x13 (ix2 p q) = x13 (ix3 1 2 q) := by
  rw [val_main_v197_apply, val_main_v196_apply, val_main_v173_apply, val_main_v172_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_12 : val_main_v191 (F := Ideal) x7 = cS x7 := rfl

/-- The count column repeated along the 64 features, read at (p, q). -/
theorem cntb_12 (p : Fin 500000) (q : Fin 64) : val_main_v193 (F := Ideal) x7 (ix2 p q) = cS x7 (ix1 p) := by
  rw [val_main_v193_apply, val_main_v192_apply, cnt_12]
  refine congrArg _ (funext fun a => Fin.ext ?_)
  match a with
  | ⟨0, _⟩ => rfl

/-- The neighbourhood sums are the closed sum term of the source features. -/
theorem agg_12 : val_main_v185 (F := Ideal) x0 x1 x4 x5 x6 x7 x8 x9 x10 x11 x12 x13 x14 = aggS (val_main_v106 (F := Ideal) x0 x1 x4 x5 x6 x7 x8 x9 x10 x11 x12 x13 x14) x6 x7 := rfl

/-- The mean: the neighbourhood sum divided by the count, at (p, k). -/
theorem mean_12 (p : Fin 500000) (k : Fin 64) :
    val_main_v194 (F := Ideal) x0 x1 x4 x5 x6 x7 x8 x9 x10 x11 x12 x13 x14 (ix2 p k) = Ideal.div ((aggS (val_main_v106 (F := Ideal) x0 x1 x4 x5 x6 x7 x8 x9 x10 x11 x12 x13 x14) x6 x7) (ix2 p k)) (cS x7 (ix1 p)) := by
  rw [val_main_v194_apply, agg_12, cntb_12]
  rfl

/-- The mean times Wl[1, 2], at (p, q). -/
theorem dotl_12 (p : Fin 500000) (q : Fin 64) :
    val_main_v195 (F := Ideal) x0 x1 x4 x5 x6 x7 x8 x9 x10 x11 x12 x13 x14 (ix2 p q)
      = ∑ k : Fin 64, Ideal.div ((aggS (val_main_v106 (F := Ideal) x0 x1 x4 x5 x6 x7 x8 x9 x10 x11 x12 x13 x14) x6 x7) (ix2 p k)) (cS x7 (ix1 p)) * x12 (ix4 1 2 k q) := by
  rw [val_main_v195_apply]
  refine Finset.sum_congr rfl fun k _ => ?_
  rw [show lidx_main_v195 (ix2 p q) k = ix2 p k from (funext fun a => by match a with | ⟨0, _⟩ => rfl | ⟨1, _⟩ => rfl),
    show ridx_main_v195 (ix2 p q) k = ix2 k q from (funext fun a => by match a with | ⟨0, _⟩ => rfl | ⟨1, _⟩ => rfl),
    mean_12, wl_12]

/-- The destination's own features times Wr[1, 2], at (p, q). -/
theorem dotr_12 (p : Fin 500000) (q : Fin 64) :
    val_main_v199 (F := Ideal) x0 x1 x4 x5 x6 x7 x8 x9 x10 x11 x12 x13 x14 (ix2 p q)
      = ∑ k : Fin 64, (val_main_v106 (F := Ideal) x0 x1 x4 x5 x6 x7 x8 x9 x10 x11 x12 x13 x14) (ix2 p k) * x14 (ix4 1 2 k q) := by
  rw [val_main_v199_apply]
  refine Finset.sum_congr rfl fun k _ => ?_
  rw [show lidx_main_v199 (ix2 p q) k = ix2 p k from (funext fun a => by match a with | ⟨0, _⟩ => rfl | ⟨1, _⟩ => rfl),
    show ridx_main_v199 (ix2 p q) k = ix2 k q from (funext fun a => by match a with | ⟨0, _⟩ => rfl | ⟨1, _⟩ => rfl),
    wr_12]

/-- The convolution of layer 1 over relation 2. -/
theorem sage_12 :
    (val_main_v200 (F := Ideal) x0 x1 x4 x5 x6 x7 x8 x9 x10 x11 x12 x13 x14 : Sage.Mat 500000 64)
      = Sage.sageR (aggS (val_main_v106 (F := Ideal) x0 x1 x4 x5 x6 x7 x8 x9 x10 x11 x12 x13 x14) x6 x7) (col (cS x7)) (val_main_v106 (F := Ideal) x0 x1 x4 x5 x6 x7 x8 x9 x10 x11 x12 x13 x14)
          (W4 x12 1 2) (B3 x13 1 2) (W4 x14 1 2) := by
  funext i
  obtain ⟨p, q, rfl⟩ : ∃ (p : Fin 500000) (q : Fin 64), i = ix2 p q := ⟨i 0, i 1, eq_ix2 i⟩
  rw [val_main_v200_apply, val_main_v198_apply, dotl_12, bl_12, dotr_12]
  rfl

/-! ### Layer 1: the two updates -/

/-- The planets' update: the mean of the hosts and the sibling convolution, clamped at zero. -/
theorem updP_1 :
    (val_main_v204 (F := Ideal) x0 x1 x2 x3 x4 x5 x6 x7 x8 x9 x10 x11 x12 x13 x14 : Sage.Mat 500000 64)
      = Sage.meanRelu (val_main_v169 (F := Ideal) x0 x1 x2 x3 x4 x5 x6 x7 x8 x9 x10 x11 x12 x13 x14) (val_main_v200 (F := Ideal) x0 x1 x4 x5 x6 x7 x8 x9 x10 x11 x12 x13 x14) := by
  funext i
  rw [val_main_v204_apply, val_main_v203_apply, val_main_v201_apply, val_main_v202_apply, val_main_cst_35_apply,
    val_main_call4_v0_apply, val_main_call4_cst_apply]
  show max ((_ + _) * Sage.half) (Ideal.ofBits .f32 0x00000000#32) = _
  rw [Ideal.ofBits_zero_f32]
  rfl

/-- The stars' update: the orbits convolution, clamped at zero. -/
theorem updS_1 :
    (val_main_v205 (F := Ideal) x0 x1 x2 x3 x4 x5 x6 x7 x8 x9 x10 x11 x12 x13 x14 : Sage.Mat 200000 64)
      = Sage.relu (val_main_v138 (F := Ideal) x0 x1 x2 x3 x4 x5 x6 x7 x8 x9 x10 x11 x12 x13 x14) := by
  funext i
  rw [val_main_v205_apply, val_main_call5_v0_apply, val_main_call5_cst_apply]
  show max _ (Ideal.ofBits .f32 0x00000000#32) = _
  rw [Ideal.ofBits_zero_f32]
  rfl

end Cert.ReferenceIdeal.RefValue

end
-- ==== Proof.RefLayer2.lean ====
/-
  Layer 2 of the reference, stage by stage: for each of the three relations the convolution is the specification's
  `Sage.sageR` of the closed neighbourhood sum and count, the destination's own features and block (2, r) of the
  three parameter arrays; the planets' update is `Sage.meanRelu` of the hosts and sibling convolutions, the stars' update
  `Sage.relu` of the orbits convolution.

  Each parameter block is a slice of the [3, 3, …] array flattened to a matrix (entry (k, q) of the flattening is entry
  (2, r, k, q), since k * 64 + q splits back into k and q); the bias block is a row repeated down the rows; the count
  is a column repeated along the features.
-/
import proofs.«139518_j50508815401658_2_alg».proof.Proof.RefReadP
import proofs.«139518_j50508815401658_2_alg».proof.Proof.RefSpec

noncomputable section

namespace Cert.ReferenceIdeal.RefValue

open scoped BigOperators
open Cert.ReferenceIdeal Cert.ReferenceIdeal.Gen Idealize.ShloMosaic Idealize.ShloMosaic.TcCoe Idealize.SL.Sem Idealize.ShloMosaic.StableHlo Idealize.ShloMosaic.ValueIdx Cert.ReferenceIdeal.Read

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

/-! ### Layer 2, relation 0 (O) -/

/-- Block (2, 0) of the [3, 3, 64, 64] array, cut out and flattened to 64 × 64, read at (k, q). -/
theorem wl_20 (k q : Fin 64) : val_main_v207 (F := Ideal) x12 (ix2 k q) = x12 (ix4 2 0 k q) := by
  rw [val_main_v207_apply, val_main_v206_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (2, 0) of the [3, 3, 64, 64] array, cut out and flattened to 64 × 64, read at (k, q). -/
theorem wr_20 (k q : Fin 64) : val_main_v211 (F := Ideal) x14 (ix2 k q) = x14 (ix4 2 0 k q) := by
  rw [val_main_v211_apply, val_main_v210_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (2, 0) of the [3, 3, 64] bias array, made a row and repeated down the 200000 rows, read at (p, q). -/
theorem bl_20 (p : Fin 200000) (q : Fin 64) : val_main_v233 (F := Ideal) x13 (ix2 p q) = x13 (ix3 2 0 q) := by
  rw [val_main_v233_apply, val_main_v232_apply, val_main_v209_apply, val_main_v208_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_20 : val_main_v227 (F := Ideal) x3 = cO x3 := rfl

/-- The count column repeated along the 64 features, read at (p, q). -/
theorem cntb_20 (p : Fin 200000) (q : Fin 64) : val_main_v229 (F := Ideal) x3 (ix2 p q) = cO x3 (ix1 p) := by
  rw [val_main_v229_apply, val_main_v228_apply, cnt_20]
  refine congrArg _ (funext fun a => Fin.ext ?_)
  match a with
  | ⟨0, _⟩ => rfl

/-- The neighbourhood sums are the closed sum term of the source features. -/
theorem agg_20 : val_main_v221 (F := Ideal) x0 x1 x2 x3 x4 x5 x6 x7 x8 x9 x10 x11 x12 x13 x14 = aggO (val_main_v204 (F := Ideal) x0 x1 x2 x3 x4 x5 x6 x7 x8 x9 x10 x11 x12 x13 x14) x2 x3 := rfl

/-- The mean: the neighbourhood sum divided by the count, at (p, k). -/
theorem mean_20 (p : Fin 200000) (k : Fin 64) :
    val_main_v230 (F := Ideal) x0 x1 x2 x3 x4 x5 x6 x7 x8 x9 x10 x11 x12 x13 x14 (ix2 p k) = Ideal.div ((aggO (val_main_v204 (F := Ideal) x0 x1 x2 x3 x4 x5 x6 x7 x8 x9 x10 x11 x12 x13 x14) x2 x3) (ix2 p k)) (cO x3 (ix1 p)) := by
  rw [val_main_v230_apply, agg_20, cntb_20]
  rfl

/-- The mean times Wl[2, 0], at (p, q). -/
theorem dotl_20 (p : Fin 200000) (q : Fin 64) :
    val_main_v231 (F := Ideal) x0 x1 x2 x3 x4 x5 x6 x7 x8 x9 x10 x11 x12 x13 x14 (ix2 p q)
      = ∑ k : Fin 64, Ideal.div ((aggO (val_main_v204 (F := Ideal) x0 x1 x2 x3 x4 x5 x6 x7 x8 x9 x10 x11 x12 x13 x14) x2 x3) (ix2 p k)) (cO x3 (ix1 p)) * x12 (ix4 2 0 k q) := by
  rw [val_main_v231_apply]
  refine Finset.sum_congr rfl fun k _ => ?_
  rw [show lidx_main_v231 (ix2 p q) k = ix2 p k from (funext fun a => by match a with | ⟨0, _⟩ => rfl | ⟨1, _⟩ => rfl),
    show ridx_main_v231 (ix2 p q) k = ix2 k q from (funext fun a => by match a with | ⟨0, _⟩ => rfl | ⟨1, _⟩ => rfl),
    mean_20, wl_20]

/-- The destination's own features times Wr[2, 0], at (p, q). -/
theorem dotr_20 (p : Fin 200000) (q : Fin 64) :
    val_main_v235 (F := Ideal) x0 x1 x2 x3 x4 x5 x6 x7 x8 x9 x10 x11 x12 x13 x14 (ix2 p q)
      = ∑ k : Fin 64, (val_main_v205 (F := Ideal) x0 x1 x2 x3 x4 x5 x6 x7 x8 x9 x10 x11 x12 x13 x14) (ix2 p k) * x14 (ix4 2 0 k q) := by
  rw [val_main_v235_apply]
  refine Finset.sum_congr rfl fun k _ => ?_
  rw [show lidx_main_v235 (ix2 p q) k = ix2 p k from (funext fun a => by match a with | ⟨0, _⟩ => rfl | ⟨1, _⟩ => rfl),
    show ridx_main_v235 (ix2 p q) k = ix2 k q from (funext fun a => by match a with | ⟨0, _⟩ => rfl | ⟨1, _⟩ => rfl),
    wr_20]

/-- The convolution of layer 2 over relation 0. -/
theorem sage_20 :
    (val_main_v236 (F := Ideal) x0 x1 x2 x3 x4 x5 x6 x7 x8 x9 x10 x11 x12 x13 x14 : Sage.Mat 200000 64)
      = Sage.sageR (aggO (val_main_v204 (F := Ideal) x0 x1 x2 x3 x4 x5 x6 x7 x8 x9 x10 x11 x12 x13 x14) x2 x3) (col (cO x3)) (val_main_v205 (F := Ideal) x0 x1 x2 x3 x4 x5 x6 x7 x8 x9 x10 x11 x12 x13 x14)
          (W4 x12 2 0) (B3 x13 2 0) (W4 x14 2 0) := by
  funext i
  obtain ⟨p, q, rfl⟩ : ∃ (p : Fin 200000) (q : Fin 64), i = ix2 p q := ⟨i 0, i 1, eq_ix2 i⟩
  rw [val_main_v236_apply, val_main_v234_apply, dotl_20, bl_20, dotr_20]
  rfl

/-! ### Layer 2, relation 1 (H) -/

/-- Block (2, 1) of the [3, 3, 64, 64] array, cut out and flattened to 64 × 64, read at (k, q). -/
theorem wl_21 (k q : Fin 64) : val_main_v238 (F := Ideal) x12 (ix2 k q) = x12 (ix4 2 1 k q) := by
  rw [val_main_v238_apply, val_main_v237_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (2, 1) of the [3, 3, 64, 64] array, cut out and flattened to 64 × 64, read at (k, q). -/
theorem wr_21 (k q : Fin 64) : val_main_v242 (F := Ideal) x14 (ix2 k q) = x14 (ix4 2 1 k q) := by
  rw [val_main_v242_apply, val_main_v241_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (2, 1) of the [3, 3, 64] bias array, made a row and repeated down the 500000 rows, read at (p, q). -/
theorem bl_21 (p : Fin 500000) (q : Fin 64) : val_main_v264 (F := Ideal) x13 (ix2 p q) = x13 (ix3 2 1 q) := by
  rw [val_main_v264_apply, val_main_v263_apply, val_main_v240_apply, val_main_v239_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_21 : val_main_v258 (F := Ideal) x5 = cH x5 := rfl

/-- The count column repeated along the 64 features, read at (p, q). -/
theorem cntb_21 (p : Fin 500000) (q : Fin 64) : val_main_v260 (F := Ideal) x5 (ix2 p q) = cH x5 (ix1 p) := by
  rw [val_main_v260_apply, val_main_v259_apply, cnt_21]
  refine congrArg _ (funext fun a => Fin.ext ?_)
  match a with
  | ⟨0, _⟩ => rfl

/-- The neighbourhood sums are the closed sum term of the source features. -/
theorem agg_21 : val_main_v252 (F := Ideal) x0 x1 x2 x3 x4 x5 x6 x7 x8 x9 x10 x11 x12 x13 x14 = aggH (val_main_v205 (F := Ideal) x0 x1 x2 x3 x4 x5 x6 x7 x8 x9 x10 x11 x12 x13 x14) x4 x5 := rfl

/-- The mean: the neighbourhood sum divided by the count, at (p, k). -/
theorem mean_21 (p : Fin 500000) (k : Fin 64) :
    val_main_v261 (F := Ideal) x0 x1 x2 x3 x4 x5 x6 x7 x8 x9 x10 x11 x12 x13 x14 (ix2 p k) = Ideal.div ((aggH (val_main_v205 (F := Ideal) x0 x1 x2 x3 x4 x5 x6 x7 x8 x9 x10 x11 x12 x13 x14) x4 x5) (ix2 p k)) (cH x5 (ix1 p)) := by
  rw [val_main_v261_apply, agg_21, cntb_21]
  rfl

/-- The mean times Wl[2, 1], at (p, q). -/
theorem dotl_21 (p : Fin 500000) (q : Fin 64) :
    val_main_v262 (F := Ideal) x0 x1 x2 x3 x4 x5 x6 x7 x8 x9 x10 x11 x12 x13 x14 (ix2 p q)
      = ∑ k : Fin 64, Ideal.div ((aggH (val_main_v205 (F := Ideal) x0 x1 x2 x3 x4 x5 x6 x7 x8 x9 x10 x11 x12 x13 x14) x4 x5) (ix2 p k)) (cH x5 (ix1 p)) * x12 (ix4 2 1 k q) := by
  rw [val_main_v262_apply]
  refine Finset.sum_congr rfl fun k _ => ?_
  rw [show lidx_main_v262 (ix2 p q) k = ix2 p k from (funext fun a => by match a with | ⟨0, _⟩ => rfl | ⟨1, _⟩ => rfl),
    show ridx_main_v262 (ix2 p q) k = ix2 k q from (funext fun a => by match a with | ⟨0, _⟩ => rfl | ⟨1, _⟩ => rfl),
    mean_21, wl_21]

/-- The destination's own features times Wr[2, 1], at (p, q). -/
theorem dotr_21 (p : Fin 500000) (q : Fin 64) :
    val_main_v266 (F := Ideal) x0 x1 x2 x3 x4 x5 x6 x7 x8 x9 x10 x11 x12 x13 x14 (ix2 p q)
      = ∑ k : Fin 64, (val_main_v204 (F := Ideal) x0 x1 x2 x3 x4 x5 x6 x7 x8 x9 x10 x11 x12 x13 x14) (ix2 p k) * x14 (ix4 2 1 k q) := by
  rw [val_main_v266_apply]
  refine Finset.sum_congr rfl fun k _ => ?_
  rw [show lidx_main_v266 (ix2 p q) k = ix2 p k from (funext fun a => by match a with | ⟨0, _⟩ => rfl | ⟨1, _⟩ => rfl),
    show ridx_main_v266 (ix2 p q) k = ix2 k q from (funext fun a => by match a with | ⟨0, _⟩ => rfl | ⟨1, _⟩ => rfl),
    wr_21]

/-- The convolution of layer 2 over relation 1. -/
theorem sage_21 :
    (val_main_v267 (F := Ideal) x0 x1 x2 x3 x4 x5 x6 x7 x8 x9 x10 x11 x12 x13 x14 : Sage.Mat 500000 64)
      = Sage.sageR (aggH (val_main_v205 (F := Ideal) x0 x1 x2 x3 x4 x5 x6 x7 x8 x9 x10 x11 x12 x13 x14) x4 x5) (col (cH x5)) (val_main_v204 (F := Ideal) x0 x1 x2 x3 x4 x5 x6 x7 x8 x9 x10 x11 x12 x13 x14)
          (W4 x12 2 1) (B3 x13 2 1) (W4 x14 2 1) := by
  funext i
  obtain ⟨p, q, rfl⟩ : ∃ (p : Fin 500000) (q : Fin 64), i = ix2 p q := ⟨i 0, i 1, eq_ix2 i⟩
  rw [val_main_v267_apply, val_main_v265_apply, dotl_21, bl_21, dotr_21]
  rfl

/-! ### Layer 2, relation 2 (S) -/

/-- Block (2, 2) of the [3, 3, 64, 64] array, cut out and flattened to 64 × 64, read at (k, q). -/
theorem wl_22 (k q : Fin 64) : val_main_v269 (F := Ideal) x12 (ix2 k q) = x12 (ix4 2 2 k q) := by
  rw [val_main_v269_apply, val_main_v268_apply]
  refine congrArg x12 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (2, 2) of the [3, 3, 64, 64] array, cut out and flattened to 64 × 64, read at (k, q). -/
theorem wr_22 (k q : Fin 64) : val_main_v273 (F := Ideal) x14 (ix2 k q) = x14 (ix4 2 2 k q) := by
  rw [val_main_v273_apply, val_main_v272_apply]
  refine congrArg x14 (funext fun a => Fin.ext ?_)
  have hk := k.isLt
  have hq := q.isLt
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- Block (2, 2) of the [3, 3, 64] bias array, made a row and repeated down the 500000 rows, read at (p, q). -/
theorem bl_22 (p : Fin 500000) (q : Fin 64) : val_main_v295 (F := Ideal) x13 (ix2 p q) = x13 (ix3 2 2 q) := by
  rw [val_main_v295_apply, val_main_v294_apply, val_main_v271_apply, val_main_v270_apply]
  refine congrArg x13 (funext fun a => Fin.ext ?_)
  have hq := q.isLt
  match a with
  | ⟨0, _⟩ => rfl
  | ⟨1, _⟩ => rfl
  | ⟨2, _⟩ => show q.val % 64 = q.val; omega

/-- The neighbour counts (raised to at least one) are the closed count term. -/
theorem cnt_22 : val_main_v289 (F := Ideal) x7 = cS x7 := rfl

/-- The count column repeated along the 64 features, read at (p, q). -/
theorem cntb_22 (p : Fin 500000) (q : Fin 64) : val_main_v291 (F := Ideal) x7 (ix2 p q) = cS x7 (ix1 p) := by
  rw [val_main_v291_apply, val_main_v290_apply, cnt_22]
  refine congrArg _ (funext fun a => Fin.ext ?_)
  match a with
  | ⟨0, _⟩ => rfl

/-- The neighbourhood sums are the closed sum term of the source features. -/
theorem agg_22 : val_main_v283 (F := Ideal) x0 x1 x2 x3 x4 x5 x6 x7 x8 x9 x10 x11 x12 x13 x14 = aggS (val_main_v204 (F := Ideal) x0 x1 x2 x3 x4 x5 x6 x7 x8 x9 x10 x11 x12 x13 x14) x6 x7 := rfl

/-- The mean: the neighbourhood sum divided by the count, at (p, k). -/
theorem mean_22 (p : Fin 500000) (k : Fin 64) :
    val_main_v292 (F := Ideal) x0 x1 x2 x3 x4 x5 x6 x7 x8 x9 x10 x11 x12 x13 x14 (ix2 p k) = Ideal.div ((aggS (val_main_v204 (F := Ideal) x0 x1 x2 x3 x4 x5 x6 x7 x8 x9 x10 x11 x12 x13 x14) x6 x7) (ix2 p k)) (cS x7 (ix1 p)) := by
  rw [val_main_v292_apply, agg_22, cntb_22]
  rfl

/-- The mean times Wl[2, 2], at (p, q). -/
theorem dotl_22 (p : Fin 500000) (q : Fin 64) :
    val_main_v293 (F := Ideal) x0 x1 x2 x3 x4 x5 x6 x7 x8 x9 x10 x11 x12 x13 x14 (ix2 p q)
      = ∑ k : Fin 64, Ideal.div ((aggS (val_main_v204 (F := Ideal) x0 x1 x2 x3 x4 x5 x6 x7 x8 x9 x10 x11 x12 x13 x14) x6 x7) (ix2 p k)) (cS x7 (ix1 p)) * x12 (ix4 2 2 k q) := by
  rw [val_main_v293_apply]
  refine Finset.sum_congr rfl fun k _ => ?_
  rw [show lidx_main_v293 (ix2 p q) k = ix2 p k from (funext fun a => by match a with | ⟨0, _⟩ => rfl | ⟨1, _⟩ => rfl),
    show ridx_main_v293 (ix2 p q) k = ix2 k q from (funext fun a => by match a with | ⟨0, _⟩ => rfl | ⟨1, _⟩ => rfl),
    mean_22, wl_22]

/-- The destination's own features times Wr[2, 2], at (p, q). -/
theorem dotr_22 (p : Fin 500000) (q : Fin 64) :
    val_main_v297 (F := Ideal) x0 x1 x2 x3 x4 x5 x6 x7 x8 x9 x10 x11 x12 x13 x14 (ix2 p q)
      = ∑ k : Fin 64, (val_main_v204 (F := Ideal) x0 x1 x2 x3 x4 x5 x6 x7 x8 x9 x10 x11 x12 x13 x14) (ix2 p k) * x14 (ix4 2 2 k q) := by
  rw [val_main_v297_apply]
  refine Finset.sum_congr rfl fun k _ => ?_
  rw [show lidx_main_v297 (ix2 p q) k = ix2 p k from (funext fun a => by match a with | ⟨0, _⟩ => rfl | ⟨1, _⟩ => rfl),
    show ridx_main_v297 (ix2 p q) k = ix2 k q from (funext fun a => by match a with | ⟨0, _⟩ => rfl | ⟨1, _⟩ => rfl),
    wr_22]

/-- The convolution of layer 2 over relation 2. -/
theorem sage_22 :
    (val_main_v298 (F := Ideal) x0 x1 x2 x3 x4 x5 x6 x7 x8 x9 x10 x11 x12 x13 x14 : Sage.Mat 500000 64)
      = Sage.sageR (aggS (val_main_v204 (F := Ideal) x0 x1 x2 x3 x4 x5 x6 x7 x8 x9 x10 x11 x12 x13 x14) x6 x7) (col (cS x7)) (val_main_v204 (F := Ideal) x0 x1 x2 x3 x4 x5 x6 x7 x8 x9 x10 x11 x12 x13 x14)
          (W4 x12 2 2) (B3 x13 2 2) (W4 x14 2 2) := by
  funext i
  obtain ⟨p, q, rfl⟩ : ∃ (p : Fin 500000) (q : Fin 64), i = ix2 p q := ⟨i 0, i 1, eq_ix2 i⟩
  rw [val_main_v298_apply, val_main_v296_apply, dotl_22, bl_22, dotr_22]
  rfl

/-! ### Layer 2: the two updates -/

/-- The planets' update: the mean of the hosts and the sibling convolution, clamped at zero. -/
theorem updP_2 :
    (val_main_v302 (F := Ideal) x0 x1 x2 x3 x4 x5 x6 x7 x8 x9 x10 x11 x12 x13 x14 : Sage.Mat 500000 64)
      = Sage.meanRelu (val_main_v267 (F := Ideal) x0 x1 x2 x3 x4 x5 x6 x7 x8 x9 x10 x11 x12 x13 x14) (val_main_v298 (F := Ideal) x0 x1 x2 x3 x4 x5 x6 x7 x8 x9 x10 x11 x12 x13 x14) := by
  funext i
  rw [val_main_v302_apply, val_main_v301_apply, val_main_v299_apply, val_main_v300_apply, val_main_cst_54_apply,
    val_main_call6_v0_apply, val_main_call6_cst_apply]
  show max ((_ + _) * Sage.half) (Ideal.ofBits .f32 0x00000000#32) = _
  rw [Ideal.ofBits_zero_f32]
  rfl

/-- The stars' update: the orbits convolution, clamped at zero. -/
theorem updS_2 :
    (val_main_v303 (F := Ideal) x0 x1 x2 x3 x4 x5 x6 x7 x8 x9 x10 x11 x12 x13 x14 : Sage.Mat 200000 64)
      = Sage.relu (val_main_v236 (F := Ideal) x0 x1 x2 x3 x4 x5 x6 x7 x8 x9 x10 x11 x12 x13 x14) := by
  funext i
  rw [val_main_v303_apply, val_main_call7_v0_apply, val_main_call7_cst_apply]
  show max _ (Ideal.ofBits .f32 0x00000000#32) = _
  rw [Ideal.ofBits_zero_f32]
  rfl

end Cert.ReferenceIdeal.RefValue

end
-- ==== Proof.RefHead.lean ====
/-
  The readout of the reference: from the planets' features after the third layer, a linear layer to 32 features clamped
  at zero, then a linear layer to one feature; the resulting one-column matrix is flattened to a vector.
-/
import proofs.«139518_j50508815401658_2_alg».proof.Proof.RefReadP
import proofs.«139518_j50508815401658_2_alg».proof.Proof.RefSpec

noncomputable section

namespace Cert.ReferenceIdeal.RefValue

open scoped BigOperators
open Cert.ReferenceIdeal Cert.ReferenceIdeal.Gen Idealize.ShloMosaic Idealize.ShloMosaic.TcCoe Idealize.SL.Sem Idealize.ShloMosaic.StableHlo Idealize.ShloMosaic.ValueIdx Cert.ReferenceIdeal.Read

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

/-- The first readout layer at (p, q), before the clamp. -/
theorem head_lin1 (p : Fin 500000) (q : Fin 32) :
    val_main_v307 (F := Ideal) x0 x1 x2 x3 x4 x5 x6 x7 x8 x9 x10 x11 x12 x13 x14 x15 x16 (ix2 p q)
      = (∑ k : Fin 64, (val_main_v302 (F := Ideal) x0 x1 x2 x3 x4 x5 x6 x7 x8 x9 x10 x11 x12 x13 x14) (ix2 p k) * x15 (ix2 k q)) + x16 (ix1 q) := by
  rw [val_main_v307_apply]
  show val_main_v304 (F := Ideal) x0 x1 x2 x3 x4 x5 x6 x7 x8 x9 x10 x11 x12 x13 x14 x15 (ix2 p q) + val_main_v306 (F := Ideal) x16 (ix2 p q) = _
  rw [val_main_v304_apply, val_main_v306_apply, val_main_v305_apply,
    show idx_main_v305 (idx_main_v306 (ix2 p q)) = ix1 q from (funext fun a => by match a with | ⟨0, _⟩ => rfl)]
  refine congrArg (fun s => s + x16 (ix1 q)) (Finset.sum_congr rfl fun k _ => ?_)
  rw [show lidx_main_v304 (ix2 p q) k = ix2 p k from (funext fun a => by match a with | ⟨0, _⟩ => rfl | ⟨1, _⟩ => rfl),
    show ridx_main_v304 (ix2 p q) k = ix2 k q from (funext fun a => by match a with | ⟨0, _⟩ => rfl | ⟨1, _⟩ => rfl)]

/-- The first readout layer, clamped, is the specification's. -/
theorem head_hidden :
    (val_main_v308 (F := Ideal) x0 x1 x2 x3 x4 x5 x6 x7 x8 x9 x10 x11 x12 x13 x14 x15 x16 : Sage.Mat 500000 32)
      = Sage.relu (Sage.lin (val_main_v302 (F := Ideal) x0 x1 x2 x3 x4 x5 x6 x7 x8 x9 x10 x11 x12 x13 x14) x15 (row x16)) := by
  funext i
  obtain ⟨p, q, rfl⟩ : ∃ (p : Fin 500000) (q : Fin 32), i = ix2 p q := ⟨i 0, i 1, eq_ix2 i⟩
  rw [val_main_v308_apply, head_lin1, val_main_call8_v0_apply, val_main_call8_cst_apply]
  show max _ (Ideal.ofBits .f32 0x00000000#32) = _
  rw [Ideal.ofBits_zero_f32]
  rfl

/-- The second readout product at (p, q). -/
theorem head_dot2 (p : Fin 500000) (q : Fin 1) :
    val_main_v309 (F := Ideal) x0 x1 x2 x3 x4 x5 x6 x7 x8 x9 x10 x11 x12 x13 x14 x15 x16 x17 (ix2 p q)
      = ∑ k : Fin 32, (val_main_v308 (F := Ideal) x0 x1 x2 x3 x4 x5 x6 x7 x8 x9 x10 x11 x12 x13 x14 x15 x16) (ix2 p k) * x17 (ix2 k q) := by
  rw [val_main_v309_apply]
  refine Finset.sum_congr rfl fun k _ => ?_
  rw [show lidx_main_v309 (ix2 p q) k = ix2 p k from (funext fun a => by match a with | ⟨0, _⟩ => rfl | ⟨1, _⟩ => rfl),
    show ridx_main_v309 (ix2 p q) k = ix2 k q from (funext fun a => by match a with | ⟨0, _⟩ => rfl | ⟨1, _⟩ => rfl)]

/-- The second readout bias, a one-entry vector repeated down the rows, at (p, q). -/
theorem head_b2 (p : Fin 500000) (q : Fin 1) : val_main_v311 (F := Ideal) x18 (ix2 p q) = x18 (ix1 q) := by
  rw [val_main_v311_apply, val_main_v310_apply]
  refine congrArg x18 (funext fun a => Fin.ext ?_)
  have hq := q.isLt
  match a with
  | ⟨0, _⟩ => show 0 = q.val; omega

/-- The second readout layer is the specification's. -/
theorem head_out :
    (val_main_v312 (F := Ideal) x0 x1 x2 x3 x4 x5 x6 x7 x8 x9 x10 x11 x12 x13 x14 x15 x16 x17 x18 : Sage.Mat 500000 1)
      = headR x15 x16 x17 x18 (val_main_v302 (F := Ideal) x0 x1 x2 x3 x4 x5 x6 x7 x8 x9 x10 x11 x12 x13 x14) := by
  funext i
  obtain ⟨p, q, rfl⟩ : ∃ (p : Fin 500000) (q : Fin 1), i = ix2 p q := ⟨i 0, i 1, eq_ix2 i⟩
  rw [val_main_v312_apply, head_dot2, head_b2, head_hidden]
  rfl

/-- The reference's result vector at i is the readout's single column at row i. -/
theorem head_flat (i : S500000.Idx) :
    val_main_v313 (F := Ideal) x0 x1 x2 x3 x4 x5 x6 x7 x8 x9 x10 x11 x12 x13 x14 x15 x16 x17 x18 i = (val_main_v312 (F := Ideal) x0 x1 x2 x3 x4 x5 x6 x7 x8 x9 x10 x11 x12 x13 x14 x15 x16 x17 x18) (ix2 (i 0) 0) := by
  rw [val_main_v313_apply]
  refine congrArg _ (funext fun a => Fin.ext ?_)
  match a with
  | ⟨0, _⟩ => exact Nat.div_one _
  | ⟨1, _⟩ => rfl

end Cert.ReferenceIdeal.RefValue

end
-- ==== Proof.RefResult.lean ====
/-
  The reference's result is `RVal` of its nineteen argument arrays: the input projections, three layers (each the two
  updates of the layer's three convolutions), and the readout, chained.
-/
import proofs.«139518_j50508815401658_2_alg».proof.Proof.RefReadP
import proofs.«139518_j50508815401658_2_alg».proof.Proof.RefSpec
import proofs.«139518_j50508815401658_2_alg».proof.Proof.RefProj
import proofs.«139518_j50508815401658_2_alg».proof.Proof.RefLayer0
import proofs.«139518_j50508815401658_2_alg».proof.Proof.RefLayer1
import proofs.«139518_j50508815401658_2_alg».proof.Proof.RefLayer2
import proofs.«139518_j50508815401658_2_alg».proof.Proof.RefHead

noncomputable section

namespace Cert.ReferenceIdeal.RefValue

open scoped BigOperators
open Cert.ReferenceIdeal Cert.ReferenceIdeal.Gen Idealize.ShloMosaic Idealize.ShloMosaic.TcCoe Idealize.SL.Sem Idealize.ShloMosaic.StableHlo Idealize.ShloMosaic.ValueIdx Cert.ReferenceIdeal.Read

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

/-- Planet features after the first layer. -/
theorem hp1_eq : (val_main_v106 (F := Ideal) x0 x1 x4 x5 x6 x7 x8 x9 x10 x11 x12 x13 x14 : Sage.Mat 500000 64) = hp1 x0 x1 x4 x5 x6 x7 x8 x9 x10 x11 x12 x13 x14 := by
  rw [updP_0, sage_01, sage_02, proj_hp0, proj_hs0]
  rfl

/-- Star features after the first layer. -/
theorem hs1_eq : (val_main_v107 (F := Ideal) x0 x1 x2 x3 x8 x9 x10 x11 x12 x13 x14 : Sage.Mat 200000 64) = hs1 x0 x1 x2 x3 x8 x9 x10 x11 x12 x13 x14 := by
  rw [updS_0, sage_00, proj_hp0, proj_hs0]
  rfl

/-- Planet features after the second layer. -/
theorem hp2_eq : (val_main_v204 (F := Ideal) x0 x1 x2 x3 x4 x5 x6 x7 x8 x9 x10 x11 x12 x13 x14 : Sage.Mat 500000 64) = hp2 x0 x1 x2 x3 x4 x5 x6 x7 x8 x9 x10 x11 x12 x13 x14 := by
  rw [updP_1, sage_11, sage_12, hp1_eq, hs1_eq]
  rfl

/-- Star features after the second layer. -/
theorem hs2_eq : (val_main_v205 (F := Ideal) x0 x1 x2 x3 x4 x5 x6 x7 x8 x9 x10 x11 x12 x13 x14 : Sage.Mat 200000 64) = hs2 x0 x1 x2 x3 x4 x5 x6 x7 x8 x9 x10 x11 x12 x13 x14 := by
  rw [updS_1, sage_10, hp1_eq, hs1_eq]
  rfl

/-- Planet features after the third layer. -/
theorem hp3_eq : (val_main_v302 (F := Ideal) x0 x1 x2 x3 x4 x5 x6 x7 x8 x9 x10 x11 x12 x13 x14 : Sage.Mat 500000 64) = hp3 x0 x1 x2 x3 x4 x5 x6 x7 x8 x9 x10 x11 x12 x13 x14 := by
  rw [updP_2, sage_21, sage_22, hp2_eq, hs2_eq]
  rfl

/-- The reference's result is `RVal` of the argument arrays. -/
theorem ref_result :
    val_main_v313 (F := Ideal) x0 x1 x2 x3 x4 x5 x6 x7 x8 x9 x10 x11 x12 x13 x14 x15 x16 x17 x18 = RVal x0 x1 x2 x3 x4 x5 x6 x7 x8 x9 x10 x11 x12 x13 x14 x15 x16 x17 x18 := by
  funext i
  rw [head_flat, head_out, hp3_eq]
  rfl

end Cert.ReferenceIdeal.RefValue

end
-- ==== Proof.Algebra.lean ====
/-
  The laws that join the two arrangements of a neighbourhood convolution, and the closure of "every entry is a real
  number" under the network's stages.

  Division by a count `c ≥ 1` is multiplication by its inverse, and that inverse is a real number even when `c` is
  infinite; so scaling the neighbour sum by a reciprocal column and dividing it by the count column agree with no
  condition on the sum.  Folding the factor one half of a mean of two convolutions into their weights and biases is
  distributivity, which holds on real numbers but fails at the infinities of the extended reals (`∞ · (1 + (-1))` is
  zero while `∞ · 1 + ∞ · (-1)` is not): it is stated for matrices whose entries are all real.
-/
import proofs.«139518_j50508815401658_2_alg».proof.Proof.Spec

noncomputable section

open scoped BigOperators
open Idealize.ShloMosaic Idealize.ShloMosaic.ValueIdx

namespace Sage

variable {M K N H : ℕ}

/-! ## Real entries -/

/-- An extended real that is a real number. -/
def Re (x : EReal) : Prop := ∃ r : ℝ, x = (r : EReal)

theorem Re.add {x y : EReal} (hx : Re x) (hy : Re y) : Re (x + y) := by
  obtain ⟨a, rfl⟩ := hx; obtain ⟨b, rfl⟩ := hy; exact ⟨a + b, (EReal.coe_add a b).symm⟩

theorem Re.mul {x y : EReal} (hx : Re x) (hy : Re y) : Re (x * y) := by
  obtain ⟨a, rfl⟩ := hx; obtain ⟨b, rfl⟩ := hy; exact ⟨a * b, (EReal.coe_mul a b).symm⟩

theorem Re.zero : Re 0 := ⟨0, rfl⟩

theorem Re.max_zero {x : EReal} (hx : Re x) : Re (max x 0) := by
  obtain ⟨a, rfl⟩ := hx
  rcases le_total (a : EReal) 0 with h | h
  · rw [max_eq_right h]; exact Re.zero
  · rw [max_eq_left h]; exact ⟨a, rfl⟩

theorem Re.sum {ι : Type} (s : Finset ι) (f : ι → EReal) (hf : ∀ k, Re (f k)) : Re (∑ k ∈ s, f k) := by
  classical
  induction s using Finset.induction_on with
  | empty => rw [Finset.sum_empty]; exact Re.zero
  | insert a s ha ih => rw [Finset.sum_insert ha]; exact (hf a).add ih

/-- The coercion of a finite sum of reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The inverse of an extended real that is at least one is a real number (zero for the infinite one). -/
theorem Re.inv_of_one_le {x : EReal} (h : 1 ≤ x) : Re x⁻¹ := by
  induction x using EReal.rec with
  | bot => exact absurd h (not_le_of_gt (EReal.bot_lt_coe 1))
  | coe r => exact ⟨r⁻¹, (EReal.coe_inv r).symm⟩
  | top => exact ⟨0, EReal.inv_top⟩

theorem ne_zero_of_one_le {x : EReal} (h : 1 ≤ x) : x ≠ 0 := by
  intro e; rw [e] at h; exact absurd h (by norm_num)

/-- Off zero, division is the product with the inverse. -/
theorem div_eq_mul_inv {x y : EReal} (hy : y ≠ 0) : Ideal.div x y = x * y⁻¹ := by
  rw [Ideal.div, if_neg hy]

theorem one_eq : one = 1 := by
  simp [one, Ideal.ofBits, Ideal.ieee, -EReal.coe_mul]; norm_num

theorem half_re : Re half := by
  refine ⟨1 / 2, ?_⟩
  simp [half, Ideal.ofBits, Ideal.ieee, -EReal.coe_mul]; norm_num

/-- A matrix all of whose entries are real numbers. -/
def IsReal (X : Mat M N) : Prop := ∀ i, Re (X i)

theorem recip_apply (c : Mat M 1) (hc : ∀ i, 1 ≤ c i) (i) : recip c i = (c i)⁻¹ := by
  unfold recip; rw [div_eq_mul_inv (ne_zero_of_one_le (hc i)), one_eq, one_mul]

theorem recip_real (c : Mat M 1) (hc : ∀ i, 1 ≤ c i) : IsReal (recip c) := fun i => by
  rw [recip_apply c hc]; exact Re.inv_of_one_le (hc i)

theorem lin_real {x : Mat M K} {w : Mat K N} {b : Mat 1 N} (hx : IsReal x) (hw : IsReal w) (hb : IsReal b) :
    IsReal (lin x w b) := fun i =>
  (Re.sum _ _ fun k => (hx _).mul (hw _)).add (hb _)

theorem relu_real {a : Mat M N} (ha : IsReal a) : IsReal (relu a) := fun i => (ha i).max_zero

theorem scale_real {w : Mat K N} (hw : IsReal w) : IsReal (scale w) := fun i => half_re.mul (hw i)

theorem scaleSum_real {w1 w2 : Mat K N} (h1 : IsReal w1) (h2 : IsReal w2) : IsReal (scaleSum w1 w2) := fun i =>
  half_re.mul ((h1 i).add (h2 i))

theorem sageR_real {a : Mat M H} {c : Mat M 1} {xd : Mat M H} {wl : Mat H H} {bl : Mat 1 H} {wr : Mat H H}
    (ha : IsReal a) (hc : ∀ i, 1 ≤ c i) (hxd : IsReal xd) (hwl : IsReal wl) (hbl : IsReal bl) (hwr : IsReal wr) :
    IsReal (sageR a c xd wl bl wr) := fun i => by
  refine ((Re.sum _ _ fun k => ?_).add (hbl _)).add (Re.sum _ _ fun k => (hxd _).mul (hwr _))
  rw [div_eq_mul_inv (ne_zero_of_one_le (hc _))]
  exact ((ha _).mul (Re.inv_of_one_le (hc _))).mul (hwl _)

theorem meanRelu_real {o1 o2 : Mat M N} (h1 : IsReal o1) (h2 : IsReal o2) : IsReal (meanRelu o1 o2) := fun i =>
  (((h1 i).add (h2 i)).mul half_re).max_zero

/-! ## One relation: a reciprocal column against a division -/

/-- Scaling the neighbour sum by the reciprocal of a count at least one is dividing it by the count. -/
theorem sageK1_eq (a : Mat M H) (c : Mat M 1) (xd : Mat M H) (wl : Mat H H) (bl : Mat 1 H) (wr : Mat H H)
    (hc : ∀ i, 1 ≤ c i) :
    sageK1 a (recip c) xd wl bl wr = relu (sageR a c xd wl bl wr) := by
  funext i
  show max _ 0 = max _ 0
  unfold sageR
  simp only [recip_apply c hc, div_eq_mul_inv (ne_zero_of_one_le (hc _))]

/-! ## Two relations: the mean folded into the weights -/

/-- Distributivity on the reals, in the shape of the two arrangements: `h` stands for one half, `ρ₁`, `ρ₂` for the
    reciprocal counts. -/
theorem fold_real (h ρ₁ ρ₂ β₁ β₂ : ℝ) (α₁ α₂ ξ w₁ w₂ v₁ v₂ : Fin H → ℝ) :
    (((∑ k, (α₁ k * ρ₁) * (h * w₁ k)) + ∑ k, (α₂ k * ρ₂) * (h * w₂ k)) + h * (β₁ + β₂)) + ∑ k, ξ k * (h * (v₁ k + v₂ k))
      = ((((∑ k, (α₁ k * ρ₁) * w₁ k) + β₁) + ∑ k, ξ k * v₁ k) + (((∑ k, (α₂ k * ρ₂) * w₂ k) + β₂) + ∑ k, ξ k * v₂ k)) * h := by
  have e1 : ∑ k, (α₁ k * ρ₁) * (h * w₁ k) = h * ∑ k, (α₁ k * ρ₁) * w₁ k := by
    rw [Finset.mul_sum]; exact Finset.sum_congr rfl fun k _ => by ring
  have e2 : ∑ k, (α₂ k * ρ₂) * (h * w₂ k) = h * ∑ k, (α₂ k * ρ₂) * w₂ k := by
    rw [Finset.mul_sum]; exact Finset.sum_congr rfl fun k _ => by ring
  have e3 : ∑ k, ξ k * (h * (v₁ k + v₂ k)) = h * ((∑ k, ξ k * v₁ k) + ∑ k, ξ k * v₂ k) := by
    rw [← Finset.sum_add_distrib, Finset.mul_sum]; exact Finset.sum_congr rfl fun k _ => by ring
  rw [e1, e2, e3]; ring

/-- The mean of two convolutions, clamped, is the one convolution with halved weights and biases, when every entry
    involved is a real number and the counts are at least one. -/
theorem sageK2_eq (a1 : Mat M H) (c1 : Mat M 1) (a2 : Mat M H) (c2 : Mat M 1) (xd : Mat M H)
    (wl1 wl2 : Mat H H) (bl1 bl2 : Mat 1 H) (wr1 wr2 : Mat H H)
    (ha1 : IsReal a1) (ha2 : IsReal a2) (hxd : IsReal xd) (hwl1 : IsReal wl1) (hwl2 : IsReal wl2)
    (hbl1 : IsReal bl1) (hbl2 : IsReal bl2) (hwr1 : IsReal wr1) (hwr2 : IsReal wr2)
    (hc1 : ∀ i, 1 ≤ c1 i) (hc2 : ∀ i, 1 ≤ c2 i) :
    sageK2 a1 (recip c1) a2 (recip c2) xd (scale wl1) (scale wl2) (scaleSum bl1 bl2) (scaleSum wr1 wr2)
      = meanRelu (sageR a1 c1 xd wl1 bl1 wr1) (sageR a2 c2 xd wl2 bl2 wr2) := by
  funext i
  show max _ 0 = max _ 0
  congr 1
  obtain ⟨h, hh⟩ := half_re
  obtain ⟨ρ₁, hρ₁⟩ := Re.inv_of_one_le (hc1 (ix2 (i 0) 0))
  obtain ⟨ρ₂, hρ₂⟩ := Re.inv_of_one_le (hc2 (ix2 (i 0) 0))
  obtain ⟨β₁, hβ₁⟩ := hbl1 (ix2 0 (i 1))
  obtain ⟨β₂, hβ₂⟩ := hbl2 (ix2 0 (i 1))
  choose α₁ hα₁ using fun k : Fin H => ha1 (ix2 (i 0) k)
  choose α₂ hα₂ using fun k : Fin H => ha2 (ix2 (i 0) k)
  choose ξ hξ using fun k : Fin H => hxd (ix2 (i 0) k)
  choose w₁ hw₁ using fun k : Fin H => hwl1 (ix2 k (i 1))
  choose w₂ hw₂ using fun k : Fin H => hwl2 (ix2 k (i 1))
  choose v₁ hv₁ using fun k : Fin H => hwr1 (ix2 k (i 1))
  choose v₂ hv₂ using fun k : Fin H => hwr2 (ix2 k (i 1))
  have key := congrArg (fun x : ℝ => (x : EReal)) (fold_real h ρ₁ ρ₂ β₁ β₂ α₁ α₂ ξ w₁ w₂ v₁ v₂)
  simp only [EReal.coe_add, EReal.coe_mul, coe_sum] at key
  unfold sageR
  simp only [scale, scaleSum, recip_apply c1 hc1, recip_apply c2 hc2,
    div_eq_mul_inv (ne_zero_of_one_le (hc1 _)), div_eq_mul_inv (ne_zero_of_one_le (hc2 _)),
    hh, hρ₁, hρ₂, hβ₁, hβ₂, hα₁, hα₂, hξ, hw₁, hw₂, hv₁, hv₂]
  exact key

end Sage

end
-- ==== Proof.LibScatterRows.lean ====
/-
  An accumulating scatter of ROWS read at an entry, over the extended reals.

  `jax.ops.segment_sum(U, ids, num_segments = N)` of a matrix `U : [E, H]` into the zero matrix `[N, H]` is a
  `stablehlo.scatter` with an `add` body whose scatter indices have shape `[E, 1]` (the index vector on axis 1, one
  component, mapped to operand axis 0), operand axis 0 an inserted window axis, and the updates' axis 1 the one window axis.
  StableHLO reads the scatter index `ids[e, 0]` as a SIGNED integer and does NOT clamp it: update row `e` is added to
  operand row `ids[e, 0]` when that number names a row, and is dropped otherwise. `tgt N ids e` is that row, if any.
  The theorem says that entry `(p, q)` of the result is the operand's entry plus the sum, over the update rows `e` whose
  target is `p`, of the update's entry `(e, q)`.
-/
import Idealize.ShloMosaic.PureOps.Ideal
import Idealize.ShloMosaic.PureOps.Ideal.Laws
import Idealize.ShloMosaic.Lib.ValueIdx

noncomputable section

open scoped BigOperators

namespace ScatterRows

open Idealize.ShloMosaic Idealize.ShloMosaic.ValueIdx

/-- The operand row that update row `e` is added to: the scatter index `idx[e, 0]` read as a signed integer, when it
    names one of the `N` rows; no row otherwise. -/
def tgt (N : Nat) {E w : Nat} (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Axis 0 of the operand is named by the scatter-dims-to-operand-dims map: the window of update index `j` starts at the
    scatter index `idx[j 0, 0]`, read signed. -/
theorem start_zero {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1) (idx : IVec ⟨2, ![E, 1]⟩ w) (j : (⟨2, ![E, H]⟩ : Shape).Idx) :
    d.start j idx 0 = (idx (ix2 (j 0) (0 : Fin 1))).toInt := by
  obtain ⟨uw, iw, sd, iv, wf⟩ := d
  simp only at huw hiw hsd hiv
  subst huw hiw hsd hiv
  unfold ScatterDims.start
  have hmem : (0 : Fin 2) ∈ ([0] : List (Fin 2)) := List.mem_singleton.mpr rfl
  rw [dif_pos hmem]
  have hsi : ScatterDims.siIdx (s := ⟨2, ![N, H]⟩) (si := ⟨2, ![E, 1]⟩) (u := ⟨2, ![E, H]⟩)
      ⟨[1], [0], [0], 1, wf⟩ j ⟨List.idxOf (0 : Fin 2) [0], List.idxOf_lt_length_iff.2 hmem⟩
        = ix2 (j 0) (0 : Fin 1) := by
    funext b; refine Fin.ext ?_
    match b with
    | ⟨0, _⟩ => rfl
    | ⟨1, _⟩ => rfl
  rw [hsi]
  rfl

/-- Axis 1 of the operand is not named by the map: every window starts at 0 there. -/
theorem start_one {N H E w : Nat}
    (d : ScatterDims ⟨2, ![N, H]⟩ ⟨2, ![E, 1]⟩ ⟨2, ![E, H]⟩)
    (hsd : d.scatterDimsToOperandDims = [0])
    (idx : IVec ⟨2, ![E, 1]⟩ w) (j : (⟨2, ![E, H]⟩ : Shape).Idx) :
    d.start j idx 1 = 0 := by
  unfold ScatterDims.start
  rw [dif_neg (by rw [hsd]; exact (show (1 : Fin 2) ∉ ([0] : List (Fin 2)) by decide))]

/-- Axis 0 of the operand is an inserted window axis: the window coordinate there is 0. -/
theorem window_zero {N H E : Nat}
    (d : ScatterDims ⟨2, ![N, H]⟩ ⟨2, ![E, 1]⟩ ⟨2, ![E, H]⟩)
    (hiw : d.insertedWindowDims = [0]) (j : (⟨2, ![E, H]⟩ : Shape).Idx) :
    d.window j 0 = 0 := by
  unfold ScatterDims.window
  rw [dif_neg (by
    rw [ScatterDims.sKept, hiw]
    exact (show (0 : Fin 2) ∉ (List.finRange 2).filter (fun a => a ∉ ([0] : List (Fin 2))) by decide))]

/-- Axis 1 of the operand is the one kept axis: the window coordinate there is the update index's coordinate on
    its one window axis, axis 1. -/
theorem window_one {N H E : Nat}
    (d : ScatterDims ⟨2, ![N, H]⟩ ⟨2, ![E, 1]⟩ ⟨2, ![E, H]⟩)
    (huw : d.updateWindowDims = [1]) (hiw : d.insertedWindowDims = [0]) (j : (⟨2, ![E, H]⟩ : Shape).Idx) :
    d.window j 1 = (j 1).val := by
  obtain ⟨uw, iw, sd, iv, wf⟩ := d
  simp only at huw hiw
  subst huw hiw
  unfold ScatterDims.window
  rw [dif_pos (by
    exact (show (1 : Fin 2) ∈ (List.finRange 2).filter (fun a => a ∉ ([0] : List (Fin 2))) by decide))]
  rfl

/-- WHERE UPDATE ENTRY `(e, c)` LANDS: at operand entry `(p, q)` exactly when the column is kept, `c = q`, and the
    scatter index of row `e` names row `p`. On axis 0 the landing coordinate is the scatter index itself (window
    coordinate 0), in range exactly when `tgt` is a row; on axis 1 it is `c` (start 0), always in range. -/
theorem resultIdx_rows {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1) (idx : IVec ⟨2, ![E, 1]⟩ w) (e : Fin E) (c : Fin H) (p : Fin N) (q : Fin H) :
    d.resultIdx? (ix2 e c) idx = some (ix2 p q) ↔ c = q ∧ tgt N idx e = some p := by
  have h0s : d.start (ix2 e c) idx 0 = (idx (ix2 e (0 : Fin 1))).toInt := start_zero d huw hiw hsd hiv idx (ix2 e c)
  have h1s : d.start (ix2 e c) idx 1 = 0 := start_one d hsd idx (ix2 e c)
  have h0w : d.window (ix2 e c) 0 = 0 := window_zero d hiw (ix2 e c)
  have h1w : d.window (ix2 e c) 1 = c.val := window_one d huw hiw (ix2 e c)
  have hc := c.isLt
  -- the landing index is inside the operand exactly when the scatter index names a row
  have hall : (∀ a, 0 ≤ d.start (ix2 e c) idx a + (d.window (ix2 e c) a : Int) ∧
        d.start (ix2 e c) idx a + (d.window (ix2 e c) a : Int) < ((⟨2, ![N, H]⟩ : Shape).size a : Nat))
      ↔ (0 ≤ (idx (ix2 e (0 : Fin 1))).toInt ∧ (idx (ix2 e (0 : Fin 1))).toInt < (N : Int)) := by
    constructor
    · intro h
      have h0 : 0 ≤ d.start (ix2 e c) idx 0 + (d.window (ix2 e c) 0 : Int) ∧
          d.start (ix2 e c) idx 0 + (d.window (ix2 e c) 0 : Int) < (N : Int) := h 0
      rw [h0s, h0w] at h0
      omega
    · intro h a
      match a with
      | ⟨0, _⟩ =>
        show 0 ≤ d.start (ix2 e c) idx 0 + (d.window (ix2 e c) 0 : Int) ∧
          d.start (ix2 e c) idx 0 + (d.window (ix2 e c) 0 : Int) < (N : Int)
        rw [h0s, h0w]; omega
      | ⟨1, _⟩ =>
        show 0 ≤ d.start (ix2 e c) idx 1 + (d.window (ix2 e c) 1 : Int) ∧
          d.start (ix2 e c) idx 1 + (d.window (ix2 e c) 1 : Int) < (H : Int)
        rw [h1s, h1w]; omega
  unfold ScatterDims.resultIdx? tgt
  by_cases hr : 0 ≤ (idx (ix2 e (0 : Fin 1))).toInt ∧ (idx (ix2 e (0 : Fin 1))).toInt < (N : Int)
  · rw [dif_pos (hall.mpr hr), dif_pos hr]
    constructor
    · intro h
      have hf := Option.some.inj h
      have e0 : (d.start (ix2 e c) idx 0 + (d.window (ix2 e c) 0 : Int)).toNat = p.val :=
        congrArg (fun f => (f 0).val) hf
      have e1 : (d.start (ix2 e c) idx 1 + (d.window (ix2 e c) 1 : Int)).toNat = q.val :=
        congrArg (fun f => (f 1).val) hf
      rw [h0s, h0w] at e0
      rw [h1s, h1w] at e1
      exact ⟨Fin.ext (by omega), congrArg some (Fin.ext (by show (idx (ix2 e (0 : Fin 1))).toInt.toNat = p.val; omega))⟩
    · rintro ⟨rfl, ht⟩
      have hp : (idx (ix2 e (0 : Fin 1))).toInt.toNat = p.val := congrArg Fin.val (Option.some.inj ht)
      refine congrArg some ?_
      funext a
      refine Fin.ext ?_
      match a with
      | ⟨0, _⟩ =>
        show (d.start (ix2 e c) idx 0 + (d.window (ix2 e c) 0 : Int)).toNat = p.val
        rw [h0s, h0w]; omega
      | ⟨1, _⟩ =>
        show (d.start (ix2 e c) idx 1 + (d.window (ix2 e c) 1 : Int)).toNat = c.val
        rw [h1s, h1w]; omega
  · rw [dif_neg (fun h => hr (hall.mp h)), dif_neg hr]
    constructor
    · intro h; cases h
    · rintro ⟨_, h⟩; cases h

/-- THE ROW SCATTER-ADD READ AT `(p, q)`: the operand's entry plus the update entries `(e, q)` of the rows `e` whose
    target is `p`. -/
theorem scatterAdd_rows_apply {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1)
    (x : FVec Ideal ⟨2, ![N, H]⟩ .f32) (idx : IVec ⟨2, ![E, 1]⟩ w) (upd : FVec Ideal ⟨2, ![E, H]⟩ .f32)
    (p : Fin N) (q : Fin H) :
    Host.scatterAdd d x idx upd (ix2 p q)
      = (x (ix2 p q) : EReal) + ∑ e ∈ Finset.univ.filter (fun e => tgt N idx e = some p), (upd (ix2 e q) : EReal) := by
  show x (ix2 p q) + ∑ j ∈ Finset.univ.filter (fun j => d.resultIdx? j idx = some (ix2 p q)), upd j = _
  refine congrArg (fun t => x (ix2 p q) + t) ?_
  -- the update entries landing at `(p, q)` are the entries `(e, q)` of the rows `e` whose target is `p`
  refine Finset.sum_nbij' (fun j => j 0) (fun e => ix2 e q) ?_ ?_ ?_ ?_ ?_
  · intro j hj
    obtain ⟨a, b, rfl⟩ : ∃ a b, j = ix2 a b := ⟨j 0, j 1, eq_ix2 j⟩
    exact Finset.mem_filter.mpr ⟨Finset.mem_univ _,
      ((resultIdx_rows d huw hiw hsd hiv idx a b p q).mp (Finset.mem_filter.mp hj).2).2⟩
  · intro e he
    exact Finset.mem_filter.mpr ⟨Finset.mem_univ _,
      (resultIdx_rows d huw hiw hsd hiv idx e q p q).mpr ⟨rfl, (Finset.mem_filter.mp he).2⟩⟩
  · intro j hj
    obtain ⟨a, b, rfl⟩ : ∃ a b, j = ix2 a b := ⟨j 0, j 1, eq_ix2 j⟩
    obtain rfl : b = q := ((resultIdx_rows d huw hiw hsd hiv idx a b p q).mp (Finset.mem_filter.mp hj).2).1
    rfl
  · intro e _
    rfl
  · intro j hj
    obtain ⟨a, b, rfl⟩ : ∃ a b, j = ix2 a b := ⟨j 0, j 1, eq_ix2 j⟩
    obtain rfl : b = q := ((resultIdx_rows d huw hiw hsd hiv idx a b p q).mp (Finset.mem_filter.mp hj).2).1
    rfl

end ScatterRows

end
-- ==== Proof.LibGatherRows.lean ====
/-
  A gather of ROWS read at an index.

  Indexing a flat array `x : [N]` or a matrix `X : [N, H]` by an integer array, `x[idx]` and `X[idx, :]`, is a
  `stablehlo.gather` whose start indices have shape `[E, 1]` (the index vector on axis 1, one component), that one
  component mapped to operand axis 0, operand axis 0 collapsed (slice size 1 there), no batching axes; for the matrix
  the second operand axis is kept whole (slice size `H`) and is the result's one offset axis.

  StableHLO reads every start index as a SIGNED integer and CLAMPS it so that the slice fits: on axis 0 the slice has
  size 1, so the start `idx[e, 0]` is clamped into `[0, N - 1]`. That clamped number is `row N hN idx e`. The two
  theorems say that result element `e` of the vector gather is `x[row e]`, and result element `(e, h)` of the row
  gather is `X[row e, h]`: BOTH FORMS READ THE SAME ROW, so a matrix scaled row by row and then gathered is the
  gathered rows times the gathered scale.

  The statements take an arbitrary record of dimension numbers and the values of its fields as hypotheses (each is
  `rfl` at a record written as a literal). The proofs compute StableHLO's operand index axis by axis: on axis 0 it is
  the clamped start (no batching coordinate, and no offset coordinate since the axis is collapsed); on the matrix's
  axis 1 the start is 0 (the start index map does not name it) and the offset coordinate is the result's second
  coordinate.
-/
import Idealize.ShloMosaic.Lib.ValueIdx

noncomputable section

namespace GatherRows

open Idealize.ShloMosaic Idealize.ShloMosaic.ValueIdx

variable {α : Type}

/-- The row that result position `e` reads: the start index `idx[e, 0]` read as a signed integer and clamped into
    `[0, N - 1]`. -/
def row (N : Nat) (hN : 0 < N) {E w : Nat} (idx : IVec ⟨2, ![E, 1]⟩ w) (e : Fin E) : Fin N :=
  ⟨min (idx (ix2 e (0 : Fin 1))).toInt.toNat (N - 1), by omega⟩

/-- The row as a natural number. -/
theorem row_val (N : Nat) (hN : 0 < N) {E w : Nat} (idx : IVec ⟨2, ![E, 1]⟩ w) (e : Fin E) :
    (row N hN idx e).val = min (idx (ix2 e (0 : Fin 1))).toInt.toNat (N - 1) := rfl

/-- VECTOR form, as an operand index: result position `e` reads the operand at `row e`. -/
theorem operandIdx_vec {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (idx : IVec ⟨2, ![E, 1]⟩ w) (y : (⟨1, ![E]⟩ : Shape).Idx) :
    d.operandIdx y idx = ix1 (row N hN idx (y 0)) := by
  -- with the fields' values substituted the record is a literal, and its lists compute
  obtain ⟨od, cd, ob, sb, sm, iv, ss, wf⟩ := d
  simp only at hoff hcol hob hmap hiv hsl
  subst hoff hcol hob hmap hiv hsl
  funext a
  obtain rfl : a = 0 := Subsingleton.elim _ _
  refine Fin.ext ?_
  show GatherDims.start _ y idx 0 + GatherDims.batchCoord _ y 0 + GatherDims.offCoord _ y 0 = _
  -- no batching axis, and axis 0 is collapsed: only the clamped start is left
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 1) ∈ ([0] : List (Fin 1)) := List.mem_singleton.mpr rfl
  rw [dif_pos hmem]
  -- the start index is read at `[e, 0]`
  have hsi : GatherDims.siIdx (s := ⟨1, ![N]⟩) (si := ⟨2, ![E, 1]⟩) (t := ⟨1, ![E]⟩)
      ⟨[], [0], [], sb, [0], 1, ![1], wf⟩ y
      ⟨List.idxOf (0 : Fin 1) [0], List.idxOf_lt_length_iff.2 hmem⟩ = ix2 (y 0) (0 : Fin 1) := by
    funext b; refine Fin.ext ?_
    match b with
    | ⟨0, _⟩ => rfl
    | ⟨1, _⟩ => rfl
  rw [hsi]
  rfl

/-- ROW form, as an operand index: result position `(e, h)` reads the operand at `(row e, h)`. -/
theorem operandIdx_rows {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (idx : IVec ⟨2, ![E, 1]⟩ w) (y : (⟨2, ![E, H]⟩ : Shape).Idx) :
    d.operandIdx y idx = ix2 (row N hN idx (y 0)) (y 1) := by
  obtain ⟨od, cd, ob, sb, sm, iv, ss, wf⟩ := d
  simp only at hoff hcol hob hmap hiv hsl
  subst hoff hcol hob hmap hiv hsl
  funext a
  refine Fin.ext ?_
  match a with
  | ⟨0, _⟩ =>
    -- axis 0: collapsed, in the start index map — the clamped start, as in the vector form
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hmem : (0 : Fin 2) ∈ ([0] : List (Fin 2)) := List.mem_singleton.mpr rfl
    rw [dif_pos hmem]
    have hsi : GatherDims.siIdx (s := ⟨2, ![N, H]⟩) (si := ⟨2, ![E, 1]⟩) (t := ⟨2, ![E, H]⟩)
        ⟨[1], [0], [], sb, [0], 1, ![1, H], wf⟩ y
        ⟨List.idxOf (0 : Fin 2) [0], List.idxOf_lt_length_iff.2 hmem⟩ = ix2 (y 0) (0 : Fin 1) := by
      funext b; refine Fin.ext ?_
      match b with
      | ⟨0, _⟩ => rfl
      | ⟨1, _⟩ => rfl
    rw [hsi]
    rfl
  | ⟨1, _⟩ =>
    -- axis 1: not in the start index map (start 0), kept whole — the result's offset coordinate
    show GatherDims.start _ y idx 1 + GatherDims.batchCoord _ y 1 + GatherDims.offCoord _ y 1 = (y 1).val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨(show (1 : Fin 2) ∉ ([0] : List (Fin 2)) by decide), List.not_mem_nil⟩)]
    simp only [Nat.zero_add]
    rfl

/-- THE VECTOR GATHER READ AT `e`: the operand at the start index `idx[e, 0]`, read signed and clamped into
    `[0, N - 1]`. -/
theorem gather_vec_apply {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (x : (⟨1, ![N]⟩ : Shape).Idx → α) (idx : IVec ⟨2, ![E, 1]⟩ w) (y : (⟨1, ![E]⟩ : Shape).Idx) :
    Host.gather d x idx y = x (ix1 (row N hN idx (y 0))) := by
  exact congrArg x (operandIdx_vec hN d hoff hcol hob hmap hiv hsl idx y)

/-- THE ROW GATHER READ AT `(e, h)`: the operand's row at the start index `idx[e, 0]`, read signed and clamped
    into `[0, N - 1]`, at column `h` — the same row as the vector gather reads. -/
theorem gather_rows_apply {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (X : (⟨2, ![N, H]⟩ : Shape).Idx → α) (idx : IVec ⟨2, ![E, 1]⟩ w) (y : (⟨2, ![E, H]⟩ : Shape).Idx) :
    Host.gather d X idx y = X (ix2 (row N hN idx (y 0)) (y 1)) := by
  exact congrArg X (operandIdx_rows hN d hoff hcol hob hmap hiv hsl idx y)

end GatherRows

end
-- ==== Proof.AggReal.lean ====
/-
  Gathering rows and summing rows into segments keep real entries real.

  A row gather copies entries of its operand, so every entry of the result is an entry of the operand.  An accumulating
  row scatter leaves at (p, q) the operand's entry plus a finite sum of update entries; a finite sum of real numbers is a
  real number.  Together: the sum over a node's incoming edges of the source nodes' feature rows has real entries
  whenever the features do, whatever the edge index arrays hold.
-/
import proofs.«139518_j50508815401658_2_alg».proof.Proof.Algebra
import proofs.«139518_j50508815401658_2_alg».proof.Proof.LibScatterRows
import proofs.«139518_j50508815401658_2_alg».proof.Proof.LibGatherRows

noncomputable section

open scoped BigOperators
open Idealize.ShloMosaic Idealize.ShloMosaic.ValueIdx

namespace Sage

/-- A row gather of a matrix with real entries has real entries. -/
theorem gather_rows_real {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (X : (⟨2, ![N, H]⟩ : Shape).Idx → EReal) (idx : IVec ⟨2, ![E, 1]⟩ w) (hX : ∀ i, Re (X i)) :
    ∀ y, Re (Host.gather d X idx y) := fun y => by
  rw [GatherRows.gather_rows_apply hN d hoff hcol hob hmap hiv hsl X idx y]
  exact hX _

/-- An accumulating row scatter of real updates into a real operand has real entries. -/
theorem scatterAdd_rows_real {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1)
    (x : FVec Ideal ⟨2, ![N, H]⟩ .f32) (idx : IVec ⟨2, ![E, 1]⟩ w) (upd : FVec Ideal ⟨2, ![E, H]⟩ .f32)
    (hx : ∀ i, Re (x i : EReal)) (hu : ∀ i, Re (upd i : EReal)) :
    ∀ i, Re (Host.scatterAdd d x idx upd i : EReal) := fun i => by
  obtain ⟨p, q, rfl⟩ : ∃ (p : Fin N) (q : Fin H), i = ix2 p q := ⟨i 0, i 1, eq_ix2 i⟩
  rw [ScatterRows.scatterAdd_rows_apply d huw hiw hsd hiv x idx upd p q]
  exact (hx _).add (Re.sum _ _ fun e => hu _)

end Sage

end
-- ==== Proof.RefAggFacts.lean ====
/-
  Two facts about the neighbourhood sums and neighbour counts, the only ones the equivalence needs of them.

  * A neighbourhood sum of feature rows with real entries has real entries: the rows are copied by the gather and a finite
    number of them is added into zeros.  This holds whatever the edge index arrays contain.
  * A neighbour count, raised to at least one, is at least one.
-/
import proofs.«139518_j50508815401658_2_alg».proof.Proof.RefAgg
import proofs.«139518_j50508815401658_2_alg».proof.Proof.AggReal
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- A scalar constant repeated over a shape, read at an index, is the constant. -/
theorem bcast_const {t : Shape} (h : (S_ : Shape).BroadcastsInDim t ![]) (b : BitVec 32) (j : t.Idx) :
    broadcastInDim t ![] h (constant (F := Ideal) S_ .f32 b) j = Ideal.ofBits .f32 b := by
  exact (broadcastInDim_apply (s := S_) (t := t) ![] h (constant (F := Ideal) S_ .f32 b) j (fun a => a.elim0)
    (fun a => a.elim0)).trans rfl

theorem zero_re : Sage.Re (Ideal.ofBits .f32 0x00000000#32) := ⟨0, by rw [Ideal.ofBits_zero_f32]; rfl⟩

theorem one_le_word {x : EReal} : (1 : EReal) ≤ max x (Ideal.ofBits .f32 0x3F800000#32) :=
  calc (1 : EReal) = Ideal.ofBits .f32 0x3F800000#32 := Sage.one_eq.symm
    _ ≤ _ := le_max_right _ _

theorem aggO_real (x : (⟨S500000x64, .f32⟩ : BufTy).Contents (Elt Ideal)) (src dst : (⟨S500000, .i32⟩ : BufTy).Contents (Elt Ideal))
    (hx : ∀ i, Sage.Re (x i)) : ∀ i, Sage.Re (aggO x src dst i) := by
  unfold aggO
  exact Sage.scatterAdd_rows_real _ rfl rfl rfl rfl _ _ _ (fun i => by rw [bcast_const]; exact zero_re)
    (Sage.gather_rows_real (by norm_num) _ rfl rfl rfl rfl rfl rfl _ _ hx)

theorem aggH_real (x : (⟨S200000x64, .f32⟩ : BufTy).Contents (Elt Ideal)) (src dst : (⟨S500000, .i32⟩ : BufTy).Contents (Elt Ideal))
    (hx : ∀ i, Sage.Re (x i)) : ∀ i, Sage.Re (aggH x src dst i) := by
  unfold aggH
  exact Sage.scatterAdd_rows_real _ rfl rfl rfl rfl _ _ _ (fun i => by rw [bcast_const]; exact zero_re)
    (Sage.gather_rows_real (by norm_num) _ rfl rfl rfl rfl rfl rfl _ _ hx)

theorem aggS_real (x : (⟨S500000x64, .f32⟩ : BufTy).Contents (Elt Ideal)) (src dst : (⟨S2000000, .i32⟩ : BufTy).Contents (Elt Ideal))
    (hx : ∀ i, Sage.Re (x i)) : ∀ i, Sage.Re (aggS x src dst i) := by
  unfold aggS
  exact Sage.scatterAdd_rows_real _ rfl rfl rfl rfl _ _ _ (fun i => by rw [bcast_const]; exact zero_re)
    (Sage.gather_rows_real (by norm_num) _ rfl rfl rfl rfl rfl rfl _ _ hx)

theorem one_le_cO (dst : (⟨S500000, .i32⟩ : BufTy).Contents (Elt Ideal)) (i : (S200000 : Shape).Idx) : (1 : EReal) ≤ cO dst i := by
  unfold cO; rw [maximumf_apply, bcast_const]; exact one_le_word

theorem one_le_cH (dst : (⟨S500000, .i32⟩ : BufTy).Contents (Elt Ideal)) (i : (S500000 : Shape).Idx) : (1 : EReal) ≤ cH dst i := by
  unfold cH; rw [maximumf_apply, bcast_const]; exact one_le_word

theorem one_le_cS (dst : (⟨S2000000, .i32⟩ : BufTy).Contents (Elt Ideal)) (i : (S500000 : Shape).Idx) : (1 : EReal) ≤ cS dst i := by
  unfold cS; rw [maximumf_apply, bcast_const]; exact one_le_word

end Cert.ReferenceIdeal.RefValue

end
-- ==== Proof.Bridge.lean ====
/-
  The two arrangements of the network are one function of the arguments, when every floating-point argument is real.

  Layer by layer: a star update with the reciprocal count column is the reference's with the division (no condition
  beyond counts at least one); a planet update with halved weights is the reference's mean of two convolutions because
  the features entering the layer, the neighbourhood sums formed from them and the weights are all real — and the
  features leaving a layer are real again, so the argument repeats.
-/
import proofs.«139518_j50508815401658_2_alg».proof.Proof.KSpec
import proofs.«139518_j50508815401658_2_alg».proof.Proof.RefAggFacts

noncomputable section

namespace Cert.Bridge

open Cert.ReferenceIdeal Cert.ReferenceIdeal.Gen Cert.ReferenceIdeal.RefValue Idealize.ShloMosaic Idealize.ShloMosaic.TcCoe Idealize.SL.Sem Idealize.ShloMosaic.StableHlo Idealize.ShloMosaic.ValueIdx Sage

variable (x0 : (⟨S500000x32, .f32⟩ : BufTy).Contents (Elt Ideal)) (x1 : (⟨S200000x16, .f32⟩ : BufTy).Contents (Elt Ideal)) (x2 x3 x4 x5 : (⟨S500000, .i32⟩ : BufTy).Contents (Elt Ideal)) (x6 x7 : (⟨S2000000, .i32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S3x3x64x64, .f32⟩ : BufTy).Contents (Elt Ideal)) (x13 : (⟨S3x3x64, .f32⟩ : BufTy).Contents (Elt Ideal)) (x14 : (⟨S3x3x64x64, .f32⟩ : BufTy).Contents (Elt Ideal)) (x15 : (⟨S64x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal))

theorem layerSK_eq (l : Fin 3) (hp : Sage.Mat 500000 64) (hs : Sage.Mat 200000 64) :
    layerSK x2 x3 x12 x13 x14 l hp hs = layerS x2 x3 x12 x13 x14 l hp hs :=
  Sage.sageK1_eq _ _ _ _ _ _ fun i => one_le_cO x3 _

theorem layerPK_eq (l : Fin 3) (hp : Sage.Mat 500000 64) (hs : Sage.Mat 200000 64)
    (hhp : IsReal hp) (hhs : IsReal hs) (h12 : ∀ i, Re (x12 i)) (h13 : ∀ i, Re (x13 i)) (h14 : ∀ i, Re (x14 i)) :
    layerPK x4 x5 x6 x7 x12 x13 x14 l hp hs = layerP x4 x5 x6 x7 x12 x13 x14 l hp hs :=
  Sage.sageK2_eq _ _ _ _ _ _ _ _ _ _ _ (aggH_real hs x4 x5 hhs) (aggS_real hp x6 x7 hhp) hhp
    (fun _ => h12 _) (fun _ => h12 _) (fun _ => h13 _) (fun _ => h13 _) (fun _ => h14 _) (fun _ => h14 _)
    (fun i => one_le_cH x5 _) (fun i => one_le_cS x7 _)

theorem layerS_real (l : Fin 3) (hp : Sage.Mat 500000 64) (hs : Sage.Mat 200000 64)
    (hhp : IsReal hp) (hhs : IsReal hs) (h12 : ∀ i, Re (x12 i)) (h13 : ∀ i, Re (x13 i)) (h14 : ∀ i, Re (x14 i)) :
    IsReal (layerS x2 x3 x12 x13 x14 l hp hs) :=
  relu_real (sageR_real (aggO_real hp x2 x3 hhp) (fun i => one_le_cO x3 _) hhs (fun _ => h12 _) (fun _ => h13 _) (fun _ => h14 _))

theorem layerP_real (l : Fin 3) (hp : Sage.Mat 500000 64) (hs : Sage.Mat 200000 64)
    (hhp : IsReal hp) (hhs : IsReal hs) (h12 : ∀ i, Re (x12 i)) (h13 : ∀ i, Re (x13 i)) (h14 : ∀ i, Re (x14 i)) :
    IsReal (layerP x4 x5 x6 x7 x12 x13 x14 l hp hs) :=
  meanRelu_real
    (sageR_real (aggH_real hs x4 x5 hhs) (fun i => one_le_cH x5 _) hhp (fun _ => h12 _) (fun _ => h13 _) (fun _ => h14 _))
    (sageR_real (aggS_real hp x6 x7 hhp) (fun i => one_le_cS x7 _) hhp (fun _ => h12 _) (fun _ => h13 _) (fun _ => h14 _))

section
variable (h0 : ∀ i, Re (x0 i)) (h1 : ∀ i, Re (x1 i)) (h8 : ∀ i, Re (x8 i)) (h9 : ∀ i, Re (x9 i))
  (h10 : ∀ i, Re (x10 i)) (h11 : ∀ i, Re (x11 i)) (h12 : ∀ i, Re (x12 i)) (h13 : ∀ i, Re (x13 i)) (h14 : ∀ i, Re (x14 i))
include h0 h1 h8 h9 h10 h11 h12 h13 h14

theorem hp0_real : IsReal (hp0 x0 x8 x9) := relu_real (lin_real h0 h8 fun _ => h9 _)

theorem hs0_real : IsReal (hs0 x1 x10 x11) := relu_real (lin_real h1 h10 fun _ => h11 _)

theorem hp1_real : IsReal (hp1 x0 x1 x4 x5 x6 x7 x8 x9 x10 x11 x12 x13 x14) :=
  layerP_real x4 x5 x6 x7 x12 x13 x14 0 _ _ (hp0_real x0 x1 x8 x9 x10 x11 x12 x13 x14 h0 h1 h8 h9 h10 h11 h12 h13 h14)
    (hs0_real x0 x1 x8 x9 x10 x11 x12 x13 x14 h0 h1 h8 h9 h10 h11 h12 h13 h14) h12 h13 h14

theorem hs1_real : IsReal (hs1 x0 x1 x2 x3 x8 x9 x10 x11 x12 x13 x14) :=
  layerS_real x2 x3 x12 x13 x14 0 _ _ (hp0_real x0 x1 x8 x9 x10 x11 x12 x13 x14 h0 h1 h8 h9 h10 h11 h12 h13 h14)
    (hs0_real x0 x1 x8 x9 x10 x11 x12 x13 x14 h0 h1 h8 h9 h10 h11 h12 h13 h14) h12 h13 h14

theorem hpK1_eq : hpK1 x0 x1 x4 x5 x6 x7 x8 x9 x10 x11 x12 x13 x14 = hp1 x0 x1 x4 x5 x6 x7 x8 x9 x10 x11 x12 x13 x14 :=
  layerPK_eq x4 x5 x6 x7 x12 x13 x14 0 _ _ (hp0_real x0 x1 x8 x9 x10 x11 x12 x13 x14 h0 h1 h8 h9 h10 h11 h12 h13 h14)
    (hs0_real x0 x1 x8 x9 x10 x11 x12 x13 x14 h0 h1 h8 h9 h10 h11 h12 h13 h14) h12 h13 h14

omit h0 h1 h8 h9 h10 h11 h12 h13 h14 in
theorem hsK1_eq : hsK1 x0 x1 x2 x3 x8 x9 x10 x11 x12 x13 x14 = hs1 x0 x1 x2 x3 x8 x9 x10 x11 x12 x13 x14 :=
  layerSK_eq x2 x3 x12 x13 x14 0 _ _

theorem hp2_real : IsReal (hp2 x0 x1 x2 x3 x4 x5 x6 x7 x8 x9 x10 x11 x12 x13 x14) :=
  layerP_real x4 x5 x6 x7 x12 x13 x14 1 _ _ (hp1_real x0 x1 x4 x5 x6 x7 x8 x9 x10 x11 x12 x13 x14 h0 h1 h8 h9 h10 h11 h12 h13 h14)
    (hs1_real x0 x1 x2 x3 x8 x9 x10 x11 x12 x13 x14 h0 h1 h8 h9 h10 h11 h12 h13 h14) h12 h13 h14

theorem hs2_real : IsReal (hs2 x0 x1 x2 x3 x4 x5 x6 x7 x8 x9 x10 x11 x12 x13 x14) :=
  layerS_real x2 x3 x12 x13 x14 1 _ _ (hp1_real x0 x1 x4 x5 x6 x7 x8 x9 x10 x11 x12 x13 x14 h0 h1 h8 h9 h10 h11 h12 h13 h14)
    (hs1_real x0 x1 x2 x3 x8 x9 x10 x11 x12 x13 x14 h0 h1 h8 h9 h10 h11 h12 h13 h14) h12 h13 h14

theorem hpK2_eq : hpK2 x0 x1 x2 x3 x4 x5 x6 x7 x8 x9 x10 x11 x12 x13 x14 = hp2 x0 x1 x2 x3 x4 x5 x6 x7 x8 x9 x10 x11 x12 x13 x14 := by
  unfold hpK2 hp2
  rw [hpK1_eq x0 x1 x4 x5 x6 x7 x8 x9 x10 x11 x12 x13 x14 h0 h1 h8 h9 h10 h11 h12 h13 h14, hsK1_eq x0 x1 x2 x3 x8 x9 x10 x11 x12 x13 x14]
  exact layerPK_eq x4 x5 x6 x7 x12 x13 x14 1 _ _ (hp1_real x0 x1 x4 x5 x6 x7 x8 x9 x10 x11 x12 x13 x14 h0 h1 h8 h9 h10 h11 h12 h13 h14)
    (hs1_real x0 x1 x2 x3 x8 x9 x10 x11 x12 x13 x14 h0 h1 h8 h9 h10 h11 h12 h13 h14) h12 h13 h14

theorem hsK2_eq : hsK2 x0 x1 x2 x3 x4 x5 x6 x7 x8 x9 x10 x11 x12 x13 x14 = hs2 x0 x1 x2 x3 x4 x5 x6 x7 x8 x9 x10 x11 x12 x13 x14 := by
  unfold hsK2 hs2
  rw [hpK1_eq x0 x1 x4 x5 x6 x7 x8 x9 x10 x11 x12 x13 x14 h0 h1 h8 h9 h10 h11 h12 h13 h14, hsK1_eq x0 x1 x2 x3 x8 x9 x10 x11 x12 x13 x14]
  exact layerSK_eq x2 x3 x12 x13 x14 1 _ _

theorem hpK3_eq : hpK3 x0 x1 x2 x3 x4 x5 x6 x7 x8 x9 x10 x11 x12 x13 x14 = hp3 x0 x1 x2 x3 x4 x5 x6 x7 x8 x9 x10 x11 x12 x13 x14 := by
  unfold hpK3 hp3
  rw [hpK2_eq x0 x1 x2 x3 x4 x5 x6 x7 x8 x9 x10 x11 x12 x13 x14 h0 h1 h8 h9 h10 h11 h12 h13 h14, hsK2_eq x0 x1 x2 x3 x4 x5 x6 x7 x8 x9 x10 x11 x12 x13 x14 h0 h1 h8 h9 h10 h11 h12 h13 h14]
  exact layerPK_eq x4 x5 x6 x7 x12 x13 x14 2 _ _ (hp2_real x0 x1 x2 x3 x4 x5 x6 x7 x8 x9 x10 x11 x12 x13 x14 h0 h1 h8 h9 h10 h11 h12 h13 h14)
    (hs2_real x0 x1 x2 x3 x4 x5 x6 x7 x8 x9 x10 x11 x12 x13 x14 h0 h1 h8 h9 h10 h11 h12 h13 h14) h12 h13 h14

/-- With real arguments the kernel's arrangement and the reference's give the same result. -/
theorem KVal_eq_RVal : KVal x0 x1 x2 x3 x4 x5 x6 x7 x8 x9 x10 x11 x12 x13 x14 x15 x16 x17 x18
    = RVal x0 x1 x2 x3 x4 x5 x6 x7 x8 x9 x10 x11 x12 x13 x14 x15 x16 x17 x18 := by
  unfold KVal RVal
  rw [hpK3_eq x0 x1 x2 x3 x4 x5 x6 x7 x8 x9 x10 x11 x12 x13 x14 h0 h1 h8 h9 h10 h11 h12 h13 h14]

end

end Cert.Bridge

end
-- ==== Proof.Finite.lean ====
/-
  Finiteness of the inputs.  The precondition `finite_inputs` is, for each of the thirteen floating-point arguments
  `x`, the statement `all (|x| < +∞)`, and the conjunction of the thirteen.  On the extended reals `|x| = max x (-x)`,
  and `max x (-x) < ⊤` excludes exactly `⊤` and `⊥`: so under the precondition every entry of every floating-point
  argument is a real number.  That is what the distributive law joining the two sides needs.
-/
import proofs.«139518_j50508815401658_2_alg».proof.Pre_finite_inputs
import Idealize.ShloMosaic.Lib.ReduceAll
import Idealize.ShloMosaic.Lib.ValueIdx

namespace Cert.FiniteInputs

open Idealize.ShloMosaic Cert.Pre_finite_inputs

/-- A shape of rank 0 has one index. -/
instance : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- `all (|x| < +∞)` over an array of any shape: every entry of `x` is a real number. -/
theorem real_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1)
    (i : s.Idx) : ∃ r : ℝ, x i = (r : EReal) := by
  have h1 := Host.reduce_andi_all _ _ hr hu ValueIdx.ix0 e i
  have h2 : cmpf .olt (Host.absf x) (broadcastInDim s ![] hb (constant (F := Ideal) S_ .f32 0x7F800000#32)) i
      = BitVec.ofBool (decide (max (x i) (-(x i)) < Ideal.ofBits .f32 0x7F800000#32)) := rfl
  rw [h2, inf_word] at h1
  refine real_of_abs_lt_top (x i) ?_
  by_contra hc
  rw [decide_eq_false hc] at h1
  exact absurd h1 (by decide)

/-- Every entry of each of the thirteen floating-point arguments is a real number. -/
structure AllReal (a0 : FVec Ideal S500000x32 .f32) (a1 : FVec Ideal S200000x16 .f32) (a8 : FVec Ideal S32x64 .f32) (a9 : FVec Ideal S64 .f32) (a10 : FVec Ideal S16x64 .f32) (a11 : FVec Ideal S64 .f32) (a12 : FVec Ideal S3x3x64x64 .f32) (a13 : FVec Ideal S3x3x64 .f32) (a14 : FVec Ideal S3x3x64x64 .f32) (a15 : FVec Ideal S64x32 .f32) (a16 : FVec Ideal S32 .f32) (a17 : FVec Ideal S32x1 .f32) (a18 : FVec Ideal S1 .f32) : Prop where
  /-- every entry of argument 0 is a real number -/
  arg0 : ∀ i, ∃ r : ℝ, a0 i = (r : EReal)
  /-- every entry of argument 1 is a real number -/
  arg1 : ∀ i, ∃ r : ℝ, a1 i = (r : EReal)
  /-- every entry of argument 8 is a real number -/
  arg8 : ∀ i, ∃ r : ℝ, a8 i = (r : EReal)
  /-- every entry of argument 9 is a real number -/
  arg9 : ∀ i, ∃ r : ℝ, a9 i = (r : EReal)
  /-- every entry of argument 10 is a real number -/
  arg10 : ∀ i, ∃ r : ℝ, a10 i = (r : EReal)
  /-- every entry of argument 11 is a real number -/
  arg11 : ∀ i, ∃ r : ℝ, a11 i = (r : EReal)
  /-- every entry of argument 12 is a real number -/
  arg12 : ∀ i, ∃ r : ℝ, a12 i = (r : EReal)
  /-- every entry of argument 13 is a real number -/
  arg13 : ∀ i, ∃ r : ℝ, a13 i = (r : EReal)
  /-- every entry of argument 14 is a real number -/
  arg14 : ∀ i, ∃ r : ℝ, a14 i = (r : EReal)
  /-- every entry of argument 15 is a real number -/
  arg15 : ∀ i, ∃ r : ℝ, a15 i = (r : EReal)
  /-- every entry of argument 16 is a real number -/
  arg16 : ∀ i, ∃ r : ℝ, a16 i = (r : EReal)
  /-- every entry of argument 17 is a real number -/
  arg17 : ∀ i, ∃ r : ℝ, a17 i = (r : EReal)
  /-- every entry of argument 18 is a real number -/
  arg18 : ∀ i, ∃ r : ℝ, a18 i = (r : EReal)

/-- Under `finite_inputs` every entry of every floating-point argument is a real number. -/
theorem real_of_pre [Facts]
    (a0 : FVec Ideal S500000x32 .f32) (a1 : FVec Ideal S200000x16 .f32)
    (a2 a3 a4 a5 : IVec S500000 32) (a6 a7 : IVec S2000000 32)
    (a8 : FVec Ideal S32x64 .f32) (a9 : FVec Ideal S64 .f32) (a10 : FVec Ideal S16x64 .f32) (a11 : FVec Ideal S64 .f32)
    (a12 : FVec Ideal S3x3x64x64 .f32) (a13 : FVec Ideal S3x3x64 .f32) (a14 : FVec Ideal S3x3x64x64 .f32)
    (a15 : FVec Ideal S64x32 .f32) (a16 : FVec Ideal S32 .f32) (a17 : FVec Ideal S32x1 .f32) (a18 : FVec Ideal S1 .f32)
    (h : fn (F := Ideal) a0 a1 a2 a3 a4 a5 a6 a7 a8 a9 a10 a11 a12 a13 a14 a15 a16 a17 a18 = (fun _ => 1#1)) :
    AllReal a0 a1 a8 a9 a10 a11 a12 a13 a14 a15 a16 a17 a18 := by
  have h0 := congrFun h ValueIdx.ix0
  dsimp only [fn, fn_part1, fn_part2, fn_part3] at h0
  obtain ⟨⟨⟨⟨⟨⟨⟨⟨⟨⟨⟨⟨e0, e1⟩, e8⟩, e9⟩, e10⟩, e11⟩, e12⟩, e13⟩, e14⟩, e15⟩, e16⟩, e17⟩, e18⟩ :
      (((((((((((_ ∧ _) ∧ _) ∧ _) ∧ _) ∧ _) ∧ _) ∧ _) ∧ _) ∧ _) ∧ _) ∧ _) ∧ _ := by
    simpa only [andi, IntOp.andi_eq_one] using h0
  exact ⟨real_of_all _ _ _ a0 e0, real_of_all _ _ _ a1 e1, real_of_all _ _ _ a8 e8, real_of_all _ _ _ a9 e9, real_of_all _ _ _ a10 e10, real_of_all _ _ _ a11 e11, real_of_all _ _ _ a12 e12, real_of_all _ _ _ a13 e13, real_of_all _ _ _ a14 e14, real_of_all _ _ _ a15 e15, real_of_all _ _ _ a16 e16, real_of_all _ _ _ a17 e17, real_of_all _ _ _ a18 e18⟩

end Cert.FiniteInputs
-- ==== Proof.Claims.lean ====
/-
  The five claims.

  The three frames are the generated ones (the reference's is its run with the result dropped).  The idealization rewrote
  nothing, so its conjunct is trivial.  For the equivalence, the kernel's run ends with its result at the kernel's
  arrangement of the network (read through its nine tiled matrix stages and the host operations between them), the
  reference's run ends at the reference's arrangement, and the two arrangements are one function of the arguments because
  the precondition makes every floating-point argument real.
-/
import proofs.«139518_j50508815401658_2_alg».proof.Defs
import proofs.«139518_j50508815401658_2_alg».proof.Proof.Gen.Kernel.Frame
import proofs.«139518_j50508815401658_2_alg».proof.Proof.Gen.KernelIdeal.Frame
import proofs.«139518_j50508815401658_2_alg».proof.Proof.Gen.ReferenceIdeal
import proofs.«139518_j50508815401658_2_alg».proof.Proof.Gen.Pre_finite_inputs
import proofs.«139518_j50508815401658_2_alg».proof.Proof.KRun
import proofs.«139518_j50508815401658_2_alg».proof.Proof.KChain
import proofs.«139518_j50508815401658_2_alg».proof.Proof.RefRunP
import proofs.«139518_j50508815401658_2_alg».proof.Proof.RefReadP
import proofs.«139518_j50508815401658_2_alg».proof.Proof.RefResult
import proofs.«139518_j50508815401658_2_alg».proof.Proof.Bridge
import proofs.«139518_j50508815401658_2_alg».proof.Proof.Finite

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The name the reference's run gives its result is the last stage of the reference read operation by operation. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v313 (F := Ideal) m c
      = Cert.ReferenceIdeal.Read.val_main_v313 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) := by
  unfold Cert.ReferenceIdeal.Value.res_main_v313; rfl

theorem algebraic : Cert.algebraic_KernelIdeal_ReferenceIdeal := by
  intro m ρ m' ρ' hpre hagree
  refine ⟨fun c => Cert.Bridge.KVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.KChain.result m ρ c), (h c).2⟩)
      (Cert.KernelIdeal.KRun.run_valued (F := Ideal) m ρ)
  · refine (θ_run Cert.ReferenceIdeal.defs _ _).mono (fun r h c => ⟨(h c).1.trans ?_, (h c).2⟩)
      (Cert.ReferenceIdeal.Value.run (F := Ideal) m' ρ')
    have hR := Cert.FiniteInputs.real_of_pre _ _ _ _ _ _ _ _ _ _ _ _ _ _ _ _ _ _ _ (hpre c)
    rw [res_eq m' c, Cert.ReferenceIdeal.RefValue.ref_result, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    exact (Cert.Bridge.KVal_eq_RVal _ _ _ _ _ _ _ _ _ _ _ _ _ _ _ _ _ _ _ hR.arg0 hR.arg1 hR.arg8 hR.arg9 hR.arg10 hR.arg11
      hR.arg12 hR.arg13 hR.arg14).symm

end Cert.Proof.Claims

end
-- ==== Proof.lean ====
/-
  A three-layer heterogeneous graph network — mean-aggregating neighbourhood convolutions between planets and stars, input
  projections before and a two-layer readout after — computed by nine row-tiled matrix kernels with the edge gathers and
  segment sums between them, against its plain reference.

  Over the extended reals the two differ in two places only.  The kernel multiplies a neighbour sum by the reciprocal of the
  neighbour count where the reference divides by the count: equal for every count at least one.  And the kernel folds the
  factor one half of "mean over the two relations into a planet" into the weights and the bias, where the reference halves
  the sum of the two convolutions: distributivity, which needs real entries — so that every entry stays real is carried
  from the finite inputs through each layer.  The modules: Spec (the stages), Algebra (the two laws, real entries), the
  neighbourhood sums kept closed with their two facts, the reference read stage by stage, the kernel's regions and host
  operations read stage by stage, and Claims (the five claims).
-/
import proofs.«139518_j50508815401658_2_alg».proof.Defs
import proofs.«139518_j50508815401658_2_alg».proof.Proof.Gen.Kernel
import proofs.«139518_j50508815401658_2_alg».proof.Proof.Gen.Kernel.Skeleton
import proofs.«139518_j50508815401658_2_alg».proof.Proof.Gen.Kernel.Launch
import proofs.«139518_j50508815401658_2_alg».proof.Proof.Gen.Kernel.Points
import proofs.«139518_j50508815401658_2_alg».proof.Proof.Gen.Kernel.Frame
import proofs.«139518_j50508815401658_2_alg».proof.Proof.Gen.KernelIdeal
import proofs.«139518_j50508815401658_2_alg».proof.Proof.Gen.KernelIdeal.Skeleton
import proofs.«139518_j50508815401658_2_alg».proof.Proof.Gen.KernelIdeal.Launch
import proofs.«139518_j50508815401658_2_alg».proof.Proof.Gen.KernelIdeal.Points
import proofs.«139518_j50508815401658_2_alg».proof.Proof.Gen.KernelIdeal.Frame
import proofs.«139518_j50508815401658_2_alg».proof.Proof.Gen.ReferenceIdeal
import proofs.«139518_j50508815401658_2_alg».proof.Proof.Gen.Pre_finite_inputs
import proofs.«139518_j50508815401658_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
